-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000 : Shape := ⟨1, ![250000]⟩
abbrev S50000x128 : Shape := ⟨2, ![50000, 128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S250000 : S_.BroadcastsInDim S250000 (![] : Fin 0 → Fin S250000.rank)
  reducesTo_S250000_S_d0 : S250000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S256x1 .f32) (main_arg16 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg15
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg16
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg11 : FVec F S128x256 .f32) (main_arg12 : FVec F S256 .f32) (main_arg13 : FVec F S256x256 .f32) (main_arg14 : FVec F S256 .f32) (main_arg15 : FVec F S256x1 .f32) (main_arg16 : FVec F S1 .f32) (main_v33 : IVec S_ 1) : IVec S_ 1 :=
  let main_v34 : FVec F S128x256 .f32 := Host.absf main_arg11
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_v48 main_v49 main_v50

def fn_part1 {F : FTy → Type} [FloatOps F] (main_arg8 : FVec F S128x128 .f32) (main_arg9 : FVec F S128x128 .f32) (main_arg10 : FVec F S128x128 .f32) (main_arg11 : FVec F S128x256 .f32) (main_arg12 : FVec F S256 .f32) (main_arg13 : FVec F S256x256 .f32) (main_arg14 : FVec F S256 .f32) (main_arg15 : FVec F S256x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : IVec S250000 32) (main_arg1 : IVec S250000 32) (main_arg2 : FVec F S250000 .f32) (main_arg3 : IVec S250000 32) (main_arg4 : IVec S250000 32) (main_arg5 : FVec F S250000 .f32) (main_arg6 : FVec F S50000x128 .f32) (main_arg7 : FVec F S128x128 .f32) (main_arg8 : FVec F S128x128 .f32) (main_arg9 : FVec F S128x128 .f32) (main_arg10 : FVec F S128x128 .f32) (main_arg11 : FVec F S128x256 .f32) (main_arg12 : FVec F S256 .f32) (main_arg13 : FVec F S256x256 .f32) (main_arg14 : FVec F S256 .f32) (main_arg15 : FVec F S256x1 .f32) (main_arg16 : FVec F S1 .f32) : IVec S_ 1 :=
  let main_v0 : FVec F S250000 .f32 := Host.absf main_arg2
  let main_cst : FVec F S_ .f32 := constant S_ .f32 0x7F800000#32
  let main_v1 : FVec F S250000 .f32 := broadcastInDim S250000 ![] bcast_S_S250000 main_cst
  let main_v2 : IVec S250000 1 := cmpf .olt main_v0 main_v1
  let main_c : IVec S_ 1 := constantI S_ 1 1#1
  let main_v3 : IVec S_ 1 := (fun x v => Host.reduce IntOp.andi x v reducesTo_S250000_S_d0 h_S_) main_v2 main_c
  let main_v4 : FVec F S250000 .f32 := Host.absf main_arg5
  let main_cst_0 : FVec F S_ .f32 := constant S_ .f32 0x7F800000#32
  let main_v5 : FVec F S250000 .f32 := broadcastInDim S250000 ![] bcast_S_S250000 main_cst_0
  let main_v6 : IVec S250000 1 := cmpf .olt main_v4 main_v5
  let main_c_1 : IVec S_ 1 := constantI S_ 1 1#1
  let main_v7 : IVec S_ 1 := (fun x v => Host.reduce IntOp.andi x v reducesTo_S250000_S_d0 h_S_) main_v6 main_c_1
  let main_v8 : IVec S_ 1 := andi main_v3 main_v7
  let main_v9 : FVec F S50000x128 .f32 := Host.absf main_arg6
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_arg14 main_arg15 main_arg16 main_v13 main_v16
-- ==== Kernel.lean ====
abbrev S250000 : Shape := ⟨1, ![250000]⟩
abbrev S50000x128 : Shape := ⟨2, ![50000, 128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S250000x1 : Shape := ⟨2, ![250000, 1]⟩
abbrev S_ : Shape := ⟨0, ![]⟩
abbrev S250000x128 : Shape := ⟨2, ![250000, 128]⟩
abbrev S2000x128 : Shape := ⟨2, ![2000, 128]⟩
abbrev S2000 : Shape := ⟨1, ![2000]⟩
abbrev S2000x1 : Shape := ⟨2, ![2000, 1]⟩
abbrev S50000x1 : Shape := ⟨2, ![50000, 1]⟩
abbrev S1000x128 : Shape := ⟨2, ![1000, 128]⟩
abbrev S1000x1 : Shape := ⟨2, ![1000, 1]⟩
abbrev S1000x256 : Shape := ⟨2, ![1000, 256]⟩
abbrev S1x256 : Shape := ⟨2, ![1, 256]⟩
abbrev S1x1 : Shape := ⟨2, ![1, 1]⟩

abbrev nBuf : Space → Nat
  | .hbm => 196
  | .vmem => 92
  | .smem => 0
  | _ => 0

abbrev hbmTy0_0 (i : Nat) : BufTy := match i % 128 with
  | 0 => ⟨S250000, .i32⟩
  | 1 => ⟨S250000, .i32⟩
  | 2 => ⟨S250000, .f32⟩
  | 3 => ⟨S250000, .i32⟩
  | 4 => ⟨S250000, .i32⟩
  | 5 => ⟨S250000, .f32⟩
  | 6 => ⟨S50000x128, .f32⟩
  | 7 => ⟨S128x128, .f32⟩
  | 8 => ⟨S128x128, .f32⟩
  | 9 => ⟨S128x128, .f32⟩
  | 10 => ⟨S128x128, .f32⟩
  | 11 => ⟨S128x256, .f32⟩
  | 12 => ⟨S256, .f32⟩
  | 13 => ⟨S256x256, .f32⟩
  | 14 => ⟨S256, .f32⟩
  | 15 => ⟨S256x1, .f32⟩
  | 16 => ⟨S1, .f32⟩
  | 17 => ⟨S250000x1, .f32⟩
  | 18 => ⟨S_, .i32⟩
  | 19 => ⟨S250000, .i32⟩
  | 20 => ⟨S250000, .i1⟩
  | 21 => ⟨S_, .i32⟩
  | 22 => ⟨S250000, .i32⟩
  | 23 => ⟨S250000, .i32⟩
  | 24 => ⟨S250000, .i32⟩
  | 25 => ⟨S250000x1, .i32⟩
  | 26 => ⟨S250000x128, .f32⟩
  | 27 => ⟨S250000x128, .f32⟩
  | 28 => ⟨S250000x128, .f32⟩
  | 29 => ⟨S_, .f32⟩
  | 30 => ⟨S50000x128, .f32⟩
  | 31 => ⟨S250000x1, .i32⟩
  | 32 => ⟨S50000x128, .f32⟩
  | 33 => ⟨S50000x128, .f32⟩
  | 34 => ⟨S50000x128, .f32⟩
  | 35 => ⟨S250000x1, .f32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000x128, .f32⟩
  | 45 => ⟨S250000x128, .f32⟩
  | 46 => ⟨S250000x128, .f32⟩
  | 47 => ⟨S_, .f32⟩
  | 48 => ⟨S50000x128, .f32⟩
  | 49 => ⟨S250000x1, .i32⟩
  | 50 => ⟨S50000x128, .f32⟩
  | 51 => ⟨S50000x128, .f32⟩
  | 52 => ⟨S50000x128, .f32⟩
  | 53 => ⟨S250000x1, .f32⟩
  | 54 => ⟨S_, .i32⟩
  | 55 => ⟨S250000, .i32⟩
  | 56 => ⟨S250000, .i1⟩
  | 57 => ⟨S_, .i32⟩
  | 58 => ⟨S250000, .i32⟩
  | 59 => ⟨S250000, .i32⟩
  | 60 => ⟨S250000, .i32⟩
  | 61 => ⟨S250000x1, .i32⟩
  | 62 => ⟨S250000x128, .f32⟩
  | 63 => ⟨S250000x128, .f32⟩
  | 64 => ⟨S250000x128, .f32⟩
  | 65 => ⟨S_, .f32⟩
  | 66 => ⟨S50000x128, .f32⟩
  | 67 => ⟨S250000x1, .i32⟩
  | 68 => ⟨S50000x128, .f32⟩
  | 69 => ⟨S50000x128, .f32⟩
  | 70 => ⟨S50000x128, .f32⟩
  | 71 => ⟨S250000x1, .f32⟩
  | 72 => ⟨S_, .i32⟩
  | 73 => ⟨S250000, .i32⟩
  | 74 => ⟨S250000, .i1⟩
  | 75 => ⟨S_, .i32⟩
  | 76 => ⟨S250000, .i32⟩
  | 77 => ⟨S250000, .i32⟩
  | 78 => ⟨S250000, .i32⟩
  | 79 => ⟨S250000x1, .i32⟩
  | 80 => ⟨S250000x128, .f32⟩
  | 81 => ⟨S250000x128, .f32⟩
  | 82 => ⟨S250000x128, .f32⟩
  | 83 => ⟨S_, .f32⟩
  | 84 => ⟨S50000x128, .f32⟩
  | 85 => ⟨S250000x1, .i32⟩
  | 86 => ⟨S50000x128, .f32⟩
  | 87 => ⟨S50000x128, .f32⟩
  | 88 => ⟨S50000x128, .f32⟩
  | 89 => ⟨S250000x1, .f32⟩
  | 90 => ⟨S_, .i32⟩
  | 91 => ⟨S250000, .i32⟩
  | 92 => ⟨S250000, .i1⟩
  | 93 => ⟨S_, .i32⟩
  | 94 => ⟨S250000, .i32⟩
  | 95 => ⟨S250000, .i32⟩
  | 96 => ⟨S250000, .i32⟩
  | 97 => ⟨S250000x1, .i32⟩
  | 98 => ⟨S250000x128, .f32⟩
  | 99 => ⟨S250000x128, .f32⟩
  | 100 => ⟨S250000x128, .f32⟩
  | 101 => ⟨S_, .f32⟩
  | 102 => ⟨S50000x128, .f32⟩
  | 103 => ⟨S250000x1, .i32⟩
  | 104 => ⟨S50000x128, .f32⟩
  | 105 => ⟨S50000x1, .f32⟩
  | 106 => ⟨S250000x1, .f32⟩
  | 107 => ⟨S_, .i32⟩
  | 108 => ⟨S250000, .i32⟩
  | 109 => ⟨S250000, .i1⟩
  | 110 => ⟨S_, .i32⟩
  | 111 => ⟨S250000, .i32⟩
  | 112 => ⟨S250000, .i32⟩
  | 113 => ⟨S250000, .i32⟩
  | 114 => ⟨S250000x1, .i32⟩
  | 115 => ⟨S250000x128, .f32⟩
  | 116 => ⟨S250000x128, .f32⟩
  | 117 => ⟨S250000x128, .f32⟩
  | 118 => ⟨S_, .f32⟩
  | 119 => ⟨S50000x128, .f32⟩
  | 120 => ⟨S250000x1, .i32⟩
  | 121 => ⟨S50000x128, .f32⟩
  | 122 => ⟨S50000x128, .f32⟩
  | 123 => ⟨S50000x128, .f32⟩
  | 124 => ⟨S250000x1, .f32⟩
  | 125 => ⟨S_, .i32⟩
  | 126 => ⟨S250000, .i32⟩
  | 127 => ⟨S250000, .i1⟩
  | _ => ⟨S250000, .i32⟩

abbrev hbmTy0_1 (i : Nat) : BufTy := match i % 128 with
  | 0 => ⟨S_, .i32⟩
  | 1 => ⟨S250000, .i32⟩
  | 2 => ⟨S250000, .i32⟩
  | 3 => ⟨S250000, .i32⟩
  | 4 => ⟨S250000x1, .i32⟩
  | 5 => ⟨S250000x128, .f32⟩
  | 6 => ⟨S250000x128, .f32⟩
  | 7 => ⟨S250000x128, .f32⟩
  | 8 => ⟨S_, .f32⟩
  | 9 => ⟨S50000x128, .f32⟩
  | 10 => ⟨S250000x1, .i32⟩
  | 11 => ⟨S50000x128, .f32⟩
  | 12 => ⟨S50000x128, .f32⟩
  | 13 => ⟨S50000x128, .f32⟩
  | 14 => ⟨S250000x1, .f32⟩
  | 15 => ⟨S_, .i32⟩
  | 16 => ⟨S250000, .i32⟩
  | 17 => ⟨S250000, .i1⟩
  | 18 => ⟨S_, .i32⟩
  | 19 => ⟨S250000, .i32⟩
  | 20 => ⟨S250000, .i32⟩
  | 21 => ⟨S250000, .i32⟩
  | 22 => ⟨S250000x1, .i32⟩
  | 23 => ⟨S250000x128, .f32⟩
  | 24 => ⟨S250000x128, .f32⟩
  | 25 => ⟨S250000x128, .f32⟩
  | 26 => ⟨S_, .f32⟩
  | 27 => ⟨S50000x128, .f32⟩
  | 28 => ⟨S250000x1, .i32⟩
  | 29 => ⟨S50000x128, .f32⟩
  | 30 => ⟨S50000x128, .f32⟩
  | 31 => ⟨S50000x128, .f32⟩
  | 32 => ⟨S250000x1, .f32⟩
  | 33 => ⟨S_, .i32⟩
  | 34 => ⟨S250000, .i32⟩
  | 35 => ⟨S250000, .i1⟩
  | 36 => ⟨S_, .i32⟩
  | 37 => ⟨S250000, .i32⟩
  | 38 => ⟨S250000, .i32⟩
  | 39 => ⟨S250000, .i32⟩
  | 40 => ⟨S250000x1, .i32⟩
  | 41 => ⟨S250000x128, .f32⟩
  | 42 => ⟨S250000x128, .f32⟩
  | 43 => ⟨S250000x128, .f32⟩
  | 44 => ⟨S_, .f32⟩
  | 45 => ⟨S50000x128, .f32⟩
  | 46 => ⟨S250000x1, .i32⟩
  | 47 => ⟨S50000x128, .f32⟩
  | 48 => ⟨S50000x128, .f32⟩
  | 49 => ⟨S50000x128, .f32⟩
  | 50 => ⟨S250000x1, .f32⟩
  | 51 => ⟨S_, .i32⟩
  | 52 => ⟨S250000, .i32⟩
  | 53 => ⟨S250000, .i1⟩
  | 54 => ⟨S_, .i32⟩
  | 55 => ⟨S250000, .i32⟩
  | 56 => ⟨S250000, .i32⟩
  | 57 => ⟨S250000, .i32⟩
  | 58 => ⟨S250000x1, .i32⟩
  | 59 => ⟨S250000x128, .f32⟩
  | 60 => ⟨S250000x128, .f32⟩
  | 61 => ⟨S250000x128, .f32⟩
  | 62 => ⟨S_, .f32⟩
  | 63 => ⟨S50000x128, .f32⟩
  | 64 => ⟨S250000x1, .i32⟩
  | 65 => ⟨S50000x128, .f32⟩
  | 66 => ⟨S50000x1, .f32⟩
  | 67 => ⟨S50000x1, .f32⟩
  | _ => ⟨S250000, .i32⟩

abbrev hbmTy (i : Nat) : BufTy := match i / 128 with
  | 0 => hbmTy0_0 i
  | 1 => hbmTy0_1 i
  | _ => ⟨S250000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S128x256, .f32⟩
  | .local _ .vmem, ⟨39, _⟩ => ⟨S256, .f32⟩
  | .local _ .vmem, ⟨40, _⟩ => ⟨S256x256, .f32⟩
  | .local _ .vmem, ⟨41, _⟩ => ⟨S256, .f32⟩
  | .local _ .vmem, ⟨42, _⟩ => ⟨S256x1, .f32⟩
  | .local _ .vmem, ⟨43, _⟩ => ⟨S1, .f32⟩
  | .local _ .vmem, ⟨44, _⟩ => ⟨S1000x1, .f32⟩
  | .local _ .vmem, ⟨45, _⟩ => ⟨S1000x1, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S128x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S128x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S128x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S1000x128, .f32⟩
  | .local _ .vmem, ⟨75, _⟩ => ⟨S1000x128, .f32⟩
  | .local _ .vmem, ⟨76, _⟩ => ⟨S1000x128, .f32⟩
  | .local _ .vmem, ⟨77, _⟩ => ⟨S1000x128, .f32⟩
  | .local _ .vmem, ⟨78, _⟩ => ⟨S1000x128, .f32⟩
  | .local _ .vmem, ⟨79, _⟩ => ⟨S1000x128, .f32⟩
  | .local _ .vmem, ⟨80, _⟩ => ⟨S1000x128, .f32⟩
  | .local _ .vmem, ⟨81, _⟩ => ⟨S1000x128, .f32⟩
  | .local _ .vmem, ⟨82, _⟩ => ⟨S1000x128, .f32⟩
  | .local _ .vmem, ⟨83, _⟩ => ⟨S1000x128, .f32⟩
  | .local _ .vmem, ⟨84, _⟩ => ⟨S128x256, .f32⟩
  | .local _ .vmem, ⟨85, _⟩ => ⟨S256, .f32⟩
  | .local _ .vmem, ⟨86, _⟩ => ⟨S256x256, .f32⟩
  | .local _ .vmem, ⟨87, _⟩ => ⟨S256, .f32⟩
  | .local _ .vmem, ⟨88, _⟩ => ⟨S256x1, .f32⟩
  | .local _ .vmem, ⟨89, _⟩ => ⟨S1, .f32⟩
  | .local _ .vmem, ⟨90, _⟩ => ⟨S1000x1, .f32⟩
  | .local _ .vmem, ⟨91, _⟩ => ⟨S1000x1, .f32⟩
  | _, _ => ⟨S250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41_0 : Ref sig .tc := ⟨.hbm, 69, rfl⟩
abbrev main_v41_1 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55_0 : Ref sig .tc := ⟨.hbm, 87, rfl⟩
abbrev main_v55_1 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_c_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_13 : Ref sig .tc := ⟨.hbm, 107, rfl⟩
abbrev main_v71 : Ref sig .tc := ⟨.hbm, 108, rfl⟩
abbrev main_v72 : Ref sig .tc := ⟨.hbm, 109, rfl⟩
abbrev main_c_14 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83_0 : Ref sig .tc := ⟨.hbm, 122, rfl⟩
abbrev main_v83_1 : Ref sig .tc := ⟨.hbm, 123, rfl⟩
abbrev main_v84 : Ref sig .tc := ⟨.hbm, 124, rfl⟩
abbrev main_c_16 : Ref sig .tc := ⟨.hbm, 125, rfl⟩
abbrev main_v85 : Ref sig .tc := ⟨.hbm, 126, rfl⟩
abbrev main_v86 : Ref sig .tc := ⟨.hbm, 127, rfl⟩
abbrev main_c_17 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_18 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97_0 : Ref sig .tc := ⟨.hbm, 140, rfl⟩
abbrev main_v97_1 : Ref sig .tc := ⟨.hbm, 141, rfl⟩
abbrev main_v98 : Ref sig .tc := ⟨.hbm, 142, rfl⟩
abbrev main_c_19 : Ref sig .tc := ⟨.hbm, 143, rfl⟩
abbrev main_v99 : Ref sig .tc := ⟨.hbm, 144, rfl⟩
abbrev main_v100 : Ref sig .tc := ⟨.hbm, 145, rfl⟩
abbrev main_c_20 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111_0 : Ref sig .tc := ⟨.hbm, 158, rfl⟩
abbrev main_v111_1 : Ref sig .tc := ⟨.hbm, 159, rfl⟩
abbrev main_v112 : Ref sig .tc := ⟨.hbm, 160, rfl⟩
abbrev main_c_22 : Ref sig .tc := ⟨.hbm, 161, rfl⟩
abbrev main_v113 : Ref sig .tc := ⟨.hbm, 162, rfl⟩
abbrev main_v114 : Ref sig .tc := ⟨.hbm, 163, rfl⟩
abbrev main_c_23 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_24 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125_0 : Ref sig .tc := ⟨.hbm, 176, rfl⟩
abbrev main_v125_1 : Ref sig .tc := ⟨.hbm, 177, rfl⟩
abbrev main_v126 : Ref sig .tc := ⟨.hbm, 178, rfl⟩
abbrev main_c_25 : Ref sig .tc := ⟨.hbm, 179, rfl⟩
abbrev main_v127 : Ref sig .tc := ⟨.hbm, 180, rfl⟩
abbrev main_v128 : Ref sig .tc := ⟨.hbm, 181, rfl⟩
abbrev main_c_26 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_27 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg10_0 : Ref sig .tc := ⟨.vmem, 43, rfl⟩
abbrev cc4_stg11_0 : Ref sig .tc := ⟨.vmem, 44, rfl⟩
abbrev cc4_stg11_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg3_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg3_1 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg3_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc9_stg3_0 : Ref sig .tc := ⟨.vmem, 80, rfl⟩
abbrev cc9_stg3_1 : Ref sig .tc := ⟨.vmem, 81, rfl⟩
abbrev cc9_stg4_0 : Ref sig .tc := ⟨.vmem, 82, rfl⟩
abbrev cc9_stg4_1 : Ref sig .tc := ⟨.vmem, 83, rfl⟩
abbrev cc9_stg5_0 : Ref sig .tc := ⟨.vmem, 84, rfl⟩
abbrev cc9_stg6_0 : Ref sig .tc := ⟨.vmem, 85, rfl⟩
abbrev cc9_stg7_0 : Ref sig .tc := ⟨.vmem, 86, rfl⟩
abbrev cc9_stg8_0 : Ref sig .tc := ⟨.vmem, 87, rfl⟩
abbrev cc9_stg9_0 : Ref sig .tc := ⟨.vmem, 88, rfl⟩
abbrev cc9_stg10_0 : Ref sig .tc := ⟨.vmem, 89, rfl⟩
abbrev cc9_stg11_0 : Ref sig .tc := ⟨.vmem, 90, rfl⟩
abbrev cc9_stg11_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem9_0 : DmaSem sig := 42
abbrev cc4_sem10_0 : DmaSem sig := 43
abbrev cc4_sem11_0 : DmaSem sig := 44
abbrev cc4_sem11_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem2_1 : DmaSem sig := 50
abbrev cc5_sem3_0 : DmaSem sig := 51
abbrev cc5_sem3_1 : DmaSem sig := 52
abbrev cc6_sem0_0 : DmaSem sig := 53
abbrev cc6_sem0_1 : DmaSem sig := 54
abbrev cc6_sem1_0 : DmaSem sig := 55
abbrev cc6_sem2_0 : DmaSem sig := 56
abbrev cc6_sem2_1 : DmaSem sig := 57
abbrev cc6_sem3_0 : DmaSem sig := 58
abbrev cc6_sem3_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem2_1 : DmaSem sig := 64
abbrev cc7_sem3_0 : DmaSem sig := 65
abbrev cc7_sem3_1 : DmaSem sig := 66
abbrev cc8_sem0_0 : DmaSem sig := 67
abbrev cc8_sem0_1 : DmaSem sig := 68
abbrev cc8_sem1_0 : DmaSem sig := 69
abbrev cc8_sem2_0 : DmaSem sig := 70
abbrev cc8_sem2_1 : DmaSem sig := 71
abbrev cc8_sem3_0 : DmaSem sig := 72
abbrev cc8_sem3_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc9_sem3_0 : DmaSem sig := 80
abbrev cc9_sem3_1 : DmaSem sig := 81
abbrev cc9_sem4_0 : DmaSem sig := 82
abbrev cc9_sem4_1 : DmaSem sig := 83
abbrev cc9_sem5_0 : DmaSem sig := 84
abbrev cc9_sem6_0 : DmaSem sig := 85
abbrev cc9_sem7_0 : DmaSem sig := 86
abbrev cc9_sem8_0 : DmaSem sig := 87
abbrev cc9_sem9_0 : DmaSem sig := 88
abbrev cc9_sem10_0 : DmaSem sig := 89
abbrev cc9_sem11_0 : DmaSem sig := 90
abbrev cc9_sem11_1 : DmaSem sig := 91

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S256x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S1000x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_11 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S1000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S128x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S256x256 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S256 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S256x1 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 2 → Memref sig .tc .vmem S1000x1 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

class Facts₀ : Prop where
  bcast_S250000_S250000x1_0 : S250000.BroadcastsInDim S250000x1 (![0] : Fin 1 → Fin S250000x1.rank)
  bcast_S_S250000 : S_.BroadcastsInDim S250000 (![] : Fin 0 → Fin S250000.rank)
  bcast_S250000x1_S250000x128_0_1 : S250000x1.BroadcastsInDim S250000x128 (![0, 1] : Fin 2 → Fin S250000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S256_S1x256 : S256.ShapeCasts S1x256
  broadcasts_S1x256_S1000x256 : S1x256.Broadcasts S1000x256
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  gather_S50000x128_S250000x1_S250000x128_1_0_n_n_0_1_1128_wf : GatherDims.WF S50000x128 S250000x1 S250000x128 [1] [0] [] [0] [] 1 ![1, 128]
  scatter_S50000x128_S250000x1_S250000x128_1_0_0_1_wf : ScatterDims.WF S50000x128 S250000x1 S250000x128 [1] [0] [0] 1
  dot_S2000x128_S128x128_S2000x128_1_0_0_1_n_n_wf : DotDims.WF S2000x128 S128x128 S2000x128 [1] [0] [0] [1] [] []
  dot_S1000x128_S128x256_S1000x256_1_0_0_1_n_n_wf : DotDims.WF S1000x128 S128x256 S1000x256 [1] [0] [0] [1] [] []
  dot_S1000x256_S256x256_S1000x256_1_0_0_1_n_n_wf : DotDims.WF S1000x256 S256x256 S1000x256 [1] [0] [0] [1] [] []
  dot_S1000x256_S256x1_S1000x1_1_0_0_1_n_n_wf : DotDims.WF S1000x256 S256x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S50000x128.size a
  hwx4_1 : ∀ i : grid4.Coords, EltTy.bits .f32 = 32 ∨ (Rect.block (s := S50000x128) S1000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S50000x128.size a
  hwx4_2 : ∀ i : grid4.Coords, EltTy.bits .f32 = 32 ∨ (Rect.block (s := S50000x128) S1000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S50000x128.size a
  hwx4_3 : ∀ i : grid4.Coords, EltTy.bits .f32 = 32 ∨ (Rect.block (s := S50000x128) S1000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x128.size a ≤ S50000x128.size a
  hwx4_4 : ∀ i : grid4.Coords, EltTy.bits .f32 = 32 ∨ (Rect.block (s := S50000x128) S1000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256.size a ≤ S256.size a
  hwx4_6 : ∀ i : grid4.Coords, EltTy.bits .f32 = 32 ∨ (Rect.block (s := S256) S256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x256.size a ≤ S256x256.size a
  hwx4_7 : ∀ i : grid4.Coords, EltTy.bits .f32 = 32 ∨ (Rect.block (s := S256x256) S256x256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S256.size a ≤ S256.size a
  hwx4_8 : ∀ i : grid4.Coords, EltTy.bits .f32 = 32 ∨ (Rect.block (s := S256) S256.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S256x1.size a ≤ S256x1.size a
  hwx4_9 : ∀ i : grid4.Coords, EltTy.bits .f32 = 32 ∨ (Rect.block (s := S256x1) S256x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1.size a ≤ S1.size a
  hwx4_10 : ∀ i : grid4.Coords, EltTy.bits .f32 = 32 ∨ (Rect.block (s := S1) S1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1000x1.size a ≤ S50000x1.size a
  hwx4_11 : ∀ i : grid4.Coords, EltTy.bits .f32 = 32 ∨ (Rect.block (s := S50000x1) S1000x1.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x128.size a ≤ S50000x128.size a
  hwx9_0 : ∀ i : grid9.Coords, EltTy.bits .f32 = 32 ∨ (Rect.block (s := S50000x128) S1000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1000x128.size a ≤ S50000x128.size a
  hwx9_1 : ∀ i : grid9.Coords, EltTy.bits .f32 = 32 ∨ (Rect.block (s := S50000x128) S1000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1000x128.size a ≤ S50000x128.size a
  hwx9_2 : ∀ i : grid9.Coords, EltTy.bits .f32 = 32 ∨ (Rect.block (s := S50000x128) S1000x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1000x128.size a ≤ S50000x128.size a
  hwx9_3 : ∀ i : grid9.Coords, EltTy.bits .f32 = 32 ∨ (Rect.block (s := S50000x128) S1000x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1000x128.size a ≤ S50000x128.size a
  hwx9_4 : ∀ i : grid9.Coords, EltTy.bits .f32 = 32 ∨ (Rect.block (s := S50000x128) S1000x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x256.size a ≤ S128x256.size a
  hwx9_5 : ∀ i : grid9.Coords, EltTy.bits .f32 = 32 ∨ (Rect.block (s := S128x256) S128x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S256.size a ≤ S256.size a
  hwx9_6 : ∀ i : grid9.Coords, EltTy.bits .f32 = 32 ∨ (Rect.block (s := S256) S256.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S256x256.size a ≤ S256x256.size a
  hwx9_7 : ∀ i : grid9.Coords, EltTy.bits .f32 = 32 ∨ (Rect.block (s := S256x256) S256x256.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S256.size a ≤ S256.size a
  hwx9_8 : ∀ i : grid9.Coords, EltTy.bits .f32 = 32 ∨ (Rect.block (s := S256) S256.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S256x1.size a ≤ S256x1.size a
  hwx9_9 : ∀ i : grid9.Coords, EltTy.bits .f32 = 32 ∨ (Rect.block (s := S256x1) S256x1.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1.size a ≤ S1.size a
  hwx9_10 : ∀ i : grid9.Coords, EltTy.bits .f32 = 32 ∨ (Rect.block (s := S1) S1.size (cc9_transform_10 i) (hinb9_10 i)).WholeWords (EltTy.packing .f32)
  hstage9_11 : ∀ j, (stage9_11 j).IsWhole
  nbuf9_11 : grid9.bufCount reads9_11 false = 2
  hreads9_11 : ∀ i i' : grid9.Coords, (∀ a, reads9_11 a = true → i a = i' a) → cc9_transform_11 i = cc9_transform_11 i'
  hinb9_11 : ∀ (i : grid9.Coords) a, (cc9_transform_11 i a + 1) * S1000x1.size a ≤ S50000x1.size a
  hwx9_11 : ∀ i : grid9.Coords, EltTy.bits .f32 = 32 ∨ (Rect.block (s := S50000x1) S1000x1.size (cc9_transform_11 i) (hinb9_11 i)).WholeWords (EltTy.packing .f32)

variable [Facts₀]

def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S2000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27_1) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41_0) S2000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41_1) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55_0) S2000x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55_1) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v13_0) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27_0) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41_0) S1000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v55_0) S1000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg12) S256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg13) S256x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg14) S256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg15) S256x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg16) S1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v69) S1000x1.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v82) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83_0) S2000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83_1) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v96) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97_0) S2000x128.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v97_1) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v110) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v111_0) S2000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v111_1) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v124) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v125_0) S2000x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v125_1) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v83_0) S1000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v97_0) S1000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v111_0) S1000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v125_0) S1000x128.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v138) S1000x128.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_arg11) S128x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_arg12) S256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg13) S256x256.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_arg14) S256.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_arg15) S256x1.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_arg16) S1.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v139) S1000x1.size cc9_transform_11 reads9_11 true false 2 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

class Facts : Prop extends Facts₀ where

variable [Facts]
-- ==== ReferenceIdeal.lean ====
abbrev S250000 : Shape := ⟨1, ![250000]⟩
abbrev S50000x128 : Shape := ⟨2, ![50000, 128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S250000x1 : Shape := ⟨2, ![250000, 1]⟩
abbrev S_ : Shape := ⟨0, ![]⟩
abbrev S250000x128 : Shape := ⟨2, ![250000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x1 : Shape := ⟨2, ![1, 1]⟩

abbrev nBuf : Space → Nat
  | .hbm => 484
  | .vmem => 0
  | .smem => 0
  | _ => 0

abbrev hbmTy0_0 (i : Nat) : BufTy := match i % 128 with
  | 0 => ⟨S250000, .i32⟩
  | 1 => ⟨S250000, .i32⟩
  | 2 => ⟨S250000, .f32⟩
  | 3 => ⟨S250000, .i32⟩
  | 4 => ⟨S250000, .i32⟩
  | 5 => ⟨S250000, .f32⟩
  | 6 => ⟨S50000x128, .f32⟩
  | 7 => ⟨S128x128, .f32⟩
  | 8 => ⟨S128x128, .f32⟩
  | 9 => ⟨S128x128, .f32⟩
  | 10 => ⟨S128x128, .f32⟩
  | 11 => ⟨S128x256, .f32⟩
  | 12 => ⟨S256, .f32⟩
  | 13 => ⟨S256x256, .f32⟩
  | 14 => ⟨S256, .f32⟩
  | 15 => ⟨S256x1, .f32⟩
  | 16 => ⟨S1, .f32⟩
  | 17 => ⟨S250000x1, .f32⟩
  | 18 => ⟨S_, .i32⟩
  | 19 => ⟨S250000, .i32⟩
  | 20 => ⟨S250000, .i1⟩
  | 21 => ⟨S_, .i32⟩
  | 22 => ⟨S250000, .i32⟩
  | 23 => ⟨S250000, .i32⟩
  | 24 => ⟨S250000, .i32⟩
  | 25 => ⟨S250000x1, .i32⟩
  | 26 => ⟨S250000x128, .f32⟩
  | 27 => ⟨S250000x128, .f32⟩
  | 28 => ⟨S250000x128, .f32⟩
  | 29 => ⟨S_, .f32⟩
  | 30 => ⟨S50000x128, .f32⟩
  | 31 => ⟨S250000x1, .i32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S_, .f32⟩
  | 38 => ⟨S50000, .f32⟩
  | 39 => ⟨S50000x1, .f32⟩
  | 40 => ⟨S50000x1, .f32⟩
  | 41 => ⟨S_, .f32⟩
  | 42 => ⟨S50000x1, .f32⟩
  | 43 => ⟨S50000x1, .f32⟩
  | 44 => ⟨S50000x128, .f32⟩
  | 45 => ⟨S50000x128, .f32⟩
  | 46 => ⟨S50000x128, .f32⟩
  | 47 => ⟨S250000x1, .f32⟩
  | 48 => ⟨S_, .i32⟩
  | 49 => ⟨S250000, .i32⟩
  | 50 => ⟨S250000, .i1⟩
  | 51 => ⟨S_, .i32⟩
  | 52 => ⟨S250000, .i32⟩
  | 53 => ⟨S250000, .i32⟩
  | 54 => ⟨S250000, .i32⟩
  | 55 => ⟨S250000x1, .i32⟩
  | 56 => ⟨S250000x128, .f32⟩
  | 57 => ⟨S250000x128, .f32⟩
  | 58 => ⟨S250000x128, .f32⟩
  | 59 => ⟨S_, .f32⟩
  | 60 => ⟨S50000x128, .f32⟩
  | 61 => ⟨S250000x1, .i32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S_, .f32⟩
  | 68 => ⟨S50000, .f32⟩
  | 69 => ⟨S50000x1, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S50000x128, .f32⟩
  | 77 => ⟨S250000x1, .f32⟩
  | 78 => ⟨S_, .i32⟩
  | 79 => ⟨S250000, .i32⟩
  | 80 => ⟨S250000, .i1⟩
  | 81 => ⟨S_, .i32⟩
  | 82 => ⟨S250000, .i32⟩
  | 83 => ⟨S250000, .i32⟩
  | 84 => ⟨S250000, .i32⟩
  | 85 => ⟨S250000x1, .i32⟩
  | 86 => ⟨S250000x128, .f32⟩
  | 87 => ⟨S250000x128, .f32⟩
  | 88 => ⟨S250000x128, .f32⟩
  | 89 => ⟨S_, .f32⟩
  | 90 => ⟨S50000x128, .f32⟩
  | 91 => ⟨S250000x1, .i32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .f32⟩
  | 98 => ⟨S50000, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S50000x128, .f32⟩
  | 107 => ⟨S250000x1, .f32⟩
  | 108 => ⟨S_, .i32⟩
  | 109 => ⟨S250000, .i32⟩
  | 110 => ⟨S250000, .i1⟩
  | 111 => ⟨S_, .i32⟩
  | 112 => ⟨S250000, .i32⟩
  | 113 => ⟨S250000, .i32⟩
  | 114 => ⟨S250000, .i32⟩
  | 115 => ⟨S250000x1, .i32⟩
  | 116 => ⟨S250000x128, .f32⟩
  | 117 => ⟨S250000x128, .f32⟩
  | 118 => ⟨S250000x128, .f32⟩
  | 119 => ⟨S_, .f32⟩
  | 120 => ⟨S50000x128, .f32⟩
  | 121 => ⟨S250000x1, .i32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S_, .f32⟩
  | _ => ⟨S250000, .i32⟩

abbrev hbmTy0_1 (i : Nat) : BufTy := match i % 128 with
  | 0 => ⟨S50000, .f32⟩
  | 1 => ⟨S50000x1, .f32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S50000x128, .f32⟩
  | 9 => ⟨S250000x1, .f32⟩
  | 10 => ⟨S_, .i32⟩
  | 11 => ⟨S250000, .i32⟩
  | 12 => ⟨S250000, .i1⟩
  | 13 => ⟨S_, .i32⟩
  | 14 => ⟨S250000, .i32⟩
  | 15 => ⟨S250000, .i32⟩
  | 16 => ⟨S250000, .i32⟩
  | 17 => ⟨S250000x1, .i32⟩
  | 18 => ⟨S250000x128, .f32⟩
  | 19 => ⟨S250000x128, .f32⟩
  | 20 => ⟨S250000x128, .f32⟩
  | 21 => ⟨S_, .f32⟩
  | 22 => ⟨S50000x128, .f32⟩
  | 23 => ⟨S250000x1, .i32⟩
  | 24 => ⟨S50000x128, .f32⟩
  | 25 => ⟨S_, .f32⟩
  | 26 => ⟨S50000x128, .f32⟩
  | 27 => ⟨S50000x128, .f32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S50000x1, .f32⟩
  | 43 => ⟨S1x1, .f32⟩
  | 44 => ⟨S50000x1, .f32⟩
  | 45 => ⟨S50000x1, .f32⟩
  | 46 => ⟨S50000x256, .f32⟩
  | 47 => ⟨S1x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S50000x1, .f32⟩
  | 61 => ⟨S1x1, .f32⟩
  | 62 => ⟨S50000x1, .f32⟩
  | 63 => ⟨S50000x1, .f32⟩
  | 64 => ⟨S50000x1, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x1, .f32⟩
  | 80 => ⟨S1x1, .f32⟩
  | 81 => ⟨S50000x1, .f32⟩
  | 82 => ⟨S50000x1, .f32⟩
  | 83 => ⟨S50000x1, .f32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S50000x1, .f32⟩
  | 99 => ⟨S1x1, .f32⟩
  | 100 => ⟨S50000x1, .f32⟩
  | 101 => ⟨S50000x1, .f32⟩
  | 102 => ⟨S50000x1, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S50000x256, .f32⟩
  | 111 => ⟨S1x256, .f32⟩
  | 112 => ⟨S50000x256, .f32⟩
  | 113 => ⟨S50000x256, .f32⟩
  | 114 => ⟨S_, .f32⟩
  | 115 => ⟨S50000x256, .f32⟩
  | 116 => ⟨S50000x256, .f32⟩
  | 117 => ⟨S50000x1, .f32⟩
  | 118 => ⟨S1x1, .f32⟩
  | 119 => ⟨S50000x1, .f32⟩
  | 120 => ⟨S50000x1, .f32⟩
  | 121 => ⟨S50000x1, .f32⟩
  | 122 => ⟨S250000x1, .f32⟩
  | 123 => ⟨S_, .i32⟩
  | 124 => ⟨S250000, .i32⟩
  | 125 => ⟨S250000, .i1⟩
  | 126 => ⟨S_, .i32⟩
  | 127 => ⟨S250000, .i32⟩
  | _ => ⟨S250000, .i32⟩

abbrev hbmTy0_2 (i : Nat) : BufTy := match i % 128 with
  | 0 => ⟨S250000, .i32⟩
  | 1 => ⟨S250000, .i32⟩
  | 2 => ⟨S250000x1, .i32⟩
  | 3 => ⟨S250000x128, .f32⟩
  | 4 => ⟨S250000x128, .f32⟩
  | 5 => ⟨S250000x128, .f32⟩
  | 6 => ⟨S_, .f32⟩
  | 7 => ⟨S50000x128, .f32⟩
  | 8 => ⟨S250000x1, .i32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S_, .f32⟩
  | 15 => ⟨S50000, .f32⟩
  | 16 => ⟨S50000x1, .f32⟩
  | 17 => ⟨S50000x1, .f32⟩
  | 18 => ⟨S_, .f32⟩
  | 19 => ⟨S50000x1, .f32⟩
  | 20 => ⟨S50000x1, .f32⟩
  | 21 => ⟨S50000x128, .f32⟩
  | 22 => ⟨S50000x128, .f32⟩
  | 23 => ⟨S50000x128, .f32⟩
  | 24 => ⟨S250000x1, .f32⟩
  | 25 => ⟨S_, .i32⟩
  | 26 => ⟨S250000, .i32⟩
  | 27 => ⟨S250000, .i1⟩
  | 28 => ⟨S_, .i32⟩
  | 29 => ⟨S250000, .i32⟩
  | 30 => ⟨S250000, .i32⟩
  | 31 => ⟨S250000, .i32⟩
  | 32 => ⟨S250000x1, .i32⟩
  | 33 => ⟨S250000x128, .f32⟩
  | 34 => ⟨S250000x128, .f32⟩
  | 35 => ⟨S250000x128, .f32⟩
  | 36 => ⟨S_, .f32⟩
  | 37 => ⟨S50000x128, .f32⟩
  | 38 => ⟨S250000x1, .i32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S_, .f32⟩
  | 45 => ⟨S50000, .f32⟩
  | 46 => ⟨S50000x1, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S50000x128, .f32⟩
  | 54 => ⟨S250000x1, .f32⟩
  | 55 => ⟨S_, .i32⟩
  | 56 => ⟨S250000, .i32⟩
  | 57 => ⟨S250000, .i1⟩
  | 58 => ⟨S_, .i32⟩
  | 59 => ⟨S250000, .i32⟩
  | 60 => ⟨S250000, .i32⟩
  | 61 => ⟨S250000, .i32⟩
  | 62 => ⟨S250000x1, .i32⟩
  | 63 => ⟨S250000x128, .f32⟩
  | 64 => ⟨S250000x128, .f32⟩
  | 65 => ⟨S250000x128, .f32⟩
  | 66 => ⟨S_, .f32⟩
  | 67 => ⟨S50000x128, .f32⟩
  | 68 => ⟨S250000x1, .i32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S50000x1, .f32⟩
  | 77 => ⟨S50000x1, .f32⟩
  | 78 => ⟨S_, .f32⟩
  | 79 => ⟨S50000x1, .f32⟩
  | 80 => ⟨S50000x1, .f32⟩
  | 81 => ⟨S50000x128, .f32⟩
  | 82 => ⟨S50000x128, .f32⟩
  | 83 => ⟨S50000x128, .f32⟩
  | 84 => ⟨S250000x1, .f32⟩
  | 85 => ⟨S_, .i32⟩
  | 86 => ⟨S250000, .i32⟩
  | 87 => ⟨S250000, .i1⟩
  | 88 => ⟨S_, .i32⟩
  | 89 => ⟨S250000, .i32⟩
  | 90 => ⟨S250000, .i32⟩
  | 91 => ⟨S250000, .i32⟩
  | 92 => ⟨S250000x1, .i32⟩
  | 93 => ⟨S250000x128, .f32⟩
  | 94 => ⟨S250000x128, .f32⟩
  | 95 => ⟨S250000x128, .f32⟩
  | 96 => ⟨S_, .f32⟩
  | 97 => ⟨S50000x128, .f32⟩
  | 98 => ⟨S250000x1, .i32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S_, .f32⟩
  | 105 => ⟨S50000, .f32⟩
  | 106 => ⟨S50000x1, .f32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S50000x128, .f32⟩
  | 114 => ⟨S250000x1, .f32⟩
  | 115 => ⟨S_, .i32⟩
  | 116 => ⟨S250000, .i32⟩
  | 117 => ⟨S250000, .i1⟩
  | 118 => ⟨S_, .i32⟩
  | 119 => ⟨S250000, .i32⟩
  | 120 => ⟨S250000, .i32⟩
  | 121 => ⟨S250000, .i32⟩
  | 122 => ⟨S250000x1, .i32⟩
  | 123 => ⟨S250000x128, .f32⟩
  | 124 => ⟨S250000x128, .f32⟩
  | 125 => ⟨S250000x128, .f32⟩
  | 126 => ⟨S_, .f32⟩
  | 127 => ⟨S50000x128, .f32⟩
  | _ => ⟨S250000, .i32⟩

abbrev hbmTy0_3 (i : Nat) : BufTy := match i % 128 with
  | 0 => ⟨S250000x1, .i32⟩
  | 1 => ⟨S50000x128, .f32⟩
  | 2 => ⟨S_, .f32⟩
  | 3 => ⟨S50000x128, .f32⟩
  | 4 => ⟨S50000x128, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S50000x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S50000x256, .f32⟩
  | 18 => ⟨S50000x256, .f32⟩
  | 19 => ⟨S50000x1, .f32⟩
  | 20 => ⟨S1x1, .f32⟩
  | 21 => ⟨S50000x1, .f32⟩
  | 22 => ⟨S50000x1, .f32⟩
  | 23 => ⟨S50000x256, .f32⟩
  | 24 => ⟨S1x256, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x256, .f32⟩
  | 31 => ⟨S1x256, .f32⟩
  | 32 => ⟨S50000x256, .f32⟩
  | 33 => ⟨S50000x256, .f32⟩
  | 34 => ⟨S_, .f32⟩
  | 35 => ⟨S50000x256, .f32⟩
  | 36 => ⟨S50000x256, .f32⟩
  | 37 => ⟨S50000x1, .f32⟩
  | 38 => ⟨S1x1, .f32⟩
  | 39 => ⟨S50000x1, .f32⟩
  | 40 => ⟨S50000x1, .f32⟩
  | 41 => ⟨S50000x1, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S_, .f32⟩
  | 54 => ⟨S50000x256, .f32⟩
  | 55 => ⟨S50000x256, .f32⟩
  | 56 => ⟨S50000x1, .f32⟩
  | 57 => ⟨S1x1, .f32⟩
  | 58 => ⟨S50000x1, .f32⟩
  | 59 => ⟨S50000x1, .f32⟩
  | 60 => ⟨S50000x1, .f32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x1, .f32⟩
  | 76 => ⟨S1x1, .f32⟩
  | 77 => ⟨S50000x1, .f32⟩
  | 78 => ⟨S50000x1, .f32⟩
  | 79 => ⟨S50000x1, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S50000x1, .f32⟩
  | 95 => ⟨S1x1, .f32⟩
  | 96 => ⟨S50000x1, .f32⟩
  | 97 => ⟨S50000x1, .f32⟩
  | 98 => ⟨S50000x1, .f32⟩
  | 99 => ⟨S50000x1, .f32⟩
  | _ => ⟨S250000, .i32⟩

abbrev hbmTy (i : Nat) : BufTy := match i / 128 with
  | 0 => hbmTy0_0 i
  | 1 => hbmTy0_1 i
  | 2 => hbmTy0_2 i
  | 3 => hbmTy0_3 i
  | _ => ⟨S250000, .i32⟩

abbrev bufTy : (tb : Table) → Fin (tcTables nBuf tb) → BufTy
  | .hbm, ⟨i, _⟩ => hbmTy i
  | _, _ => ⟨S250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call0_cst : Ref sig .tc := ⟨.hbm, 33, rfl⟩
abbrev main_call0_v0 : Ref sig .tc := ⟨.hbm, 34, rfl⟩
abbrev main_v13 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_c_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call2_cst : Ref sig .tc := ⟨.hbm, 63, rfl⟩
abbrev main_call2_v0 : Ref sig .tc := ⟨.hbm, 64, rfl⟩
abbrev main_v33 : Ref sig .tc := ⟨.hbm, 65, rfl⟩
abbrev main_call3_v0 : Ref sig .tc := ⟨.hbm, 66, rfl⟩
abbrev main_call3_cst : Ref sig .tc := ⟨.hbm, 67, rfl⟩
abbrev main_call3_v1 : Ref sig .tc := ⟨.hbm, 68, rfl⟩
abbrev main_call3_v2 : Ref sig .tc := ⟨.hbm, 69, rfl⟩
abbrev main_v34 : Ref sig .tc := ⟨.hbm, 70, rfl⟩
abbrev main_cst_5 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_6 : Ref sig .tc := ⟨.hbm, 78, rfl⟩
abbrev main_v41 : Ref sig .tc := ⟨.hbm, 79, rfl⟩
abbrev main_v42 : Ref sig .tc := ⟨.hbm, 80, rfl⟩
abbrev main_c_7 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_8 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_call4_cst : Ref sig .tc := ⟨.hbm, 93, rfl⟩
abbrev main_call4_v0 : Ref sig .tc := ⟨.hbm, 94, rfl⟩
abbrev main_v53 : Ref sig .tc := ⟨.hbm, 95, rfl⟩
abbrev main_call5_v0 : Ref sig .tc := ⟨.hbm, 96, rfl⟩
abbrev main_call5_cst : Ref sig .tc := ⟨.hbm, 97, rfl⟩
abbrev main_call5_v1 : Ref sig .tc := ⟨.hbm, 98, rfl⟩
abbrev main_call5_v2 : Ref sig .tc := ⟨.hbm, 99, rfl⟩
abbrev main_v54 : Ref sig .tc := ⟨.hbm, 100, rfl⟩
abbrev main_cst_9 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_c_10 : Ref sig .tc := ⟨.hbm, 108, rfl⟩
abbrev main_v61 : Ref sig .tc := ⟨.hbm, 109, rfl⟩
abbrev main_v62 : Ref sig .tc := ⟨.hbm, 110, rfl⟩
abbrev main_c_11 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_12 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_call6_cst : Ref sig .tc := ⟨.hbm, 123, rfl⟩
abbrev main_call6_v0 : Ref sig .tc := ⟨.hbm, 124, rfl⟩
abbrev main_v73 : Ref sig .tc := ⟨.hbm, 125, rfl⟩
abbrev main_call7_v0 : Ref sig .tc := ⟨.hbm, 126, rfl⟩
abbrev main_call7_cst : Ref sig .tc := ⟨.hbm, 127, rfl⟩
abbrev main_call7_v1 : Ref sig .tc := ⟨.hbm, 128, rfl⟩
abbrev main_call7_v2 : Ref sig .tc := ⟨.hbm, 129, rfl⟩
abbrev main_v74 : Ref sig .tc := ⟨.hbm, 130, rfl⟩
abbrev main_cst_13 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_c_14 : Ref sig .tc := ⟨.hbm, 138, rfl⟩
abbrev main_v81 : Ref sig .tc := ⟨.hbm, 139, rfl⟩
abbrev main_v82 : Ref sig .tc := ⟨.hbm, 140, rfl⟩
abbrev main_c_15 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_16 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_call8_cst : Ref sig .tc := ⟨.hbm, 153, rfl⟩
abbrev main_call8_v0 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_call9_cst : Ref sig .tc := ⟨.hbm, 160, rfl⟩
abbrev main_call9_v0 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_call10_cst : Ref sig .tc := ⟨.hbm, 167, rfl⟩
abbrev main_call10_v0 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_call11_cst : Ref sig .tc := ⟨.hbm, 178, rfl⟩
abbrev main_call11_v0 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_call12_cst : Ref sig .tc := ⟨.hbm, 185, rfl⟩
abbrev main_call12_v0 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_call13_cst : Ref sig .tc := ⟨.hbm, 197, rfl⟩
abbrev main_call13_v0 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_call14_cst : Ref sig .tc := ⟨.hbm, 204, rfl⟩
abbrev main_call14_v0 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_call15_cst : Ref sig .tc := ⟨.hbm, 216, rfl⟩
abbrev main_call15_v0 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_call16_cst : Ref sig .tc := ⟨.hbm, 223, rfl⟩
abbrev main_call16_v0 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_call17_cst : Ref sig .tc := ⟨.hbm, 235, rfl⟩
abbrev main_call17_v0 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_call18_cst : Ref sig .tc := ⟨.hbm, 242, rfl⟩
abbrev main_call18_v0 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_c_17 : Ref sig .tc := ⟨.hbm, 251, rfl⟩
abbrev main_v169 : Ref sig .tc := ⟨.hbm, 252, rfl⟩
abbrev main_v170 : Ref sig .tc := ⟨.hbm, 253, rfl⟩
abbrev main_c_18 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_cst_19 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_call19_cst : Ref sig .tc := ⟨.hbm, 266, rfl⟩
abbrev main_call19_v0 : Ref sig .tc := ⟨.hbm, 267, rfl⟩
abbrev main_v181 : Ref sig .tc := ⟨.hbm, 268, rfl⟩
abbrev main_call20_v0 : Ref sig .tc := ⟨.hbm, 269, rfl⟩
abbrev main_call20_cst : Ref sig .tc := ⟨.hbm, 270, rfl⟩
abbrev main_call20_v1 : Ref sig .tc := ⟨.hbm, 271, rfl⟩
abbrev main_call20_v2 : Ref sig .tc := ⟨.hbm, 272, rfl⟩
abbrev main_v182 : Ref sig .tc := ⟨.hbm, 273, rfl⟩
abbrev main_cst_20 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_c_21 : Ref sig .tc := ⟨.hbm, 281, rfl⟩
abbrev main_v189 : Ref sig .tc := ⟨.hbm, 282, rfl⟩
abbrev main_v190 : Ref sig .tc := ⟨.hbm, 283, rfl⟩
abbrev main_c_22 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_cst_23 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_call21_cst : Ref sig .tc := ⟨.hbm, 296, rfl⟩
abbrev main_call21_v0 : Ref sig .tc := ⟨.hbm, 297, rfl⟩
abbrev main_v201 : Ref sig .tc := ⟨.hbm, 298, rfl⟩
abbrev main_call22_v0 : Ref sig .tc := ⟨.hbm, 299, rfl⟩
abbrev main_call22_cst : Ref sig .tc := ⟨.hbm, 300, rfl⟩
abbrev main_call22_v1 : Ref sig .tc := ⟨.hbm, 301, rfl⟩
abbrev main_call22_v2 : Ref sig .tc := ⟨.hbm, 302, rfl⟩
abbrev main_v202 : Ref sig .tc := ⟨.hbm, 303, rfl⟩
abbrev main_cst_24 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_c_25 : Ref sig .tc := ⟨.hbm, 311, rfl⟩
abbrev main_v209 : Ref sig .tc := ⟨.hbm, 312, rfl⟩
abbrev main_v210 : Ref sig .tc := ⟨.hbm, 313, rfl⟩
abbrev main_c_26 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_cst_27 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_call23_cst : Ref sig .tc := ⟨.hbm, 326, rfl⟩
abbrev main_call23_v0 : Ref sig .tc := ⟨.hbm, 327, rfl⟩
abbrev main_v221 : Ref sig .tc := ⟨.hbm, 328, rfl⟩
abbrev main_call24_v0 : Ref sig .tc := ⟨.hbm, 329, rfl⟩
abbrev main_call24_cst : Ref sig .tc := ⟨.hbm, 330, rfl⟩
abbrev main_call24_v1 : Ref sig .tc := ⟨.hbm, 331, rfl⟩
abbrev main_call24_v2 : Ref sig .tc := ⟨.hbm, 332, rfl⟩
abbrev main_v222 : Ref sig .tc := ⟨.hbm, 333, rfl⟩
abbrev main_cst_28 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_c_29 : Ref sig .tc := ⟨.hbm, 341, rfl⟩
abbrev main_v229 : Ref sig .tc := ⟨.hbm, 342, rfl⟩
abbrev main_v230 : Ref sig .tc := ⟨.hbm, 343, rfl⟩
abbrev main_c_30 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_cst_31 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_call25_cst : Ref sig .tc := ⟨.hbm, 356, rfl⟩
abbrev main_call25_v0 : Ref sig .tc := ⟨.hbm, 357, rfl⟩
abbrev main_v241 : Ref sig .tc := ⟨.hbm, 358, rfl⟩
abbrev main_call26_v0 : Ref sig .tc := ⟨.hbm, 359, rfl⟩
abbrev main_call26_cst : Ref sig .tc := ⟨.hbm, 360, rfl⟩
abbrev main_call26_v1 : Ref sig .tc := ⟨.hbm, 361, rfl⟩
abbrev main_call26_v2 : Ref sig .tc := ⟨.hbm, 362, rfl⟩
abbrev main_v242 : Ref sig .tc := ⟨.hbm, 363, rfl⟩
abbrev main_cst_32 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_c_33 : Ref sig .tc := ⟨.hbm, 371, rfl⟩
abbrev main_v249 : Ref sig .tc := ⟨.hbm, 372, rfl⟩
abbrev main_v250 : Ref sig .tc := ⟨.hbm, 373, rfl⟩
abbrev main_c_34 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_cst_35 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_call27_cst : Ref sig .tc := ⟨.hbm, 386, rfl⟩
abbrev main_call27_v0 : Ref sig .tc := ⟨.hbm, 387, rfl⟩
abbrev main_v261 : Ref sig .tc := ⟨.hbm, 388, rfl⟩
abbrev main_v262 : Ref sig .tc := ⟨.hbm, 389, rfl⟩
abbrev main_v263 : Ref sig .tc := ⟨.hbm, 390, rfl⟩
abbrev main_v264 : Ref sig .tc := ⟨.hbm, 391, rfl⟩
abbrev main_v265 : Ref sig .tc := ⟨.hbm, 392, rfl⟩
abbrev main_call28_cst : Ref sig .tc := ⟨.hbm, 393, rfl⟩
abbrev main_call28_v0 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_call29_cst : Ref sig .tc := ⟨.hbm, 400, rfl⟩
abbrev main_call29_v0 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_v279 : Ref sig .tc := ⟨.hbm, 410, rfl⟩
abbrev main_call30_cst : Ref sig .tc := ⟨.hbm, 411, rfl⟩
abbrev main_call30_v0 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_call31_cst : Ref sig .tc := ⟨.hbm, 418, rfl⟩
abbrev main_call31_v0 : Ref sig .tc := ⟨.hbm, 419, rfl⟩
abbrev main_v285 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_v290 : Ref sig .tc := ⟨.hbm, 425, rfl⟩
abbrev main_v291 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_call32_cst : Ref sig .tc := ⟨.hbm, 430, rfl⟩
abbrev main_call32_v0 : Ref sig .tc := ⟨.hbm, 431, rfl⟩
abbrev main_v295 : Ref sig .tc := ⟨.hbm, 432, rfl⟩
abbrev main_v296 : Ref sig .tc := ⟨.hbm, 433, rfl⟩
abbrev main_v297 : Ref sig .tc := ⟨.hbm, 434, rfl⟩
abbrev main_v298 : Ref sig .tc := ⟨.hbm, 435, rfl⟩
abbrev main_v299 : Ref sig .tc := ⟨.hbm, 436, rfl⟩
abbrev main_call33_cst : Ref sig .tc := ⟨.hbm, 437, rfl⟩
abbrev main_call33_v0 : Ref sig .tc := ⟨.hbm, 438, rfl⟩
abbrev main_v300 : Ref sig .tc := ⟨.hbm, 439, rfl⟩
abbrev main_v301 : Ref sig .tc := ⟨.hbm, 440, rfl⟩
abbrev main_v302 : Ref sig .tc := ⟨.hbm, 441, rfl⟩
abbrev main_v303 : Ref sig .tc := ⟨.hbm, 442, rfl⟩
abbrev main_v304 : Ref sig .tc := ⟨.hbm, 443, rfl⟩
abbrev main_v305 : Ref sig .tc := ⟨.hbm, 444, rfl⟩
abbrev main_v306 : Ref sig .tc := ⟨.hbm, 445, rfl⟩
abbrev main_v307 : Ref sig .tc := ⟨.hbm, 446, rfl⟩
abbrev main_v308 : Ref sig .tc := ⟨.hbm, 447, rfl⟩
abbrev main_v309 : Ref sig .tc := ⟨.hbm, 448, rfl⟩
abbrev main_call34_cst : Ref sig .tc := ⟨.hbm, 449, rfl⟩
abbrev main_call34_v0 : Ref sig .tc := ⟨.hbm, 450, rfl⟩
abbrev main_v310 : Ref sig .tc := ⟨.hbm, 451, rfl⟩
abbrev main_v311 : Ref sig .tc := ⟨.hbm, 452, rfl⟩
abbrev main_v312 : Ref sig .tc := ⟨.hbm, 453, rfl⟩
abbrev main_v313 : Ref sig .tc := ⟨.hbm, 454, rfl⟩
abbrev main_v314 : Ref sig .tc := ⟨.hbm, 455, rfl⟩
abbrev main_call35_cst : Ref sig .tc := ⟨.hbm, 456, rfl⟩
abbrev main_call35_v0 : Ref sig .tc := ⟨.hbm, 457, rfl⟩
abbrev main_v315 : Ref sig .tc := ⟨.hbm, 458, rfl⟩
abbrev main_v316 : Ref sig .tc := ⟨.hbm, 459, rfl⟩
abbrev main_v317 : Ref sig .tc := ⟨.hbm, 460, rfl⟩
abbrev main_v318 : Ref sig .tc := ⟨.hbm, 461, rfl⟩
abbrev main_v319 : Ref sig .tc := ⟨.hbm, 462, rfl⟩
abbrev main_v320 : Ref sig .tc := ⟨.hbm, 463, rfl⟩
abbrev main_v321 : Ref sig .tc := ⟨.hbm, 464, rfl⟩
abbrev main_v322 : Ref sig .tc := ⟨.hbm, 465, rfl⟩
abbrev main_v323 : Ref sig .tc := ⟨.hbm, 466, rfl⟩
abbrev main_v324 : Ref sig .tc := ⟨.hbm, 467, rfl⟩
abbrev main_call36_cst : Ref sig .tc := ⟨.hbm, 468, rfl⟩
abbrev main_call36_v0 : Ref sig .tc := ⟨.hbm, 469, rfl⟩
abbrev main_v325 : Ref sig .tc := ⟨.hbm, 470, rfl⟩
abbrev main_v326 : Ref sig .tc := ⟨.hbm, 471, rfl⟩
abbrev main_v327 : Ref sig .tc := ⟨.hbm, 472, rfl⟩
abbrev main_v328 : Ref sig .tc := ⟨.hbm, 473, rfl⟩
abbrev main_v329 : Ref sig .tc := ⟨.hbm, 474, rfl⟩
abbrev main_call37_cst : Ref sig .tc := ⟨.hbm, 475, rfl⟩
abbrev main_call37_v0 : Ref sig .tc := ⟨.hbm, 476, rfl⟩
abbrev main_v330 : Ref sig .tc := ⟨.hbm, 477, rfl⟩
abbrev main_v331 : Ref sig .tc := ⟨.hbm, 478, rfl⟩
abbrev main_v332 : Ref sig .tc := ⟨.hbm, 479, rfl⟩
abbrev main_v333 : Ref sig .tc := ⟨.hbm, 480, rfl⟩
abbrev main_v334 : Ref sig .tc := ⟨.hbm, 481, rfl⟩
abbrev main_v335 : Ref sig .tc := ⟨.hbm, 482, rfl⟩
abbrev main_v336 : Ref sig .tc := ⟨.hbm, 483, rfl⟩

abbrev nD : Nat := 1
abbrev τ : Topo := Topo.v7x

variable {F : FTy → Type} [FloatOps F]

class Facts₀ : Prop where
  bcast_S250000_S250000x1_0 : S250000.BroadcastsInDim S250000x1 (![0] : Fin 1 → Fin S250000x1.rank)
  bcast_S_S250000 : S_.BroadcastsInDim S250000 (![] : Fin 0 → Fin S250000.rank)
  bcast_S250000x1_S250000x128_0_1 : S250000x1.BroadcastsInDim S250000x128 (![0, 1] : Fin 2 → Fin S250000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S250000x1_S250000x128_1_0_n_n_0_1_1128_wf : GatherDims.WF S50000x128 S250000x1 S250000x128 [1] [0] [] [0] [] 1 ![1, 128]
  scatter_S50000x128_S250000x1_S250000x128_1_0_0_1_wf : ScatterDims.WF S50000x128 S250000x1 S250000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.RunValue.lean ====
/-
  The idealized kernel's run with its RESULT named. @main is twenty-one segments — eleven stretches of host operations and
  ten kernel regions between them — and the buffer contents at each boundary are a fold from the launch memory: a stretch
  applies its operations, a region leaves its output arrays at what its grid points wrote back and every other buffer as it
  found it. Every weakly fair execution terminates, and the final state holds, in every unscoped buffer, the last boundary's
  contents: in particular the product buffer holds the fold's value there, and the seventeen arguments are as launched.
-/
import proofs.«148168_j18485539242351_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main's segments, its post reading the product buffer and the arguments off the last boundary. -/
theorem run_value : θ_run defs (onTc (τ := τ) (main (F := F))) ⟨m, fun _ => 0, ρ⟩ (fun r => ∀ c : Dev nD,
      r.2.mem ((c.tc : Thread nD τ).loc main_v140) = W21 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v140 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c)⟩)

end Cert.KernelIdeal.RunValue

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«148168_j18485539242351_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.HostSpec.lean ====
/-
  The reference's stages as functions of arrays, in the host program's own spelling, and each stage read at an index
  on the extended reals.

  One propagation step `spmm` (gather the rows `x[col]`, scale by `val`, scatter-add into the rows `row`) is kept as one
  opaque term: both programs compute it by the same host operations, so nothing about it is ever opened.
  A layer is `relu`, then the row normalisation `r / max (sqrt (Σ_k r[i,k]²)) D`, then a product with a 128×128 weight.
  The head is a three-layer perceptron 128 → 256 → 256 → 1 with relu between layers, applied to the five layers'
  activations and summed; the result is the product of two such branches.
-/
import proofs.«148168_j18485539242351_2_alg».proof.ReferenceIdeal
import proofs.«148168_j18485539242351_2_alg».proof.Proof.LibRowReads
import proofs.«148168_j18485539242351_2_alg».proof.Proof.LibHostRead
import Idealize.ShloMosaic.PureOps.Ideal.Laws
import Idealize.ShloMosaic.Lib.ValueIdx
import Idealize.ShloMosaic.Lib.Pipeline.Value

noncomputable section

namespace Cert.Spec

open Cert.ReferenceIdeal Idealize.ShloMosaic Idealize.ShloMosaic.ValueIdx Cert.Lib

variable {F : FTy → Type} [FloatOps F] [Cert.ReferenceIdeal.Facts]
open Cert.ReferenceIdeal.Facts₀ Cert.ReferenceIdeal.Facts

abbrev IArr (F : FTy → Type) := (⟨S250000, .i32⟩ : BufTy).Contents (Elt F)
abbrev VArr (F : FTy → Type) := (⟨S250000, .f32⟩ : BufTy).Contents (Elt F)
abbrev Feat (F : FTy → Type) := (⟨S50000x128, .f32⟩ : BufTy).Contents (Elt F)
abbrev Hid (F : FTy → Type) := (⟨S50000x256, .f32⟩ : BufTy).Contents (Elt F)
abbrev Score (F : FTy → Type) := (⟨S50000x1, .f32⟩ : BufTy).Contents (Elt F)

/-- One propagation step: `out[i] = Σ_{e : row[e] = i} val[e] · x[col[e]]`, as the host computes it (negative
    column indices wrapped, rows gathered, scaled, scatter-added into zeros). -/
def spmmH (row col : IArr F) (val : VArr F) (x : Feat F) : Feat F :=
  Host.scatterAdd scatter_S50000x128_S250000x1_S250000x128_1_0_0_1
    (broadcastInDim S50000x128 ![] bcast_S_S50000x128 (constant S_ .f32 0x00000000#32))
    (broadcastInDim S250000x1 ![0] bcast_S250000_S250000x1_0 row)
    (mulf (broadcastInDim S250000x128 ![0, 1] bcast_S250000x1_S250000x128_0_1 (broadcastInDim S250000x1 ![0] bcast_S250000_S250000x1_0 val))
      (Host.gather gather_S50000x128_S250000x1_S250000x128_1_0_n_n_0_1_1128 x
        (broadcastInDim S250000x1 ![0] bcast_S250000_S250000x1_0
          (select (cmpi .slt col (broadcastInDim S250000 ![] bcast_S_S250000 (constantI S_ 32 0#32)))
            (addi col (broadcastInDim S250000 ![] bcast_S_S250000 (constantI S_ 32 50000#32))) col))))

/-- `relu` of a feature array. -/
def reluH (y : Feat F) : Feat F :=
  maximumf y (broadcastInDim S50000x128 ![] bcast_S_S50000x128 (constant S_ .f32 0x00000000#32))

/-- Row normalisation: each row divided by its clamped Euclidean norm. -/
def normH (r : Feat F) : Feat F :=
  Host.divf r (broadcastInDim S50000x128 ![0, 1] bcast_S50000x1_S50000x128_0_1
    (maximumf
      (Host.sqrt (broadcastInDim S50000x1 ![0] bcast_S50000_S50000x1_0
        (Host.reduceAdd (mulf r r) (constant S_ .f32 0x00000000#32) reducesTo_S50000x128_S50000_d1 h_S_)))
      (broadcastInDim S50000x1 ![] bcast_S_S50000x1 (constant S_ .f32 0x2B8CBCCC#32))))

/-- The product with a layer's 128×128 weight. -/
def dotH (x : Feat F) (w : (⟨S128x128, .f32⟩ : BufTy).Contents (Elt F)) : Feat F :=
  Host.dotGeneral dot_S50000x128_S128x128_S50000x128_1_0_0_1_n_n none x w

/-- The perceptron's first layer, 128 → 256, with its relu. -/
def lay1H (x : Feat F) (w : (⟨S128x256, .f32⟩ : BufTy).Contents (Elt F)) (b : (⟨S256, .f32⟩ : BufTy).Contents (Elt F)) : Hid F :=
  maximumf
    (addf (Host.dotGeneral dot_S50000x128_S128x256_S50000x256_1_0_0_1_n_n none x w)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The second layer, 256 → 256, with its relu. -/
def lay2H (h : Hid F) (w : (⟨S256x256, .f32⟩ : BufTy).Contents (Elt F)) (b : (⟨S256, .f32⟩ : BufTy).Contents (Elt F)) : Hid F :=
  maximumf
    (addf (Host.dotGeneral dot_S50000x256_S256x256_S50000x256_1_0_0_1_n_n none h w)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The last layer, 256 → 1. -/
def lay3H (h : Hid F) (w : (⟨S256x1, .f32⟩ : BufTy).Contents (Elt F)) (b : (⟨S1, .f32⟩ : BufTy).Contents (Elt F)) : Score F :=
  addf (Host.dotGeneral dot_S50000x256_S256x1_S50000x1_1_0_0_1_n_n none h w)
    (broadcastInDim S50000x1 ![0, 1] bcast_S1x1_S50000x1_0_1 (broadcastInDim S1x1 ![1] bcast_S1_S1x1_1 b))

/-- The perceptron. -/
def mlpH (x : Feat F) (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F))
    (w3 : (⟨S256x1, .f32⟩ : BufTy).Contents (Elt F)) (b3 : (⟨S1, .f32⟩ : BufTy).Contents (Elt F)) : Score F :=
  lay3H (lay2H (lay1H x w1 b1) w2 b2) w3 b3

/-- The head: the perceptron of the four normalised activations and of the relu of the last propagation, summed. -/
def headH (x1 x2 x3 x4 y5 : Feat F) (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F))
    (w3 : (⟨S256x1, .f32⟩ : BufTy).Contents (Elt F)) (b3 : (⟨S1, .f32⟩ : BufTy).Contents (Elt F)) : Score F :=
  addf (addf (addf (addf (mlpH x1 w1 b1 w2 b2 w3 b3) (mlpH x2 w1 b1 w2 b2 w3 b3)) (mlpH x3 w1 b1 w2 b2 w3 b3)) (mlpH x4 w1 b1 w2 b2 w3 b3))
    (mlpH (reluH y5) w1 b1 w2 b2 w3 b3)

/-! ## The chain of layers, the branch and the result -/

section Chain

variable (r c : IArr F) (v : VArr F) (w0 : Feat F)
  (g2 g3 g4 g5 : (⟨S128x128, .f32⟩ : BufTy).Contents (Elt F))

/-- First layer's activations. -/
def x1H : Feat F := normH (reluH (spmmH r c v w0))
/-- Second layer's activations. -/
def x2H : Feat F := normH (reluH (spmmH r c v (dotH (x1H r c v w0) g2)))
/-- Third layer's. -/
def x3H : Feat F := normH (reluH (spmmH r c v (dotH (x2H r c v w0 g2) g3)))
/-- Fourth layer's. -/
def x4H : Feat F := normH (reluH (spmmH r c v (dotH (x3H r c v w0 g2 g3) g4)))
/-- The last propagation, before its relu. -/
def y5H : Feat F := spmmH r c v (dotH (x4H r c v w0 g2 g3 g4) g5)

/-- One branch: the head of the five layers of one graph. -/
def branchH (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F))
    (w3 : (⟨S256x1, .f32⟩ : BufTy).Contents (Elt F)) (b3 : (⟨S1, .f32⟩ : BufTy).Contents (Elt F)) : Score F :=
  headH (x1H r c v w0) (x2H r c v w0 g2) (x3H r c v w0 g2 g3) (x4H r c v w0 g2 g3 g4) (y5H r c v w0 g2 g3 g4 g5) w1 b1 w2 b2 w3 b3

end Chain

/-- The result: the product of the two graphs' branches. -/
def resultH (a0 a1 : IArr F) (a2 : VArr F) (a3 a4 : IArr F) (a5 : VArr F) (a6 : Feat F)
    (a7 a8 a9 a10 : (⟨S128x128, .f32⟩ : BufTy).Contents (Elt F))
    (a11 : (⟨S128x256, .f32⟩ : BufTy).Contents (Elt F)) (a12 : (⟨S256, .f32⟩ : BufTy).Contents (Elt F))
    (a13 : (⟨S256x256, .f32⟩ : BufTy).Contents (Elt F)) (a14 : (⟨S256, .f32⟩ : BufTy).Contents (Elt F))
    (a15 : (⟨S256x1, .f32⟩ : BufTy).Contents (Elt F)) (a16 : (⟨S1, .f32⟩ : BufTy).Contents (Elt F)) : Score F :=
  mulf (branchH a0 a1 a2 a6 a7 a8 a9 a10 a11 a12 a13 a14 a15 a16) (branchH a3 a4 a5 a6 a7 a8 a9 a10 a11 a12 a13 a14 a15 a16)

/-! ## Each stage at an index, on the extended reals -/

/-- `relu` at an index. -/
theorem reluH_apply (y : Feat Ideal) (i : S50000x128.Idx) : reluH y i = max (y i) 0 := by
  unfold reluH
  rw [maximumf_apply, bcast_const_apply, Ideal.ofBits_zero_f32]

theorem hostDivf_apply {s : Shape} {φ : FTy} (a b : FVec Ideal s φ) (i : s.Idx) : Host.divf a b i = Ideal.div (a i) (b i) := rfl

theorem hostSqrt_apply {s : Shape} {φ : FTy} (a : FVec Ideal s φ) (i : s.Idx) : Host.sqrt a i = Ideal.sqrt (a i) := rfl

/-- The host's sum along a row, from zero. -/
theorem rowSumH_apply (x : Feat Ideal) (i : Fin 50000) :
    Host.reduceAdd x (constant (F := Ideal) S_ .f32 0x00000000#32) reducesTo_S50000x128_S50000_d1 h_S_ (ix1 i)
      = 0 + ∑ k : Fin 128, x (ix2 i k) := by
  simp only [Host.reduceAdd, Ideal.hostReduceAdd_def]
  rw [Ideal.hostReduceAdd_single reducesTo_S50000x128_S50000_d1 (by decide)]
  rw [constant_apply, Ideal.ofBits_zero_f32]
  refine congrArg (0 + ·) (Finset.sum_congr rfl fun k _ => ?_)
  exact congrArg x (funext fun a => Fin.ext (by match a with | ⟨0, _⟩ => rfl | ⟨1, _⟩ => rfl))

/-- The normalised rows at (r, q): the entry over the clamped root of its row's sum of squares. -/
theorem normH_apply (r : Feat Ideal) (i : Fin 50000) (q : Fin 128) :
    normH r (ix2 i q)
      = Ideal.div (r (ix2 i q)) (max (Ideal.sqrt (0 + ∑ k : Fin 128, r (ix2 i k) * r (ix2 i k))) (Ideal.ofBits .f32 0x2B8CBCCC#32)) := by
  unfold normH
  rw [hostDivf_apply, spread_apply ![0, 1] rfl rfl, maximumf_apply, bcast_const_apply, hostSqrt_apply, col_apply ![0] rfl,
    rowSumH_apply]
  simp only [mulf_apply]

/-- The layer's product at (r, q). -/
theorem dotH_apply (x : Feat Ideal) (w : (⟨S128x128, .f32⟩ : BufTy).Contents (Elt Ideal)) (i : Fin 50000) (q : Fin 128) :
    dotH x w (ix2 i q) = ∑ k : Fin 128, x (ix2 i k) * w (ix2 k q) :=
  dotGeneral_at dot_S50000x128_S128x128_S50000x128_1_0_0_1_n_n rfl rfl rfl rfl rfl rfl none x w i q

/-- The first layer at (r, j). -/
theorem lay1H_apply (x : Feat Ideal) (w : (⟨S128x256, .f32⟩ : BufTy).Contents (Elt Ideal)) (b : (⟨S256, .f32⟩ : BufTy).Contents (Elt Ideal))
    (i : Fin 50000) (j : Fin 256) :
    lay1H x w b (ix2 i j) = max ((∑ k : Fin 128, x (ix2 i k) * w (ix2 k j)) + b (ix1 j)) 0 := by
  unfold lay1H
  rw [maximumf_apply, addf_apply, bcast_const_apply, Ideal.ofBits_zero_f32, bcastInDim_vecRows_apply,
    dotGeneral_at dot_S50000x128_S128x256_S50000x256_1_0_0_1_n_n rfl rfl rfl rfl rfl rfl]

/-- The second layer at (r, j). -/
theorem lay2H_apply (h : Hid Ideal) (w : (⟨S256x256, .f32⟩ : BufTy).Contents (Elt Ideal)) (b : (⟨S256, .f32⟩ : BufTy).Contents (Elt Ideal))
    (i : Fin 50000) (j : Fin 256) :
    lay2H h w b (ix2 i j) = max ((∑ k : Fin 256, h (ix2 i k) * w (ix2 k j)) + b (ix1 j)) 0 := by
  unfold lay2H
  rw [maximumf_apply, addf_apply, bcast_const_apply, Ideal.ofBits_zero_f32, bcastInDim_vecRows_apply,
    dotGeneral_at dot_S50000x256_S256x256_S50000x256_1_0_0_1_n_n rfl rfl rfl rfl rfl rfl]

/-- The last layer at (r, 0). -/
theorem lay3H_apply (h : Hid Ideal) (w : (⟨S256x1, .f32⟩ : BufTy).Contents (Elt Ideal)) (b : (⟨S1, .f32⟩ : BufTy).Contents (Elt Ideal))
    (i : Fin 50000) (z : Fin 1) :
    lay3H h w b (ix2 i z) = (∑ k : Fin 256, h (ix2 i k) * w (ix2 k z)) + b (ix1 z) := by
  unfold lay3H
  rw [addf_apply, bcastInDim_vecRows_apply,
    dotGeneral_at dot_S50000x256_S256x1_S50000x1_1_0_0_1_n_n rfl rfl rfl rfl rfl rfl]

end Cert.Spec

end
-- ==== Proof.KFoldStretch.lean ====
/-
  One stretch of the idealized kernel's host operations, from ANY contents `W` of the buffers: each of the ten long
  stretches is one propagation step (gather, scale, scatter-add) of `W` at the stretch's four operands, the last stretch
  multiplies the two scores, and a stretch leaves every buffer it does not write as `W` has it.
-/
import proofs.«148168_j18485539242351_2_alg».proof.Proof.Gen.KernelIdeal.Launch
import proofs.«148168_j18485539242351_2_alg».proof.Proof.HostSpec
import Idealize.ShloMosaic.Lib.StableHlo.Run

set_option maxRecDepth 16384

noncomputable section

namespace Cert.KFold

open Cert.KernelIdeal Cert.KernelIdeal.Gen Idealize.ShloMosaic Idealize.ShloMosaic.TcCoe Idealize.ShloMosaic.StableHlo
open Idealize.SL.Sem Cert.Spec

variable [Cert.ReferenceIdeal.Facts]

/-- The product of two score columns. -/
def prodH {F : FTy → Type} [FloatOps F] (a b : Score F) : Score F := mulf a b

/-! ## A stretch of host operations, from any contents -/

section Stretches

variable (W : Valuation τ sig (Elt Ideal))

/-- Stretch 0 is one propagation step of the contents it starts from. -/
theorem stretch0 : StableHlo.after (hostOps0 (F := Ideal)) W (Proc.devRef .tc main_v12)
    = spmmH (W (Proc.devRef .tc main_arg0)) (W (Proc.devRef .tc main_arg1)) (W (Proc.devRef .tc main_arg2)) (W (Proc.devRef .tc main_arg6)) := by
  after_results_simp
  rfl

/-- Stretch 1 is one propagation step of the contents it starts from. -/
theorem stretch1 : StableHlo.after (hostOps1 (F := Ideal)) W (Proc.devRef .tc main_v26)
    = spmmH (W (Proc.devRef .tc main_arg0)) (W (Proc.devRef .tc main_arg1)) (W (Proc.devRef .tc main_arg2)) (W (Proc.devRef .tc main_v13_1)) := by
  after_results_simp
  rfl

/-- Stretch 2 is one propagation step of the contents it starts from. -/
theorem stretch2 : StableHlo.after (hostOps2 (F := Ideal)) W (Proc.devRef .tc main_v40)
    = spmmH (W (Proc.devRef .tc main_arg0)) (W (Proc.devRef .tc main_arg1)) (W (Proc.devRef .tc main_arg2)) (W (Proc.devRef .tc main_v27_1)) := by
  after_results_simp
  rfl

/-- Stretch 3 is one propagation step of the contents it starts from. -/
theorem stretch3 : StableHlo.after (hostOps3 (F := Ideal)) W (Proc.devRef .tc main_v54)
    = spmmH (W (Proc.devRef .tc main_arg0)) (W (Proc.devRef .tc main_arg1)) (W (Proc.devRef .tc main_arg2)) (W (Proc.devRef .tc main_v41_1)) := by
  after_results_simp
  rfl

/-- Stretch 4 is one propagation step of the contents it starts from. -/
theorem stretch4 : StableHlo.after (hostOps4 (F := Ideal)) W (Proc.devRef .tc main_v68)
    = spmmH (W (Proc.devRef .tc main_arg0)) (W (Proc.devRef .tc main_arg1)) (W (Proc.devRef .tc main_arg2)) (W (Proc.devRef .tc main_v55_1)) := by
  after_results_simp
  rfl

/-- Stretch 5 is one propagation step of the contents it starts from. -/
theorem stretch5 : StableHlo.after (hostOps5 (F := Ideal)) W (Proc.devRef .tc main_v82)
    = spmmH (W (Proc.devRef .tc main_arg3)) (W (Proc.devRef .tc main_arg4)) (W (Proc.devRef .tc main_arg5)) (W (Proc.devRef .tc main_arg6)) := by
  after_results_simp
  rfl

/-- Stretch 6 is one propagation step of the contents it starts from. -/
theorem stretch6 : StableHlo.after (hostOps6 (F := Ideal)) W (Proc.devRef .tc main_v96)
    = spmmH (W (Proc.devRef .tc main_arg3)) (W (Proc.devRef .tc main_arg4)) (W (Proc.devRef .tc main_arg5)) (W (Proc.devRef .tc main_v83_1)) := by
  after_results_simp
  rfl

/-- Stretch 7 is one propagation step of the contents it starts from. -/
theorem stretch7 : StableHlo.after (hostOps7 (F := Ideal)) W (Proc.devRef .tc main_v110)
    = spmmH (W (Proc.devRef .tc main_arg3)) (W (Proc.devRef .tc main_arg4)) (W (Proc.devRef .tc main_arg5)) (W (Proc.devRef .tc main_v97_1)) := by
  after_results_simp
  rfl

/-- Stretch 8 is one propagation step of the contents it starts from. -/
theorem stretch8 : StableHlo.after (hostOps8 (F := Ideal)) W (Proc.devRef .tc main_v124)
    = spmmH (W (Proc.devRef .tc main_arg3)) (W (Proc.devRef .tc main_arg4)) (W (Proc.devRef .tc main_arg5)) (W (Proc.devRef .tc main_v111_1)) := by
  after_results_simp
  rfl

/-- Stretch 9 is one propagation step of the contents it starts from. -/
theorem stretch9 : StableHlo.after (hostOps9 (F := Ideal)) W (Proc.devRef .tc main_v138)
    = spmmH (W (Proc.devRef .tc main_arg3)) (W (Proc.devRef .tc main_arg4)) (W (Proc.devRef .tc main_arg5)) (W (Proc.devRef .tc main_v125_1)) := by
  after_results_simp
  rfl

/-- The last stretch multiplies the two branches' scores. -/
theorem stretch10 : StableHlo.after (hostOps10 (F := Ideal)) W (Proc.devRef .tc main_v140)
    = prodH (W (Proc.devRef .tc main_v69)) (W (Proc.devRef .tc main_v139)) := by
  after_results_simp
  rfl

/-! ### What a stretch leaves alone -/

theorem keepH0_main_arg0 : StableHlo.after (hostOps0 (F := Ideal)) W (Proc.devRef .tc main_arg0) = W (Proc.devRef .tc main_arg0) := by
  after_results_simp
theorem keepH1_main_arg0 : StableHlo.after (hostOps1 (F := Ideal)) W (Proc.devRef .tc main_arg0) = W (Proc.devRef .tc main_arg0) := by
  after_results_simp
theorem keepH2_main_arg0 : StableHlo.after (hostOps2 (F := Ideal)) W (Proc.devRef .tc main_arg0) = W (Proc.devRef .tc main_arg0) := by
  after_results_simp
theorem keepH3_main_arg0 : StableHlo.after (hostOps3 (F := Ideal)) W (Proc.devRef .tc main_arg0) = W (Proc.devRef .tc main_arg0) := by
  after_results_simp
theorem keepH0_main_arg1 : StableHlo.after (hostOps0 (F := Ideal)) W (Proc.devRef .tc main_arg1) = W (Proc.devRef .tc main_arg1) := by
  after_results_simp
theorem keepH1_main_arg1 : StableHlo.after (hostOps1 (F := Ideal)) W (Proc.devRef .tc main_arg1) = W (Proc.devRef .tc main_arg1) := by
  after_results_simp
theorem keepH2_main_arg1 : StableHlo.after (hostOps2 (F := Ideal)) W (Proc.devRef .tc main_arg1) = W (Proc.devRef .tc main_arg1) := by
  after_results_simp
theorem keepH3_main_arg1 : StableHlo.after (hostOps3 (F := Ideal)) W (Proc.devRef .tc main_arg1) = W (Proc.devRef .tc main_arg1) := by
  after_results_simp
theorem keepH0_main_arg2 : StableHlo.after (hostOps0 (F := Ideal)) W (Proc.devRef .tc main_arg2) = W (Proc.devRef .tc main_arg2) := by
  after_results_simp
theorem keepH1_main_arg2 : StableHlo.after (hostOps1 (F := Ideal)) W (Proc.devRef .tc main_arg2) = W (Proc.devRef .tc main_arg2) := by
  after_results_simp
theorem keepH2_main_arg2 : StableHlo.after (hostOps2 (F := Ideal)) W (Proc.devRef .tc main_arg2) = W (Proc.devRef .tc main_arg2) := by
  after_results_simp
theorem keepH3_main_arg2 : StableHlo.after (hostOps3 (F := Ideal)) W (Proc.devRef .tc main_arg2) = W (Proc.devRef .tc main_arg2) := by
  after_results_simp
theorem keepH0_main_arg3 : StableHlo.after (hostOps0 (F := Ideal)) W (Proc.devRef .tc main_arg3) = W (Proc.devRef .tc main_arg3) := by
  after_results_simp
theorem keepH1_main_arg3 : StableHlo.after (hostOps1 (F := Ideal)) W (Proc.devRef .tc main_arg3) = W (Proc.devRef .tc main_arg3) := by
  after_results_simp
theorem keepH2_main_arg3 : StableHlo.after (hostOps2 (F := Ideal)) W (Proc.devRef .tc main_arg3) = W (Proc.devRef .tc main_arg3) := by
  after_results_simp
theorem keepH3_main_arg3 : StableHlo.after (hostOps3 (F := Ideal)) W (Proc.devRef .tc main_arg3) = W (Proc.devRef .tc main_arg3) := by
  after_results_simp
theorem keepH4_main_arg3 : StableHlo.after (hostOps4 (F := Ideal)) W (Proc.devRef .tc main_arg3) = W (Proc.devRef .tc main_arg3) := by
  after_results_simp
theorem keepH5_main_arg3 : StableHlo.after (hostOps5 (F := Ideal)) W (Proc.devRef .tc main_arg3) = W (Proc.devRef .tc main_arg3) := by
  after_results_simp
theorem keepH6_main_arg3 : StableHlo.after (hostOps6 (F := Ideal)) W (Proc.devRef .tc main_arg3) = W (Proc.devRef .tc main_arg3) := by
  after_results_simp
theorem keepH7_main_arg3 : StableHlo.after (hostOps7 (F := Ideal)) W (Proc.devRef .tc main_arg3) = W (Proc.devRef .tc main_arg3) := by
  after_results_simp
theorem keepH8_main_arg3 : StableHlo.after (hostOps8 (F := Ideal)) W (Proc.devRef .tc main_arg3) = W (Proc.devRef .tc main_arg3) := by
  after_results_simp
theorem keepH0_main_arg4 : StableHlo.after (hostOps0 (F := Ideal)) W (Proc.devRef .tc main_arg4) = W (Proc.devRef .tc main_arg4) := by
  after_results_simp
theorem keepH1_main_arg4 : StableHlo.after (hostOps1 (F := Ideal)) W (Proc.devRef .tc main_arg4) = W (Proc.devRef .tc main_arg4) := by
  after_results_simp
theorem keepH2_main_arg4 : StableHlo.after (hostOps2 (F := Ideal)) W (Proc.devRef .tc main_arg4) = W (Proc.devRef .tc main_arg4) := by
  after_results_simp
theorem keepH3_main_arg4 : StableHlo.after (hostOps3 (F := Ideal)) W (Proc.devRef .tc main_arg4) = W (Proc.devRef .tc main_arg4) := by
  after_results_simp
theorem keepH4_main_arg4 : StableHlo.after (hostOps4 (F := Ideal)) W (Proc.devRef .tc main_arg4) = W (Proc.devRef .tc main_arg4) := by
  after_results_simp
theorem keepH5_main_arg4 : StableHlo.after (hostOps5 (F := Ideal)) W (Proc.devRef .tc main_arg4) = W (Proc.devRef .tc main_arg4) := by
  after_results_simp
theorem keepH6_main_arg4 : StableHlo.after (hostOps6 (F := Ideal)) W (Proc.devRef .tc main_arg4) = W (Proc.devRef .tc main_arg4) := by
  after_results_simp
theorem keepH7_main_arg4 : StableHlo.after (hostOps7 (F := Ideal)) W (Proc.devRef .tc main_arg4) = W (Proc.devRef .tc main_arg4) := by
  after_results_simp
theorem keepH8_main_arg4 : StableHlo.after (hostOps8 (F := Ideal)) W (Proc.devRef .tc main_arg4) = W (Proc.devRef .tc main_arg4) := by
  after_results_simp
theorem keepH0_main_arg5 : StableHlo.after (hostOps0 (F := Ideal)) W (Proc.devRef .tc main_arg5) = W (Proc.devRef .tc main_arg5) := by
  after_results_simp
theorem keepH1_main_arg5 : StableHlo.after (hostOps1 (F := Ideal)) W (Proc.devRef .tc main_arg5) = W (Proc.devRef .tc main_arg5) := by
  after_results_simp
theorem keepH2_main_arg5 : StableHlo.after (hostOps2 (F := Ideal)) W (Proc.devRef .tc main_arg5) = W (Proc.devRef .tc main_arg5) := by
  after_results_simp
theorem keepH3_main_arg5 : StableHlo.after (hostOps3 (F := Ideal)) W (Proc.devRef .tc main_arg5) = W (Proc.devRef .tc main_arg5) := by
  after_results_simp
theorem keepH4_main_arg5 : StableHlo.after (hostOps4 (F := Ideal)) W (Proc.devRef .tc main_arg5) = W (Proc.devRef .tc main_arg5) := by
  after_results_simp
theorem keepH5_main_arg5 : StableHlo.after (hostOps5 (F := Ideal)) W (Proc.devRef .tc main_arg5) = W (Proc.devRef .tc main_arg5) := by
  after_results_simp
theorem keepH6_main_arg5 : StableHlo.after (hostOps6 (F := Ideal)) W (Proc.devRef .tc main_arg5) = W (Proc.devRef .tc main_arg5) := by
  after_results_simp
theorem keepH7_main_arg5 : StableHlo.after (hostOps7 (F := Ideal)) W (Proc.devRef .tc main_arg5) = W (Proc.devRef .tc main_arg5) := by
  after_results_simp
theorem keepH8_main_arg5 : StableHlo.after (hostOps8 (F := Ideal)) W (Proc.devRef .tc main_arg5) = W (Proc.devRef .tc main_arg5) := by
  after_results_simp
theorem keepH0_main_arg6 : StableHlo.after (hostOps0 (F := Ideal)) W (Proc.devRef .tc main_arg6) = W (Proc.devRef .tc main_arg6) := by
  after_results_simp
theorem keepH1_main_arg6 : StableHlo.after (hostOps1 (F := Ideal)) W (Proc.devRef .tc main_arg6) = W (Proc.devRef .tc main_arg6) := by
  after_results_simp
theorem keepH2_main_arg6 : StableHlo.after (hostOps2 (F := Ideal)) W (Proc.devRef .tc main_arg6) = W (Proc.devRef .tc main_arg6) := by
  after_results_simp
theorem keepH3_main_arg6 : StableHlo.after (hostOps3 (F := Ideal)) W (Proc.devRef .tc main_arg6) = W (Proc.devRef .tc main_arg6) := by
  after_results_simp
theorem keepH4_main_arg6 : StableHlo.after (hostOps4 (F := Ideal)) W (Proc.devRef .tc main_arg6) = W (Proc.devRef .tc main_arg6) := by
  after_results_simp
theorem keepH0_main_arg7 : StableHlo.after (hostOps0 (F := Ideal)) W (Proc.devRef .tc main_arg7) = W (Proc.devRef .tc main_arg7) := by
  after_results_simp
theorem keepH1_main_arg7 : StableHlo.after (hostOps1 (F := Ideal)) W (Proc.devRef .tc main_arg7) = W (Proc.devRef .tc main_arg7) := by
  after_results_simp
theorem keepH2_main_arg7 : StableHlo.after (hostOps2 (F := Ideal)) W (Proc.devRef .tc main_arg7) = W (Proc.devRef .tc main_arg7) := by
  after_results_simp
theorem keepH3_main_arg7 : StableHlo.after (hostOps3 (F := Ideal)) W (Proc.devRef .tc main_arg7) = W (Proc.devRef .tc main_arg7) := by
  after_results_simp
theorem keepH4_main_arg7 : StableHlo.after (hostOps4 (F := Ideal)) W (Proc.devRef .tc main_arg7) = W (Proc.devRef .tc main_arg7) := by
  after_results_simp
theorem keepH5_main_arg7 : StableHlo.after (hostOps5 (F := Ideal)) W (Proc.devRef .tc main_arg7) = W (Proc.devRef .tc main_arg7) := by
  after_results_simp
theorem keepH0_main_arg8 : StableHlo.after (hostOps0 (F := Ideal)) W (Proc.devRef .tc main_arg8) = W (Proc.devRef .tc main_arg8) := by
  after_results_simp
theorem keepH1_main_arg8 : StableHlo.after (hostOps1 (F := Ideal)) W (Proc.devRef .tc main_arg8) = W (Proc.devRef .tc main_arg8) := by
  after_results_simp
theorem keepH2_main_arg8 : StableHlo.after (hostOps2 (F := Ideal)) W (Proc.devRef .tc main_arg8) = W (Proc.devRef .tc main_arg8) := by
  after_results_simp
theorem keepH3_main_arg8 : StableHlo.after (hostOps3 (F := Ideal)) W (Proc.devRef .tc main_arg8) = W (Proc.devRef .tc main_arg8) := by
  after_results_simp
theorem keepH4_main_arg8 : StableHlo.after (hostOps4 (F := Ideal)) W (Proc.devRef .tc main_arg8) = W (Proc.devRef .tc main_arg8) := by
  after_results_simp
theorem keepH5_main_arg8 : StableHlo.after (hostOps5 (F := Ideal)) W (Proc.devRef .tc main_arg8) = W (Proc.devRef .tc main_arg8) := by
  after_results_simp
theorem keepH6_main_arg8 : StableHlo.after (hostOps6 (F := Ideal)) W (Proc.devRef .tc main_arg8) = W (Proc.devRef .tc main_arg8) := by
  after_results_simp
theorem keepH0_main_arg9 : StableHlo.after (hostOps0 (F := Ideal)) W (Proc.devRef .tc main_arg9) = W (Proc.devRef .tc main_arg9) := by
  after_results_simp
theorem keepH1_main_arg9 : StableHlo.after (hostOps1 (F := Ideal)) W (Proc.devRef .tc main_arg9) = W (Proc.devRef .tc main_arg9) := by
  after_results_simp
theorem keepH2_main_arg9 : StableHlo.after (hostOps2 (F := Ideal)) W (Proc.devRef .tc main_arg9) = W (Proc.devRef .tc main_arg9) := by
  after_results_simp
theorem keepH3_main_arg9 : StableHlo.after (hostOps3 (F := Ideal)) W (Proc.devRef .tc main_arg9) = W (Proc.devRef .tc main_arg9) := by
  after_results_simp
theorem keepH4_main_arg9 : StableHlo.after (hostOps4 (F := Ideal)) W (Proc.devRef .tc main_arg9) = W (Proc.devRef .tc main_arg9) := by
  after_results_simp
theorem keepH5_main_arg9 : StableHlo.after (hostOps5 (F := Ideal)) W (Proc.devRef .tc main_arg9) = W (Proc.devRef .tc main_arg9) := by
  after_results_simp
theorem keepH6_main_arg9 : StableHlo.after (hostOps6 (F := Ideal)) W (Proc.devRef .tc main_arg9) = W (Proc.devRef .tc main_arg9) := by
  after_results_simp
theorem keepH7_main_arg9 : StableHlo.after (hostOps7 (F := Ideal)) W (Proc.devRef .tc main_arg9) = W (Proc.devRef .tc main_arg9) := by
  after_results_simp
theorem keepH0_main_arg10 : StableHlo.after (hostOps0 (F := Ideal)) W (Proc.devRef .tc main_arg10) = W (Proc.devRef .tc main_arg10) := by
  after_results_simp
theorem keepH1_main_arg10 : StableHlo.after (hostOps1 (F := Ideal)) W (Proc.devRef .tc main_arg10) = W (Proc.devRef .tc main_arg10) := by
  after_results_simp
theorem keepH2_main_arg10 : StableHlo.after (hostOps2 (F := Ideal)) W (Proc.devRef .tc main_arg10) = W (Proc.devRef .tc main_arg10) := by
  after_results_simp
theorem keepH3_main_arg10 : StableHlo.after (hostOps3 (F := Ideal)) W (Proc.devRef .tc main_arg10) = W (Proc.devRef .tc main_arg10) := by
  after_results_simp
theorem keepH4_main_arg10 : StableHlo.after (hostOps4 (F := Ideal)) W (Proc.devRef .tc main_arg10) = W (Proc.devRef .tc main_arg10) := by
  after_results_simp
theorem keepH5_main_arg10 : StableHlo.after (hostOps5 (F := Ideal)) W (Proc.devRef .tc main_arg10) = W (Proc.devRef .tc main_arg10) := by
  after_results_simp
theorem keepH6_main_arg10 : StableHlo.after (hostOps6 (F := Ideal)) W (Proc.devRef .tc main_arg10) = W (Proc.devRef .tc main_arg10) := by
  after_results_simp
theorem keepH7_main_arg10 : StableHlo.after (hostOps7 (F := Ideal)) W (Proc.devRef .tc main_arg10) = W (Proc.devRef .tc main_arg10) := by
  after_results_simp
theorem keepH8_main_arg10 : StableHlo.after (hostOps8 (F := Ideal)) W (Proc.devRef .tc main_arg10) = W (Proc.devRef .tc main_arg10) := by
  after_results_simp
theorem keepH0_main_arg11 : StableHlo.after (hostOps0 (F := Ideal)) W (Proc.devRef .tc main_arg11) = W (Proc.devRef .tc main_arg11) := by
  after_results_simp
theorem keepH1_main_arg11 : StableHlo.after (hostOps1 (F := Ideal)) W (Proc.devRef .tc main_arg11) = W (Proc.devRef .tc main_arg11) := by
  after_results_simp
theorem keepH2_main_arg11 : StableHlo.after (hostOps2 (F := Ideal)) W (Proc.devRef .tc main_arg11) = W (Proc.devRef .tc main_arg11) := by
  after_results_simp
theorem keepH3_main_arg11 : StableHlo.after (hostOps3 (F := Ideal)) W (Proc.devRef .tc main_arg11) = W (Proc.devRef .tc main_arg11) := by
  after_results_simp
theorem keepH4_main_arg11 : StableHlo.after (hostOps4 (F := Ideal)) W (Proc.devRef .tc main_arg11) = W (Proc.devRef .tc main_arg11) := by
  after_results_simp
theorem keepH5_main_arg11 : StableHlo.after (hostOps5 (F := Ideal)) W (Proc.devRef .tc main_arg11) = W (Proc.devRef .tc main_arg11) := by
  after_results_simp
theorem keepH6_main_arg11 : StableHlo.after (hostOps6 (F := Ideal)) W (Proc.devRef .tc main_arg11) = W (Proc.devRef .tc main_arg11) := by
  after_results_simp
theorem keepH7_main_arg11 : StableHlo.after (hostOps7 (F := Ideal)) W (Proc.devRef .tc main_arg11) = W (Proc.devRef .tc main_arg11) := by
  after_results_simp
theorem keepH8_main_arg11 : StableHlo.after (hostOps8 (F := Ideal)) W (Proc.devRef .tc main_arg11) = W (Proc.devRef .tc main_arg11) := by
  after_results_simp
theorem keepH9_main_arg11 : StableHlo.after (hostOps9 (F := Ideal)) W (Proc.devRef .tc main_arg11) = W (Proc.devRef .tc main_arg11) := by
  after_results_simp
theorem keepH0_main_arg12 : StableHlo.after (hostOps0 (F := Ideal)) W (Proc.devRef .tc main_arg12) = W (Proc.devRef .tc main_arg12) := by
  after_results_simp
theorem keepH1_main_arg12 : StableHlo.after (hostOps1 (F := Ideal)) W (Proc.devRef .tc main_arg12) = W (Proc.devRef .tc main_arg12) := by
  after_results_simp
theorem keepH2_main_arg12 : StableHlo.after (hostOps2 (F := Ideal)) W (Proc.devRef .tc main_arg12) = W (Proc.devRef .tc main_arg12) := by
  after_results_simp
theorem keepH3_main_arg12 : StableHlo.after (hostOps3 (F := Ideal)) W (Proc.devRef .tc main_arg12) = W (Proc.devRef .tc main_arg12) := by
  after_results_simp
theorem keepH4_main_arg12 : StableHlo.after (hostOps4 (F := Ideal)) W (Proc.devRef .tc main_arg12) = W (Proc.devRef .tc main_arg12) := by
  after_results_simp
theorem keepH5_main_arg12 : StableHlo.after (hostOps5 (F := Ideal)) W (Proc.devRef .tc main_arg12) = W (Proc.devRef .tc main_arg12) := by
  after_results_simp
theorem keepH6_main_arg12 : StableHlo.after (hostOps6 (F := Ideal)) W (Proc.devRef .tc main_arg12) = W (Proc.devRef .tc main_arg12) := by
  after_results_simp
theorem keepH7_main_arg12 : StableHlo.after (hostOps7 (F := Ideal)) W (Proc.devRef .tc main_arg12) = W (Proc.devRef .tc main_arg12) := by
  after_results_simp
theorem keepH8_main_arg12 : StableHlo.after (hostOps8 (F := Ideal)) W (Proc.devRef .tc main_arg12) = W (Proc.devRef .tc main_arg12) := by
  after_results_simp
theorem keepH9_main_arg12 : StableHlo.after (hostOps9 (F := Ideal)) W (Proc.devRef .tc main_arg12) = W (Proc.devRef .tc main_arg12) := by
  after_results_simp
theorem keepH0_main_arg13 : StableHlo.after (hostOps0 (F := Ideal)) W (Proc.devRef .tc main_arg13) = W (Proc.devRef .tc main_arg13) := by
  after_results_simp
theorem keepH1_main_arg13 : StableHlo.after (hostOps1 (F := Ideal)) W (Proc.devRef .tc main_arg13) = W (Proc.devRef .tc main_arg13) := by
  after_results_simp
theorem keepH2_main_arg13 : StableHlo.after (hostOps2 (F := Ideal)) W (Proc.devRef .tc main_arg13) = W (Proc.devRef .tc main_arg13) := by
  after_results_simp
theorem keepH3_main_arg13 : StableHlo.after (hostOps3 (F := Ideal)) W (Proc.devRef .tc main_arg13) = W (Proc.devRef .tc main_arg13) := by
  after_results_simp
theorem keepH4_main_arg13 : StableHlo.after (hostOps4 (F := Ideal)) W (Proc.devRef .tc main_arg13) = W (Proc.devRef .tc main_arg13) := by
  after_results_simp
theorem keepH5_main_arg13 : StableHlo.after (hostOps5 (F := Ideal)) W (Proc.devRef .tc main_arg13) = W (Proc.devRef .tc main_arg13) := by
  after_results_simp
theorem keepH6_main_arg13 : StableHlo.after (hostOps6 (F := Ideal)) W (Proc.devRef .tc main_arg13) = W (Proc.devRef .tc main_arg13) := by
  after_results_simp
theorem keepH7_main_arg13 : StableHlo.after (hostOps7 (F := Ideal)) W (Proc.devRef .tc main_arg13) = W (Proc.devRef .tc main_arg13) := by
  after_results_simp
theorem keepH8_main_arg13 : StableHlo.after (hostOps8 (F := Ideal)) W (Proc.devRef .tc main_arg13) = W (Proc.devRef .tc main_arg13) := by
  after_results_simp
theorem keepH9_main_arg13 : StableHlo.after (hostOps9 (F := Ideal)) W (Proc.devRef .tc main_arg13) = W (Proc.devRef .tc main_arg13) := by
  after_results_simp
theorem keepH0_main_arg14 : StableHlo.after (hostOps0 (F := Ideal)) W (Proc.devRef .tc main_arg14) = W (Proc.devRef .tc main_arg14) := by
  after_results_simp
theorem keepH1_main_arg14 : StableHlo.after (hostOps1 (F := Ideal)) W (Proc.devRef .tc main_arg14) = W (Proc.devRef .tc main_arg14) := by
  after_results_simp
theorem keepH2_main_arg14 : StableHlo.after (hostOps2 (F := Ideal)) W (Proc.devRef .tc main_arg14) = W (Proc.devRef .tc main_arg14) := by
  after_results_simp
theorem keepH3_main_arg14 : StableHlo.after (hostOps3 (F := Ideal)) W (Proc.devRef .tc main_arg14) = W (Proc.devRef .tc main_arg14) := by
  after_results_simp
theorem keepH4_main_arg14 : StableHlo.after (hostOps4 (F := Ideal)) W (Proc.devRef .tc main_arg14) = W (Proc.devRef .tc main_arg14) := by
  after_results_simp
theorem keepH5_main_arg14 : StableHlo.after (hostOps5 (F := Ideal)) W (Proc.devRef .tc main_arg14) = W (Proc.devRef .tc main_arg14) := by
  after_results_simp
theorem keepH6_main_arg14 : StableHlo.after (hostOps6 (F := Ideal)) W (Proc.devRef .tc main_arg14) = W (Proc.devRef .tc main_arg14) := by
  after_results_simp
theorem keepH7_main_arg14 : StableHlo.after (hostOps7 (F := Ideal)) W (Proc.devRef .tc main_arg14) = W (Proc.devRef .tc main_arg14) := by
  after_results_simp
theorem keepH8_main_arg14 : StableHlo.after (hostOps8 (F := Ideal)) W (Proc.devRef .tc main_arg14) = W (Proc.devRef .tc main_arg14) := by
  after_results_simp
theorem keepH9_main_arg14 : StableHlo.after (hostOps9 (F := Ideal)) W (Proc.devRef .tc main_arg14) = W (Proc.devRef .tc main_arg14) := by
  after_results_simp
theorem keepH0_main_arg15 : StableHlo.after (hostOps0 (F := Ideal)) W (Proc.devRef .tc main_arg15) = W (Proc.devRef .tc main_arg15) := by
  after_results_simp
theorem keepH1_main_arg15 : StableHlo.after (hostOps1 (F := Ideal)) W (Proc.devRef .tc main_arg15) = W (Proc.devRef .tc main_arg15) := by
  after_results_simp
theorem keepH2_main_arg15 : StableHlo.after (hostOps2 (F := Ideal)) W (Proc.devRef .tc main_arg15) = W (Proc.devRef .tc main_arg15) := by
  after_results_simp
theorem keepH3_main_arg15 : StableHlo.after (hostOps3 (F := Ideal)) W (Proc.devRef .tc main_arg15) = W (Proc.devRef .tc main_arg15) := by
  after_results_simp
theorem keepH4_main_arg15 : StableHlo.after (hostOps4 (F := Ideal)) W (Proc.devRef .tc main_arg15) = W (Proc.devRef .tc main_arg15) := by
  after_results_simp
theorem keepH5_main_arg15 : StableHlo.after (hostOps5 (F := Ideal)) W (Proc.devRef .tc main_arg15) = W (Proc.devRef .tc main_arg15) := by
  after_results_simp
theorem keepH6_main_arg15 : StableHlo.after (hostOps6 (F := Ideal)) W (Proc.devRef .tc main_arg15) = W (Proc.devRef .tc main_arg15) := by
  after_results_simp
theorem keepH7_main_arg15 : StableHlo.after (hostOps7 (F := Ideal)) W (Proc.devRef .tc main_arg15) = W (Proc.devRef .tc main_arg15) := by
  after_results_simp
theorem keepH8_main_arg15 : StableHlo.after (hostOps8 (F := Ideal)) W (Proc.devRef .tc main_arg15) = W (Proc.devRef .tc main_arg15) := by
  after_results_simp
theorem keepH9_main_arg15 : StableHlo.after (hostOps9 (F := Ideal)) W (Proc.devRef .tc main_arg15) = W (Proc.devRef .tc main_arg15) := by
  after_results_simp
theorem keepH0_main_arg16 : StableHlo.after (hostOps0 (F := Ideal)) W (Proc.devRef .tc main_arg16) = W (Proc.devRef .tc main_arg16) := by
  after_results_simp
theorem keepH1_main_arg16 : StableHlo.after (hostOps1 (F := Ideal)) W (Proc.devRef .tc main_arg16) = W (Proc.devRef .tc main_arg16) := by
  after_results_simp
theorem keepH2_main_arg16 : StableHlo.after (hostOps2 (F := Ideal)) W (Proc.devRef .tc main_arg16) = W (Proc.devRef .tc main_arg16) := by
  after_results_simp
theorem keepH3_main_arg16 : StableHlo.after (hostOps3 (F := Ideal)) W (Proc.devRef .tc main_arg16) = W (Proc.devRef .tc main_arg16) := by
  after_results_simp
theorem keepH4_main_arg16 : StableHlo.after (hostOps4 (F := Ideal)) W (Proc.devRef .tc main_arg16) = W (Proc.devRef .tc main_arg16) := by
  after_results_simp
theorem keepH5_main_arg16 : StableHlo.after (hostOps5 (F := Ideal)) W (Proc.devRef .tc main_arg16) = W (Proc.devRef .tc main_arg16) := by
  after_results_simp
theorem keepH6_main_arg16 : StableHlo.after (hostOps6 (F := Ideal)) W (Proc.devRef .tc main_arg16) = W (Proc.devRef .tc main_arg16) := by
  after_results_simp
theorem keepH7_main_arg16 : StableHlo.after (hostOps7 (F := Ideal)) W (Proc.devRef .tc main_arg16) = W (Proc.devRef .tc main_arg16) := by
  after_results_simp
theorem keepH8_main_arg16 : StableHlo.after (hostOps8 (F := Ideal)) W (Proc.devRef .tc main_arg16) = W (Proc.devRef .tc main_arg16) := by
  after_results_simp
theorem keepH9_main_arg16 : StableHlo.after (hostOps9 (F := Ideal)) W (Proc.devRef .tc main_arg16) = W (Proc.devRef .tc main_arg16) := by
  after_results_simp
theorem keepH1_main_v13_0 : StableHlo.after (hostOps1 (F := Ideal)) W (Proc.devRef .tc main_v13_0) = W (Proc.devRef .tc main_v13_0) := by
  after_results_simp
theorem keepH2_main_v13_0 : StableHlo.after (hostOps2 (F := Ideal)) W (Proc.devRef .tc main_v13_0) = W (Proc.devRef .tc main_v13_0) := by
  after_results_simp
theorem keepH3_main_v13_0 : StableHlo.after (hostOps3 (F := Ideal)) W (Proc.devRef .tc main_v13_0) = W (Proc.devRef .tc main_v13_0) := by
  after_results_simp
theorem keepH4_main_v13_0 : StableHlo.after (hostOps4 (F := Ideal)) W (Proc.devRef .tc main_v13_0) = W (Proc.devRef .tc main_v13_0) := by
  after_results_simp
theorem keepH2_main_v27_0 : StableHlo.after (hostOps2 (F := Ideal)) W (Proc.devRef .tc main_v27_0) = W (Proc.devRef .tc main_v27_0) := by
  after_results_simp
theorem keepH3_main_v27_0 : StableHlo.after (hostOps3 (F := Ideal)) W (Proc.devRef .tc main_v27_0) = W (Proc.devRef .tc main_v27_0) := by
  after_results_simp
theorem keepH4_main_v27_0 : StableHlo.after (hostOps4 (F := Ideal)) W (Proc.devRef .tc main_v27_0) = W (Proc.devRef .tc main_v27_0) := by
  after_results_simp
theorem keepH3_main_v41_0 : StableHlo.after (hostOps3 (F := Ideal)) W (Proc.devRef .tc main_v41_0) = W (Proc.devRef .tc main_v41_0) := by
  after_results_simp
theorem keepH4_main_v41_0 : StableHlo.after (hostOps4 (F := Ideal)) W (Proc.devRef .tc main_v41_0) = W (Proc.devRef .tc main_v41_0) := by
  after_results_simp
theorem keepH4_main_v55_0 : StableHlo.after (hostOps4 (F := Ideal)) W (Proc.devRef .tc main_v55_0) = W (Proc.devRef .tc main_v55_0) := by
  after_results_simp
theorem keepH6_main_v83_0 : StableHlo.after (hostOps6 (F := Ideal)) W (Proc.devRef .tc main_v83_0) = W (Proc.devRef .tc main_v83_0) := by
  after_results_simp
theorem keepH7_main_v83_0 : StableHlo.after (hostOps7 (F := Ideal)) W (Proc.devRef .tc main_v83_0) = W (Proc.devRef .tc main_v83_0) := by
  after_results_simp
theorem keepH8_main_v83_0 : StableHlo.after (hostOps8 (F := Ideal)) W (Proc.devRef .tc main_v83_0) = W (Proc.devRef .tc main_v83_0) := by
  after_results_simp
theorem keepH9_main_v83_0 : StableHlo.after (hostOps9 (F := Ideal)) W (Proc.devRef .tc main_v83_0) = W (Proc.devRef .tc main_v83_0) := by
  after_results_simp
theorem keepH7_main_v97_0 : StableHlo.after (hostOps7 (F := Ideal)) W (Proc.devRef .tc main_v97_0) = W (Proc.devRef .tc main_v97_0) := by
  after_results_simp
theorem keepH8_main_v97_0 : StableHlo.after (hostOps8 (F := Ideal)) W (Proc.devRef .tc main_v97_0) = W (Proc.devRef .tc main_v97_0) := by
  after_results_simp
theorem keepH9_main_v97_0 : StableHlo.after (hostOps9 (F := Ideal)) W (Proc.devRef .tc main_v97_0) = W (Proc.devRef .tc main_v97_0) := by
  after_results_simp
theorem keepH8_main_v111_0 : StableHlo.after (hostOps8 (F := Ideal)) W (Proc.devRef .tc main_v111_0) = W (Proc.devRef .tc main_v111_0) := by
  after_results_simp
theorem keepH9_main_v111_0 : StableHlo.after (hostOps9 (F := Ideal)) W (Proc.devRef .tc main_v111_0) = W (Proc.devRef .tc main_v111_0) := by
  after_results_simp
theorem keepH9_main_v125_0 : StableHlo.after (hostOps9 (F := Ideal)) W (Proc.devRef .tc main_v125_0) = W (Proc.devRef .tc main_v125_0) := by
  after_results_simp
theorem keepH5_main_v69 : StableHlo.after (hostOps5 (F := Ideal)) W (Proc.devRef .tc main_v69) = W (Proc.devRef .tc main_v69) := by
  after_results_simp
theorem keepH6_main_v69 : StableHlo.after (hostOps6 (F := Ideal)) W (Proc.devRef .tc main_v69) = W (Proc.devRef .tc main_v69) := by
  after_results_simp
theorem keepH7_main_v69 : StableHlo.after (hostOps7 (F := Ideal)) W (Proc.devRef .tc main_v69) = W (Proc.devRef .tc main_v69) := by
  after_results_simp
theorem keepH8_main_v69 : StableHlo.after (hostOps8 (F := Ideal)) W (Proc.devRef .tc main_v69) = W (Proc.devRef .tc main_v69) := by
  after_results_simp
theorem keepH9_main_v69 : StableHlo.after (hostOps9 (F := Ideal)) W (Proc.devRef .tc main_v69) = W (Proc.devRef .tc main_v69) := by
  after_results_simp

end Stretches

end Cert.KFold

end
-- ==== Proof.LibRsqrtClamp.lean ====
/-
  A clamped reciprocal square root against a clamped norm, on the extended reals.

  A kernel that scales by `rsqrt (max s ε)` and a reference that divides by `max (sqrt s) d` compute one function of
  the scaled number `a` and the sum of squares `s` when `ε = d²` and `d > 0` — at EVERY extended real: the square root is
  monotone, so `sqrt (max s d²) = max (sqrt s) d`; below zero and at `-∞` both clamps bind (the root of a negative is
  `-∞`, below `d`); at `+∞` both sides are `a · 0`. No finiteness of `a` or `s` is used.
-/
import Idealize.ShloMosaic.PureOps.Ideal

noncomputable section

namespace Cert.Lib

open Idealize.ShloMosaic

/-- `a · rsqrt (max s D²) = a / max (sqrt s) D` for every extended real `a` and `s`, when `D > 0`. -/
theorem rsqrt_clamp (a s : EReal) (d : ℝ) (hd : 0 < d) :
    a * Ideal.rsqrt (max s ((d * d : ℝ) : EReal)) = Ideal.div a (max (Ideal.sqrt s) (d : EReal)) := by
  have hdd : 0 < d * d := mul_pos hd hd
  have hsq : Real.sqrt (d * d) = d := Real.sqrt_mul_self hd.le
  have hne : ((d : ℝ) : EReal) ≠ 0 := by exact_mod_cast hd.ne'
  -- the value both sides take whenever the clamp binds: `a · d⁻¹`
  have hbind : a * Ideal.rsqrt ((d * d : ℝ) : EReal) = Ideal.div a (d : EReal) := by
    rw [Ideal.rsqrt_coe, if_neg (not_lt.mpr hdd.le), if_neg hdd.ne', hsq, Ideal.div, if_neg hne, EReal.coe_inv]
  induction s using EReal.rec with
  | bot =>
    rw [max_eq_right bot_le, Ideal.sqrt_bot, max_eq_right bot_le]
    exact hbind
  | top =>
    rw [max_eq_left le_top, Ideal.sqrt_top, max_eq_left le_top, Ideal.rsqrt_top, Ideal.div,
      if_neg EReal.top_ne_zero, EReal.inv_top]
  | coe r =>
    by_cases hr : r < 0
    · have h1 : max ((r : ℝ) : EReal) ((d * d : ℝ) : EReal) = ((d * d : ℝ) : EReal) :=
        max_eq_right (by exact_mod_cast (hr.le.trans hdd.le))
      rw [h1, Ideal.sqrt_coe, if_pos hr, max_eq_right bot_le]
      exact hbind
    · have hr0 : 0 ≤ r := not_lt.mp hr
      have cm : ∀ x y : ℝ, max (x : EReal) (y : EReal) = ((max x y : ℝ) : EReal) :=
        fun x y => (EReal.coe_strictMono.monotone.map_max).symm
      rw [Ideal.sqrt_coe, if_neg hr, cm, cm]
      have hm : 0 < max r (d * d) := lt_max_of_lt_right hdd
      have hm' : 0 < max (Real.sqrt r) d := lt_max_of_lt_right hd
      have hs : Real.sqrt (max r (d * d)) = max (Real.sqrt r) d := by
        rcases le_total r (d * d) with h | h
        · rw [max_eq_right h, hsq, max_eq_right]
          calc Real.sqrt r ≤ Real.sqrt (d * d) := Real.sqrt_le_sqrt h
            _ = d := hsq
        · rw [max_eq_left h, max_eq_left]
          calc d = Real.sqrt (d * d) := hsq.symm
            _ ≤ Real.sqrt r := Real.sqrt_le_sqrt h
      have hne' : ((max (Real.sqrt r) d : ℝ) : EReal) ≠ 0 := by exact_mod_cast hm'.ne'
      rw [Ideal.rsqrt_coe, if_neg (not_lt.mpr hm.le), if_neg hm.ne', hs, Ideal.div, if_neg hne', EReal.coe_inv]

end Cert.Lib

end
-- ==== Proof.ClampLaw.lean ====
/-
  The two programs' row normalisations meet in the clamp law `a · rsqrt (max s D²) = a / max (sqrt s) D` (proved for
  every extended real beside this module). Here: what the reference's clamp literal denotes (the dyadic `2305843 / 2^61`, the binary value of f32 `1e-12`),
  and that the kernel's named clamp, `5316911940649 / 2^122`, is its square.
-/
import Idealize.ShloMosaic.PureOps.Ideal
import proofs.«148168_j18485539242351_2_alg».proof.Proof.LibRsqrtClamp
import Idealize.ShloMosaic.PureOps.Ideal.Laws

noncomputable section

namespace Cert.ClampLaw

open Idealize.ShloMosaic

/-- The reference's clamp: the f32 pattern of `1e-12` denotes `2305843 / 2^61`. -/
def D : ℝ := 2305843 / 2305843009213693952

theorem D_pos : 0 < D := by unfold D; norm_num

/-- The f32 word `0x2B8CBCCC` denotes `D`. -/
theorem ofBits_D : Ideal.ofBits .f32 0x2B8CBCCC#32 = ((D : ℝ) : EReal) := by
  unfold D
  simp [Ideal.ofBits, Ideal.ieee, -EReal.coe_mul]; norm_num

/-- The kernel's named clamp is the square of the reference's. -/
theorem eps_eq : ((5316911940649 / 5316911983139663491615228241121378304 : ℝ) : EReal) = ((D * D : ℝ) : EReal) := by
  unfold D; congr 1; norm_num

/-- The clamp law at the reference's clamp. -/
theorem rsqrt_clamp (a s : EReal) (d : ℝ) (hd : 0 < d) :
    a * Ideal.rsqrt (max s ((d * d : ℝ) : EReal)) = Ideal.div a (max (Ideal.sqrt s) (d : EReal)) :=
  Cert.Lib.rsqrt_clamp a s d hd

end Cert.ClampLaw

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelPoint.lean ====
/-
  The kernel bodies at an index, and each against the reference's stage at the matching row.

  A layer kernel holds a block of 2000 rows of the propagated features `y`; it writes the block's rows of
  `x = relu y · rsqrt (max (Σ_k (relu y)[r,k]²) ε)` and of `z = x · W`. The head kernel holds 1000 rows of five arrays and
  writes the summed perceptron. Row `p` of the block at row offset `o` is row `o + p` of the array, and every operation
  of a body acts row by row, so each body's entry at (p, q) is the reference's stage at (o + p, q): for `x` by the clamp
  law (`ε = D²`), for the products because both are the same sum over the contracted index.
-/
import proofs.«148168_j18485539242351_2_alg».proof.KernelIdeal
import proofs.«148168_j18485539242351_2_alg».proof.Proof.Gen.KernelIdeal.Skeleton
import proofs.«148168_j18485539242351_2_alg».proof.Proof.HostSpec
import proofs.«148168_j18485539242351_2_alg».proof.Proof.ClampLaw
import proofs.«148168_j18485539242351_2_alg».proof.Proof.LibColBroadcast
import proofs.«148168_j18485539242351_2_alg».proof.Proof.LibRowReads
import Idealize.ShloMosaic.PureOps.IdealRules
import Idealize.ShloMosaic.PureOps.Ideal.Laws
import Idealize.ShloMosaic.Lib.ValueIdx
import Idealize.ShloMosaic.Lib.ValueLayout
import Idealize.ShloMosaic.Lib.Pipeline.Value

noncomputable section

namespace Cert.KPoint

open Cert.KernelIdeal Cert.KernelIdeal.Gen Idealize.ShloMosaic Idealize.ShloMosaic.ValueIdx Cert.Lib Cert.Spec

variable [Cert.ReferenceIdeal.Facts]

/-- Row `p` of a block of `R` rows at row offset `o`, as a row of the 50000-row array. -/
def rowAt {R : Nat} (o : Nat) (h : o + R ≤ 50000) (p : Fin R) : Fin 50000 := ⟨o + p.val, by have := p.isLt; omega⟩

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rsqrt_apply {s : Shape} {φ : FTy} (a : FVec Ideal s φ) (i : s.Idx) : rsqrt a i = Ideal.rsqrt (a i) := rfl

/-- The kernel's named clamp denotes the square of the reference's clamp. -/
theorem eps_named : Named.named (F := Ideal) Cert.KernelIdeal.κ "eps_sq" (φ := .f32) 0x179ABE15#32
    = ((ClampLaw.D * ClampLaw.D : ℝ) : EReal) :=
  (IdealRules.named_const.ideal_named_scalar _ _ _ _ rfl).trans ClampLaw.eps_eq

/-- A lane sum of a 2000×128 block, at row p. -/
theorem rowSumK_apply (src : FVec Ideal S2000x128 .f32) (h : S2000x128.Reduces [1] S2000) (hφ : FKind.Formats .f32)
    (hacc : (0x00000000#32 : BitVec 32) = FKind.add.neutral .f32 hφ) (p : Fin 2000) :
    multiReduction .add [1] S2000 src 0x00000000#32 h hφ hacc (ix1 p) = ∑ k : Fin 128, src (ix2 p k) := by
  refine (Ideal.multiReduction_add_single src 0x00000000#32 h hφ hacc (ix1 p)).trans ?_
  refine Finset.sum_congr rfl fun k _ => ?_
  exact congrArg src (funext fun a => Fin.ext (by match a with | ⟨0, _⟩ => rfl | ⟨1, _⟩ => rfl))

/-- The layer body's first output at (p, q): the relu of the entry times the reciprocal root of its row's clamped sum
    of squares. -/
theorem layerX_at (Y : Vec Ideal S2000x128 .f32) (p : Fin 2000) (q : Fin 128) :
    k0_pay1 (F := Ideal) Y (ix2 p q)
      = max (Y (ix2 p q)) 0
        * Ideal.rsqrt (max (∑ k : Fin 128, max (Y (ix2 p k)) 0 * max (Y (ix2 p k)) 0) ((ClampLaw.D * ClampLaw.D : ℝ) : EReal)) := by
  unfold k0_pay1
  simp only [mulf_apply, maximumf_apply, broadcast_apply, broadcastTo_a1_ab_apply, shapeCast_self, shapeCast_a_a1_apply,
    rsqrt_apply, eps_named, Ideal.ofBits_def, Ideal.ofBits_zero_f32]
  refine congrArg (fun s => max (Y (ix2 p q)) 0 * Ideal.rsqrt (max s _)) ?_
  refine (rowSumK_apply _ _ _ _ p).trans (Finset.sum_congr rfl fun k _ => ?_)
  simp only [mulf_apply, maximumf_apply, broadcast_apply, Ideal.ofBits_def, Ideal.ofBits_zero_f32]

/-- The layer body's first output, on a block whose rows are rows `o …` of `Ya`, is the normalised relu of `Ya` there:
    the clamp law, with the kernel's clamp the square of the reference's. -/
theorem layerX_point (Yb : Vec Ideal S2000x128 .f32) (Ya : Feat Ideal) (o : Nat) (ho : o + 2000 ≤ 50000)
    (hY : ∀ (p : Fin 2000) (k : Fin 128), Yb (ix2 p k) = Ya (ix2 (rowAt o ho p) k)) (p : Fin 2000) (q : Fin 128) :
    k0_pay1 (F := Ideal) Yb (ix2 p q) = normH (reluH Ya) (ix2 (rowAt o ho p) q) := by
  rw [layerX_at, normH_apply, ClampLaw.ofBits_D, ← ClampLaw.rsqrt_clamp _ _ ClampLaw.D ClampLaw.D_pos]
  simp only [reluH_apply, hY, zero_add]

/-- The layer body's second output there is the product of that with the layer's weight. -/
theorem layerZ_point (Yb : Vec Ideal S2000x128 .f32) (Wb : Vec Ideal S128x128 .f32) (Ya : Feat Ideal)
    (Wa : (⟨Cert.ReferenceIdeal.S128x128, .f32⟩ : BufTy).Contents (Elt Ideal)) (o : Nat) (ho : o + 2000 ≤ 50000)
    (hY : ∀ (p : Fin 2000) (k : Fin 128), Yb (ix2 p k) = Ya (ix2 (rowAt o ho p) k)) (hW : ∀ i, Wb i = Wa i)
    (p : Fin 2000) (q : Fin 128) :
    k0_pay2 (F := Ideal) Yb Wb (ix2 p q) = dotH (normH (reluH Ya)) Wa (ix2 (rowAt o ho p) q) := by
  unfold k0_pay2
  rw [dotH_apply]
  refine (matmul_zero_at dot_S2000x128_S128x128_S2000x128_1_0_0_1_n_n rfl rfl rfl rfl rfl rfl none _ _ p q).trans ?_
  refine Finset.sum_congr rfl fun k _ => ?_
  rw [truncf_apply, truncf_apply, layerX_point Yb Ya o ho hY p k, hW]

/-! ## The same at a general index of the block -/

theorem layerX_point' (Yb : Vec Ideal S2000x128 .f32) (Ya : Feat Ideal) (o : Nat) (ho : o + 2000 ≤ 50000)
    (hY : ∀ (p : Fin 2000) (k : Fin 128), Yb (ix2 p k) = Ya (ix2 (rowAt o ho p) k)) (j : S2000x128.Idx) :
    k0_pay1 (F := Ideal) Yb j = normH (reluH Ya) (ix2 (rowAt (R := 2000) o ho (j 0)) (j 1)) := by
  exact (congrArg (k0_pay1 (F := Ideal) Yb) (eq_ix2 j)).trans (layerX_point Yb Ya o ho hY (j 0) (j 1))

theorem layerZ_point' (Yb : Vec Ideal S2000x128 .f32) (Wb : Vec Ideal S128x128 .f32) (Ya : Feat Ideal)
    (Wa : (⟨Cert.ReferenceIdeal.S128x128, .f32⟩ : BufTy).Contents (Elt Ideal)) (o : Nat) (ho : o + 2000 ≤ 50000)
    (hY : ∀ (p : Fin 2000) (k : Fin 128), Yb (ix2 p k) = Ya (ix2 (rowAt o ho p) k)) (hW : ∀ i, Wb i = Wa i)
    (j : S2000x128.Idx) :
    k0_pay2 (F := Ideal) Yb Wb j = dotH (normH (reluH Ya)) Wa (ix2 (rowAt (R := 2000) o ho (j 0)) (j 1)) := by
  exact (congrArg (k0_pay2 (F := Ideal) Yb Wb) (eq_ix2 j)).trans (layerZ_point Yb Wb Ya Wa o ho hY hW (j 0) (j 1))

/-! ## The perceptron on a block of 1000 rows -/

/-- First layer with its relu, in the kernel's spelling. -/
def lay1K (x : FVec Ideal S1000x128 .f32) (w : FVec Ideal S128x256 .bf16) (b : Vec Ideal S256 .f32) : FVec Ideal S1000x256 .f32 :=
  maximumf
    (addf (matmul dot_S1000x128_S128x256_S1000x256_1_0_0_1_n_n none (truncf .bf16 x Gen.bitsLt_bf16_f32) w (constant S1000x256 .f32 0x00000000#32))
      (broadcastTo S1000x256 (shapeCast S1x256 b shapeCasts_S256_S1x256) broadcasts_S1x256_S1000x256))
    (broadcast S1000x256 (Scalar.ofBits .f32 0x00000000#32))

/-- Second layer with its relu. -/
def lay2K (h : FVec Ideal S1000x256 .f32) (w : FVec Ideal S256x256 .bf16) (b : Vec Ideal S256 .f32) : FVec Ideal S1000x256 .f32 :=
  maximumf
    (addf (matmul dot_S1000x256_S256x256_S1000x256_1_0_0_1_n_n none (truncf .bf16 h Gen.bitsLt_bf16_f32) w (constant S1000x256 .f32 0x00000000#32))
      (broadcastTo S1000x256 (shapeCast S1x256 b shapeCasts_S256_S1x256) broadcasts_S1x256_S1000x256))
    (broadcast S1000x256 (Scalar.ofBits .f32 0x00000000#32))

/-- Last layer. -/
def lay3K (h : FVec Ideal S1000x256 .f32) (w : FVec Ideal S256x1 .bf16) (b : Vec Ideal S1 .f32) : FVec Ideal S1000x1 .f32 :=
  addf (matmul dot_S1000x256_S256x1_S1000x1_1_0_0_1_n_n none (truncf .bf16 h Gen.bitsLt_bf16_f32) w (constant S1000x1 .f32 0x00000000#32))
    (broadcastTo S1000x1 (shapeCast S1x1 b shapeCasts_S1_S1x1) broadcasts_S1x1_S1000x1)

/-- The perceptron on a block. -/
def mlpK (x : FVec Ideal S1000x128 .f32) (w1 : FVec Ideal S128x256 .bf16) (b1 : Vec Ideal S256 .f32)
    (w2 : FVec Ideal S256x256 .bf16) (b2 : Vec Ideal S256 .f32) (w3 : FVec Ideal S256x1 .bf16) (b3 : Vec Ideal S1 .f32) :
    FVec Ideal S1000x1 .f32 :=
  lay3K (lay2K (lay1K x w1 b1) w2 b2) w3 b3

/-- The head body: the five perceptrons added one after the other from zero, the fifth input through a relu. -/
def headK (x0 x1 x2 x3 x4 : Vec Ideal S1000x128 .f32) (w1 : Vec Ideal S128x256 .f32) (b1 : Vec Ideal S256 .f32)
    (w2 : Vec Ideal S256x256 .f32) (b2 : Vec Ideal S256 .f32) (w3 : Vec Ideal S256x1 .f32) (b3 : Vec Ideal S1 .f32) :
    FVec Ideal S1000x1 .f32 :=
  addf (addf (addf (addf (addf (broadcast S1000x1 (Scalar.ofBits .f32 0x00000000#32))
    (mlpK (shapeCast S1000x128 x0 shapeCasts_S1000x128_S1000x128) (truncf .bf16 w1 Gen.bitsLt_bf16_f32) b1 (truncf .bf16 w2 Gen.bitsLt_bf16_f32) b2 (truncf .bf16 w3 Gen.bitsLt_bf16_f32) b3))
    (mlpK (shapeCast S1000x128 x1 shapeCasts_S1000x128_S1000x128) (truncf .bf16 w1 Gen.bitsLt_bf16_f32) b1 (truncf .bf16 w2 Gen.bitsLt_bf16_f32) b2 (truncf .bf16 w3 Gen.bitsLt_bf16_f32) b3))
    (mlpK (shapeCast S1000x128 x2 shapeCasts_S1000x128_S1000x128) (truncf .bf16 w1 Gen.bitsLt_bf16_f32) b1 (truncf .bf16 w2 Gen.bitsLt_bf16_f32) b2 (truncf .bf16 w3 Gen.bitsLt_bf16_f32) b3))
    (mlpK (shapeCast S1000x128 x3 shapeCasts_S1000x128_S1000x128) (truncf .bf16 w1 Gen.bitsLt_bf16_f32) b1 (truncf .bf16 w2 Gen.bitsLt_bf16_f32) b2 (truncf .bf16 w3 Gen.bitsLt_bf16_f32) b3))
    (mlpK (maximumf (shapeCast S1000x128 x4 shapeCasts_S1000x128_S1000x128) (broadcast S1000x128 (Scalar.ofBits .f32 0x00000000#32)))
      (truncf .bf16 w1 Gen.bitsLt_bf16_f32) b1 (truncf .bf16 w2 Gen.bitsLt_bf16_f32) b2 (truncf .bf16 w3 Gen.bitsLt_bf16_f32) b3)

/-- The head body's one store, as the generated frame composes it from the body's pieces, is `headK`. -/
theorem head_eq (x0 x1 x2 x3 x4 : Vec Ideal S1000x128 .f32) (x5 : Vec Ideal S128x256 .f32) (x6 : Vec Ideal S256 .f32)
    (x7 : Vec Ideal S256x256 .f32) (x8 : Vec Ideal S256 .f32) (x9 : Vec Ideal S256x1 .f32) (x10 : Vec Ideal S1 .f32) :
    k4_pay1 (F := Ideal) (k4_pay2 x5) x6 (k4_pay3 x7) x8 (k4_pay4 x9) x10 (k4_pay8 x4)
      (k4_pay11 (k4_pay2 x5) x6 (k4_pay3 x7) x8 (k4_pay4 x9) x10 (k4_pay5 x1) (k4_pay6 x2) (k4_pay9 (F := Ideal)) (k4_pay10 x5 x6 x7 x8 x0))
      (k4_pay12 (k4_pay2 x5) (k4_pay7 x3)) (k4_pay13 x6)
      = headK x0 x1 x2 x3 x4 x5 x6 x7 x8 x9 x10 := rfl

section Layers

variable (o : Nat) (ho : o + 1000 ≤ 50000)

theorem lay1_point (xb : FVec Ideal S1000x128 .f32) (xa : Feat Ideal)
    (hx : ∀ (p : Fin 1000) (k : Fin 128), xb (ix2 p k) = xa (ix2 (rowAt o ho p) k))
    (wb : Vec Ideal S128x256 .f32) (wa : (⟨Cert.ReferenceIdeal.S128x256, .f32⟩ : BufTy).Contents (Elt Ideal)) (hw : ∀ i, wb i = wa i)
    (bb : Vec Ideal S256 .f32) (ba : (⟨Cert.ReferenceIdeal.S256, .f32⟩ : BufTy).Contents (Elt Ideal)) (hb : ∀ i, bb i = ba i)
    (p : Fin 1000) (j : Fin 256) :
    lay1K xb (truncf .bf16 wb Gen.bitsLt_bf16_f32) bb (ix2 p j) = lay1H xa wa ba (ix2 (rowAt o ho p) j) := by
  unfold lay1K
  rw [lay1H_apply, maximumf_apply, addf_apply, broadcast_apply, bcast_vec_apply,
    matmul_zero_at dot_S1000x128_S128x256_S1000x256_1_0_0_1_n_n rfl rfl rfl rfl rfl rfl]
  simp only [truncf_apply, hx, hw, hb, Ideal.ofBits_def, Ideal.ofBits_zero_f32]

theorem lay2_point (hb' : FVec Ideal S1000x256 .f32) (ha : Hid Ideal)
    (hh : ∀ (p : Fin 1000) (k : Fin 256), hb' (ix2 p k) = ha (ix2 (rowAt o ho p) k))
    (wb : Vec Ideal S256x256 .f32) (wa : (⟨Cert.ReferenceIdeal.S256x256, .f32⟩ : BufTy).Contents (Elt Ideal)) (hw : ∀ i, wb i = wa i)
    (bb : Vec Ideal S256 .f32) (ba : (⟨Cert.ReferenceIdeal.S256, .f32⟩ : BufTy).Contents (Elt Ideal)) (hb : ∀ i, bb i = ba i)
    (p : Fin 1000) (j : Fin 256) :
    lay2K hb' (truncf .bf16 wb Gen.bitsLt_bf16_f32) bb (ix2 p j) = lay2H ha wa ba (ix2 (rowAt o ho p) j) := by
  unfold lay2K
  rw [lay2H_apply, maximumf_apply, addf_apply, broadcast_apply, bcast_vec_apply,
    matmul_zero_at dot_S1000x256_S256x256_S1000x256_1_0_0_1_n_n rfl rfl rfl rfl rfl rfl]
  simp only [truncf_apply, hh, hw, hb, Ideal.ofBits_def, Ideal.ofBits_zero_f32]

theorem lay3_point (hb' : FVec Ideal S1000x256 .f32) (ha : Hid Ideal)
    (hh : ∀ (p : Fin 1000) (k : Fin 256), hb' (ix2 p k) = ha (ix2 (rowAt o ho p) k))
    (wb : Vec Ideal S256x1 .f32) (wa : (⟨Cert.ReferenceIdeal.S256x1, .f32⟩ : BufTy).Contents (Elt Ideal)) (hw : ∀ i, wb i = wa i)
    (bb : Vec Ideal S1 .f32) (ba : (⟨Cert.ReferenceIdeal.S1, .f32⟩ : BufTy).Contents (Elt Ideal)) (hb : ∀ i, bb i = ba i)
    (p : Fin 1000) (z : Fin 1) :
    lay3K hb' (truncf .bf16 wb Gen.bitsLt_bf16_f32) bb (ix2 p z) = lay3H ha wa ba (ix2 (rowAt o ho p) z) := by
  unfold lay3K
  rw [lay3H_apply, addf_apply, bcast_vec_apply,
    matmul_zero_at dot_S1000x256_S256x1_S1000x1_1_0_0_1_n_n rfl rfl rfl rfl rfl rfl]
  simp only [truncf_apply, hh, hw, hb]

end Layers

section Head

variable (o : Nat) (ho : o + 1000 ≤ 50000)
variable (w1b : Vec Ideal S128x256 .f32) (w1a : (⟨Cert.ReferenceIdeal.S128x256, .f32⟩ : BufTy).Contents (Elt Ideal)) (hw1 : ∀ i, w1b i = w1a i)
variable (b1b : Vec Ideal S256 .f32) (b1a : (⟨Cert.ReferenceIdeal.S256, .f32⟩ : BufTy).Contents (Elt Ideal)) (hb1 : ∀ i, b1b i = b1a i)
variable (w2b : Vec Ideal S256x256 .f32) (w2a : (⟨Cert.ReferenceIdeal.S256x256, .f32⟩ : BufTy).Contents (Elt Ideal)) (hw2 : ∀ i, w2b i = w2a i)
variable (b2b : Vec Ideal S256 .f32) (b2a : (⟨Cert.ReferenceIdeal.S256, .f32⟩ : BufTy).Contents (Elt Ideal)) (hb2 : ∀ i, b2b i = b2a i)
variable (w3b : Vec Ideal S256x1 .f32) (w3a : (⟨Cert.ReferenceIdeal.S256x1, .f32⟩ : BufTy).Contents (Elt Ideal)) (hw3 : ∀ i, w3b i = w3a i)
variable (b3b : Vec Ideal S1 .f32) (b3a : (⟨Cert.ReferenceIdeal.S1, .f32⟩ : BufTy).Contents (Elt Ideal)) (hb3 : ∀ i, b3b i = b3a i)

include hw1 hb1 hw2 hb2 hw3 hb3 in
/-- The perceptron of a block whose rows are rows `o …` of `xa` is the reference's perceptron of `xa` there: layer by
    layer, each entry the same sum over the contracted index. -/
theorem mlp_point (xb : FVec Ideal S1000x128 .f32) (xa : Feat Ideal)
    (hx : ∀ (p : Fin 1000) (k : Fin 128), xb (ix2 p k) = xa (ix2 (rowAt o ho p) k)) (p : Fin 1000) (z : Fin 1) :
    mlpK xb (truncf .bf16 w1b Gen.bitsLt_bf16_f32) b1b (truncf .bf16 w2b Gen.bitsLt_bf16_f32) b2b (truncf .bf16 w3b Gen.bitsLt_bf16_f32) b3b (ix2 p z)
      = mlpH xa w1a b1a w2a b2a w3a b3a (ix2 (rowAt o ho p) z) := by
  unfold mlpK mlpH
  exact lay3_point o ho _ _
    (fun p k => lay2_point o ho _ _ (fun p k => lay1_point o ho xb xa hx w1b w1a hw1 b1b b1a hb1 p k) w2b w2a hw2 b2b b2a hb2 p k)
    w3b w3a hw3 b3b b3a hb3 p z

include hw1 hb1 hw2 hb2 hw3 hb3 in
/-- The head body on blocks that are rows `o …` of five arrays is the reference's head of the arrays there: the running
    sum starts from zero, which adds nothing. -/
theorem head_point (x0b x1b x2b x3b x4b : Vec Ideal S1000x128 .f32) (x0a x1a x2a x3a x4a : Feat Ideal)
    (h0 : ∀ (p : Fin 1000) (k : Fin 128), x0b (ix2 p k) = x0a (ix2 (rowAt o ho p) k))
    (h1 : ∀ (p : Fin 1000) (k : Fin 128), x1b (ix2 p k) = x1a (ix2 (rowAt o ho p) k))
    (h2 : ∀ (p : Fin 1000) (k : Fin 128), x2b (ix2 p k) = x2a (ix2 (rowAt o ho p) k))
    (h3 : ∀ (p : Fin 1000) (k : Fin 128), x3b (ix2 p k) = x3a (ix2 (rowAt o ho p) k))
    (h4 : ∀ (p : Fin 1000) (k : Fin 128), x4b (ix2 p k) = x4a (ix2 (rowAt o ho p) k)) (p : Fin 1000) (z : Fin 1) :
    headK x0b x1b x2b x3b x4b w1b b1b w2b b2b w3b b3b (ix2 p z)
      = headH x0a x1a x2a x3a x4a w1a b1a w2a b2a w3a b3a (ix2 (rowAt o ho p) z) := by
  have e0 := mlp_point o ho w1b w1a hw1 b1b b1a hb1 w2b w2a hw2 b2b b2a hb2 w3b w3a hw3 b3b b3a hb3
    (shapeCast S1000x128 x0b Gen.shapeCasts_S1000x128_S1000x128) x0a (fun p k => by rw [shapeCast_self]; exact h0 p k) p z
  have e1 := mlp_point o ho w1b w1a hw1 b1b b1a hb1 w2b w2a hw2 b2b b2a hb2 w3b w3a hw3 b3b b3a hb3
    (shapeCast S1000x128 x1b Gen.shapeCasts_S1000x128_S1000x128) x1a (fun p k => by rw [shapeCast_self]; exact h1 p k) p z
  have e2 := mlp_point o ho w1b w1a hw1 b1b b1a hb1 w2b w2a hw2 b2b b2a hb2 w3b w3a hw3 b3b b3a hb3
    (shapeCast S1000x128 x2b Gen.shapeCasts_S1000x128_S1000x128) x2a (fun p k => by rw [shapeCast_self]; exact h2 p k) p z
  have e3 := mlp_point o ho w1b w1a hw1 b1b b1a hb1 w2b w2a hw2 b2b b2a hb2 w3b w3a hw3 b3b b3a hb3
    (shapeCast S1000x128 x3b Gen.shapeCasts_S1000x128_S1000x128) x3a (fun p k => by rw [shapeCast_self]; exact h3 p k) p z
  have e4 := mlp_point o ho w1b w1a hw1 b1b b1a hb1 w2b w2a hw2 b2b b2a hb2 w3b w3a hw3 b3b b3a hb3
    (maximumf (shapeCast S1000x128 x4b Gen.shapeCasts_S1000x128_S1000x128) (broadcast S1000x128 (Scalar.ofBits .f32 0x00000000#32)))
    (reluH x4a) (fun p k => by
      rw [maximumf_apply, broadcast_apply, shapeCast_self, reluH_apply, h4 p k]
      simp only [Ideal.ofBits_def, Ideal.ofBits_zero_f32]) p z
  unfold headK headH
  simp only [addf_apply, e0, e1, e2, e3, e4]
  simp only [broadcast_apply, Ideal.ofBits_def, Ideal.ofBits_zero_f32, zero_add]

include hw1 hb1 hw2 hb2 hw3 hb3 in
theorem head_point' (x0b x1b x2b x3b x4b : Vec Ideal S1000x128 .f32) (x0a x1a x2a x3a x4a : Feat Ideal)
    (h0 : ∀ (p : Fin 1000) (k : Fin 128), x0b (ix2 p k) = x0a (ix2 (rowAt o ho p) k))
    (h1 : ∀ (p : Fin 1000) (k : Fin 128), x1b (ix2 p k) = x1a (ix2 (rowAt o ho p) k))
    (h2 : ∀ (p : Fin 1000) (k : Fin 128), x2b (ix2 p k) = x2a (ix2 (rowAt o ho p) k))
    (h3 : ∀ (p : Fin 1000) (k : Fin 128), x3b (ix2 p k) = x3a (ix2 (rowAt o ho p) k))
    (h4 : ∀ (p : Fin 1000) (k : Fin 128), x4b (ix2 p k) = x4a (ix2 (rowAt o ho p) k)) (j : S1000x1.Idx) :
    headK x0b x1b x2b x3b x4b w1b b1b w2b b2b w3b b3b j
      = headH x0a x1a x2a x3a x4a w1a b1a w2a b2a w3a b3a (ix2 (rowAt (R := 1000) o ho (j 0)) (j 1)) := by
  exact (congrArg (headK x0b x1b x2b x3b x4b w1b b1b w2b b2b w3b b3b) (eq_ix2 j)).trans
    (head_point o ho w1b w1a hw1 b1b b1a hb1 w2b w2a hw2 b2b b2a hb2 w3b w3a hw3 b3b b3a hb3
      x0b x1b x2b x3b x4b x0a x1a x2a x3a x4a h0 h1 h2 h3 h4 (j 0) (j 1))

end Head

end Cert.KPoint

end
-- ==== Proof.KRegion0.lean ====
/-
  Region 0 of the idealized kernel: a layer kernel over 25 blocks of 2000 rows. From the contents `V` the region is
  entered with, its first output array ends as the normalised relu of the propagated features `V … main_v12`, and its second
  as that times the weight `V … main_arg7`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion0

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := by
  have h := t.isLt
  have hN : cfg0.N = 25 := N_0
  omega

/-- Row `p` of the features' block at point `t` is row `2000 t + p` of the features. -/
theorem blkY (c : Dev nD) (t : Fin cfg0.N) (ho : t.val * 2000 + 2000 ≤ 50000) (p : Fin 2000) (k : Fin 128) :
    iblk0 V c 0 t (ix2 p k) = V c main_v12 (ix2 (rowAt (t.val * 2000) ho p) k) := by
  obtain ⟨e0, e1, -⟩ := idx_facts t
  show V c main_v12 (((cfg0.win 0).blk t).view.emb (ix2 p k)) = _
  refine congrArg (V c main_v12) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The weight's block is the weight. -/
theorem blkW (c : Dev nD) (t : Fin cfg0.N) (i : S128x128.Idx) : iblk0 V c 1 t i = V c main_arg7 i := by
  obtain ⟨-, -, e2, e3, -⟩ := idx_facts t
  show V c main_arg7 (((cfg0.win 1).blk t).view.emb i) = _
  refine congrArg (V c main_arg7) (funext fun a => Fin.ext ?_)
  match a with
  | ⟨0, _⟩ => show win0_1.index t (0 : Fin 2) * 128 + 1 * (i 0).val = (i 0).val; omega
  | ⟨1, _⟩ => show win0_1.index t (1 : Fin 2) * 128 + 1 * (i 1).val = (i 1).val; omega

/-- What point `t` writes back to the first output is block `t` of the normalised relu of the features. -/
theorem flushed2_eq (c : Dev nD) (t : Fin cfg0.N) :
    (dat0 V c).flushed 2 t = ((cfg0.win 2).blk t).view.read (Elt Ideal) (normH (reluH (V c main_v12))) := by
  show (cfg0.win 2).cut (grid0.coords t) ((dat0 V c).after 2 t) = _
  rw [after0_2]
  unfold out0_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk0 V c 0 t) j = normH (reluH (V c main_v12)) (((cfg0.win 2).blk t).view.emb j)
  have hemb : ((cfg0.win 2).blk t).view.emb j = ix2 (rowAt (R := 2000) (t.val * 2000) ho (j 0)) (j 1) := by
    funext a; apply Fin.ext
    match a with
    | ⟨0, _⟩ => show win0_2.index t (0 : Fin 2) * 2000 + 1 * (j 0).val = t.val * 2000 + (j 0).val; omega
    | ⟨1, _⟩ => show win0_2.index t (1 : Fin 2) * 128 + 1 * (j 1).val = (j 1).val; omega
  rw [hemb]
  exact layerX_point' (iblk0 V c 0 t) (V c main_v12) (t.val * 2000) ho (blkY V c t ho) j

/-- What point `t` writes back to the second output is block `t` of that times the weight. -/
theorem flushed3_eq (c : Dev nD) (t : Fin cfg0.N) :
    (dat0 V c).flushed 3 t
      = ((cfg0.win 3).blk t).view.read (Elt Ideal) (dotH (normH (reluH (V c main_v12))) (V c main_arg7)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk0 V c 0 t) (iblk0 V c 1 t) j
    = dotH (normH (reluH (V c main_v12))) (V c main_arg7) (((cfg0.win 3).blk t).view.emb j)
  have hemb : ((cfg0.win 3).blk t).view.emb j = ix2 (rowAt (R := 2000) (t.val * 2000) ho (j 0)) (j 1) := by
    funext a; apply Fin.ext
    match a with
    | ⟨0, _⟩ => show win0_3.index t (0 : Fin 2) * 2000 + 1 * (j 0).val = t.val * 2000 + (j 0).val; omega
    | ⟨1, _⟩ => show win0_3.index t (1 : Fin 2) * 128 + 1 * (j 1).val = (j 1).val; omega
  rw [hemb]
  exact layerZ_point' (iblk0 V c 0 t) (iblk0 V c 1 t) (V c main_v12) (V c main_arg7) (t.val * 2000) ho (blkY V c t ho) (blkW V c t) j

/-- An index of an output array is in point `t`'s block iff each coordinate is in the block's range on its axis. -/
theorem mem_blk2 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v13_0).slice (win0_2.rect t)).set ↔ _
  rw [View.set_slice_whole, Rect.mem_set_unit]
  exact Iff.rfl

theorem mem_blk3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v13_1).slice (win0_3.rect t)).set ↔ _
  rw [View.set_slice_whole, Rect.mem_set_unit]
  exact Iff.rfl

/-- Row `r` is in the block of point `r / 2000`. -/
theorem cover2 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by omega⟩, flush0_2 _, ?_⟩
  rw [mem_blk2]
  obtain ⟨-, -, -, -, e4, e5, -⟩ := idx_facts ⟨(i 0).val / 2000, by omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by omega⟩, flush0_3 _, ?_⟩
  rw [mem_blk3]
  obtain ⟨-, -, -, -, -, -, e6, e7⟩ := idx_facts ⟨(i 0).val / 2000, by omega⟩
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e7]; omega

/-- The first output array after the region. -/
theorem final2 (c : Dev nD) : (dat0 V c).arrAt 2 cfg0.N = normH (reluH (V c main_v12)) :=
  (dat0 V c).arrAt_eq_of_cover 2 _ (fun t _ => flushed2_eq V c t) cover2

/-- The second output array after the region. -/
theorem final3 (c : Dev nD) : (dat0 V c).arrAt 3 cfg0.N = dotH (normH (reluH (V c main_v12))) (V c main_arg7) :=
  (dat0 V c).arrAt_eq_of_cover 3 _ (fun t _ => flushed3_eq V c t) cover3

end Cert.KRegion0

end
-- ==== Proof.KRegion1.lean ====
/-
  Region 1 of the idealized kernel: a layer kernel over 25 blocks of 2000 rows. From the contents `V` the region is
  entered with, its first output array ends as the normalised relu of the propagated features `V … main_v26`, and its second
  as that times the weight `V … main_arg8`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion1

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 25 := by
  have h := t.isLt
  have hN : cfg1.N = 25 := N_1
  omega

/-- Row `p` of the features' block at point `t` is row `2000 t + p` of the features. -/
theorem blkY (c : Dev nD) (t : Fin cfg1.N) (ho : t.val * 2000 + 2000 ≤ 50000) (p : Fin 2000) (k : Fin 128) :
    iblk1 V c 0 t (ix2 p k) = V c main_v26 (ix2 (rowAt (t.val * 2000) ho p) k) := by
  obtain ⟨e0, e1, -⟩ := idx_facts t
  show V c main_v26 (((cfg1.win 0).blk t).view.emb (ix2 p k)) = _
  refine congrArg (V c main_v26) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- The weight's block is the weight. -/
theorem blkW (c : Dev nD) (t : Fin cfg1.N) (i : S128x128.Idx) : iblk1 V c 1 t i = V c main_arg8 i := by
  obtain ⟨-, -, e2, e3, -⟩ := idx_facts t
  show V c main_arg8 (((cfg1.win 1).blk t).view.emb i) = _
  refine congrArg (V c main_arg8) (funext fun a => Fin.ext ?_)
  match a with
  | ⟨0, _⟩ => show win1_1.index t (0 : Fin 2) * 128 + 1 * (i 0).val = (i 0).val; omega
  | ⟨1, _⟩ => show win1_1.index t (1 : Fin 2) * 128 + 1 * (i 1).val = (i 1).val; omega

/-- What point `t` writes back to the first output is block `t` of the normalised relu of the features. -/
theorem flushed2_eq (c : Dev nD) (t : Fin cfg1.N) :
    (dat1 V c).flushed 2 t = ((cfg1.win 2).blk t).view.read (Elt Ideal) (normH (reluH (V c main_v26))) := by
  show (cfg1.win 2).cut (grid1.coords t) ((dat1 V c).after 2 t) = _
  rw [after1_2]
  unfold out1_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk1 V c 0 t) j = normH (reluH (V c main_v26)) (((cfg1.win 2).blk t).view.emb j)
  have hemb : ((cfg1.win 2).blk t).view.emb j = ix2 (rowAt (R := 2000) (t.val * 2000) ho (j 0)) (j 1) := by
    funext a; apply Fin.ext
    match a with
    | ⟨0, _⟩ => show win1_2.index t (0 : Fin 2) * 2000 + 1 * (j 0).val = t.val * 2000 + (j 0).val; omega
    | ⟨1, _⟩ => show win1_2.index t (1 : Fin 2) * 128 + 1 * (j 1).val = (j 1).val; omega
  rw [hemb]
  exact layerX_point' (iblk1 V c 0 t) (V c main_v26) (t.val * 2000) ho (blkY V c t ho) j

/-- What point `t` writes back to the second output is block `t` of that times the weight. -/
theorem flushed3_eq (c : Dev nD) (t : Fin cfg1.N) :
    (dat1 V c).flushed 3 t
      = ((cfg1.win 3).blk t).view.read (Elt Ideal) (dotH (normH (reluH (V c main_v26))) (V c main_arg8)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk1 V c 0 t) (iblk1 V c 1 t) j
    = dotH (normH (reluH (V c main_v26))) (V c main_arg8) (((cfg1.win 3).blk t).view.emb j)
  have hemb : ((cfg1.win 3).blk t).view.emb j = ix2 (rowAt (R := 2000) (t.val * 2000) ho (j 0)) (j 1) := by
    funext a; apply Fin.ext
    match a with
    | ⟨0, _⟩ => show win1_3.index t (0 : Fin 2) * 2000 + 1 * (j 0).val = t.val * 2000 + (j 0).val; omega
    | ⟨1, _⟩ => show win1_3.index t (1 : Fin 2) * 128 + 1 * (j 1).val = (j 1).val; omega
  rw [hemb]
  exact layerZ_point' (iblk1 V c 0 t) (iblk1 V c 1 t) (V c main_v26) (V c main_arg8) (t.val * 2000) ho (blkY V c t ho) (blkW V c t) j

/-- An index of an output array is in point `t`'s block iff each coordinate is in the block's range on its axis. -/
theorem mem_blk2 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v27_0).slice (win1_2.rect t)).set ↔ _
  rw [View.set_slice_whole, Rect.mem_set_unit]
  exact Iff.rfl

theorem mem_blk3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27_1).slice (win1_3.rect t)).set ↔ _
  rw [View.set_slice_whole, Rect.mem_set_unit]
  exact Iff.rfl

/-- Row `r` is in the block of point `r / 2000`. -/
theorem cover2 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  refine ⟨⟨(i 0).val / 2000, by omega⟩, flush1_2 _, ?_⟩
  rw [mem_blk2]
  obtain ⟨-, -, -, -, e4, e5, -⟩ := idx_facts ⟨(i 0).val / 2000, by omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e5]; omega

theorem cover3 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  refine ⟨⟨(i 0).val / 2000, by omega⟩, flush1_3 _, ?_⟩
  rw [mem_blk3]
  obtain ⟨-, -, -, -, -, -, e6, e7⟩ := idx_facts ⟨(i 0).val / 2000, by omega⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e7]; omega

/-- The first output array after the region. -/
theorem final2 (c : Dev nD) : (dat1 V c).arrAt 2 cfg1.N = normH (reluH (V c main_v26)) :=
  (dat1 V c).arrAt_eq_of_cover 2 _ (fun t _ => flushed2_eq V c t) cover2

/-- The second output array after the region. -/
theorem final3 (c : Dev nD) : (dat1 V c).arrAt 3 cfg1.N = dotH (normH (reluH (V c main_v26))) (V c main_arg8) :=
  (dat1 V c).arrAt_eq_of_cover 3 _ (fun t _ => flushed3_eq V c t) cover3

end Cert.KRegion1

end
-- ==== Proof.KRegion2.lean ====
/-
  Region 2 of the idealized kernel: a layer kernel over 25 blocks of 2000 rows. From the contents `V` the region is
  entered with, its first output array ends as the normalised relu of the propagated features `V … main_v40`, and its second
  as that times the weight `V … main_arg9`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion2

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 25 := by
  have h := t.isLt
  have hN : cfg2.N = 25 := N_2
  omega

/-- Row `p` of the features' block at point `t` is row `2000 t + p` of the features. -/
theorem blkY (c : Dev nD) (t : Fin cfg2.N) (ho : t.val * 2000 + 2000 ≤ 50000) (p : Fin 2000) (k : Fin 128) :
    iblk2 V c 0 t (ix2 p k) = V c main_v40 (ix2 (rowAt (t.val * 2000) ho p) k) := by
  obtain ⟨e0, e1, -⟩ := idx_facts t
  show V c main_v40 (((cfg2.win 0).blk t).view.emb (ix2 p k)) = _
  refine congrArg (V c main_v40) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

/-- The weight's block is the weight. -/
theorem blkW (c : Dev nD) (t : Fin cfg2.N) (i : S128x128.Idx) : iblk2 V c 1 t i = V c main_arg9 i := by
  obtain ⟨-, -, e2, e3, -⟩ := idx_facts t
  show V c main_arg9 (((cfg2.win 1).blk t).view.emb i) = _
  refine congrArg (V c main_arg9) (funext fun a => Fin.ext ?_)
  match a with
  | ⟨0, _⟩ => show win2_1.index t (0 : Fin 2) * 128 + 1 * (i 0).val = (i 0).val; omega
  | ⟨1, _⟩ => show win2_1.index t (1 : Fin 2) * 128 + 1 * (i 1).val = (i 1).val; omega

/-- What point `t` writes back to the first output is block `t` of the normalised relu of the features. -/
theorem flushed2_eq (c : Dev nD) (t : Fin cfg2.N) :
    (dat2 V c).flushed 2 t = ((cfg2.win 2).blk t).view.read (Elt Ideal) (normH (reluH (V c main_v40))) := by
  show (cfg2.win 2).cut (grid2.coords t) ((dat2 V c).after 2 t) = _
  rw [after2_2]
  unfold out2_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk2 V c 0 t) j = normH (reluH (V c main_v40)) (((cfg2.win 2).blk t).view.emb j)
  have hemb : ((cfg2.win 2).blk t).view.emb j = ix2 (rowAt (R := 2000) (t.val * 2000) ho (j 0)) (j 1) := by
    funext a; apply Fin.ext
    match a with
    | ⟨0, _⟩ => show win2_2.index t (0 : Fin 2) * 2000 + 1 * (j 0).val = t.val * 2000 + (j 0).val; omega
    | ⟨1, _⟩ => show win2_2.index t (1 : Fin 2) * 128 + 1 * (j 1).val = (j 1).val; omega
  rw [hemb]
  exact layerX_point' (iblk2 V c 0 t) (V c main_v40) (t.val * 2000) ho (blkY V c t ho) j

/-- What point `t` writes back to the second output is block `t` of that times the weight. -/
theorem flushed3_eq (c : Dev nD) (t : Fin cfg2.N) :
    (dat2 V c).flushed 3 t
      = ((cfg2.win 3).blk t).view.read (Elt Ideal) (dotH (normH (reluH (V c main_v40))) (V c main_arg9)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk2 V c 0 t) (iblk2 V c 1 t) j
    = dotH (normH (reluH (V c main_v40))) (V c main_arg9) (((cfg2.win 3).blk t).view.emb j)
  have hemb : ((cfg2.win 3).blk t).view.emb j = ix2 (rowAt (R := 2000) (t.val * 2000) ho (j 0)) (j 1) := by
    funext a; apply Fin.ext
    match a with
    | ⟨0, _⟩ => show win2_3.index t (0 : Fin 2) * 2000 + 1 * (j 0).val = t.val * 2000 + (j 0).val; omega
    | ⟨1, _⟩ => show win2_3.index t (1 : Fin 2) * 128 + 1 * (j 1).val = (j 1).val; omega
  rw [hemb]
  exact layerZ_point' (iblk2 V c 0 t) (iblk2 V c 1 t) (V c main_v40) (V c main_arg9) (t.val * 2000) ho (blkY V c t ho) (blkW V c t) j

/-- An index of an output array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v41_0).slice (win2_2.rect t)).set ↔ _
  rw [View.set_slice_whole, Rect.mem_set_unit]
  exact Iff.rfl

theorem mem_blk3 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v41_1).slice (win2_3.rect t)).set ↔ _
  rw [View.set_slice_whole, Rect.mem_set_unit]
  exact Iff.rfl

/-- Row `r` is in the block of point `r / 2000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  refine ⟨⟨(i 0).val / 2000, by omega⟩, flush2_2 _, ?_⟩
  rw [mem_blk2]
  obtain ⟨-, -, -, -, e4, e5, -⟩ := idx_facts ⟨(i 0).val / 2000, by omega⟩
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 128 ≤ (i 1).val ∧ (i 1).val < win2_2.index _ (1 : Fin 2) * 128 + 128
    rw [e5]; omega

theorem cover3 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  refine ⟨⟨(i 0).val / 2000, by omega⟩, flush2_3 _, ?_⟩
  rw [mem_blk3]
  obtain ⟨-, -, -, -, -, -, e6, e7⟩ := idx_facts ⟨(i 0).val / 2000, by omega⟩
  intro a
  match a with
  | ⟨0, _⟩ =>
    show win2_3.index _ (0 : Fin 2) * 2000 ≤ (i 0).val ∧ (i 0).val < win2_3.index _ (0 : Fin 2) * 2000 + 2000
    rw [e6]; show (i 0).val / 2000 * 2000 ≤ (i 0).val ∧ (i 0).val < (i 0).val / 2000 * 2000 + 2000; omega
  | ⟨1, _⟩ =>
    show win2_3.index _ (1 : Fin 2) * 128 ≤ (i 1).val ∧ (i 1).val < win2_3.index _ (1 : Fin 2) * 128 + 128
    rw [e7]; omega

/-- The first output array after the region. -/
theorem final2 (c : Dev nD) : (dat2 V c).arrAt 2 cfg2.N = normH (reluH (V c main_v40)) :=
  (dat2 V c).arrAt_eq_of_cover 2 _ (fun t _ => flushed2_eq V c t) cover2

/-- The second output array after the region. -/
theorem final3 (c : Dev nD) : (dat2 V c).arrAt 3 cfg2.N = dotH (normH (reluH (V c main_v40))) (V c main_arg9) :=
  (dat2 V c).arrAt_eq_of_cover 3 _ (fun t _ => flushed3_eq V c t) cover3

end Cert.KRegion2

end
-- ==== Proof.KRegion3.lean ====
/-
  Region 3 of the idealized kernel: a layer kernel over 25 blocks of 2000 rows. From the contents `V` the region is
  entered with, its first output array ends as the normalised relu of the propagated features `V … main_v54`, and its second
  as that times the weight `V … main_arg10`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion3

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem t_lt (t : Fin cfg3.N) : t.val < 25 := by
  have h := t.isLt
  have hN : cfg3.N = 25 := N_3
  omega

/-- Row `p` of the features' block at point `t` is row `2000 t + p` of the features. -/
theorem blkY (c : Dev nD) (t : Fin cfg3.N) (ho : t.val * 2000 + 2000 ≤ 50000) (p : Fin 2000) (k : Fin 128) :
    iblk3 V c 0 t (ix2 p k) = V c main_v54 (ix2 (rowAt (t.val * 2000) ho p) k) := by
  obtain ⟨e0, e1, -⟩ := idx_facts t
  show V c main_v54 (((cfg3.win 0).blk t).view.emb (ix2 p k)) = _
  refine congrArg (V c main_v54) (funext fun a => Fin.ext ?_)
  match a with
  | ⟨0, _⟩ => show win3_0.index t (0 : Fin 2) * 2000 + 1 * p.val = t.val * 2000 + p.val; omega
  | ⟨1, _⟩ => show win3_0.index t (1 : Fin 2) * 128 + 1 * k.val = k.val; omega

/-- The weight's block is the weight. -/
theorem blkW (c : Dev nD) (t : Fin cfg3.N) (i : S128x128.Idx) : iblk3 V c 1 t i = V c main_arg10 i := by
  obtain ⟨-, -, e2, e3, -⟩ := idx_facts t
  show V c main_arg10 (((cfg3.win 1).blk t).view.emb i) = _
  refine congrArg (V c main_arg10) (funext fun a => Fin.ext ?_)
  match a with
  | ⟨0, _⟩ => show win3_1.index t (0 : Fin 2) * 128 + 1 * (i 0).val = (i 0).val; omega
  | ⟨1, _⟩ => show win3_1.index t (1 : Fin 2) * 128 + 1 * (i 1).val = (i 1).val; omega

/-- What point `t` writes back to the first output is block `t` of the normalised relu of the features. -/
theorem flushed2_eq (c : Dev nD) (t : Fin cfg3.N) :
    (dat3 V c).flushed 2 t = ((cfg3.win 2).blk t).view.read (Elt Ideal) (normH (reluH (V c main_v54))) := by
  show (cfg3.win 2).cut (grid3.coords t) ((dat3 V c).after 2 t) = _
  rw [after3_2]
  unfold out3_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk3 V c 0 t) j = normH (reluH (V c main_v54)) (((cfg3.win 2).blk t).view.emb j)
  have hemb : ((cfg3.win 2).blk t).view.emb j = ix2 (rowAt (R := 2000) (t.val * 2000) ho (j 0)) (j 1) := by
    funext a; apply Fin.ext
    match a with
    | ⟨0, _⟩ => show win3_2.index t (0 : Fin 2) * 2000 + 1 * (j 0).val = t.val * 2000 + (j 0).val; omega
    | ⟨1, _⟩ => show win3_2.index t (1 : Fin 2) * 128 + 1 * (j 1).val = (j 1).val; omega
  rw [hemb]
  exact layerX_point' (iblk3 V c 0 t) (V c main_v54) (t.val * 2000) ho (blkY V c t ho) j

/-- What point `t` writes back to the second output is block `t` of that times the weight. -/
theorem flushed3_eq (c : Dev nD) (t : Fin cfg3.N) :
    (dat3 V c).flushed 3 t
      = ((cfg3.win 3).blk t).view.read (Elt Ideal) (dotH (normH (reluH (V c main_v54))) (V c main_arg10)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk3 V c 0 t) (iblk3 V c 1 t) j
    = dotH (normH (reluH (V c main_v54))) (V c main_arg10) (((cfg3.win 3).blk t).view.emb j)
  have hemb : ((cfg3.win 3).blk t).view.emb j = ix2 (rowAt (R := 2000) (t.val * 2000) ho (j 0)) (j 1) := by
    funext a; apply Fin.ext
    match a with
    | ⟨0, _⟩ => show win3_3.index t (0 : Fin 2) * 2000 + 1 * (j 0).val = t.val * 2000 + (j 0).val; omega
    | ⟨1, _⟩ => show win3_3.index t (1 : Fin 2) * 128 + 1 * (j 1).val = (j 1).val; omega
  rw [hemb]
  exact layerZ_point' (iblk3 V c 0 t) (iblk3 V c 1 t) (V c main_v54) (V c main_arg10) (t.val * 2000) ho (blkY V c t ho) (blkW V c t) j

/-- An index of an output array is in point `t`'s block iff each coordinate is in the block's range on its axis. -/
theorem mem_blk2 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v55_0).slice (win3_2.rect t)).set ↔ _
  rw [View.set_slice_whole, Rect.mem_set_unit]
  exact Iff.rfl

theorem mem_blk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v55_1).slice (win3_3.rect t)).set ↔ _
  rw [View.set_slice_whole, Rect.mem_set_unit]
  exact Iff.rfl

/-- Row `r` is in the block of point `r / 2000`. -/
theorem cover2 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  refine ⟨⟨(i 0).val / 2000, by omega⟩, flush3_2 _, ?_⟩
  rw [mem_blk2]
  obtain ⟨-, -, -, -, e4, e5, -⟩ := idx_facts ⟨(i 0).val / 2000, by omega⟩
  intro a
  match a with
  | ⟨0, _⟩ =>
    show win3_2.index _ (0 : Fin 2) * 2000 ≤ (i 0).val ∧ (i 0).val < win3_2.index _ (0 : Fin 2) * 2000 + 2000
    rw [e4]; show (i 0).val / 2000 * 2000 ≤ (i 0).val ∧ (i 0).val < (i 0).val / 2000 * 2000 + 2000; omega
  | ⟨1, _⟩ =>
    show win3_2.index _ (1 : Fin 2) * 128 ≤ (i 1).val ∧ (i 1).val < win3_2.index _ (1 : Fin 2) * 128 + 128
    rw [e5]; omega

theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  refine ⟨⟨(i 0).val / 2000, by omega⟩, flush3_3 _, ?_⟩
  rw [mem_blk3]
  obtain ⟨-, -, -, -, -, -, e6, e7⟩ := idx_facts ⟨(i 0).val / 2000, by omega⟩
  intro a
  match a with
  | ⟨0, _⟩ =>
    show win3_3.index _ (0 : Fin 2) * 2000 ≤ (i 0).val ∧ (i 0).val < win3_3.index _ (0 : Fin 2) * 2000 + 2000
    rw [e6]; show (i 0).val / 2000 * 2000 ≤ (i 0).val ∧ (i 0).val < (i 0).val / 2000 * 2000 + 2000; omega
  | ⟨1, _⟩ =>
    show win3_3.index _ (1 : Fin 2) * 128 ≤ (i 1).val ∧ (i 1).val < win3_3.index _ (1 : Fin 2) * 128 + 128
    rw [e7]; omega

/-- The first output array after the region. -/
theorem final2 (c : Dev nD) : (dat3 V c).arrAt 2 cfg3.N = normH (reluH (V c main_v54)) :=
  (dat3 V c).arrAt_eq_of_cover 2 _ (fun t _ => flushed2_eq V c t) cover2

/-- The second output array after the region. -/
theorem final3 (c : Dev nD) : (dat3 V c).arrAt 3 cfg3.N = dotH (normH (reluH (V c main_v54))) (V c main_arg10) :=
  (dat3 V c).arrAt_eq_of_cover 3 _ (fun t _ => flushed3_eq V c t) cover3

end Cert.KRegion3

end
-- ==== Proof.KRegion4.lean ====
/-
  Region 4 of the idealized kernel: the head kernel over 50 blocks of 1000 rows. From the contents `V` the region is
  entered with, its output array ends as the reference's head of the five input arrays and the perceptron's parameters:
  point `t` writes back rows `1000 t …`, every row is in some point's block, a block's rows are the arrays' rows at that
  offset, and each parameter's block is the parameter.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion4

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps of the row windows over the grid: block row `t`, block column 0. -/
theorem idx_rows : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_11.index t (0 : Fin 2) = t.val ∧ win4_11.index t (1 : Fin 2) = 0) :=
  (by decide +kernel : ∀ t : Fin grid4.N, _)

/-- The parameter windows sit at the origin at every point. -/
theorem idx_params : ∀ t : Fin cfg4.N,
    (∀ a : Fin 2, win4_5.index t a = 0) ∧ (∀ a : Fin 1, win4_6.index t a = 0) ∧ (∀ a : Fin 2, win4_7.index t a = 0)
    ∧ (∀ a : Fin 1, win4_8.index t a = 0) ∧ (∀ a : Fin 2, win4_9.index t a = 0) ∧ (∀ a : Fin 1, win4_10.index t a = 0) :=
  (by decide +kernel : ∀ t : Fin grid4.N, _)

theorem t_lt (t : Fin cfg4.N) : t.val < 50 := by
  have h := t.isLt
  have hN : cfg4.N = 50 := N_4
  omega

/-- Row `p` of input 0's block at point `t` is row `1000 t + p` of its array. -/
theorem blkX0 (c : Dev nD) (t : Fin cfg4.N) (ho : t.val * 1000 + 1000 ≤ 50000) (p : Fin 1000) (k : Fin 128) :
    iblk4 V c 0 t (ix2 p k) = V c main_v13_0 (ix2 (rowAt (t.val * 1000) ho p) k) := by
  obtain ⟨e0, e1⟩ := (idx_rows t).1
  show V c main_v13_0 (((cfg4.win 0).blk t).view.emb (ix2 p k)) = _
  refine congrArg (V c main_v13_0) (funext fun a => Fin.ext ?_)
  match a with
  | ⟨0, _⟩ => show win4_0.index t (0 : Fin 2) * 1000 + 1 * p.val = t.val * 1000 + p.val; omega
  | ⟨1, _⟩ => show win4_0.index t (1 : Fin 2) * 128 + 1 * k.val = k.val; omega

/-- Row `p` of input 1's block at point `t` is row `1000 t + p` of its array. -/
theorem blkX1 (c : Dev nD) (t : Fin cfg4.N) (ho : t.val * 1000 + 1000 ≤ 50000) (p : Fin 1000) (k : Fin 128) :
    iblk4 V c 1 t (ix2 p k) = V c main_v27_0 (ix2 (rowAt (t.val * 1000) ho p) k) := by
  obtain ⟨e0, e1⟩ := (idx_rows t).2.1
  show V c main_v27_0 (((cfg4.win 1).blk t).view.emb (ix2 p k)) = _
  refine congrArg (V c main_v27_0) (funext fun a => Fin.ext ?_)
  match a with
  | ⟨0, _⟩ => show win4_1.index t (0 : Fin 2) * 1000 + 1 * p.val = t.val * 1000 + p.val; omega
  | ⟨1, _⟩ => show win4_1.index t (1 : Fin 2) * 128 + 1 * k.val = k.val; omega

/-- Row `p` of input 2's block at point `t` is row `1000 t + p` of its array. -/
theorem blkX2 (c : Dev nD) (t : Fin cfg4.N) (ho : t.val * 1000 + 1000 ≤ 50000) (p : Fin 1000) (k : Fin 128) :
    iblk4 V c 2 t (ix2 p k) = V c main_v41_0 (ix2 (rowAt (t.val * 1000) ho p) k) := by
  obtain ⟨e0, e1⟩ := (idx_rows t).2.2.1
  show V c main_v41_0 (((cfg4.win 2).blk t).view.emb (ix2 p k)) = _
  refine congrArg (V c main_v41_0) (funext fun a => Fin.ext ?_)
  match a with
  | ⟨0, _⟩ => show win4_2.index t (0 : Fin 2) * 1000 + 1 * p.val = t.val * 1000 + p.val; omega
  | ⟨1, _⟩ => show win4_2.index t (1 : Fin 2) * 128 + 1 * k.val = k.val; omega

/-- Row `p` of input 3's block at point `t` is row `1000 t + p` of its array. -/
theorem blkX3 (c : Dev nD) (t : Fin cfg4.N) (ho : t.val * 1000 + 1000 ≤ 50000) (p : Fin 1000) (k : Fin 128) :
    iblk4 V c 3 t (ix2 p k) = V c main_v55_0 (ix2 (rowAt (t.val * 1000) ho p) k) := by
  obtain ⟨e0, e1⟩ := (idx_rows t).2.2.2.1
  show V c main_v55_0 (((cfg4.win 3).blk t).view.emb (ix2 p k)) = _
  refine congrArg (V c main_v55_0) (funext fun a => Fin.ext ?_)
  match a with
  | ⟨0, _⟩ => show win4_3.index t (0 : Fin 2) * 1000 + 1 * p.val = t.val * 1000 + p.val; omega
  | ⟨1, _⟩ => show win4_3.index t (1 : Fin 2) * 128 + 1 * k.val = k.val; omega

/-- Row `p` of input 4's block at point `t` is row `1000 t + p` of its array. -/
theorem blkX4 (c : Dev nD) (t : Fin cfg4.N) (ho : t.val * 1000 + 1000 ≤ 50000) (p : Fin 1000) (k : Fin 128) :
    iblk4 V c 4 t (ix2 p k) = V c main_v68 (ix2 (rowAt (t.val * 1000) ho p) k) := by
  obtain ⟨e0, e1⟩ := (idx_rows t).2.2.2.2.1
  show V c main_v68 (((cfg4.win 4).blk t).view.emb (ix2 p k)) = _
  refine congrArg (V c main_v68) (funext fun a => Fin.ext ?_)
  match a with
  | ⟨0, _⟩ => show win4_4.index t (0 : Fin 2) * 1000 + 1 * p.val = t.val * 1000 + p.val; omega
  | ⟨1, _⟩ => show win4_4.index t (1 : Fin 2) * 128 + 1 * k.val = k.val; omega

/-- Parameter window 5's block is the parameter. -/
theorem blkW5 (c : Dev nD) (t : Fin cfg4.N) (i : S128x256.Idx) : iblk4 V c 5 t i = V c main_arg11 i := by
  have e := (idx_params t).1
  show V c main_arg11 (((cfg4.win 5).blk t).view.emb i) = _
  refine congrArg (V c main_arg11) (funext fun a => Fin.ext ?_)
  match a with
  | ⟨0, _⟩ => show win4_5.index t (0 : Fin 2) * 128 + 1 * (i 0).val = (i 0).val; have := e 0; omega
  | ⟨1, _⟩ => show win4_5.index t (1 : Fin 2) * 256 + 1 * (i 1).val = (i 1).val; have := e 1; omega

/-- Parameter window 6's block is the parameter. -/
theorem blkW6 (c : Dev nD) (t : Fin cfg4.N) (i : S256.Idx) : iblk4 V c 6 t i = V c main_arg12 i := by
  have e := (idx_params t).2.1
  show V c main_arg12 (((cfg4.win 6).blk t).view.emb i) = _
  refine congrArg (V c main_arg12) (funext fun a => Fin.ext ?_)
  match a with
  | ⟨0, _⟩ => show win4_6.index t (0 : Fin 1) * 256 + 1 * (i 0).val = (i 0).val; have := e 0; omega

/-- Parameter window 7's block is the parameter. -/
theorem blkW7 (c : Dev nD) (t : Fin cfg4.N) (i : S256x256.Idx) : iblk4 V c 7 t i = V c main_arg13 i := by
  have e := (idx_params t).2.2.1
  show V c main_arg13 (((cfg4.win 7).blk t).view.emb i) = _
  refine congrArg (V c main_arg13) (funext fun a => Fin.ext ?_)
  match a with
  | ⟨0, _⟩ => show win4_7.index t (0 : Fin 2) * 256 + 1 * (i 0).val = (i 0).val; have := e 0; omega
  | ⟨1, _⟩ => show win4_7.index t (1 : Fin 2) * 256 + 1 * (i 1).val = (i 1).val; have := e 1; omega

/-- Parameter window 8's block is the parameter. -/
theorem blkW8 (c : Dev nD) (t : Fin cfg4.N) (i : S256.Idx) : iblk4 V c 8 t i = V c main_arg14 i := by
  have e := (idx_params t).2.2.2.1
  show V c main_arg14 (((cfg4.win 8).blk t).view.emb i) = _
  refine congrArg (V c main_arg14) (funext fun a => Fin.ext ?_)
  match a with
  | ⟨0, _⟩ => show win4_8.index t (0 : Fin 1) * 256 + 1 * (i 0).val = (i 0).val; have := e 0; omega

/-- Parameter window 9's block is the parameter. -/
theorem blkW9 (c : Dev nD) (t : Fin cfg4.N) (i : S256x1.Idx) : iblk4 V c 9 t i = V c main_arg15 i := by
  have e := (idx_params t).2.2.2.2.1
  show V c main_arg15 (((cfg4.win 9).blk t).view.emb i) = _
  refine congrArg (V c main_arg15) (funext fun a => Fin.ext ?_)
  match a with
  | ⟨0, _⟩ => show win4_9.index t (0 : Fin 2) * 256 + 1 * (i 0).val = (i 0).val; have := e 0; omega
  | ⟨1, _⟩ => show win4_9.index t (1 : Fin 2) * 1 + 1 * (i 1).val = (i 1).val; have := e 1; omega

/-- Parameter window 10's block is the parameter. -/
theorem blkW10 (c : Dev nD) (t : Fin cfg4.N) (i : S1.Idx) : iblk4 V c 10 t i = V c main_arg16 i := by
  have e := (idx_params t).2.2.2.2.2
  show V c main_arg16 (((cfg4.win 10).blk t).view.emb i) = _
  refine congrArg (V c main_arg16) (funext fun a => Fin.ext ?_)
  match a with
  | ⟨0, _⟩ => show win4_10.index t (0 : Fin 1) * 1 + 1 * (i 0).val = (i 0).val; have := e 0; omega

/-- What point `t` writes back is block `t` of the head of the arrays. -/
theorem flushed11_eq (c : Dev nD) (t : Fin cfg4.N) :
    (dat4 V c).flushed 11 t = ((cfg4.win 11).blk t).view.read (Elt Ideal)
      (headH (V c main_v13_0) (V c main_v27_0) (V c main_v41_0) (V c main_v55_0) (V c main_v68)
        (V c main_arg11) (V c main_arg12) (V c main_arg13) (V c main_arg14) (V c main_arg15) (V c main_arg16)) := by
  show (cfg4.win 11).cut (grid4.coords t) ((dat4 V c).after 11 t) = _
  rw [after4_11]
  unfold out4_11
  rw [View.canon_unit_zero hz2]
  simp only [View.ld_unit_zero (S := S1000x128) hz2, View.ld_unit_zero (S := S128x256) hz2, View.ld_unit_zero (S := S256) hz1,
    View.ld_unit_zero (S := S256x256) hz2, View.ld_unit_zero (S := S256x1) hz2, View.ld_unit_zero (S := S1) hz1]
  have ht := t_lt t
  have ho : t.val * 1000 + 1000 ≤ 50000 := by omega
  obtain ⟨e0, e1⟩ := (idx_rows t).2.2.2.2.2
  funext j
  show headK (iblk4 V c 0 t) (iblk4 V c 1 t) (iblk4 V c 2 t) (iblk4 V c 3 t) (iblk4 V c 4 t)
      (iblk4 V c 5 t) (iblk4 V c 6 t) (iblk4 V c 7 t) (iblk4 V c 8 t) (iblk4 V c 9 t) (iblk4 V c 10 t) j
    = headH (V c main_v13_0) (V c main_v27_0) (V c main_v41_0) (V c main_v55_0) (V c main_v68)
        (V c main_arg11) (V c main_arg12) (V c main_arg13) (V c main_arg14) (V c main_arg15) (V c main_arg16)
        (((cfg4.win 11).blk t).view.emb j)
  have hemb : ((cfg4.win 11).blk t).view.emb j = ix2 (rowAt (R := 1000) (t.val * 1000) ho (j 0)) (j 1) := by
    funext a; apply Fin.ext
    match a with
    | ⟨0, _⟩ => show win4_11.index t (0 : Fin 2) * 1000 + 1 * (j 0).val = t.val * 1000 + (j 0).val; omega
    | ⟨1, _⟩ => show win4_11.index t (1 : Fin 2) * 1 + 1 * (j 1).val = (j 1).val; omega
  rw [hemb]
  exact head_point' (t.val * 1000) ho
    (iblk4 V c 5 t) (V c main_arg11) (blkW5 V c t) (iblk4 V c 6 t) (V c main_arg12) (blkW6 V c t)
    (iblk4 V c 7 t) (V c main_arg13) (blkW7 V c t) (iblk4 V c 8 t) (V c main_arg14) (blkW8 V c t)
    (iblk4 V c 9 t) (V c main_arg15) (blkW9 V c t) (iblk4 V c 10 t) (V c main_arg16) (blkW10 V c t)
    (iblk4 V c 0 t) (iblk4 V c 1 t) (iblk4 V c 2 t) (iblk4 V c 3 t) (iblk4 V c 4 t)
    (V c main_v13_0) (V c main_v27_0) (V c main_v41_0) (V c main_v55_0) (V c main_v68)
    (blkX0 V c t ho) (blkX1 V c t ho) (blkX2 V c t ho) (blkX3 V c t ho) (blkX4 V c t ho) j

/-- An index of the output array is in point `t`'s block iff each coordinate is in the block's range on its axis. -/
theorem mem_blk11 (t : Fin cfg4.N) (i : S50000x1.Idx) :
    i ∈ ((cfg4.win 11).blk t).view.set ↔ ∀ a : Fin 2, win4_11.index t a * S1000x1.size a ≤ (i a).val ∧ (i a).val < win4_11.index t a * S1000x1.size a + S1000x1.size a := by
  show i ∈ ((View.whole main_v69).slice (win4_11.rect t)).set ↔ _
  rw [View.set_slice_whole, Rect.mem_set_unit]
  exact Iff.rfl

/-- Row `r` is in the block of point `r / 1000`. -/
theorem cover11 (i : S50000x1.Idx) : ∃ t : Fin cfg4.N, (cfg4.win 11).flush t = true ∧ i ∈ ((cfg4.win 11).blk t).view.set := by
  have hi0 : (i 0).val < 50000 := (i 0).isLt
  have hi1 : (i 1).val < 1 := (i 1).isLt
  have hN : cfg4.N = 50 := N_4
  refine ⟨⟨(i 0).val / 1000, by omega⟩, flush4_11 _, ?_⟩
  rw [mem_blk11]
  obtain ⟨e0, e1⟩ := (idx_rows ⟨(i 0).val / 1000, by omega⟩).2.2.2.2.2
  intro a
  match a with
  | ⟨0, _⟩ =>
    show win4_11.index _ (0 : Fin 2) * 1000 ≤ (i 0).val ∧ (i 0).val < win4_11.index _ (0 : Fin 2) * 1000 + 1000
    rw [e0]; show (i 0).val / 1000 * 1000 ≤ (i 0).val ∧ (i 0).val < (i 0).val / 1000 * 1000 + 1000; omega
  | ⟨1, _⟩ =>
    show win4_11.index _ (1 : Fin 2) * 1 ≤ (i 1).val ∧ (i 1).val < win4_11.index _ (1 : Fin 2) * 1 + 1
    rw [e1]; omega

/-- The output array after the region. -/
theorem final11 (c : Dev nD) : (dat4 V c).arrAt 11 cfg4.N
    = headH (V c main_v13_0) (V c main_v27_0) (V c main_v41_0) (V c main_v55_0) (V c main_v68)
        (V c main_arg11) (V c main_arg12) (V c main_arg13) (V c main_arg14) (V c main_arg15) (V c main_arg16) :=
  (dat4 V c).arrAt_eq_of_cover 11 _ (fun t _ => flushed11_eq V c t) cover11

end Cert.KRegion4

end
-- ==== Proof.KRegion5.lean ====
/-
  Region 5 of the idealized kernel: a layer kernel over 25 blocks of 2000 rows. From the contents `V` the region is
  entered with, its first output array ends as the normalised relu of the propagated features `V … main_v82`, and its second
  as that times the weight `V … main_arg7`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion5

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

theorem t_lt (t : Fin cfg5.N) : t.val < 25 := by
  have h := t.isLt
  have hN : cfg5.N = 25 := N_5
  omega

/-- Row `p` of the features' block at point `t` is row `2000 t + p` of the features. -/
theorem blkY (c : Dev nD) (t : Fin cfg5.N) (ho : t.val * 2000 + 2000 ≤ 50000) (p : Fin 2000) (k : Fin 128) :
    iblk5 V c 0 t (ix2 p k) = V c main_v82 (ix2 (rowAt (t.val * 2000) ho p) k) := by
  obtain ⟨e0, e1, -⟩ := idx_facts t
  show V c main_v82 (((cfg5.win 0).blk t).view.emb (ix2 p k)) = _
  refine congrArg (V c main_v82) (funext fun a => Fin.ext ?_)
  match a with
  | ⟨0, _⟩ => show win5_0.index t (0 : Fin 2) * 2000 + 1 * p.val = t.val * 2000 + p.val; omega
  | ⟨1, _⟩ => show win5_0.index t (1 : Fin 2) * 128 + 1 * k.val = k.val; omega

/-- The weight's block is the weight. -/
theorem blkW (c : Dev nD) (t : Fin cfg5.N) (i : S128x128.Idx) : iblk5 V c 1 t i = V c main_arg7 i := by
  obtain ⟨-, -, e2, e3, -⟩ := idx_facts t
  show V c main_arg7 (((cfg5.win 1).blk t).view.emb i) = _
  refine congrArg (V c main_arg7) (funext fun a => Fin.ext ?_)
  match a with
  | ⟨0, _⟩ => show win5_1.index t (0 : Fin 2) * 128 + 1 * (i 0).val = (i 0).val; omega
  | ⟨1, _⟩ => show win5_1.index t (1 : Fin 2) * 128 + 1 * (i 1).val = (i 1).val; omega

/-- What point `t` writes back to the first output is block `t` of the normalised relu of the features. -/
theorem flushed2_eq (c : Dev nD) (t : Fin cfg5.N) :
    (dat5 V c).flushed 2 t = ((cfg5.win 2).blk t).view.read (Elt Ideal) (normH (reluH (V c main_v82))) := by
  show (cfg5.win 2).cut (grid5.coords t) ((dat5 V c).after 2 t) = _
  rw [after5_2]
  unfold out5_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk5 V c 0 t) j = normH (reluH (V c main_v82)) (((cfg5.win 2).blk t).view.emb j)
  have hemb : ((cfg5.win 2).blk t).view.emb j = ix2 (rowAt (R := 2000) (t.val * 2000) ho (j 0)) (j 1) := by
    funext a; apply Fin.ext
    match a with
    | ⟨0, _⟩ => show win5_2.index t (0 : Fin 2) * 2000 + 1 * (j 0).val = t.val * 2000 + (j 0).val; omega
    | ⟨1, _⟩ => show win5_2.index t (1 : Fin 2) * 128 + 1 * (j 1).val = (j 1).val; omega
  rw [hemb]
  exact layerX_point' (iblk5 V c 0 t) (V c main_v82) (t.val * 2000) ho (blkY V c t ho) j

/-- What point `t` writes back to the second output is block `t` of that times the weight. -/
theorem flushed3_eq (c : Dev nD) (t : Fin cfg5.N) :
    (dat5 V c).flushed 3 t
      = ((cfg5.win 3).blk t).view.read (Elt Ideal) (dotH (normH (reluH (V c main_v82))) (V c main_arg7)) := by
  show (cfg5.win 3).cut (grid5.coords t) ((dat5 V c).after 3 t) = _
  rw [after5_3]
  unfold out5_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk5 V c 0 t) (iblk5 V c 1 t) j
    = dotH (normH (reluH (V c main_v82))) (V c main_arg7) (((cfg5.win 3).blk t).view.emb j)
  have hemb : ((cfg5.win 3).blk t).view.emb j = ix2 (rowAt (R := 2000) (t.val * 2000) ho (j 0)) (j 1) := by
    funext a; apply Fin.ext
    match a with
    | ⟨0, _⟩ => show win5_3.index t (0 : Fin 2) * 2000 + 1 * (j 0).val = t.val * 2000 + (j 0).val; omega
    | ⟨1, _⟩ => show win5_3.index t (1 : Fin 2) * 128 + 1 * (j 1).val = (j 1).val; omega
  rw [hemb]
  exact layerZ_point' (iblk5 V c 0 t) (iblk5 V c 1 t) (V c main_v82) (V c main_arg7) (t.val * 2000) ho (blkY V c t ho) (blkW V c t) j

/-- An index of an output array is in point `t`'s block iff each coordinate is in the block's range on its axis. -/
theorem mem_blk2 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v83_0).slice (win5_2.rect t)).set ↔ _
  rw [View.set_slice_whole, Rect.mem_set_unit]
  exact Iff.rfl

theorem mem_blk3 (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v83_1).slice (win5_3.rect t)).set ↔ _
  rw [View.set_slice_whole, Rect.mem_set_unit]
  exact Iff.rfl

/-- Row `r` is in the block of point `r / 2000`. -/
theorem cover2 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 25 := N_5
  refine ⟨⟨(i 0).val / 2000, by omega⟩, flush5_2 _, ?_⟩
  rw [mem_blk2]
  obtain ⟨-, -, -, -, e4, e5, -⟩ := idx_facts ⟨(i 0).val / 2000, by omega⟩
  intro a
  match a with
  | ⟨0, _⟩ =>
    show win5_2.index _ (0 : Fin 2) * 2000 ≤ (i 0).val ∧ (i 0).val < win5_2.index _ (0 : Fin 2) * 2000 + 2000
    rw [e4]; show (i 0).val / 2000 * 2000 ≤ (i 0).val ∧ (i 0).val < (i 0).val / 2000 * 2000 + 2000; omega
  | ⟨1, _⟩ =>
    show win5_2.index _ (1 : Fin 2) * 128 ≤ (i 1).val ∧ (i 1).val < win5_2.index _ (1 : Fin 2) * 128 + 128
    rw [e5]; omega

theorem cover3 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  refine ⟨⟨(i 0).val / 2000, by omega⟩, flush5_3 _, ?_⟩
  rw [mem_blk3]
  obtain ⟨-, -, -, -, -, -, e6, e7⟩ := idx_facts ⟨(i 0).val / 2000, by omega⟩
  intro a
  match a with
  | ⟨0, _⟩ =>
    show win5_3.index _ (0 : Fin 2) * 2000 ≤ (i 0).val ∧ (i 0).val < win5_3.index _ (0 : Fin 2) * 2000 + 2000
    rw [e6]; show (i 0).val / 2000 * 2000 ≤ (i 0).val ∧ (i 0).val < (i 0).val / 2000 * 2000 + 2000; omega
  | ⟨1, _⟩ =>
    show win5_3.index _ (1 : Fin 2) * 128 ≤ (i 1).val ∧ (i 1).val < win5_3.index _ (1 : Fin 2) * 128 + 128
    rw [e7]; omega

/-- The first output array after the region. -/
theorem final2 (c : Dev nD) : (dat5 V c).arrAt 2 cfg5.N = normH (reluH (V c main_v82)) :=
  (dat5 V c).arrAt_eq_of_cover 2 _ (fun t _ => flushed2_eq V c t) cover2

/-- The second output array after the region. -/
theorem final3 (c : Dev nD) : (dat5 V c).arrAt 3 cfg5.N = dotH (normH (reluH (V c main_v82))) (V c main_arg7) :=
  (dat5 V c).arrAt_eq_of_cover 3 _ (fun t _ => flushed3_eq V c t) cover3

end Cert.KRegion5

end
-- ==== Proof.KRegion6.lean ====
/-
  Region 6 of the idealized kernel: a layer kernel over 25 blocks of 2000 rows. From the contents `V` the region is
  entered with, its first output array ends as the normalised relu of the propagated features `V … main_v96`, and its second
  as that times the weight `V … main_arg8`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion6

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

theorem t_lt (t : Fin cfg6.N) : t.val < 25 := by
  have h := t.isLt
  have hN : cfg6.N = 25 := N_6
  omega

/-- Row `p` of the features' block at point `t` is row `2000 t + p` of the features. -/
theorem blkY (c : Dev nD) (t : Fin cfg6.N) (ho : t.val * 2000 + 2000 ≤ 50000) (p : Fin 2000) (k : Fin 128) :
    iblk6 V c 0 t (ix2 p k) = V c main_v96 (ix2 (rowAt (t.val * 2000) ho p) k) := by
  obtain ⟨e0, e1, -⟩ := idx_facts t
  show V c main_v96 (((cfg6.win 0).blk t).view.emb (ix2 p k)) = _
  refine congrArg (V c main_v96) (funext fun a => Fin.ext ?_)
  match a with
  | ⟨0, _⟩ => show win6_0.index t (0 : Fin 2) * 2000 + 1 * p.val = t.val * 2000 + p.val; omega
  | ⟨1, _⟩ => show win6_0.index t (1 : Fin 2) * 128 + 1 * k.val = k.val; omega

/-- The weight's block is the weight. -/
theorem blkW (c : Dev nD) (t : Fin cfg6.N) (i : S128x128.Idx) : iblk6 V c 1 t i = V c main_arg8 i := by
  obtain ⟨-, -, e2, e3, -⟩ := idx_facts t
  show V c main_arg8 (((cfg6.win 1).blk t).view.emb i) = _
  refine congrArg (V c main_arg8) (funext fun a => Fin.ext ?_)
  match a with
  | ⟨0, _⟩ => show win6_1.index t (0 : Fin 2) * 128 + 1 * (i 0).val = (i 0).val; omega
  | ⟨1, _⟩ => show win6_1.index t (1 : Fin 2) * 128 + 1 * (i 1).val = (i 1).val; omega

/-- What point `t` writes back to the first output is block `t` of the normalised relu of the features. -/
theorem flushed2_eq (c : Dev nD) (t : Fin cfg6.N) :
    (dat6 V c).flushed 2 t = ((cfg6.win 2).blk t).view.read (Elt Ideal) (normH (reluH (V c main_v96))) := by
  show (cfg6.win 2).cut (grid6.coords t) ((dat6 V c).after 2 t) = _
  rw [after6_2]
  unfold out6_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk6 V c 0 t) j = normH (reluH (V c main_v96)) (((cfg6.win 2).blk t).view.emb j)
  have hemb : ((cfg6.win 2).blk t).view.emb j = ix2 (rowAt (R := 2000) (t.val * 2000) ho (j 0)) (j 1) := by
    funext a; apply Fin.ext
    match a with
    | ⟨0, _⟩ => show win6_2.index t (0 : Fin 2) * 2000 + 1 * (j 0).val = t.val * 2000 + (j 0).val; omega
    | ⟨1, _⟩ => show win6_2.index t (1 : Fin 2) * 128 + 1 * (j 1).val = (j 1).val; omega
  rw [hemb]
  exact layerX_point' (iblk6 V c 0 t) (V c main_v96) (t.val * 2000) ho (blkY V c t ho) j

/-- What point `t` writes back to the second output is block `t` of that times the weight. -/
theorem flushed3_eq (c : Dev nD) (t : Fin cfg6.N) :
    (dat6 V c).flushed 3 t
      = ((cfg6.win 3).blk t).view.read (Elt Ideal) (dotH (normH (reluH (V c main_v96))) (V c main_arg8)) := by
  show (cfg6.win 3).cut (grid6.coords t) ((dat6 V c).after 3 t) = _
  rw [after6_3]
  unfold out6_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk6 V c 0 t) (iblk6 V c 1 t) j
    = dotH (normH (reluH (V c main_v96))) (V c main_arg8) (((cfg6.win 3).blk t).view.emb j)
  have hemb : ((cfg6.win 3).blk t).view.emb j = ix2 (rowAt (R := 2000) (t.val * 2000) ho (j 0)) (j 1) := by
    funext a; apply Fin.ext
    match a with
    | ⟨0, _⟩ => show win6_3.index t (0 : Fin 2) * 2000 + 1 * (j 0).val = t.val * 2000 + (j 0).val; omega
    | ⟨1, _⟩ => show win6_3.index t (1 : Fin 2) * 128 + 1 * (j 1).val = (j 1).val; omega
  rw [hemb]
  exact layerZ_point' (iblk6 V c 0 t) (iblk6 V c 1 t) (V c main_v96) (V c main_arg8) (t.val * 2000) ho (blkY V c t ho) (blkW V c t) j

/-- An index of an output array is in point `t`'s block iff each coordinate is in the block's range on its axis. -/
theorem mem_blk2 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v97_0).slice (win6_2.rect t)).set ↔ _
  rw [View.set_slice_whole, Rect.mem_set_unit]
  exact Iff.rfl

theorem mem_blk3 (t : Fin cfg6.N) (i : S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v97_1).slice (win6_3.rect t)).set ↔ _
  rw [View.set_slice_whole, Rect.mem_set_unit]
  exact Iff.rfl

/-- Row `r` is in the block of point `r / 2000`. -/
theorem cover2 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  refine ⟨⟨(i 0).val / 2000, by omega⟩, flush6_2 _, ?_⟩
  rw [mem_blk2]
  obtain ⟨-, -, -, -, e4, e5, -⟩ := idx_facts ⟨(i 0).val / 2000, by omega⟩
  intro a
  match a with
  | ⟨0, _⟩ =>
    show win6_2.index _ (0 : Fin 2) * 2000 ≤ (i 0).val ∧ (i 0).val < win6_2.index _ (0 : Fin 2) * 2000 + 2000
    rw [e4]; show (i 0).val / 2000 * 2000 ≤ (i 0).val ∧ (i 0).val < (i 0).val / 2000 * 2000 + 2000; omega
  | ⟨1, _⟩ =>
    show win6_2.index _ (1 : Fin 2) * 128 ≤ (i 1).val ∧ (i 1).val < win6_2.index _ (1 : Fin 2) * 128 + 128
    rw [e5]; omega

theorem cover3 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 25 := N_6
  refine ⟨⟨(i 0).val / 2000, by omega⟩, flush6_3 _, ?_⟩
  rw [mem_blk3]
  obtain ⟨-, -, -, -, -, -, e6, e7⟩ := idx_facts ⟨(i 0).val / 2000, by omega⟩
  intro a
  match a with
  | ⟨0, _⟩ =>
    show win6_3.index _ (0 : Fin 2) * 2000 ≤ (i 0).val ∧ (i 0).val < win6_3.index _ (0 : Fin 2) * 2000 + 2000
    rw [e6]; show (i 0).val / 2000 * 2000 ≤ (i 0).val ∧ (i 0).val < (i 0).val / 2000 * 2000 + 2000; omega
  | ⟨1, _⟩ =>
    show win6_3.index _ (1 : Fin 2) * 128 ≤ (i 1).val ∧ (i 1).val < win6_3.index _ (1 : Fin 2) * 128 + 128
    rw [e7]; omega

/-- The first output array after the region. -/
theorem final2 (c : Dev nD) : (dat6 V c).arrAt 2 cfg6.N = normH (reluH (V c main_v96)) :=
  (dat6 V c).arrAt_eq_of_cover 2 _ (fun t _ => flushed2_eq V c t) cover2

/-- The second output array after the region. -/
theorem final3 (c : Dev nD) : (dat6 V c).arrAt 3 cfg6.N = dotH (normH (reluH (V c main_v96))) (V c main_arg8) :=
  (dat6 V c).arrAt_eq_of_cover 3 _ (fun t _ => flushed3_eq V c t) cover3

end Cert.KRegion6

end
-- ==== Proof.KRegion7.lean ====
/-
  Region 7 of the idealized kernel: a layer kernel over 25 blocks of 2000 rows. From the contents `V` the region is
  entered with, its first output array ends as the normalised relu of the propagated features `V … main_v110`, and its second
  as that times the weight `V … main_arg9`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion7

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

theorem t_lt (t : Fin cfg7.N) : t.val < 25 := by
  have h := t.isLt
  have hN : cfg7.N = 25 := N_7
  omega

/-- Row `p` of the features' block at point `t` is row `2000 t + p` of the features. -/
theorem blkY (c : Dev nD) (t : Fin cfg7.N) (ho : t.val * 2000 + 2000 ≤ 50000) (p : Fin 2000) (k : Fin 128) :
    iblk7 V c 0 t (ix2 p k) = V c main_v110 (ix2 (rowAt (t.val * 2000) ho p) k) := by
  obtain ⟨e0, e1, -⟩ := idx_facts t
  show V c main_v110 (((cfg7.win 0).blk t).view.emb (ix2 p k)) = _
  refine congrArg (V c main_v110) (funext fun a => Fin.ext ?_)
  match a with
  | ⟨0, _⟩ => show win7_0.index t (0 : Fin 2) * 2000 + 1 * p.val = t.val * 2000 + p.val; omega
  | ⟨1, _⟩ => show win7_0.index t (1 : Fin 2) * 128 + 1 * k.val = k.val; omega

/-- The weight's block is the weight. -/
theorem blkW (c : Dev nD) (t : Fin cfg7.N) (i : S128x128.Idx) : iblk7 V c 1 t i = V c main_arg9 i := by
  obtain ⟨-, -, e2, e3, -⟩ := idx_facts t
  show V c main_arg9 (((cfg7.win 1).blk t).view.emb i) = _
  refine congrArg (V c main_arg9) (funext fun a => Fin.ext ?_)
  match a with
  | ⟨0, _⟩ => show win7_1.index t (0 : Fin 2) * 128 + 1 * (i 0).val = (i 0).val; omega
  | ⟨1, _⟩ => show win7_1.index t (1 : Fin 2) * 128 + 1 * (i 1).val = (i 1).val; omega

/-- What point `t` writes back to the first output is block `t` of the normalised relu of the features. -/
theorem flushed2_eq (c : Dev nD) (t : Fin cfg7.N) :
    (dat7 V c).flushed 2 t = ((cfg7.win 2).blk t).view.read (Elt Ideal) (normH (reluH (V c main_v110))) := by
  show (cfg7.win 2).cut (grid7.coords t) ((dat7 V c).after 2 t) = _
  rw [after7_2]
  unfold out7_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk7 V c 0 t) j = normH (reluH (V c main_v110)) (((cfg7.win 2).blk t).view.emb j)
  have hemb : ((cfg7.win 2).blk t).view.emb j = ix2 (rowAt (R := 2000) (t.val * 2000) ho (j 0)) (j 1) := by
    funext a; apply Fin.ext
    match a with
    | ⟨0, _⟩ => show win7_2.index t (0 : Fin 2) * 2000 + 1 * (j 0).val = t.val * 2000 + (j 0).val; omega
    | ⟨1, _⟩ => show win7_2.index t (1 : Fin 2) * 128 + 1 * (j 1).val = (j 1).val; omega
  rw [hemb]
  exact layerX_point' (iblk7 V c 0 t) (V c main_v110) (t.val * 2000) ho (blkY V c t ho) j

/-- What point `t` writes back to the second output is block `t` of that times the weight. -/
theorem flushed3_eq (c : Dev nD) (t : Fin cfg7.N) :
    (dat7 V c).flushed 3 t
      = ((cfg7.win 3).blk t).view.read (Elt Ideal) (dotH (normH (reluH (V c main_v110))) (V c main_arg9)) := by
  show (cfg7.win 3).cut (grid7.coords t) ((dat7 V c).after 3 t) = _
  rw [after7_3]
  unfold out7_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk7 V c 0 t) (iblk7 V c 1 t) j
    = dotH (normH (reluH (V c main_v110))) (V c main_arg9) (((cfg7.win 3).blk t).view.emb j)
  have hemb : ((cfg7.win 3).blk t).view.emb j = ix2 (rowAt (R := 2000) (t.val * 2000) ho (j 0)) (j 1) := by
    funext a; apply Fin.ext
    match a with
    | ⟨0, _⟩ => show win7_3.index t (0 : Fin 2) * 2000 + 1 * (j 0).val = t.val * 2000 + (j 0).val; omega
    | ⟨1, _⟩ => show win7_3.index t (1 : Fin 2) * 128 + 1 * (j 1).val = (j 1).val; omega
  rw [hemb]
  exact layerZ_point' (iblk7 V c 0 t) (iblk7 V c 1 t) (V c main_v110) (V c main_arg9) (t.val * 2000) ho (blkY V c t ho) (blkW V c t) j

/-- An index of an output array is in point `t`'s block iff each coordinate is in the block's range on its axis. -/
theorem mem_blk2 (t : Fin cfg7.N) (i : S50000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v111_0).slice (win7_2.rect t)).set ↔ _
  rw [View.set_slice_whole, Rect.mem_set_unit]
  exact Iff.rfl

theorem mem_blk3 (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v111_1).slice (win7_3.rect t)).set ↔ _
  rw [View.set_slice_whole, Rect.mem_set_unit]
  exact Iff.rfl

/-- Row `r` is in the block of point `r / 2000`. -/
theorem cover2 (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 25 := N_7
  refine ⟨⟨(i 0).val / 2000, by omega⟩, flush7_2 _, ?_⟩
  rw [mem_blk2]
  obtain ⟨-, -, -, -, e4, e5, -⟩ := idx_facts ⟨(i 0).val / 2000, by omega⟩
  intro a
  match a with
  | ⟨0, _⟩ =>
    show win7_2.index _ (0 : Fin 2) * 2000 ≤ (i 0).val ∧ (i 0).val < win7_2.index _ (0 : Fin 2) * 2000 + 2000
    rw [e4]; show (i 0).val / 2000 * 2000 ≤ (i 0).val ∧ (i 0).val < (i 0).val / 2000 * 2000 + 2000; omega
  | ⟨1, _⟩ =>
    show win7_2.index _ (1 : Fin 2) * 128 ≤ (i 1).val ∧ (i 1).val < win7_2.index _ (1 : Fin 2) * 128 + 128
    rw [e5]; omega

theorem cover3 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 25 := N_7
  refine ⟨⟨(i 0).val / 2000, by omega⟩, flush7_3 _, ?_⟩
  rw [mem_blk3]
  obtain ⟨-, -, -, -, -, -, e6, e7⟩ := idx_facts ⟨(i 0).val / 2000, by omega⟩
  intro a
  match a with
  | ⟨0, _⟩ =>
    show win7_3.index _ (0 : Fin 2) * 2000 ≤ (i 0).val ∧ (i 0).val < win7_3.index _ (0 : Fin 2) * 2000 + 2000
    rw [e6]; show (i 0).val / 2000 * 2000 ≤ (i 0).val ∧ (i 0).val < (i 0).val / 2000 * 2000 + 2000; omega
  | ⟨1, _⟩ =>
    show win7_3.index _ (1 : Fin 2) * 128 ≤ (i 1).val ∧ (i 1).val < win7_3.index _ (1 : Fin 2) * 128 + 128
    rw [e7]; omega

/-- The first output array after the region. -/
theorem final2 (c : Dev nD) : (dat7 V c).arrAt 2 cfg7.N = normH (reluH (V c main_v110)) :=
  (dat7 V c).arrAt_eq_of_cover 2 _ (fun t _ => flushed2_eq V c t) cover2

/-- The second output array after the region. -/
theorem final3 (c : Dev nD) : (dat7 V c).arrAt 3 cfg7.N = dotH (normH (reluH (V c main_v110))) (V c main_arg9) :=
  (dat7 V c).arrAt_eq_of_cover 3 _ (fun t _ => flushed3_eq V c t) cover3

end Cert.KRegion7

end
-- ==== Proof.KRegion8.lean ====
/-
  Region 8 of the idealized kernel: a layer kernel over 25 blocks of 2000 rows. From the contents `V` the region is
  entered with, its first output array ends as the normalised relu of the propagated features `V … main_v124`, and its second
  as that times the weight `V … main_arg10`: point `t` writes back rows `2000 t …` of each, every row is in some point's block,
  and a block's rows are the array's rows at that offset.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion8

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row `t`, the weight window at the origin. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

theorem t_lt (t : Fin cfg8.N) : t.val < 25 := by
  have h := t.isLt
  have hN : cfg8.N = 25 := N_8
  omega

/-- Row `p` of the features' block at point `t` is row `2000 t + p` of the features. -/
theorem blkY (c : Dev nD) (t : Fin cfg8.N) (ho : t.val * 2000 + 2000 ≤ 50000) (p : Fin 2000) (k : Fin 128) :
    iblk8 V c 0 t (ix2 p k) = V c main_v124 (ix2 (rowAt (t.val * 2000) ho p) k) := by
  obtain ⟨e0, e1, -⟩ := idx_facts t
  show V c main_v124 (((cfg8.win 0).blk t).view.emb (ix2 p k)) = _
  refine congrArg (V c main_v124) (funext fun a => Fin.ext ?_)
  match a with
  | ⟨0, _⟩ => show win8_0.index t (0 : Fin 2) * 2000 + 1 * p.val = t.val * 2000 + p.val; omega
  | ⟨1, _⟩ => show win8_0.index t (1 : Fin 2) * 128 + 1 * k.val = k.val; omega

/-- The weight's block is the weight. -/
theorem blkW (c : Dev nD) (t : Fin cfg8.N) (i : S128x128.Idx) : iblk8 V c 1 t i = V c main_arg10 i := by
  obtain ⟨-, -, e2, e3, -⟩ := idx_facts t
  show V c main_arg10 (((cfg8.win 1).blk t).view.emb i) = _
  refine congrArg (V c main_arg10) (funext fun a => Fin.ext ?_)
  match a with
  | ⟨0, _⟩ => show win8_1.index t (0 : Fin 2) * 128 + 1 * (i 0).val = (i 0).val; omega
  | ⟨1, _⟩ => show win8_1.index t (1 : Fin 2) * 128 + 1 * (i 1).val = (i 1).val; omega

/-- What point `t` writes back to the first output is block `t` of the normalised relu of the features. -/
theorem flushed2_eq (c : Dev nD) (t : Fin cfg8.N) :
    (dat8 V c).flushed 2 t = ((cfg8.win 2).blk t).view.read (Elt Ideal) (normH (reluH (V c main_v124))) := by
  show (cfg8.win 2).cut (grid8.coords t) ((dat8 V c).after 2 t) = _
  rw [after8_2]
  unfold out8_2
  rw [View.canon_unit_zero hz]
  simp only [View.ld_unit_zero (S := S2000x128) hz]
  have ht := t_lt t
  have ho : t.val * 2000 + 2000 ≤ 50000 := by omega
  obtain ⟨-, -, -, -, e4, e5, -⟩ := idx_facts t
  funext j
  show k0_pay1 (F := Ideal) (iblk8 V c 0 t) j = normH (reluH (V c main_v124)) (((cfg8.win 2).blk t).view.emb j)
  have hemb : ((cfg8.win 2).blk t).view.emb j = ix2 (rowAt (R := 2000) (t.val * 2000) ho (j 0)) (j 1) := by
    funext a; apply Fin.ext
    match a with
    | ⟨0, _⟩ => show win8_2.index t (0 : Fin 2) * 2000 + 1 * (j 0).val = t.val * 2000 + (j 0).val; omega
    | ⟨1, _⟩ => show win8_2.index t (1 : Fin 2) * 128 + 1 * (j 1).val = (j 1).val; omega
  rw [hemb]
  exact layerX_point' (iblk8 V c 0 t) (V c main_v124) (t.val * 2000) ho (blkY V c t ho) j

/-- What point `t` writes back to the second output is block `t` of that times the weight. -/
theorem flushed3_eq (c : Dev nD) (t : Fin cfg8.N) :
    (dat8 V c).flushed 3 t
      = ((cfg8.win 3).blk t).view.read (Elt Ideal) (dotH (normH (reluH (V c main_v124))) (V c main_arg10)) := by
  show (cfg8.win 3).cut (grid8.coords t) ((dat8 V c).after 3 t) = _
  rw [after8_3]
  unfold out8_3
  rw [View.canon_unit_zero hz]
  simp only [View.ld_unit_zero (S := S2000x128) hz, View.ld_unit_zero (S := S128x128) hz]
  have ht := t_lt t
  have ho : t.val * 2000 + 2000 ≤ 50000 := by omega
  obtain ⟨-, -, -, -, -, -, e6, e7⟩ := idx_facts t
  funext j
  show k0_pay2 (F := Ideal) (iblk8 V c 0 t) (iblk8 V c 1 t) j
    = dotH (normH (reluH (V c main_v124))) (V c main_arg10) (((cfg8.win 3).blk t).view.emb j)
  have hemb : ((cfg8.win 3).blk t).view.emb j = ix2 (rowAt (R := 2000) (t.val * 2000) ho (j 0)) (j 1) := by
    funext a; apply Fin.ext
    match a with
    | ⟨0, _⟩ => show win8_3.index t (0 : Fin 2) * 2000 + 1 * (j 0).val = t.val * 2000 + (j 0).val; omega
    | ⟨1, _⟩ => show win8_3.index t (1 : Fin 2) * 128 + 1 * (j 1).val = (j 1).val; omega
  rw [hemb]
  exact layerZ_point' (iblk8 V c 0 t) (iblk8 V c 1 t) (V c main_v124) (V c main_arg10) (t.val * 2000) ho (blkY V c t ho) (blkW V c t) j

/-- An index of an output array is in point `t`'s block iff each coordinate is in the block's range on its axis. -/
theorem mem_blk2 (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v125_0).slice (win8_2.rect t)).set ↔ _
  rw [View.set_slice_whole, Rect.mem_set_unit]
  exact Iff.rfl

theorem mem_blk3 (t : Fin cfg8.N) (i : S50000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole main_v125_1).slice (win8_3.rect t)).set ↔ _
  rw [View.set_slice_whole, Rect.mem_set_unit]
  exact Iff.rfl

/-- Row `r` is in the block of point `r / 2000`. -/
theorem cover2 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  have hN : cfg8.N = 25 := N_8
  refine ⟨⟨(i 0).val / 2000, by omega⟩, flush8_2 _, ?_⟩
  rw [mem_blk2]
  obtain ⟨-, -, -, -, e4, e5, -⟩ := idx_facts ⟨(i 0).val / 2000, by omega⟩
  intro a
  match a with
  | ⟨0, _⟩ =>
    show win8_2.index _ (0 : Fin 2) * 2000 ≤ (i 0).val ∧ (i 0).val < win8_2.index _ (0 : Fin 2) * 2000 + 2000
    rw [e4]; show (i 0).val / 2000 * 2000 ≤ (i 0).val ∧ (i 0).val < (i 0).val / 2000 * 2000 + 2000; omega
  | ⟨1, _⟩ =>
    show win8_2.index _ (1 : Fin 2) * 128 ≤ (i 1).val ∧ (i 1).val < win8_2.index _ (1 : Fin 2) * 128 + 128
    rw [e5]; omega

theorem cover3 (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 25 := N_8
  refine ⟨⟨(i 0).val / 2000, by omega⟩, flush8_3 _, ?_⟩
  rw [mem_blk3]
  obtain ⟨-, -, -, -, -, -, e6, e7⟩ := idx_facts ⟨(i 0).val / 2000, by omega⟩
  intro a
  match a with
  | ⟨0, _⟩ =>
    show win8_3.index _ (0 : Fin 2) * 2000 ≤ (i 0).val ∧ (i 0).val < win8_3.index _ (0 : Fin 2) * 2000 + 2000
    rw [e6]; show (i 0).val / 2000 * 2000 ≤ (i 0).val ∧ (i 0).val < (i 0).val / 2000 * 2000 + 2000; omega
  | ⟨1, _⟩ =>
    show win8_3.index _ (1 : Fin 2) * 128 ≤ (i 1).val ∧ (i 1).val < win8_3.index _ (1 : Fin 2) * 128 + 128
    rw [e7]; omega

/-- The first output array after the region. -/
theorem final2 (c : Dev nD) : (dat8 V c).arrAt 2 cfg8.N = normH (reluH (V c main_v124)) :=
  (dat8 V c).arrAt_eq_of_cover 2 _ (fun t _ => flushed2_eq V c t) cover2

/-- The second output array after the region. -/
theorem final3 (c : Dev nD) : (dat8 V c).arrAt 3 cfg8.N = dotH (normH (reluH (V c main_v124))) (V c main_arg10) :=
  (dat8 V c).arrAt_eq_of_cover 3 _ (fun t _ => flushed3_eq V c t) cover3

end Cert.KRegion8

end
-- ==== Proof.KRegion9.lean ====
/-
  Region 9 of the idealized kernel: the head kernel over 50 blocks of 1000 rows. From the contents `V` the region is
  entered with, its output array ends as the reference's head of the five input arrays and the perceptron's parameters:
  point `t` writes back rows `1000 t …`, every row is in some point's block, a block's rows are the arrays' rows at that
  offset, and each parameter's block is the parameter.
-/
import proofs.«148168_j18485539242351_2_alg».proof.Proof.Gen.KernelIdeal.Frame
import proofs.«148168_j18485539242351_2_alg».proof.Proof.KernelPoint
import Idealize.ShloMosaic.Lib.Pipeline.Value

set_option maxRecDepth 16384

noncomputable section

namespace Cert.KRegion9

open Cert.KernelIdeal Cert.KernelIdeal.Gen Idealize.ShloMosaic Idealize.ShloMosaic.TcCoe Idealize.ShloMosaic.ValueIdx
open Idealize.SL.Sem Cert.Spec Cert.KPoint
open Idealize.ShloMosaic.Pipeline (Dat Cfg Window)

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps of the row windows over the grid: block row `t`, block column 0. -/
theorem idx_rows : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = t.val ∧ win9_2.index t (1 : Fin 2) = 0)
    ∧ (win9_3.index t (0 : Fin 2) = t.val ∧ win9_3.index t (1 : Fin 2) = 0)
    ∧ (win9_4.index t (0 : Fin 2) = t.val ∧ win9_4.index t (1 : Fin 2) = 0)
    ∧ (win9_11.index t (0 : Fin 2) = t.val ∧ win9_11.index t (1 : Fin 2) = 0) :=
  (by decide +kernel : ∀ t : Fin grid9.N, _)

/-- The parameter windows sit at the origin at every point. -/
theorem idx_params : ∀ t : Fin cfg9.N,
    (∀ a : Fin 2, win9_5.index t a = 0) ∧ (∀ a : Fin 1, win9_6.index t a = 0) ∧ (∀ a : Fin 2, win9_7.index t a = 0)
    ∧ (∀ a : Fin 1, win9_8.index t a = 0) ∧ (∀ a : Fin 2, win9_9.index t a = 0) ∧ (∀ a : Fin 1, win9_10.index t a = 0) :=
  (by decide +kernel : ∀ t : Fin grid9.N, _)

theorem t_lt (t : Fin cfg9.N) : t.val < 50 := by
  have h := t.isLt
  have hN : cfg9.N = 50 := N_9
  omega

/-- Row `p` of input 0's block at point `t` is row `1000 t + p` of its array. -/
theorem blkX0 (c : Dev nD) (t : Fin cfg9.N) (ho : t.val * 1000 + 1000 ≤ 50000) (p : Fin 1000) (k : Fin 128) :
    iblk9 V c 0 t (ix2 p k) = V c main_v83_0 (ix2 (rowAt (t.val * 1000) ho p) k) := by
  obtain ⟨e0, e1⟩ := (idx_rows t).1
  show V c main_v83_0 (((cfg9.win 0).blk t).view.emb (ix2 p k)) = _
  refine congrArg (V c main_v83_0) (funext fun a => Fin.ext ?_)
  match a with
  | ⟨0, _⟩ => show win9_0.index t (0 : Fin 2) * 1000 + 1 * p.val = t.val * 1000 + p.val; omega
  | ⟨1, _⟩ => show win9_0.index t (1 : Fin 2) * 128 + 1 * k.val = k.val; omega

/-- Row `p` of input 1's block at point `t` is row `1000 t + p` of its array. -/
theorem blkX1 (c : Dev nD) (t : Fin cfg9.N) (ho : t.val * 1000 + 1000 ≤ 50000) (p : Fin 1000) (k : Fin 128) :
    iblk9 V c 1 t (ix2 p k) = V c main_v97_0 (ix2 (rowAt (t.val * 1000) ho p) k) := by
  obtain ⟨e0, e1⟩ := (idx_rows t).2.1
  show V c main_v97_0 (((cfg9.win 1).blk t).view.emb (ix2 p k)) = _
  refine congrArg (V c main_v97_0) (funext fun a => Fin.ext ?_)
  match a with
  | ⟨0, _⟩ => show win9_1.index t (0 : Fin 2) * 1000 + 1 * p.val = t.val * 1000 + p.val; omega
  | ⟨1, _⟩ => show win9_1.index t (1 : Fin 2) * 128 + 1 * k.val = k.val; omega

/-- Row `p` of input 2's block at point `t` is row `1000 t + p` of its array. -/
theorem blkX2 (c : Dev nD) (t : Fin cfg9.N) (ho : t.val * 1000 + 1000 ≤ 50000) (p : Fin 1000) (k : Fin 128) :
    iblk9 V c 2 t (ix2 p k) = V c main_v111_0 (ix2 (rowAt (t.val * 1000) ho p) k) := by
  obtain ⟨e0, e1⟩ := (idx_rows t).2.2.1
  show V c main_v111_0 (((cfg9.win 2).blk t).view.emb (ix2 p k)) = _
  refine congrArg (V c main_v111_0) (funext fun a => Fin.ext ?_)
  match a with
  | ⟨0, _⟩ => show win9_2.index t (0 : Fin 2) * 1000 + 1 * p.val = t.val * 1000 + p.val; omega
  | ⟨1, _⟩ => show win9_2.index t (1 : Fin 2) * 128 + 1 * k.val = k.val; omega

/-- Row `p` of input 3's block at point `t` is row `1000 t + p` of its array. -/
theorem blkX3 (c : Dev nD) (t : Fin cfg9.N) (ho : t.val * 1000 + 1000 ≤ 50000) (p : Fin 1000) (k : Fin 128) :
    iblk9 V c 3 t (ix2 p k) = V c main_v125_0 (ix2 (rowAt (t.val * 1000) ho p) k) := by
  obtain ⟨e0, e1⟩ := (idx_rows t).2.2.2.1
  show V c main_v125_0 (((cfg9.win 3).blk t).view.emb (ix2 p k)) = _
  refine congrArg (V c main_v125_0) (funext fun a => Fin.ext ?_)
  match a with
  | ⟨0, _⟩ => show win9_3.index t (0 : Fin 2) * 1000 + 1 * p.val = t.val * 1000 + p.val; omega
  | ⟨1, _⟩ => show win9_3.index t (1 : Fin 2) * 128 + 1 * k.val = k.val; omega

/-- Row `p` of input 4's block at point `t` is row `1000 t + p` of its array. -/
theorem blkX4 (c : Dev nD) (t : Fin cfg9.N) (ho : t.val * 1000 + 1000 ≤ 50000) (p : Fin 1000) (k : Fin 128) :
    iblk9 V c 4 t (ix2 p k) = V c main_v138 (ix2 (rowAt (t.val * 1000) ho p) k) := by
  obtain ⟨e0, e1⟩ := (idx_rows t).2.2.2.2.1
  show V c main_v138 (((cfg9.win 4).blk t).view.emb (ix2 p k)) = _
  refine congrArg (V c main_v138) (funext fun a => Fin.ext ?_)
  match a with
  | ⟨0, _⟩ => show win9_4.index t (0 : Fin 2) * 1000 + 1 * p.val = t.val * 1000 + p.val; omega
  | ⟨1, _⟩ => show win9_4.index t (1 : Fin 2) * 128 + 1 * k.val = k.val; omega

/-- Parameter window 5's block is the parameter. -/
theorem blkW5 (c : Dev nD) (t : Fin cfg9.N) (i : S128x256.Idx) : iblk9 V c 5 t i = V c main_arg11 i := by
  have e := (idx_params t).1
  show V c main_arg11 (((cfg9.win 5).blk t).view.emb i) = _
  refine congrArg (V c main_arg11) (funext fun a => Fin.ext ?_)
  match a with
  | ⟨0, _⟩ => show win9_5.index t (0 : Fin 2) * 128 + 1 * (i 0).val = (i 0).val; have := e 0; omega
  | ⟨1, _⟩ => show win9_5.index t (1 : Fin 2) * 256 + 1 * (i 1).val = (i 1).val; have := e 1; omega

/-- Parameter window 6's block is the parameter. -/
theorem blkW6 (c : Dev nD) (t : Fin cfg9.N) (i : S256.Idx) : iblk9 V c 6 t i = V c main_arg12 i := by
  have e := (idx_params t).2.1
  show V c main_arg12 (((cfg9.win 6).blk t).view.emb i) = _
  refine congrArg (V c main_arg12) (funext fun a => Fin.ext ?_)
  match a with
  | ⟨0, _⟩ => show win9_6.index t (0 : Fin 1) * 256 + 1 * (i 0).val = (i 0).val; have := e 0; omega

/-- Parameter window 7's block is the parameter. -/
theorem blkW7 (c : Dev nD) (t : Fin cfg9.N) (i : S256x256.Idx) : iblk9 V c 7 t i = V c main_arg13 i := by
  have e := (idx_params t).2.2.1
  show V c main_arg13 (((cfg9.win 7).blk t).view.emb i) = _
  refine congrArg (V c main_arg13) (funext fun a => Fin.ext ?_)
  match a with
  | ⟨0, _⟩ => show win9_7.index t (0 : Fin 2) * 256 + 1 * (i 0).val = (i 0).val; have := e 0; omega
  | ⟨1, _⟩ => show win9_7.index t (1 : Fin 2) * 256 + 1 * (i 1).val = (i 1).val; have := e 1; omega

/-- Parameter window 8's block is the parameter. -/
theorem blkW8 (c : Dev nD) (t : Fin cfg9.N) (i : S256.Idx) : iblk9 V c 8 t i = V c main_arg14 i := by
  have e := (idx_params t).2.2.2.1
  show V c main_arg14 (((cfg9.win 8).blk t).view.emb i) = _
  refine congrArg (V c main_arg14) (funext fun a => Fin.ext ?_)
  match a with
  | ⟨0, _⟩ => show win9_8.index t (0 : Fin 1) * 256 + 1 * (i 0).val = (i 0).val; have := e 0; omega

/-- Parameter window 9's block is the parameter. -/
theorem blkW9 (c : Dev nD) (t : Fin cfg9.N) (i : S256x1.Idx) : iblk9 V c 9 t i = V c main_arg15 i := by
  have e := (idx_params t).2.2.2.2.1
  show V c main_arg15 (((cfg9.win 9).blk t).view.emb i) = _
  refine congrArg (V c main_arg15) (funext fun a => Fin.ext ?_)
  match a with
  | ⟨0, _⟩ => show win9_9.index t (0 : Fin 2) * 256 + 1 * (i 0).val = (i 0).val; have := e 0; omega
  | ⟨1, _⟩ => show win9_9.index t (1 : Fin 2) * 1 + 1 * (i 1).val = (i 1).val; have := e 1; omega

/-- Parameter window 10's block is the parameter. -/
theorem blkW10 (c : Dev nD) (t : Fin cfg9.N) (i : S1.Idx) : iblk9 V c 10 t i = V c main_arg16 i := by
  have e := (idx_params t).2.2.2.2.2
  show V c main_arg16 (((cfg9.win 10).blk t).view.emb i) = _
  refine congrArg (V c main_arg16) (funext fun a => Fin.ext ?_)
  match a with
  | ⟨0, _⟩ => show win9_10.index t (0 : Fin 1) * 1 + 1 * (i 0).val = (i 0).val; have := e 0; omega

/-- What point `t` writes back is block `t` of the head of the arrays. -/
theorem flushed11_eq (c : Dev nD) (t : Fin cfg9.N) :
    (dat9 V c).flushed 11 t = ((cfg9.win 11).blk t).view.read (Elt Ideal)
      (headH (V c main_v83_0) (V c main_v97_0) (V c main_v111_0) (V c main_v125_0) (V c main_v138)
        (V c main_arg11) (V c main_arg12) (V c main_arg13) (V c main_arg14) (V c main_arg15) (V c main_arg16)) := by
  show (cfg9.win 11).cut (grid9.coords t) ((dat9 V c).after 11 t) = _
  rw [after9_11]
  unfold out9_11
  rw [View.canon_unit_zero hz2]
  simp only [View.ld_unit_zero (S := S1000x128) hz2, View.ld_unit_zero (S := S128x256) hz2, View.ld_unit_zero (S := S256) hz1,
    View.ld_unit_zero (S := S256x256) hz2, View.ld_unit_zero (S := S256x1) hz2, View.ld_unit_zero (S := S1) hz1]
  have ht := t_lt t
  have ho : t.val * 1000 + 1000 ≤ 50000 := by omega
  obtain ⟨e0, e1⟩ := (idx_rows t).2.2.2.2.2
  funext j
  show headK (iblk9 V c 0 t) (iblk9 V c 1 t) (iblk9 V c 2 t) (iblk9 V c 3 t) (iblk9 V c 4 t)
      (iblk9 V c 5 t) (iblk9 V c 6 t) (iblk9 V c 7 t) (iblk9 V c 8 t) (iblk9 V c 9 t) (iblk9 V c 10 t) j
    = headH (V c main_v83_0) (V c main_v97_0) (V c main_v111_0) (V c main_v125_0) (V c main_v138)
        (V c main_arg11) (V c main_arg12) (V c main_arg13) (V c main_arg14) (V c main_arg15) (V c main_arg16)
        (((cfg9.win 11).blk t).view.emb j)
  have hemb : ((cfg9.win 11).blk t).view.emb j = ix2 (rowAt (R := 1000) (t.val * 1000) ho (j 0)) (j 1) := by
    funext a; apply Fin.ext
    match a with
    | ⟨0, _⟩ => show win9_11.index t (0 : Fin 2) * 1000 + 1 * (j 0).val = t.val * 1000 + (j 0).val; omega
    | ⟨1, _⟩ => show win9_11.index t (1 : Fin 2) * 1 + 1 * (j 1).val = (j 1).val; omega
  rw [hemb]
  exact head_point' (t.val * 1000) ho
    (iblk9 V c 5 t) (V c main_arg11) (blkW5 V c t) (iblk9 V c 6 t) (V c main_arg12) (blkW6 V c t)
    (iblk9 V c 7 t) (V c main_arg13) (blkW7 V c t) (iblk9 V c 8 t) (V c main_arg14) (blkW8 V c t)
    (iblk9 V c 9 t) (V c main_arg15) (blkW9 V c t) (iblk9 V c 10 t) (V c main_arg16) (blkW10 V c t)
    (iblk9 V c 0 t) (iblk9 V c 1 t) (iblk9 V c 2 t) (iblk9 V c 3 t) (iblk9 V c 4 t)
    (V c main_v83_0) (V c main_v97_0) (V c main_v111_0) (V c main_v125_0) (V c main_v138)
    (blkX0 V c t ho) (blkX1 V c t ho) (blkX2 V c t ho) (blkX3 V c t ho) (blkX4 V c t ho) j

/-- An index of the output array is in point `t`'s block iff each coordinate is in the block's range on its axis. -/
theorem mem_blk11 (t : Fin cfg9.N) (i : S50000x1.Idx) :
    i ∈ ((cfg9.win 11).blk t).view.set ↔ ∀ a : Fin 2, win9_11.index t a * S1000x1.size a ≤ (i a).val ∧ (i a).val < win9_11.index t a * S1000x1.size a + S1000x1.size a := by
  show i ∈ ((View.whole main_v139).slice (win9_11.rect t)).set ↔ _
  rw [View.set_slice_whole, Rect.mem_set_unit]
  exact Iff.rfl

/-- Row `r` is in the block of point `r / 1000`. -/
theorem cover11 (i : S50000x1.Idx) : ∃ t : Fin cfg9.N, (cfg9.win 11).flush t = true ∧ i ∈ ((cfg9.win 11).blk t).view.set := by
  have hi0 : (i 0).val < 50000 := (i 0).isLt
  have hi1 : (i 1).val < 1 := (i 1).isLt
  have hN : cfg9.N = 50 := N_9
  refine ⟨⟨(i 0).val / 1000, by omega⟩, flush9_11 _, ?_⟩
  rw [mem_blk11]
  obtain ⟨e0, e1⟩ := (idx_rows ⟨(i 0).val / 1000, by omega⟩).2.2.2.2.2
  intro a
  match a with
  | ⟨0, _⟩ =>
    show win9_11.index _ (0 : Fin 2) * 1000 ≤ (i 0).val ∧ (i 0).val < win9_11.index _ (0 : Fin 2) * 1000 + 1000
    rw [e0]; show (i 0).val / 1000 * 1000 ≤ (i 0).val ∧ (i 0).val < (i 0).val / 1000 * 1000 + 1000; omega
  | ⟨1, _⟩ =>
    show win9_11.index _ (1 : Fin 2) * 1 ≤ (i 1).val ∧ (i 1).val < win9_11.index _ (1 : Fin 2) * 1 + 1
    rw [e1]; omega

/-- The output array after the region. -/
theorem final11 (c : Dev nD) : (dat9 V c).arrAt 11 cfg9.N
    = headH (V c main_v83_0) (V c main_v97_0) (V c main_v111_0) (V c main_v125_0) (V c main_v138)
        (V c main_arg11) (V c main_arg12) (V c main_arg13) (V c main_arg14) (V c main_arg15) (V c main_arg16) :=
  (dat9 V c).arrAt_eq_of_cover 11 _ (fun t _ => flushed11_eq V c t) cover11

end Cert.KRegion9

end
-- ==== Proof.KernelFold.lean ====
/-
  The idealized kernel's fold, read back. The contents at each of @main's twenty-two boundaries are known on the buffers
  that matter: an argument is as launched at every boundary (no stretch and no region writes it); a stretch's result is one
  propagation step of the contents it starts from; a layer region's outputs are the normalised relu of the propagated
  features and that times the layer's weight; a head region's output is the head of the four activations and the last
  propagation. Chaining these from the launch memory to the last boundary gives the product buffer as the reference's
  result of the launch arguments.
-/
import proofs.«148168_j18485539242351_2_alg».proof.Proof.Gen.KernelIdeal.Frame
import proofs.«148168_j18485539242351_2_alg».proof.Proof.HostSpec
import proofs.«148168_j18485539242351_2_alg».proof.Proof.KFoldStretch
import proofs.«148168_j18485539242351_2_alg».proof.Proof.KRegion0
import proofs.«148168_j18485539242351_2_alg».proof.Proof.KRegion1
import proofs.«148168_j18485539242351_2_alg».proof.Proof.KRegion2
import proofs.«148168_j18485539242351_2_alg».proof.Proof.KRegion3
import proofs.«148168_j18485539242351_2_alg».proof.Proof.KRegion4
import proofs.«148168_j18485539242351_2_alg».proof.Proof.KRegion5
import proofs.«148168_j18485539242351_2_alg».proof.Proof.KRegion6
import proofs.«148168_j18485539242351_2_alg».proof.Proof.KRegion7
import proofs.«148168_j18485539242351_2_alg».proof.Proof.KRegion8
import proofs.«148168_j18485539242351_2_alg».proof.Proof.KRegion9
import Idealize.ShloMosaic.Lib.StableHlo.Run

set_option maxRecDepth 16384

noncomputable section

namespace Cert.KFold

open Cert.KernelIdeal Cert.KernelIdeal.Gen Idealize.ShloMosaic Idealize.ShloMosaic.TcCoe Idealize.ShloMosaic.StableHlo
open Idealize.SL.Sem Cert.Spec

variable [Cert.ReferenceIdeal.Facts]

/-- The head of equal arrays and parameters is equal. -/
theorem headH_congr {x1 x1' x2 x2' x3 x3' x4 x4' y5 y5' : Feat Ideal}
    {w1 w1' : (⟨Cert.ReferenceIdeal.S128x256, .f32⟩ : BufTy).Contents (Elt Ideal)} {b1 b1' : (⟨Cert.ReferenceIdeal.S256, .f32⟩ : BufTy).Contents (Elt Ideal)}
    {w2 w2' : (⟨Cert.ReferenceIdeal.S256x256, .f32⟩ : BufTy).Contents (Elt Ideal)} {b2 b2' : (⟨Cert.ReferenceIdeal.S256, .f32⟩ : BufTy).Contents (Elt Ideal)}
    {w3 w3' : (⟨Cert.ReferenceIdeal.S256x1, .f32⟩ : BufTy).Contents (Elt Ideal)} {b3 b3' : (⟨Cert.ReferenceIdeal.S1, .f32⟩ : BufTy).Contents (Elt Ideal)}
    (h1 : x1 = x1') (h2 : x2 = x2') (h3 : x3 = x3') (h4 : x4 = x4') (h5 : y5 = y5')
    (hw1 : w1 = w1') (hb1 : b1 = b1') (hw2 : w2 = w2') (hb2 : b2 = b2') (hw3 : w3 = w3') (hb3 : b3 = b3') :
    headH x1 x2 x3 x4 y5 w1 b1 w2 b2 w3 b3 = headH x1' x2' x3' x4' y5' w1' b1' w2' b2' w3' b3' := by
  subst h1 h2 h3 h4 h5 hw1 hb1 hw2 hb2 hw3 hb3; rfl

/-! ## The boundaries -/

section Boundaries

variable (m : (ℓ : Loc nD τ sig) → Buf (Elt Ideal) ℓ) (ρ : Dev nD → PrngReg) (c : Dev nD)

/-! ### One segment leaves a buffer it does not write as it found it -/

theorem tr_main_arg0_0 : W1 m ρ c (Proc.devRef .tc main_arg0) = W0 m ρ c (Proc.devRef .tc main_arg0) :=
  keepH0_main_arg0 (W0 m ρ c)
theorem tr_main_arg0_1 : W2 m ρ c (Proc.devRef .tc main_arg0) = W1 m ρ c (Proc.devRef .tc main_arg0) :=
  W2_of_ne m ρ c main_arg0 (by decide)
theorem tr_main_arg0_2 : W3 m ρ c (Proc.devRef .tc main_arg0) = W2 m ρ c (Proc.devRef .tc main_arg0) :=
  keepH1_main_arg0 (W2 m ρ c)
theorem tr_main_arg0_3 : W4 m ρ c (Proc.devRef .tc main_arg0) = W3 m ρ c (Proc.devRef .tc main_arg0) :=
  W4_of_ne m ρ c main_arg0 (by decide)
theorem tr_main_arg0_4 : W5 m ρ c (Proc.devRef .tc main_arg0) = W4 m ρ c (Proc.devRef .tc main_arg0) :=
  keepH2_main_arg0 (W4 m ρ c)
theorem tr_main_arg0_5 : W6 m ρ c (Proc.devRef .tc main_arg0) = W5 m ρ c (Proc.devRef .tc main_arg0) :=
  W6_of_ne m ρ c main_arg0 (by decide)
theorem tr_main_arg0_6 : W7 m ρ c (Proc.devRef .tc main_arg0) = W6 m ρ c (Proc.devRef .tc main_arg0) :=
  keepH3_main_arg0 (W6 m ρ c)
theorem tr_main_arg0_7 : W8 m ρ c (Proc.devRef .tc main_arg0) = W7 m ρ c (Proc.devRef .tc main_arg0) :=
  W8_of_ne m ρ c main_arg0 (by decide)
theorem tr_main_arg1_0 : W1 m ρ c (Proc.devRef .tc main_arg1) = W0 m ρ c (Proc.devRef .tc main_arg1) :=
  keepH0_main_arg1 (W0 m ρ c)
theorem tr_main_arg1_1 : W2 m ρ c (Proc.devRef .tc main_arg1) = W1 m ρ c (Proc.devRef .tc main_arg1) :=
  W2_of_ne m ρ c main_arg1 (by decide)
theorem tr_main_arg1_2 : W3 m ρ c (Proc.devRef .tc main_arg1) = W2 m ρ c (Proc.devRef .tc main_arg1) :=
  keepH1_main_arg1 (W2 m ρ c)
theorem tr_main_arg1_3 : W4 m ρ c (Proc.devRef .tc main_arg1) = W3 m ρ c (Proc.devRef .tc main_arg1) :=
  W4_of_ne m ρ c main_arg1 (by decide)
theorem tr_main_arg1_4 : W5 m ρ c (Proc.devRef .tc main_arg1) = W4 m ρ c (Proc.devRef .tc main_arg1) :=
  keepH2_main_arg1 (W4 m ρ c)
theorem tr_main_arg1_5 : W6 m ρ c (Proc.devRef .tc main_arg1) = W5 m ρ c (Proc.devRef .tc main_arg1) :=
  W6_of_ne m ρ c main_arg1 (by decide)
theorem tr_main_arg1_6 : W7 m ρ c (Proc.devRef .tc main_arg1) = W6 m ρ c (Proc.devRef .tc main_arg1) :=
  keepH3_main_arg1 (W6 m ρ c)
theorem tr_main_arg1_7 : W8 m ρ c (Proc.devRef .tc main_arg1) = W7 m ρ c (Proc.devRef .tc main_arg1) :=
  W8_of_ne m ρ c main_arg1 (by decide)
theorem tr_main_arg2_0 : W1 m ρ c (Proc.devRef .tc main_arg2) = W0 m ρ c (Proc.devRef .tc main_arg2) :=
  keepH0_main_arg2 (W0 m ρ c)
theorem tr_main_arg2_1 : W2 m ρ c (Proc.devRef .tc main_arg2) = W1 m ρ c (Proc.devRef .tc main_arg2) :=
  W2_of_ne m ρ c main_arg2 (by decide)
theorem tr_main_arg2_2 : W3 m ρ c (Proc.devRef .tc main_arg2) = W2 m ρ c (Proc.devRef .tc main_arg2) :=
  keepH1_main_arg2 (W2 m ρ c)
theorem tr_main_arg2_3 : W4 m ρ c (Proc.devRef .tc main_arg2) = W3 m ρ c (Proc.devRef .tc main_arg2) :=
  W4_of_ne m ρ c main_arg2 (by decide)
theorem tr_main_arg2_4 : W5 m ρ c (Proc.devRef .tc main_arg2) = W4 m ρ c (Proc.devRef .tc main_arg2) :=
  keepH2_main_arg2 (W4 m ρ c)
theorem tr_main_arg2_5 : W6 m ρ c (Proc.devRef .tc main_arg2) = W5 m ρ c (Proc.devRef .tc main_arg2) :=
  W6_of_ne m ρ c main_arg2 (by decide)
theorem tr_main_arg2_6 : W7 m ρ c (Proc.devRef .tc main_arg2) = W6 m ρ c (Proc.devRef .tc main_arg2) :=
  keepH3_main_arg2 (W6 m ρ c)
theorem tr_main_arg2_7 : W8 m ρ c (Proc.devRef .tc main_arg2) = W7 m ρ c (Proc.devRef .tc main_arg2) :=
  W8_of_ne m ρ c main_arg2 (by decide)
theorem tr_main_arg3_0 : W1 m ρ c (Proc.devRef .tc main_arg3) = W0 m ρ c (Proc.devRef .tc main_arg3) :=
  keepH0_main_arg3 (W0 m ρ c)
theorem tr_main_arg3_1 : W2 m ρ c (Proc.devRef .tc main_arg3) = W1 m ρ c (Proc.devRef .tc main_arg3) :=
  W2_of_ne m ρ c main_arg3 (by decide)
theorem tr_main_arg3_2 : W3 m ρ c (Proc.devRef .tc main_arg3) = W2 m ρ c (Proc.devRef .tc main_arg3) :=
  keepH1_main_arg3 (W2 m ρ c)
theorem tr_main_arg3_3 : W4 m ρ c (Proc.devRef .tc main_arg3) = W3 m ρ c (Proc.devRef .tc main_arg3) :=
  W4_of_ne m ρ c main_arg3 (by decide)
theorem tr_main_arg3_4 : W5 m ρ c (Proc.devRef .tc main_arg3) = W4 m ρ c (Proc.devRef .tc main_arg3) :=
  keepH2_main_arg3 (W4 m ρ c)
theorem tr_main_arg3_5 : W6 m ρ c (Proc.devRef .tc main_arg3) = W5 m ρ c (Proc.devRef .tc main_arg3) :=
  W6_of_ne m ρ c main_arg3 (by decide)
theorem tr_main_arg3_6 : W7 m ρ c (Proc.devRef .tc main_arg3) = W6 m ρ c (Proc.devRef .tc main_arg3) :=
  keepH3_main_arg3 (W6 m ρ c)
theorem tr_main_arg3_7 : W8 m ρ c (Proc.devRef .tc main_arg3) = W7 m ρ c (Proc.devRef .tc main_arg3) :=
  W8_of_ne m ρ c main_arg3 (by decide)
theorem tr_main_arg3_8 : W9 m ρ c (Proc.devRef .tc main_arg3) = W8 m ρ c (Proc.devRef .tc main_arg3) :=
  keepH4_main_arg3 (W8 m ρ c)
theorem tr_main_arg3_9 : W10 m ρ c (Proc.devRef .tc main_arg3) = W9 m ρ c (Proc.devRef .tc main_arg3) :=
  W10_of_ne m ρ c main_arg3 (by decide)
theorem tr_main_arg3_10 : W11 m ρ c (Proc.devRef .tc main_arg3) = W10 m ρ c (Proc.devRef .tc main_arg3) :=
  keepH5_main_arg3 (W10 m ρ c)
theorem tr_main_arg3_11 : W12 m ρ c (Proc.devRef .tc main_arg3) = W11 m ρ c (Proc.devRef .tc main_arg3) :=
  W12_of_ne m ρ c main_arg3 (by decide)
theorem tr_main_arg3_12 : W13 m ρ c (Proc.devRef .tc main_arg3) = W12 m ρ c (Proc.devRef .tc main_arg3) :=
  keepH6_main_arg3 (W12 m ρ c)
theorem tr_main_arg3_13 : W14 m ρ c (Proc.devRef .tc main_arg3) = W13 m ρ c (Proc.devRef .tc main_arg3) :=
  W14_of_ne m ρ c main_arg3 (by decide)
theorem tr_main_arg3_14 : W15 m ρ c (Proc.devRef .tc main_arg3) = W14 m ρ c (Proc.devRef .tc main_arg3) :=
  keepH7_main_arg3 (W14 m ρ c)
theorem tr_main_arg3_15 : W16 m ρ c (Proc.devRef .tc main_arg3) = W15 m ρ c (Proc.devRef .tc main_arg3) :=
  W16_of_ne m ρ c main_arg3 (by decide)
theorem tr_main_arg3_16 : W17 m ρ c (Proc.devRef .tc main_arg3) = W16 m ρ c (Proc.devRef .tc main_arg3) :=
  keepH8_main_arg3 (W16 m ρ c)
theorem tr_main_arg3_17 : W18 m ρ c (Proc.devRef .tc main_arg3) = W17 m ρ c (Proc.devRef .tc main_arg3) :=
  W18_of_ne m ρ c main_arg3 (by decide)
theorem tr_main_arg4_0 : W1 m ρ c (Proc.devRef .tc main_arg4) = W0 m ρ c (Proc.devRef .tc main_arg4) :=
  keepH0_main_arg4 (W0 m ρ c)
theorem tr_main_arg4_1 : W2 m ρ c (Proc.devRef .tc main_arg4) = W1 m ρ c (Proc.devRef .tc main_arg4) :=
  W2_of_ne m ρ c main_arg4 (by decide)
theorem tr_main_arg4_2 : W3 m ρ c (Proc.devRef .tc main_arg4) = W2 m ρ c (Proc.devRef .tc main_arg4) :=
  keepH1_main_arg4 (W2 m ρ c)
theorem tr_main_arg4_3 : W4 m ρ c (Proc.devRef .tc main_arg4) = W3 m ρ c (Proc.devRef .tc main_arg4) :=
  W4_of_ne m ρ c main_arg4 (by decide)
theorem tr_main_arg4_4 : W5 m ρ c (Proc.devRef .tc main_arg4) = W4 m ρ c (Proc.devRef .tc main_arg4) :=
  keepH2_main_arg4 (W4 m ρ c)
theorem tr_main_arg4_5 : W6 m ρ c (Proc.devRef .tc main_arg4) = W5 m ρ c (Proc.devRef .tc main_arg4) :=
  W6_of_ne m ρ c main_arg4 (by decide)
theorem tr_main_arg4_6 : W7 m ρ c (Proc.devRef .tc main_arg4) = W6 m ρ c (Proc.devRef .tc main_arg4) :=
  keepH3_main_arg4 (W6 m ρ c)
theorem tr_main_arg4_7 : W8 m ρ c (Proc.devRef .tc main_arg4) = W7 m ρ c (Proc.devRef .tc main_arg4) :=
  W8_of_ne m ρ c main_arg4 (by decide)
theorem tr_main_arg4_8 : W9 m ρ c (Proc.devRef .tc main_arg4) = W8 m ρ c (Proc.devRef .tc main_arg4) :=
  keepH4_main_arg4 (W8 m ρ c)
theorem tr_main_arg4_9 : W10 m ρ c (Proc.devRef .tc main_arg4) = W9 m ρ c (Proc.devRef .tc main_arg4) :=
  W10_of_ne m ρ c main_arg4 (by decide)
theorem tr_main_arg4_10 : W11 m ρ c (Proc.devRef .tc main_arg4) = W10 m ρ c (Proc.devRef .tc main_arg4) :=
  keepH5_main_arg4 (W10 m ρ c)
theorem tr_main_arg4_11 : W12 m ρ c (Proc.devRef .tc main_arg4) = W11 m ρ c (Proc.devRef .tc main_arg4) :=
  W12_of_ne m ρ c main_arg4 (by decide)
theorem tr_main_arg4_12 : W13 m ρ c (Proc.devRef .tc main_arg4) = W12 m ρ c (Proc.devRef .tc main_arg4) :=
  keepH6_main_arg4 (W12 m ρ c)
theorem tr_main_arg4_13 : W14 m ρ c (Proc.devRef .tc main_arg4) = W13 m ρ c (Proc.devRef .tc main_arg4) :=
  W14_of_ne m ρ c main_arg4 (by decide)
theorem tr_main_arg4_14 : W15 m ρ c (Proc.devRef .tc main_arg4) = W14 m ρ c (Proc.devRef .tc main_arg4) :=
  keepH7_main_arg4 (W14 m ρ c)
theorem tr_main_arg4_15 : W16 m ρ c (Proc.devRef .tc main_arg4) = W15 m ρ c (Proc.devRef .tc main_arg4) :=
  W16_of_ne m ρ c main_arg4 (by decide)
theorem tr_main_arg4_16 : W17 m ρ c (Proc.devRef .tc main_arg4) = W16 m ρ c (Proc.devRef .tc main_arg4) :=
  keepH8_main_arg4 (W16 m ρ c)
theorem tr_main_arg4_17 : W18 m ρ c (Proc.devRef .tc main_arg4) = W17 m ρ c (Proc.devRef .tc main_arg4) :=
  W18_of_ne m ρ c main_arg4 (by decide)
theorem tr_main_arg5_0 : W1 m ρ c (Proc.devRef .tc main_arg5) = W0 m ρ c (Proc.devRef .tc main_arg5) :=
  keepH0_main_arg5 (W0 m ρ c)
theorem tr_main_arg5_1 : W2 m ρ c (Proc.devRef .tc main_arg5) = W1 m ρ c (Proc.devRef .tc main_arg5) :=
  W2_of_ne m ρ c main_arg5 (by decide)
theorem tr_main_arg5_2 : W3 m ρ c (Proc.devRef .tc main_arg5) = W2 m ρ c (Proc.devRef .tc main_arg5) :=
  keepH1_main_arg5 (W2 m ρ c)
theorem tr_main_arg5_3 : W4 m ρ c (Proc.devRef .tc main_arg5) = W3 m ρ c (Proc.devRef .tc main_arg5) :=
  W4_of_ne m ρ c main_arg5 (by decide)
theorem tr_main_arg5_4 : W5 m ρ c (Proc.devRef .tc main_arg5) = W4 m ρ c (Proc.devRef .tc main_arg5) :=
  keepH2_main_arg5 (W4 m ρ c)
theorem tr_main_arg5_5 : W6 m ρ c (Proc.devRef .tc main_arg5) = W5 m ρ c (Proc.devRef .tc main_arg5) :=
  W6_of_ne m ρ c main_arg5 (by decide)
theorem tr_main_arg5_6 : W7 m ρ c (Proc.devRef .tc main_arg5) = W6 m ρ c (Proc.devRef .tc main_arg5) :=
  keepH3_main_arg5 (W6 m ρ c)
theorem tr_main_arg5_7 : W8 m ρ c (Proc.devRef .tc main_arg5) = W7 m ρ c (Proc.devRef .tc main_arg5) :=
  W8_of_ne m ρ c main_arg5 (by decide)
theorem tr_main_arg5_8 : W9 m ρ c (Proc.devRef .tc main_arg5) = W8 m ρ c (Proc.devRef .tc main_arg5) :=
  keepH4_main_arg5 (W8 m ρ c)
theorem tr_main_arg5_9 : W10 m ρ c (Proc.devRef .tc main_arg5) = W9 m ρ c (Proc.devRef .tc main_arg5) :=
  W10_of_ne m ρ c main_arg5 (by decide)
theorem tr_main_arg5_10 : W11 m ρ c (Proc.devRef .tc main_arg5) = W10 m ρ c (Proc.devRef .tc main_arg5) :=
  keepH5_main_arg5 (W10 m ρ c)
theorem tr_main_arg5_11 : W12 m ρ c (Proc.devRef .tc main_arg5) = W11 m ρ c (Proc.devRef .tc main_arg5) :=
  W12_of_ne m ρ c main_arg5 (by decide)
theorem tr_main_arg5_12 : W13 m ρ c (Proc.devRef .tc main_arg5) = W12 m ρ c (Proc.devRef .tc main_arg5) :=
  keepH6_main_arg5 (W12 m ρ c)
theorem tr_main_arg5_13 : W14 m ρ c (Proc.devRef .tc main_arg5) = W13 m ρ c (Proc.devRef .tc main_arg5) :=
  W14_of_ne m ρ c main_arg5 (by decide)
theorem tr_main_arg5_14 : W15 m ρ c (Proc.devRef .tc main_arg5) = W14 m ρ c (Proc.devRef .tc main_arg5) :=
  keepH7_main_arg5 (W14 m ρ c)
theorem tr_main_arg5_15 : W16 m ρ c (Proc.devRef .tc main_arg5) = W15 m ρ c (Proc.devRef .tc main_arg5) :=
  W16_of_ne m ρ c main_arg5 (by decide)
theorem tr_main_arg5_16 : W17 m ρ c (Proc.devRef .tc main_arg5) = W16 m ρ c (Proc.devRef .tc main_arg5) :=
  keepH8_main_arg5 (W16 m ρ c)
theorem tr_main_arg5_17 : W18 m ρ c (Proc.devRef .tc main_arg5) = W17 m ρ c (Proc.devRef .tc main_arg5) :=
  W18_of_ne m ρ c main_arg5 (by decide)
theorem tr_main_arg6_0 : W1 m ρ c (Proc.devRef .tc main_arg6) = W0 m ρ c (Proc.devRef .tc main_arg6) :=
  keepH0_main_arg6 (W0 m ρ c)
theorem tr_main_arg6_1 : W2 m ρ c (Proc.devRef .tc main_arg6) = W1 m ρ c (Proc.devRef .tc main_arg6) :=
  W2_of_ne m ρ c main_arg6 (by decide)
theorem tr_main_arg6_2 : W3 m ρ c (Proc.devRef .tc main_arg6) = W2 m ρ c (Proc.devRef .tc main_arg6) :=
  keepH1_main_arg6 (W2 m ρ c)
theorem tr_main_arg6_3 : W4 m ρ c (Proc.devRef .tc main_arg6) = W3 m ρ c (Proc.devRef .tc main_arg6) :=
  W4_of_ne m ρ c main_arg6 (by decide)
theorem tr_main_arg6_4 : W5 m ρ c (Proc.devRef .tc main_arg6) = W4 m ρ c (Proc.devRef .tc main_arg6) :=
  keepH2_main_arg6 (W4 m ρ c)
theorem tr_main_arg6_5 : W6 m ρ c (Proc.devRef .tc main_arg6) = W5 m ρ c (Proc.devRef .tc main_arg6) :=
  W6_of_ne m ρ c main_arg6 (by decide)
theorem tr_main_arg6_6 : W7 m ρ c (Proc.devRef .tc main_arg6) = W6 m ρ c (Proc.devRef .tc main_arg6) :=
  keepH3_main_arg6 (W6 m ρ c)
theorem tr_main_arg6_7 : W8 m ρ c (Proc.devRef .tc main_arg6) = W7 m ρ c (Proc.devRef .tc main_arg6) :=
  W8_of_ne m ρ c main_arg6 (by decide)
theorem tr_main_arg6_8 : W9 m ρ c (Proc.devRef .tc main_arg6) = W8 m ρ c (Proc.devRef .tc main_arg6) :=
  keepH4_main_arg6 (W8 m ρ c)
theorem tr_main_arg6_9 : W10 m ρ c (Proc.devRef .tc main_arg6) = W9 m ρ c (Proc.devRef .tc main_arg6) :=
  W10_of_ne m ρ c main_arg6 (by decide)
theorem tr_main_arg7_0 : W1 m ρ c (Proc.devRef .tc main_arg7) = W0 m ρ c (Proc.devRef .tc main_arg7) :=
  keepH0_main_arg7 (W0 m ρ c)
theorem tr_main_arg7_1 : W2 m ρ c (Proc.devRef .tc main_arg7) = W1 m ρ c (Proc.devRef .tc main_arg7) :=
  (W2_arr m ρ c 1).trans (((dat0 (V1 m ρ) c).arrAt_in 1 rfl _).trans (A_eq0 (V1 m ρ) c 1))
theorem tr_main_arg7_2 : W3 m ρ c (Proc.devRef .tc main_arg7) = W2 m ρ c (Proc.devRef .tc main_arg7) :=
  keepH1_main_arg7 (W2 m ρ c)
theorem tr_main_arg7_3 : W4 m ρ c (Proc.devRef .tc main_arg7) = W3 m ρ c (Proc.devRef .tc main_arg7) :=
  W4_of_ne m ρ c main_arg7 (by decide)
theorem tr_main_arg7_4 : W5 m ρ c (Proc.devRef .tc main_arg7) = W4 m ρ c (Proc.devRef .tc main_arg7) :=
  keepH2_main_arg7 (W4 m ρ c)
theorem tr_main_arg7_5 : W6 m ρ c (Proc.devRef .tc main_arg7) = W5 m ρ c (Proc.devRef .tc main_arg7) :=
  W6_of_ne m ρ c main_arg7 (by decide)
theorem tr_main_arg7_6 : W7 m ρ c (Proc.devRef .tc main_arg7) = W6 m ρ c (Proc.devRef .tc main_arg7) :=
  keepH3_main_arg7 (W6 m ρ c)
theorem tr_main_arg7_7 : W8 m ρ c (Proc.devRef .tc main_arg7) = W7 m ρ c (Proc.devRef .tc main_arg7) :=
  W8_of_ne m ρ c main_arg7 (by decide)
theorem tr_main_arg7_8 : W9 m ρ c (Proc.devRef .tc main_arg7) = W8 m ρ c (Proc.devRef .tc main_arg7) :=
  keepH4_main_arg7 (W8 m ρ c)
theorem tr_main_arg7_9 : W10 m ρ c (Proc.devRef .tc main_arg7) = W9 m ρ c (Proc.devRef .tc main_arg7) :=
  W10_of_ne m ρ c main_arg7 (by decide)
theorem tr_main_arg7_10 : W11 m ρ c (Proc.devRef .tc main_arg7) = W10 m ρ c (Proc.devRef .tc main_arg7) :=
  keepH5_main_arg7 (W10 m ρ c)
theorem tr_main_arg8_0 : W1 m ρ c (Proc.devRef .tc main_arg8) = W0 m ρ c (Proc.devRef .tc main_arg8) :=
  keepH0_main_arg8 (W0 m ρ c)
theorem tr_main_arg8_1 : W2 m ρ c (Proc.devRef .tc main_arg8) = W1 m ρ c (Proc.devRef .tc main_arg8) :=
  W2_of_ne m ρ c main_arg8 (by decide)
theorem tr_main_arg8_2 : W3 m ρ c (Proc.devRef .tc main_arg8) = W2 m ρ c (Proc.devRef .tc main_arg8) :=
  keepH1_main_arg8 (W2 m ρ c)
theorem tr_main_arg8_3 : W4 m ρ c (Proc.devRef .tc main_arg8) = W3 m ρ c (Proc.devRef .tc main_arg8) :=
  (W4_arr m ρ c 1).trans (((dat1 (V3 m ρ) c).arrAt_in 1 rfl _).trans (A_eq1 (V3 m ρ) c 1))
theorem tr_main_arg8_4 : W5 m ρ c (Proc.devRef .tc main_arg8) = W4 m ρ c (Proc.devRef .tc main_arg8) :=
  keepH2_main_arg8 (W4 m ρ c)
theorem tr_main_arg8_5 : W6 m ρ c (Proc.devRef .tc main_arg8) = W5 m ρ c (Proc.devRef .tc main_arg8) :=
  W6_of_ne m ρ c main_arg8 (by decide)
theorem tr_main_arg8_6 : W7 m ρ c (Proc.devRef .tc main_arg8) = W6 m ρ c (Proc.devRef .tc main_arg8) :=
  keepH3_main_arg8 (W6 m ρ c)
theorem tr_main_arg8_7 : W8 m ρ c (Proc.devRef .tc main_arg8) = W7 m ρ c (Proc.devRef .tc main_arg8) :=
  W8_of_ne m ρ c main_arg8 (by decide)
theorem tr_main_arg8_8 : W9 m ρ c (Proc.devRef .tc main_arg8) = W8 m ρ c (Proc.devRef .tc main_arg8) :=
  keepH4_main_arg8 (W8 m ρ c)
theorem tr_main_arg8_9 : W10 m ρ c (Proc.devRef .tc main_arg8) = W9 m ρ c (Proc.devRef .tc main_arg8) :=
  W10_of_ne m ρ c main_arg8 (by decide)
theorem tr_main_arg8_10 : W11 m ρ c (Proc.devRef .tc main_arg8) = W10 m ρ c (Proc.devRef .tc main_arg8) :=
  keepH5_main_arg8 (W10 m ρ c)
theorem tr_main_arg8_11 : W12 m ρ c (Proc.devRef .tc main_arg8) = W11 m ρ c (Proc.devRef .tc main_arg8) :=
  W12_of_ne m ρ c main_arg8 (by decide)
theorem tr_main_arg8_12 : W13 m ρ c (Proc.devRef .tc main_arg8) = W12 m ρ c (Proc.devRef .tc main_arg8) :=
  keepH6_main_arg8 (W12 m ρ c)
theorem tr_main_arg9_0 : W1 m ρ c (Proc.devRef .tc main_arg9) = W0 m ρ c (Proc.devRef .tc main_arg9) :=
  keepH0_main_arg9 (W0 m ρ c)
theorem tr_main_arg9_1 : W2 m ρ c (Proc.devRef .tc main_arg9) = W1 m ρ c (Proc.devRef .tc main_arg9) :=
  W2_of_ne m ρ c main_arg9 (by decide)
theorem tr_main_arg9_2 : W3 m ρ c (Proc.devRef .tc main_arg9) = W2 m ρ c (Proc.devRef .tc main_arg9) :=
  keepH1_main_arg9 (W2 m ρ c)
theorem tr_main_arg9_3 : W4 m ρ c (Proc.devRef .tc main_arg9) = W3 m ρ c (Proc.devRef .tc main_arg9) :=
  W4_of_ne m ρ c main_arg9 (by decide)
theorem tr_main_arg9_4 : W5 m ρ c (Proc.devRef .tc main_arg9) = W4 m ρ c (Proc.devRef .tc main_arg9) :=
  keepH2_main_arg9 (W4 m ρ c)
theorem tr_main_arg9_5 : W6 m ρ c (Proc.devRef .tc main_arg9) = W5 m ρ c (Proc.devRef .tc main_arg9) :=
  (W6_arr m ρ c 1).trans (((dat2 (V5 m ρ) c).arrAt_in 1 rfl _).trans (A_eq2 (V5 m ρ) c 1))
theorem tr_main_arg9_6 : W7 m ρ c (Proc.devRef .tc main_arg9) = W6 m ρ c (Proc.devRef .tc main_arg9) :=
  keepH3_main_arg9 (W6 m ρ c)
theorem tr_main_arg9_7 : W8 m ρ c (Proc.devRef .tc main_arg9) = W7 m ρ c (Proc.devRef .tc main_arg9) :=
  W8_of_ne m ρ c main_arg9 (by decide)
theorem tr_main_arg9_8 : W9 m ρ c (Proc.devRef .tc main_arg9) = W8 m ρ c (Proc.devRef .tc main_arg9) :=
  keepH4_main_arg9 (W8 m ρ c)
theorem tr_main_arg9_9 : W10 m ρ c (Proc.devRef .tc main_arg9) = W9 m ρ c (Proc.devRef .tc main_arg9) :=
  W10_of_ne m ρ c main_arg9 (by decide)
theorem tr_main_arg9_10 : W11 m ρ c (Proc.devRef .tc main_arg9) = W10 m ρ c (Proc.devRef .tc main_arg9) :=
  keepH5_main_arg9 (W10 m ρ c)
theorem tr_main_arg9_11 : W12 m ρ c (Proc.devRef .tc main_arg9) = W11 m ρ c (Proc.devRef .tc main_arg9) :=
  W12_of_ne m ρ c main_arg9 (by decide)
theorem tr_main_arg9_12 : W13 m ρ c (Proc.devRef .tc main_arg9) = W12 m ρ c (Proc.devRef .tc main_arg9) :=
  keepH6_main_arg9 (W12 m ρ c)
theorem tr_main_arg9_13 : W14 m ρ c (Proc.devRef .tc main_arg9) = W13 m ρ c (Proc.devRef .tc main_arg9) :=
  W14_of_ne m ρ c main_arg9 (by decide)
theorem tr_main_arg9_14 : W15 m ρ c (Proc.devRef .tc main_arg9) = W14 m ρ c (Proc.devRef .tc main_arg9) :=
  keepH7_main_arg9 (W14 m ρ c)
theorem tr_main_arg10_0 : W1 m ρ c (Proc.devRef .tc main_arg10) = W0 m ρ c (Proc.devRef .tc main_arg10) :=
  keepH0_main_arg10 (W0 m ρ c)
theorem tr_main_arg10_1 : W2 m ρ c (Proc.devRef .tc main_arg10) = W1 m ρ c (Proc.devRef .tc main_arg10) :=
  W2_of_ne m ρ c main_arg10 (by decide)
theorem tr_main_arg10_2 : W3 m ρ c (Proc.devRef .tc main_arg10) = W2 m ρ c (Proc.devRef .tc main_arg10) :=
  keepH1_main_arg10 (W2 m ρ c)
theorem tr_main_arg10_3 : W4 m ρ c (Proc.devRef .tc main_arg10) = W3 m ρ c (Proc.devRef .tc main_arg10) :=
  W4_of_ne m ρ c main_arg10 (by decide)
theorem tr_main_arg10_4 : W5 m ρ c (Proc.devRef .tc main_arg10) = W4 m ρ c (Proc.devRef .tc main_arg10) :=
  keepH2_main_arg10 (W4 m ρ c)
theorem tr_main_arg10_5 : W6 m ρ c (Proc.devRef .tc main_arg10) = W5 m ρ c (Proc.devRef .tc main_arg10) :=
  W6_of_ne m ρ c main_arg10 (by decide)
theorem tr_main_arg10_6 : W7 m ρ c (Proc.devRef .tc main_arg10) = W6 m ρ c (Proc.devRef .tc main_arg10) :=
  keepH3_main_arg10 (W6 m ρ c)
theorem tr_main_arg10_7 : W8 m ρ c (Proc.devRef .tc main_arg10) = W7 m ρ c (Proc.devRef .tc main_arg10) :=
  (W8_arr m ρ c 1).trans (((dat3 (V7 m ρ) c).arrAt_in 1 rfl _).trans (A_eq3 (V7 m ρ) c 1))
theorem tr_main_arg10_8 : W9 m ρ c (Proc.devRef .tc main_arg10) = W8 m ρ c (Proc.devRef .tc main_arg10) :=
  keepH4_main_arg10 (W8 m ρ c)
theorem tr_main_arg10_9 : W10 m ρ c (Proc.devRef .tc main_arg10) = W9 m ρ c (Proc.devRef .tc main_arg10) :=
  W10_of_ne m ρ c main_arg10 (by decide)
theorem tr_main_arg10_10 : W11 m ρ c (Proc.devRef .tc main_arg10) = W10 m ρ c (Proc.devRef .tc main_arg10) :=
  keepH5_main_arg10 (W10 m ρ c)
theorem tr_main_arg10_11 : W12 m ρ c (Proc.devRef .tc main_arg10) = W11 m ρ c (Proc.devRef .tc main_arg10) :=
  W12_of_ne m ρ c main_arg10 (by decide)
theorem tr_main_arg10_12 : W13 m ρ c (Proc.devRef .tc main_arg10) = W12 m ρ c (Proc.devRef .tc main_arg10) :=
  keepH6_main_arg10 (W12 m ρ c)
theorem tr_main_arg10_13 : W14 m ρ c (Proc.devRef .tc main_arg10) = W13 m ρ c (Proc.devRef .tc main_arg10) :=
  W14_of_ne m ρ c main_arg10 (by decide)
theorem tr_main_arg10_14 : W15 m ρ c (Proc.devRef .tc main_arg10) = W14 m ρ c (Proc.devRef .tc main_arg10) :=
  keepH7_main_arg10 (W14 m ρ c)
theorem tr_main_arg10_15 : W16 m ρ c (Proc.devRef .tc main_arg10) = W15 m ρ c (Proc.devRef .tc main_arg10) :=
  W16_of_ne m ρ c main_arg10 (by decide)
theorem tr_main_arg10_16 : W17 m ρ c (Proc.devRef .tc main_arg10) = W16 m ρ c (Proc.devRef .tc main_arg10) :=
  keepH8_main_arg10 (W16 m ρ c)
theorem tr_main_arg11_0 : W1 m ρ c (Proc.devRef .tc main_arg11) = W0 m ρ c (Proc.devRef .tc main_arg11) :=
  keepH0_main_arg11 (W0 m ρ c)
theorem tr_main_arg11_1 : W2 m ρ c (Proc.devRef .tc main_arg11) = W1 m ρ c (Proc.devRef .tc main_arg11) :=
  W2_of_ne m ρ c main_arg11 (by decide)
theorem tr_main_arg11_2 : W3 m ρ c (Proc.devRef .tc main_arg11) = W2 m ρ c (Proc.devRef .tc main_arg11) :=
  keepH1_main_arg11 (W2 m ρ c)
theorem tr_main_arg11_3 : W4 m ρ c (Proc.devRef .tc main_arg11) = W3 m ρ c (Proc.devRef .tc main_arg11) :=
  W4_of_ne m ρ c main_arg11 (by decide)
theorem tr_main_arg11_4 : W5 m ρ c (Proc.devRef .tc main_arg11) = W4 m ρ c (Proc.devRef .tc main_arg11) :=
  keepH2_main_arg11 (W4 m ρ c)
theorem tr_main_arg11_5 : W6 m ρ c (Proc.devRef .tc main_arg11) = W5 m ρ c (Proc.devRef .tc main_arg11) :=
  W6_of_ne m ρ c main_arg11 (by decide)
theorem tr_main_arg11_6 : W7 m ρ c (Proc.devRef .tc main_arg11) = W6 m ρ c (Proc.devRef .tc main_arg11) :=
  keepH3_main_arg11 (W6 m ρ c)
theorem tr_main_arg11_7 : W8 m ρ c (Proc.devRef .tc main_arg11) = W7 m ρ c (Proc.devRef .tc main_arg11) :=
  W8_of_ne m ρ c main_arg11 (by decide)
theorem tr_main_arg11_8 : W9 m ρ c (Proc.devRef .tc main_arg11) = W8 m ρ c (Proc.devRef .tc main_arg11) :=
  keepH4_main_arg11 (W8 m ρ c)
theorem tr_main_arg11_9 : W10 m ρ c (Proc.devRef .tc main_arg11) = W9 m ρ c (Proc.devRef .tc main_arg11) :=
  (W10_arr m ρ c 5).trans (((dat4 (V9 m ρ) c).arrAt_in 5 rfl _).trans (A_eq4 (V9 m ρ) c 5))
theorem tr_main_arg11_10 : W11 m ρ c (Proc.devRef .tc main_arg11) = W10 m ρ c (Proc.devRef .tc main_arg11) :=
  keepH5_main_arg11 (W10 m ρ c)
theorem tr_main_arg11_11 : W12 m ρ c (Proc.devRef .tc main_arg11) = W11 m ρ c (Proc.devRef .tc main_arg11) :=
  W12_of_ne m ρ c main_arg11 (by decide)
theorem tr_main_arg11_12 : W13 m ρ c (Proc.devRef .tc main_arg11) = W12 m ρ c (Proc.devRef .tc main_arg11) :=
  keepH6_main_arg11 (W12 m ρ c)
theorem tr_main_arg11_13 : W14 m ρ c (Proc.devRef .tc main_arg11) = W13 m ρ c (Proc.devRef .tc main_arg11) :=
  W14_of_ne m ρ c main_arg11 (by decide)
theorem tr_main_arg11_14 : W15 m ρ c (Proc.devRef .tc main_arg11) = W14 m ρ c (Proc.devRef .tc main_arg11) :=
  keepH7_main_arg11 (W14 m ρ c)
theorem tr_main_arg11_15 : W16 m ρ c (Proc.devRef .tc main_arg11) = W15 m ρ c (Proc.devRef .tc main_arg11) :=
  W16_of_ne m ρ c main_arg11 (by decide)
theorem tr_main_arg11_16 : W17 m ρ c (Proc.devRef .tc main_arg11) = W16 m ρ c (Proc.devRef .tc main_arg11) :=
  keepH8_main_arg11 (W16 m ρ c)
theorem tr_main_arg11_17 : W18 m ρ c (Proc.devRef .tc main_arg11) = W17 m ρ c (Proc.devRef .tc main_arg11) :=
  W18_of_ne m ρ c main_arg11 (by decide)
theorem tr_main_arg11_18 : W19 m ρ c (Proc.devRef .tc main_arg11) = W18 m ρ c (Proc.devRef .tc main_arg11) :=
  keepH9_main_arg11 (W18 m ρ c)
theorem tr_main_arg12_0 : W1 m ρ c (Proc.devRef .tc main_arg12) = W0 m ρ c (Proc.devRef .tc main_arg12) :=
  keepH0_main_arg12 (W0 m ρ c)
theorem tr_main_arg12_1 : W2 m ρ c (Proc.devRef .tc main_arg12) = W1 m ρ c (Proc.devRef .tc main_arg12) :=
  W2_of_ne m ρ c main_arg12 (by decide)
theorem tr_main_arg12_2 : W3 m ρ c (Proc.devRef .tc main_arg12) = W2 m ρ c (Proc.devRef .tc main_arg12) :=
  keepH1_main_arg12 (W2 m ρ c)
theorem tr_main_arg12_3 : W4 m ρ c (Proc.devRef .tc main_arg12) = W3 m ρ c (Proc.devRef .tc main_arg12) :=
  W4_of_ne m ρ c main_arg12 (by decide)
theorem tr_main_arg12_4 : W5 m ρ c (Proc.devRef .tc main_arg12) = W4 m ρ c (Proc.devRef .tc main_arg12) :=
  keepH2_main_arg12 (W4 m ρ c)
theorem tr_main_arg12_5 : W6 m ρ c (Proc.devRef .tc main_arg12) = W5 m ρ c (Proc.devRef .tc main_arg12) :=
  W6_of_ne m ρ c main_arg12 (by decide)
theorem tr_main_arg12_6 : W7 m ρ c (Proc.devRef .tc main_arg12) = W6 m ρ c (Proc.devRef .tc main_arg12) :=
  keepH3_main_arg12 (W6 m ρ c)
theorem tr_main_arg12_7 : W8 m ρ c (Proc.devRef .tc main_arg12) = W7 m ρ c (Proc.devRef .tc main_arg12) :=
  W8_of_ne m ρ c main_arg12 (by decide)
theorem tr_main_arg12_8 : W9 m ρ c (Proc.devRef .tc main_arg12) = W8 m ρ c (Proc.devRef .tc main_arg12) :=
  keepH4_main_arg12 (W8 m ρ c)
theorem tr_main_arg12_9 : W10 m ρ c (Proc.devRef .tc main_arg12) = W9 m ρ c (Proc.devRef .tc main_arg12) :=
  (W10_arr m ρ c 6).trans (((dat4 (V9 m ρ) c).arrAt_in 6 rfl _).trans (A_eq4 (V9 m ρ) c 6))
theorem tr_main_arg12_10 : W11 m ρ c (Proc.devRef .tc main_arg12) = W10 m ρ c (Proc.devRef .tc main_arg12) :=
  keepH5_main_arg12 (W10 m ρ c)
theorem tr_main_arg12_11 : W12 m ρ c (Proc.devRef .tc main_arg12) = W11 m ρ c (Proc.devRef .tc main_arg12) :=
  W12_of_ne m ρ c main_arg12 (by decide)
theorem tr_main_arg12_12 : W13 m ρ c (Proc.devRef .tc main_arg12) = W12 m ρ c (Proc.devRef .tc main_arg12) :=
  keepH6_main_arg12 (W12 m ρ c)
theorem tr_main_arg12_13 : W14 m ρ c (Proc.devRef .tc main_arg12) = W13 m ρ c (Proc.devRef .tc main_arg12) :=
  W14_of_ne m ρ c main_arg12 (by decide)
theorem tr_main_arg12_14 : W15 m ρ c (Proc.devRef .tc main_arg12) = W14 m ρ c (Proc.devRef .tc main_arg12) :=
  keepH7_main_arg12 (W14 m ρ c)
theorem tr_main_arg12_15 : W16 m ρ c (Proc.devRef .tc main_arg12) = W15 m ρ c (Proc.devRef .tc main_arg12) :=
  W16_of_ne m ρ c main_arg12 (by decide)
theorem tr_main_arg12_16 : W17 m ρ c (Proc.devRef .tc main_arg12) = W16 m ρ c (Proc.devRef .tc main_arg12) :=
  keepH8_main_arg12 (W16 m ρ c)
theorem tr_main_arg12_17 : W18 m ρ c (Proc.devRef .tc main_arg12) = W17 m ρ c (Proc.devRef .tc main_arg12) :=
  W18_of_ne m ρ c main_arg12 (by decide)
theorem tr_main_arg12_18 : W19 m ρ c (Proc.devRef .tc main_arg12) = W18 m ρ c (Proc.devRef .tc main_arg12) :=
  keepH9_main_arg12 (W18 m ρ c)
theorem tr_main_arg13_0 : W1 m ρ c (Proc.devRef .tc main_arg13) = W0 m ρ c (Proc.devRef .tc main_arg13) :=
  keepH0_main_arg13 (W0 m ρ c)
theorem tr_main_arg13_1 : W2 m ρ c (Proc.devRef .tc main_arg13) = W1 m ρ c (Proc.devRef .tc main_arg13) :=
  W2_of_ne m ρ c main_arg13 (by decide)
theorem tr_main_arg13_2 : W3 m ρ c (Proc.devRef .tc main_arg13) = W2 m ρ c (Proc.devRef .tc main_arg13) :=
  keepH1_main_arg13 (W2 m ρ c)
theorem tr_main_arg13_3 : W4 m ρ c (Proc.devRef .tc main_arg13) = W3 m ρ c (Proc.devRef .tc main_arg13) :=
  W4_of_ne m ρ c main_arg13 (by decide)
theorem tr_main_arg13_4 : W5 m ρ c (Proc.devRef .tc main_arg13) = W4 m ρ c (Proc.devRef .tc main_arg13) :=
  keepH2_main_arg13 (W4 m ρ c)
theorem tr_main_arg13_5 : W6 m ρ c (Proc.devRef .tc main_arg13) = W5 m ρ c (Proc.devRef .tc main_arg13) :=
  W6_of_ne m ρ c main_arg13 (by decide)
theorem tr_main_arg13_6 : W7 m ρ c (Proc.devRef .tc main_arg13) = W6 m ρ c (Proc.devRef .tc main_arg13) :=
  keepH3_main_arg13 (W6 m ρ c)
theorem tr_main_arg13_7 : W8 m ρ c (Proc.devRef .tc main_arg13) = W7 m ρ c (Proc.devRef .tc main_arg13) :=
  W8_of_ne m ρ c main_arg13 (by decide)
theorem tr_main_arg13_8 : W9 m ρ c (Proc.devRef .tc main_arg13) = W8 m ρ c (Proc.devRef .tc main_arg13) :=
  keepH4_main_arg13 (W8 m ρ c)
theorem tr_main_arg13_9 : W10 m ρ c (Proc.devRef .tc main_arg13) = W9 m ρ c (Proc.devRef .tc main_arg13) :=
  (W10_arr m ρ c 7).trans (((dat4 (V9 m ρ) c).arrAt_in 7 rfl _).trans (A_eq4 (V9 m ρ) c 7))
theorem tr_main_arg13_10 : W11 m ρ c (Proc.devRef .tc main_arg13) = W10 m ρ c (Proc.devRef .tc main_arg13) :=
  keepH5_main_arg13 (W10 m ρ c)
theorem tr_main_arg13_11 : W12 m ρ c (Proc.devRef .tc main_arg13) = W11 m ρ c (Proc.devRef .tc main_arg13) :=
  W12_of_ne m ρ c main_arg13 (by decide)
theorem tr_main_arg13_12 : W13 m ρ c (Proc.devRef .tc main_arg13) = W12 m ρ c (Proc.devRef .tc main_arg13) :=
  keepH6_main_arg13 (W12 m ρ c)
theorem tr_main_arg13_13 : W14 m ρ c (Proc.devRef .tc main_arg13) = W13 m ρ c (Proc.devRef .tc main_arg13) :=
  W14_of_ne m ρ c main_arg13 (by decide)
theorem tr_main_arg13_14 : W15 m ρ c (Proc.devRef .tc main_arg13) = W14 m ρ c (Proc.devRef .tc main_arg13) :=
  keepH7_main_arg13 (W14 m ρ c)
theorem tr_main_arg13_15 : W16 m ρ c (Proc.devRef .tc main_arg13) = W15 m ρ c (Proc.devRef .tc main_arg13) :=
  W16_of_ne m ρ c main_arg13 (by decide)
theorem tr_main_arg13_16 : W17 m ρ c (Proc.devRef .tc main_arg13) = W16 m ρ c (Proc.devRef .tc main_arg13) :=
  keepH8_main_arg13 (W16 m ρ c)
theorem tr_main_arg13_17 : W18 m ρ c (Proc.devRef .tc main_arg13) = W17 m ρ c (Proc.devRef .tc main_arg13) :=
  W18_of_ne m ρ c main_arg13 (by decide)
theorem tr_main_arg13_18 : W19 m ρ c (Proc.devRef .tc main_arg13) = W18 m ρ c (Proc.devRef .tc main_arg13) :=
  keepH9_main_arg13 (W18 m ρ c)
theorem tr_main_arg14_0 : W1 m ρ c (Proc.devRef .tc main_arg14) = W0 m ρ c (Proc.devRef .tc main_arg14) :=
  keepH0_main_arg14 (W0 m ρ c)
theorem tr_main_arg14_1 : W2 m ρ c (Proc.devRef .tc main_arg14) = W1 m ρ c (Proc.devRef .tc main_arg14) :=
  W2_of_ne m ρ c main_arg14 (by decide)
theorem tr_main_arg14_2 : W3 m ρ c (Proc.devRef .tc main_arg14) = W2 m ρ c (Proc.devRef .tc main_arg14) :=
  keepH1_main_arg14 (W2 m ρ c)
theorem tr_main_arg14_3 : W4 m ρ c (Proc.devRef .tc main_arg14) = W3 m ρ c (Proc.devRef .tc main_arg14) :=
  W4_of_ne m ρ c main_arg14 (by decide)
theorem tr_main_arg14_4 : W5 m ρ c (Proc.devRef .tc main_arg14) = W4 m ρ c (Proc.devRef .tc main_arg14) :=
  keepH2_main_arg14 (W4 m ρ c)
theorem tr_main_arg14_5 : W6 m ρ c (Proc.devRef .tc main_arg14) = W5 m ρ c (Proc.devRef .tc main_arg14) :=
  W6_of_ne m ρ c main_arg14 (by decide)
theorem tr_main_arg14_6 : W7 m ρ c (Proc.devRef .tc main_arg14) = W6 m ρ c (Proc.devRef .tc main_arg14) :=
  keepH3_main_arg14 (W6 m ρ c)
theorem tr_main_arg14_7 : W8 m ρ c (Proc.devRef .tc main_arg14) = W7 m ρ c (Proc.devRef .tc main_arg14) :=
  W8_of_ne m ρ c main_arg14 (by decide)
theorem tr_main_arg14_8 : W9 m ρ c (Proc.devRef .tc main_arg14) = W8 m ρ c (Proc.devRef .tc main_arg14) :=
  keepH4_main_arg14 (W8 m ρ c)
theorem tr_main_arg14_9 : W10 m ρ c (Proc.devRef .tc main_arg14) = W9 m ρ c (Proc.devRef .tc main_arg14) :=
  (W10_arr m ρ c 8).trans (((dat4 (V9 m ρ) c).arrAt_in 8 rfl _).trans (A_eq4 (V9 m ρ) c 8))
theorem tr_main_arg14_10 : W11 m ρ c (Proc.devRef .tc main_arg14) = W10 m ρ c (Proc.devRef .tc main_arg14) :=
  keepH5_main_arg14 (W10 m ρ c)
theorem tr_main_arg14_11 : W12 m ρ c (Proc.devRef .tc main_arg14) = W11 m ρ c (Proc.devRef .tc main_arg14) :=
  W12_of_ne m ρ c main_arg14 (by decide)
theorem tr_main_arg14_12 : W13 m ρ c (Proc.devRef .tc main_arg14) = W12 m ρ c (Proc.devRef .tc main_arg14) :=
  keepH6_main_arg14 (W12 m ρ c)
theorem tr_main_arg14_13 : W14 m ρ c (Proc.devRef .tc main_arg14) = W13 m ρ c (Proc.devRef .tc main_arg14) :=
  W14_of_ne m ρ c main_arg14 (by decide)
theorem tr_main_arg14_14 : W15 m ρ c (Proc.devRef .tc main_arg14) = W14 m ρ c (Proc.devRef .tc main_arg14) :=
  keepH7_main_arg14 (W14 m ρ c)
theorem tr_main_arg14_15 : W16 m ρ c (Proc.devRef .tc main_arg14) = W15 m ρ c (Proc.devRef .tc main_arg14) :=
  W16_of_ne m ρ c main_arg14 (by decide)
theorem tr_main_arg14_16 : W17 m ρ c (Proc.devRef .tc main_arg14) = W16 m ρ c (Proc.devRef .tc main_arg14) :=
  keepH8_main_arg14 (W16 m ρ c)
theorem tr_main_arg14_17 : W18 m ρ c (Proc.devRef .tc main_arg14) = W17 m ρ c (Proc.devRef .tc main_arg14) :=
  W18_of_ne m ρ c main_arg14 (by decide)
theorem tr_main_arg14_18 : W19 m ρ c (Proc.devRef .tc main_arg14) = W18 m ρ c (Proc.devRef .tc main_arg14) :=
  keepH9_main_arg14 (W18 m ρ c)
theorem tr_main_arg15_0 : W1 m ρ c (Proc.devRef .tc main_arg15) = W0 m ρ c (Proc.devRef .tc main_arg15) :=
  keepH0_main_arg15 (W0 m ρ c)
theorem tr_main_arg15_1 : W2 m ρ c (Proc.devRef .tc main_arg15) = W1 m ρ c (Proc.devRef .tc main_arg15) :=
  W2_of_ne m ρ c main_arg15 (by decide)
theorem tr_main_arg15_2 : W3 m ρ c (Proc.devRef .tc main_arg15) = W2 m ρ c (Proc.devRef .tc main_arg15) :=
  keepH1_main_arg15 (W2 m ρ c)
theorem tr_main_arg15_3 : W4 m ρ c (Proc.devRef .tc main_arg15) = W3 m ρ c (Proc.devRef .tc main_arg15) :=
  W4_of_ne m ρ c main_arg15 (by decide)
theorem tr_main_arg15_4 : W5 m ρ c (Proc.devRef .tc main_arg15) = W4 m ρ c (Proc.devRef .tc main_arg15) :=
  keepH2_main_arg15 (W4 m ρ c)
theorem tr_main_arg15_5 : W6 m ρ c (Proc.devRef .tc main_arg15) = W5 m ρ c (Proc.devRef .tc main_arg15) :=
  W6_of_ne m ρ c main_arg15 (by decide)
theorem tr_main_arg15_6 : W7 m ρ c (Proc.devRef .tc main_arg15) = W6 m ρ c (Proc.devRef .tc main_arg15) :=
  keepH3_main_arg15 (W6 m ρ c)
theorem tr_main_arg15_7 : W8 m ρ c (Proc.devRef .tc main_arg15) = W7 m ρ c (Proc.devRef .tc main_arg15) :=
  W8_of_ne m ρ c main_arg15 (by decide)
theorem tr_main_arg15_8 : W9 m ρ c (Proc.devRef .tc main_arg15) = W8 m ρ c (Proc.devRef .tc main_arg15) :=
  keepH4_main_arg15 (W8 m ρ c)
theorem tr_main_arg15_9 : W10 m ρ c (Proc.devRef .tc main_arg15) = W9 m ρ c (Proc.devRef .tc main_arg15) :=
  (W10_arr m ρ c 9).trans (((dat4 (V9 m ρ) c).arrAt_in 9 rfl _).trans (A_eq4 (V9 m ρ) c 9))
theorem tr_main_arg15_10 : W11 m ρ c (Proc.devRef .tc main_arg15) = W10 m ρ c (Proc.devRef .tc main_arg15) :=
  keepH5_main_arg15 (W10 m ρ c)
theorem tr_main_arg15_11 : W12 m ρ c (Proc.devRef .tc main_arg15) = W11 m ρ c (Proc.devRef .tc main_arg15) :=
  W12_of_ne m ρ c main_arg15 (by decide)
theorem tr_main_arg15_12 : W13 m ρ c (Proc.devRef .tc main_arg15) = W12 m ρ c (Proc.devRef .tc main_arg15) :=
  keepH6_main_arg15 (W12 m ρ c)
theorem tr_main_arg15_13 : W14 m ρ c (Proc.devRef .tc main_arg15) = W13 m ρ c (Proc.devRef .tc main_arg15) :=
  W14_of_ne m ρ c main_arg15 (by decide)
theorem tr_main_arg15_14 : W15 m ρ c (Proc.devRef .tc main_arg15) = W14 m ρ c (Proc.devRef .tc main_arg15) :=
  keepH7_main_arg15 (W14 m ρ c)
theorem tr_main_arg15_15 : W16 m ρ c (Proc.devRef .tc main_arg15) = W15 m ρ c (Proc.devRef .tc main_arg15) :=
  W16_of_ne m ρ c main_arg15 (by decide)
theorem tr_main_arg15_16 : W17 m ρ c (Proc.devRef .tc main_arg15) = W16 m ρ c (Proc.devRef .tc main_arg15) :=
  keepH8_main_arg15 (W16 m ρ c)
theorem tr_main_arg15_17 : W18 m ρ c (Proc.devRef .tc main_arg15) = W17 m ρ c (Proc.devRef .tc main_arg15) :=
  W18_of_ne m ρ c main_arg15 (by decide)
theorem tr_main_arg15_18 : W19 m ρ c (Proc.devRef .tc main_arg15) = W18 m ρ c (Proc.devRef .tc main_arg15) :=
  keepH9_main_arg15 (W18 m ρ c)
theorem tr_main_arg16_0 : W1 m ρ c (Proc.devRef .tc main_arg16) = W0 m ρ c (Proc.devRef .tc main_arg16) :=
  keepH0_main_arg16 (W0 m ρ c)
theorem tr_main_arg16_1 : W2 m ρ c (Proc.devRef .tc main_arg16) = W1 m ρ c (Proc.devRef .tc main_arg16) :=
  W2_of_ne m ρ c main_arg16 (by decide)
theorem tr_main_arg16_2 : W3 m ρ c (Proc.devRef .tc main_arg16) = W2 m ρ c (Proc.devRef .tc main_arg16) :=
  keepH1_main_arg16 (W2 m ρ c)
theorem tr_main_arg16_3 : W4 m ρ c (Proc.devRef .tc main_arg16) = W3 m ρ c (Proc.devRef .tc main_arg16) :=
  W4_of_ne m ρ c main_arg16 (by decide)
theorem tr_main_arg16_4 : W5 m ρ c (Proc.devRef .tc main_arg16) = W4 m ρ c (Proc.devRef .tc main_arg16) :=
  keepH2_main_arg16 (W4 m ρ c)
theorem tr_main_arg16_5 : W6 m ρ c (Proc.devRef .tc main_arg16) = W5 m ρ c (Proc.devRef .tc main_arg16) :=
  W6_of_ne m ρ c main_arg16 (by decide)
theorem tr_main_arg16_6 : W7 m ρ c (Proc.devRef .tc main_arg16) = W6 m ρ c (Proc.devRef .tc main_arg16) :=
  keepH3_main_arg16 (W6 m ρ c)
theorem tr_main_arg16_7 : W8 m ρ c (Proc.devRef .tc main_arg16) = W7 m ρ c (Proc.devRef .tc main_arg16) :=
  W8_of_ne m ρ c main_arg16 (by decide)
theorem tr_main_arg16_8 : W9 m ρ c (Proc.devRef .tc main_arg16) = W8 m ρ c (Proc.devRef .tc main_arg16) :=
  keepH4_main_arg16 (W8 m ρ c)
theorem tr_main_arg16_9 : W10 m ρ c (Proc.devRef .tc main_arg16) = W9 m ρ c (Proc.devRef .tc main_arg16) :=
  (W10_arr m ρ c 10).trans (((dat4 (V9 m ρ) c).arrAt_in 10 rfl _).trans (A_eq4 (V9 m ρ) c 10))
theorem tr_main_arg16_10 : W11 m ρ c (Proc.devRef .tc main_arg16) = W10 m ρ c (Proc.devRef .tc main_arg16) :=
  keepH5_main_arg16 (W10 m ρ c)
theorem tr_main_arg16_11 : W12 m ρ c (Proc.devRef .tc main_arg16) = W11 m ρ c (Proc.devRef .tc main_arg16) :=
  W12_of_ne m ρ c main_arg16 (by decide)
theorem tr_main_arg16_12 : W13 m ρ c (Proc.devRef .tc main_arg16) = W12 m ρ c (Proc.devRef .tc main_arg16) :=
  keepH6_main_arg16 (W12 m ρ c)
theorem tr_main_arg16_13 : W14 m ρ c (Proc.devRef .tc main_arg16) = W13 m ρ c (Proc.devRef .tc main_arg16) :=
  W14_of_ne m ρ c main_arg16 (by decide)
theorem tr_main_arg16_14 : W15 m ρ c (Proc.devRef .tc main_arg16) = W14 m ρ c (Proc.devRef .tc main_arg16) :=
  keepH7_main_arg16 (W14 m ρ c)
theorem tr_main_arg16_15 : W16 m ρ c (Proc.devRef .tc main_arg16) = W15 m ρ c (Proc.devRef .tc main_arg16) :=
  W16_of_ne m ρ c main_arg16 (by decide)
theorem tr_main_arg16_16 : W17 m ρ c (Proc.devRef .tc main_arg16) = W16 m ρ c (Proc.devRef .tc main_arg16) :=
  keepH8_main_arg16 (W16 m ρ c)
theorem tr_main_arg16_17 : W18 m ρ c (Proc.devRef .tc main_arg16) = W17 m ρ c (Proc.devRef .tc main_arg16) :=
  W18_of_ne m ρ c main_arg16 (by decide)
theorem tr_main_arg16_18 : W19 m ρ c (Proc.devRef .tc main_arg16) = W18 m ρ c (Proc.devRef .tc main_arg16) :=
  keepH9_main_arg16 (W18 m ρ c)
theorem tr_main_v13_0_2 : W3 m ρ c (Proc.devRef .tc main_v13_0) = W2 m ρ c (Proc.devRef .tc main_v13_0) :=
  keepH1_main_v13_0 (W2 m ρ c)
theorem tr_main_v13_0_3 : W4 m ρ c (Proc.devRef .tc main_v13_0) = W3 m ρ c (Proc.devRef .tc main_v13_0) :=
  W4_of_ne m ρ c main_v13_0 (by decide)
theorem tr_main_v13_0_4 : W5 m ρ c (Proc.devRef .tc main_v13_0) = W4 m ρ c (Proc.devRef .tc main_v13_0) :=
  keepH2_main_v13_0 (W4 m ρ c)
theorem tr_main_v13_0_5 : W6 m ρ c (Proc.devRef .tc main_v13_0) = W5 m ρ c (Proc.devRef .tc main_v13_0) :=
  W6_of_ne m ρ c main_v13_0 (by decide)
theorem tr_main_v13_0_6 : W7 m ρ c (Proc.devRef .tc main_v13_0) = W6 m ρ c (Proc.devRef .tc main_v13_0) :=
  keepH3_main_v13_0 (W6 m ρ c)
theorem tr_main_v13_0_7 : W8 m ρ c (Proc.devRef .tc main_v13_0) = W7 m ρ c (Proc.devRef .tc main_v13_0) :=
  W8_of_ne m ρ c main_v13_0 (by decide)
theorem tr_main_v13_0_8 : W9 m ρ c (Proc.devRef .tc main_v13_0) = W8 m ρ c (Proc.devRef .tc main_v13_0) :=
  keepH4_main_v13_0 (W8 m ρ c)
theorem tr_main_v27_0_4 : W5 m ρ c (Proc.devRef .tc main_v27_0) = W4 m ρ c (Proc.devRef .tc main_v27_0) :=
  keepH2_main_v27_0 (W4 m ρ c)
theorem tr_main_v27_0_5 : W6 m ρ c (Proc.devRef .tc main_v27_0) = W5 m ρ c (Proc.devRef .tc main_v27_0) :=
  W6_of_ne m ρ c main_v27_0 (by decide)
theorem tr_main_v27_0_6 : W7 m ρ c (Proc.devRef .tc main_v27_0) = W6 m ρ c (Proc.devRef .tc main_v27_0) :=
  keepH3_main_v27_0 (W6 m ρ c)
theorem tr_main_v27_0_7 : W8 m ρ c (Proc.devRef .tc main_v27_0) = W7 m ρ c (Proc.devRef .tc main_v27_0) :=
  W8_of_ne m ρ c main_v27_0 (by decide)
theorem tr_main_v27_0_8 : W9 m ρ c (Proc.devRef .tc main_v27_0) = W8 m ρ c (Proc.devRef .tc main_v27_0) :=
  keepH4_main_v27_0 (W8 m ρ c)
theorem tr_main_v41_0_6 : W7 m ρ c (Proc.devRef .tc main_v41_0) = W6 m ρ c (Proc.devRef .tc main_v41_0) :=
  keepH3_main_v41_0 (W6 m ρ c)
theorem tr_main_v41_0_7 : W8 m ρ c (Proc.devRef .tc main_v41_0) = W7 m ρ c (Proc.devRef .tc main_v41_0) :=
  W8_of_ne m ρ c main_v41_0 (by decide)
theorem tr_main_v41_0_8 : W9 m ρ c (Proc.devRef .tc main_v41_0) = W8 m ρ c (Proc.devRef .tc main_v41_0) :=
  keepH4_main_v41_0 (W8 m ρ c)
theorem tr_main_v55_0_8 : W9 m ρ c (Proc.devRef .tc main_v55_0) = W8 m ρ c (Proc.devRef .tc main_v55_0) :=
  keepH4_main_v55_0 (W8 m ρ c)
theorem tr_main_v83_0_12 : W13 m ρ c (Proc.devRef .tc main_v83_0) = W12 m ρ c (Proc.devRef .tc main_v83_0) :=
  keepH6_main_v83_0 (W12 m ρ c)
theorem tr_main_v83_0_13 : W14 m ρ c (Proc.devRef .tc main_v83_0) = W13 m ρ c (Proc.devRef .tc main_v83_0) :=
  W14_of_ne m ρ c main_v83_0 (by decide)
theorem tr_main_v83_0_14 : W15 m ρ c (Proc.devRef .tc main_v83_0) = W14 m ρ c (Proc.devRef .tc main_v83_0) :=
  keepH7_main_v83_0 (W14 m ρ c)
theorem tr_main_v83_0_15 : W16 m ρ c (Proc.devRef .tc main_v83_0) = W15 m ρ c (Proc.devRef .tc main_v83_0) :=
  W16_of_ne m ρ c main_v83_0 (by decide)
theorem tr_main_v83_0_16 : W17 m ρ c (Proc.devRef .tc main_v83_0) = W16 m ρ c (Proc.devRef .tc main_v83_0) :=
  keepH8_main_v83_0 (W16 m ρ c)
theorem tr_main_v83_0_17 : W18 m ρ c (Proc.devRef .tc main_v83_0) = W17 m ρ c (Proc.devRef .tc main_v83_0) :=
  W18_of_ne m ρ c main_v83_0 (by decide)
theorem tr_main_v83_0_18 : W19 m ρ c (Proc.devRef .tc main_v83_0) = W18 m ρ c (Proc.devRef .tc main_v83_0) :=
  keepH9_main_v83_0 (W18 m ρ c)
theorem tr_main_v97_0_14 : W15 m ρ c (Proc.devRef .tc main_v97_0) = W14 m ρ c (Proc.devRef .tc main_v97_0) :=
  keepH7_main_v97_0 (W14 m ρ c)
theorem tr_main_v97_0_15 : W16 m ρ c (Proc.devRef .tc main_v97_0) = W15 m ρ c (Proc.devRef .tc main_v97_0) :=
  W16_of_ne m ρ c main_v97_0 (by decide)
theorem tr_main_v97_0_16 : W17 m ρ c (Proc.devRef .tc main_v97_0) = W16 m ρ c (Proc.devRef .tc main_v97_0) :=
  keepH8_main_v97_0 (W16 m ρ c)
theorem tr_main_v97_0_17 : W18 m ρ c (Proc.devRef .tc main_v97_0) = W17 m ρ c (Proc.devRef .tc main_v97_0) :=
  W18_of_ne m ρ c main_v97_0 (by decide)
theorem tr_main_v97_0_18 : W19 m ρ c (Proc.devRef .tc main_v97_0) = W18 m ρ c (Proc.devRef .tc main_v97_0) :=
  keepH9_main_v97_0 (W18 m ρ c)
theorem tr_main_v111_0_16 : W17 m ρ c (Proc.devRef .tc main_v111_0) = W16 m ρ c (Proc.devRef .tc main_v111_0) :=
  keepH8_main_v111_0 (W16 m ρ c)
theorem tr_main_v111_0_17 : W18 m ρ c (Proc.devRef .tc main_v111_0) = W17 m ρ c (Proc.devRef .tc main_v111_0) :=
  W18_of_ne m ρ c main_v111_0 (by decide)
theorem tr_main_v111_0_18 : W19 m ρ c (Proc.devRef .tc main_v111_0) = W18 m ρ c (Proc.devRef .tc main_v111_0) :=
  keepH9_main_v111_0 (W18 m ρ c)
theorem tr_main_v125_0_18 : W19 m ρ c (Proc.devRef .tc main_v125_0) = W18 m ρ c (Proc.devRef .tc main_v125_0) :=
  keepH9_main_v125_0 (W18 m ρ c)
theorem tr_main_v69_10 : W11 m ρ c (Proc.devRef .tc main_v69) = W10 m ρ c (Proc.devRef .tc main_v69) :=
  keepH5_main_v69 (W10 m ρ c)
theorem tr_main_v69_11 : W12 m ρ c (Proc.devRef .tc main_v69) = W11 m ρ c (Proc.devRef .tc main_v69) :=
  W12_of_ne m ρ c main_v69 (by decide)
theorem tr_main_v69_12 : W13 m ρ c (Proc.devRef .tc main_v69) = W12 m ρ c (Proc.devRef .tc main_v69) :=
  keepH6_main_v69 (W12 m ρ c)
theorem tr_main_v69_13 : W14 m ρ c (Proc.devRef .tc main_v69) = W13 m ρ c (Proc.devRef .tc main_v69) :=
  W14_of_ne m ρ c main_v69 (by decide)
theorem tr_main_v69_14 : W15 m ρ c (Proc.devRef .tc main_v69) = W14 m ρ c (Proc.devRef .tc main_v69) :=
  keepH7_main_v69 (W14 m ρ c)
theorem tr_main_v69_15 : W16 m ρ c (Proc.devRef .tc main_v69) = W15 m ρ c (Proc.devRef .tc main_v69) :=
  W16_of_ne m ρ c main_v69 (by decide)
theorem tr_main_v69_16 : W17 m ρ c (Proc.devRef .tc main_v69) = W16 m ρ c (Proc.devRef .tc main_v69) :=
  keepH8_main_v69 (W16 m ρ c)
theorem tr_main_v69_17 : W18 m ρ c (Proc.devRef .tc main_v69) = W17 m ρ c (Proc.devRef .tc main_v69) :=
  W18_of_ne m ρ c main_v69 (by decide)
theorem tr_main_v69_18 : W19 m ρ c (Proc.devRef .tc main_v69) = W18 m ρ c (Proc.devRef .tc main_v69) :=
  keepH9_main_v69 (W18 m ρ c)
theorem tr_main_v69_19 : W20 m ρ c (Proc.devRef .tc main_v69) = W19 m ρ c (Proc.devRef .tc main_v69) :=
  W20_of_ne m ρ c main_v69 (by decide)

/-! ### An argument is as launched at every boundary -/

theorem arg_main_arg0_1 : W1 m ρ c (Proc.devRef .tc main_arg0) = m ((c : Thread nD τ).loc main_arg0) :=
  (tr_main_arg0_0 m ρ c).trans rfl
theorem arg_main_arg0_2 : W2 m ρ c (Proc.devRef .tc main_arg0) = m ((c : Thread nD τ).loc main_arg0) :=
  (tr_main_arg0_1 m ρ c).trans (arg_main_arg0_1 m ρ c)
theorem arg_main_arg0_3 : W3 m ρ c (Proc.devRef .tc main_arg0) = m ((c : Thread nD τ).loc main_arg0) :=
  (tr_main_arg0_2 m ρ c).trans (arg_main_arg0_2 m ρ c)
theorem arg_main_arg0_4 : W4 m ρ c (Proc.devRef .tc main_arg0) = m ((c : Thread nD τ).loc main_arg0) :=
  (tr_main_arg0_3 m ρ c).trans (arg_main_arg0_3 m ρ c)
theorem arg_main_arg0_5 : W5 m ρ c (Proc.devRef .tc main_arg0) = m ((c : Thread nD τ).loc main_arg0) :=
  (tr_main_arg0_4 m ρ c).trans (arg_main_arg0_4 m ρ c)
theorem arg_main_arg0_6 : W6 m ρ c (Proc.devRef .tc main_arg0) = m ((c : Thread nD τ).loc main_arg0) :=
  (tr_main_arg0_5 m ρ c).trans (arg_main_arg0_5 m ρ c)
theorem arg_main_arg0_7 : W7 m ρ c (Proc.devRef .tc main_arg0) = m ((c : Thread nD τ).loc main_arg0) :=
  (tr_main_arg0_6 m ρ c).trans (arg_main_arg0_6 m ρ c)
theorem arg_main_arg0_8 : W8 m ρ c (Proc.devRef .tc main_arg0) = m ((c : Thread nD τ).loc main_arg0) :=
  (tr_main_arg0_7 m ρ c).trans (arg_main_arg0_7 m ρ c)
theorem arg_main_arg1_1 : W1 m ρ c (Proc.devRef .tc main_arg1) = m ((c : Thread nD τ).loc main_arg1) :=
  (tr_main_arg1_0 m ρ c).trans rfl
theorem arg_main_arg1_2 : W2 m ρ c (Proc.devRef .tc main_arg1) = m ((c : Thread nD τ).loc main_arg1) :=
  (tr_main_arg1_1 m ρ c).trans (arg_main_arg1_1 m ρ c)
theorem arg_main_arg1_3 : W3 m ρ c (Proc.devRef .tc main_arg1) = m ((c : Thread nD τ).loc main_arg1) :=
  (tr_main_arg1_2 m ρ c).trans (arg_main_arg1_2 m ρ c)
theorem arg_main_arg1_4 : W4 m ρ c (Proc.devRef .tc main_arg1) = m ((c : Thread nD τ).loc main_arg1) :=
  (tr_main_arg1_3 m ρ c).trans (arg_main_arg1_3 m ρ c)
theorem arg_main_arg1_5 : W5 m ρ c (Proc.devRef .tc main_arg1) = m ((c : Thread nD τ).loc main_arg1) :=
  (tr_main_arg1_4 m ρ c).trans (arg_main_arg1_4 m ρ c)
theorem arg_main_arg1_6 : W6 m ρ c (Proc.devRef .tc main_arg1) = m ((c : Thread nD τ).loc main_arg1) :=
  (tr_main_arg1_5 m ρ c).trans (arg_main_arg1_5 m ρ c)
theorem arg_main_arg1_7 : W7 m ρ c (Proc.devRef .tc main_arg1) = m ((c : Thread nD τ).loc main_arg1) :=
  (tr_main_arg1_6 m ρ c).trans (arg_main_arg1_6 m ρ c)
theorem arg_main_arg1_8 : W8 m ρ c (Proc.devRef .tc main_arg1) = m ((c : Thread nD τ).loc main_arg1) :=
  (tr_main_arg1_7 m ρ c).trans (arg_main_arg1_7 m ρ c)
theorem arg_main_arg2_1 : W1 m ρ c (Proc.devRef .tc main_arg2) = m ((c : Thread nD τ).loc main_arg2) :=
  (tr_main_arg2_0 m ρ c).trans rfl
theorem arg_main_arg2_2 : W2 m ρ c (Proc.devRef .tc main_arg2) = m ((c : Thread nD τ).loc main_arg2) :=
  (tr_main_arg2_1 m ρ c).trans (arg_main_arg2_1 m ρ c)
theorem arg_main_arg2_3 : W3 m ρ c (Proc.devRef .tc main_arg2) = m ((c : Thread nD τ).loc main_arg2) :=
  (tr_main_arg2_2 m ρ c).trans (arg_main_arg2_2 m ρ c)
theorem arg_main_arg2_4 : W4 m ρ c (Proc.devRef .tc main_arg2) = m ((c : Thread nD τ).loc main_arg2) :=
  (tr_main_arg2_3 m ρ c).trans (arg_main_arg2_3 m ρ c)
theorem arg_main_arg2_5 : W5 m ρ c (Proc.devRef .tc main_arg2) = m ((c : Thread nD τ).loc main_arg2) :=
  (tr_main_arg2_4 m ρ c).trans (arg_main_arg2_4 m ρ c)
theorem arg_main_arg2_6 : W6 m ρ c (Proc.devRef .tc main_arg2) = m ((c : Thread nD τ).loc main_arg2) :=
  (tr_main_arg2_5 m ρ c).trans (arg_main_arg2_5 m ρ c)
theorem arg_main_arg2_7 : W7 m ρ c (Proc.devRef .tc main_arg2) = m ((c : Thread nD τ).loc main_arg2) :=
  (tr_main_arg2_6 m ρ c).trans (arg_main_arg2_6 m ρ c)
theorem arg_main_arg2_8 : W8 m ρ c (Proc.devRef .tc main_arg2) = m ((c : Thread nD τ).loc main_arg2) :=
  (tr_main_arg2_7 m ρ c).trans (arg_main_arg2_7 m ρ c)
theorem arg_main_arg3_1 : W1 m ρ c (Proc.devRef .tc main_arg3) = m ((c : Thread nD τ).loc main_arg3) :=
  (tr_main_arg3_0 m ρ c).trans rfl
theorem arg_main_arg3_2 : W2 m ρ c (Proc.devRef .tc main_arg3) = m ((c : Thread nD τ).loc main_arg3) :=
  (tr_main_arg3_1 m ρ c).trans (arg_main_arg3_1 m ρ c)
theorem arg_main_arg3_3 : W3 m ρ c (Proc.devRef .tc main_arg3) = m ((c : Thread nD τ).loc main_arg3) :=
  (tr_main_arg3_2 m ρ c).trans (arg_main_arg3_2 m ρ c)
theorem arg_main_arg3_4 : W4 m ρ c (Proc.devRef .tc main_arg3) = m ((c : Thread nD τ).loc main_arg3) :=
  (tr_main_arg3_3 m ρ c).trans (arg_main_arg3_3 m ρ c)
theorem arg_main_arg3_5 : W5 m ρ c (Proc.devRef .tc main_arg3) = m ((c : Thread nD τ).loc main_arg3) :=
  (tr_main_arg3_4 m ρ c).trans (arg_main_arg3_4 m ρ c)
theorem arg_main_arg3_6 : W6 m ρ c (Proc.devRef .tc main_arg3) = m ((c : Thread nD τ).loc main_arg3) :=
  (tr_main_arg3_5 m ρ c).trans (arg_main_arg3_5 m ρ c)
theorem arg_main_arg3_7 : W7 m ρ c (Proc.devRef .tc main_arg3) = m ((c : Thread nD τ).loc main_arg3) :=
  (tr_main_arg3_6 m ρ c).trans (arg_main_arg3_6 m ρ c)
theorem arg_main_arg3_8 : W8 m ρ c (Proc.devRef .tc main_arg3) = m ((c : Thread nD τ).loc main_arg3) :=
  (tr_main_arg3_7 m ρ c).trans (arg_main_arg3_7 m ρ c)
theorem arg_main_arg3_9 : W9 m ρ c (Proc.devRef .tc main_arg3) = m ((c : Thread nD τ).loc main_arg3) :=
  (tr_main_arg3_8 m ρ c).trans (arg_main_arg3_8 m ρ c)
theorem arg_main_arg3_10 : W10 m ρ c (Proc.devRef .tc main_arg3) = m ((c : Thread nD τ).loc main_arg3) :=
  (tr_main_arg3_9 m ρ c).trans (arg_main_arg3_9 m ρ c)
theorem arg_main_arg3_11 : W11 m ρ c (Proc.devRef .tc main_arg3) = m ((c : Thread nD τ).loc main_arg3) :=
  (tr_main_arg3_10 m ρ c).trans (arg_main_arg3_10 m ρ c)
theorem arg_main_arg3_12 : W12 m ρ c (Proc.devRef .tc main_arg3) = m ((c : Thread nD τ).loc main_arg3) :=
  (tr_main_arg3_11 m ρ c).trans (arg_main_arg3_11 m ρ c)
theorem arg_main_arg3_13 : W13 m ρ c (Proc.devRef .tc main_arg3) = m ((c : Thread nD τ).loc main_arg3) :=
  (tr_main_arg3_12 m ρ c).trans (arg_main_arg3_12 m ρ c)
theorem arg_main_arg3_14 : W14 m ρ c (Proc.devRef .tc main_arg3) = m ((c : Thread nD τ).loc main_arg3) :=
  (tr_main_arg3_13 m ρ c).trans (arg_main_arg3_13 m ρ c)
theorem arg_main_arg3_15 : W15 m ρ c (Proc.devRef .tc main_arg3) = m ((c : Thread nD τ).loc main_arg3) :=
  (tr_main_arg3_14 m ρ c).trans (arg_main_arg3_14 m ρ c)
theorem arg_main_arg3_16 : W16 m ρ c (Proc.devRef .tc main_arg3) = m ((c : Thread nD τ).loc main_arg3) :=
  (tr_main_arg3_15 m ρ c).trans (arg_main_arg3_15 m ρ c)
theorem arg_main_arg3_17 : W17 m ρ c (Proc.devRef .tc main_arg3) = m ((c : Thread nD τ).loc main_arg3) :=
  (tr_main_arg3_16 m ρ c).trans (arg_main_arg3_16 m ρ c)
theorem arg_main_arg3_18 : W18 m ρ c (Proc.devRef .tc main_arg3) = m ((c : Thread nD τ).loc main_arg3) :=
  (tr_main_arg3_17 m ρ c).trans (arg_main_arg3_17 m ρ c)
theorem arg_main_arg4_1 : W1 m ρ c (Proc.devRef .tc main_arg4) = m ((c : Thread nD τ).loc main_arg4) :=
  (tr_main_arg4_0 m ρ c).trans rfl
theorem arg_main_arg4_2 : W2 m ρ c (Proc.devRef .tc main_arg4) = m ((c : Thread nD τ).loc main_arg4) :=
  (tr_main_arg4_1 m ρ c).trans (arg_main_arg4_1 m ρ c)
theorem arg_main_arg4_3 : W3 m ρ c (Proc.devRef .tc main_arg4) = m ((c : Thread nD τ).loc main_arg4) :=
  (tr_main_arg4_2 m ρ c).trans (arg_main_arg4_2 m ρ c)
theorem arg_main_arg4_4 : W4 m ρ c (Proc.devRef .tc main_arg4) = m ((c : Thread nD τ).loc main_arg4) :=
  (tr_main_arg4_3 m ρ c).trans (arg_main_arg4_3 m ρ c)
theorem arg_main_arg4_5 : W5 m ρ c (Proc.devRef .tc main_arg4) = m ((c : Thread nD τ).loc main_arg4) :=
  (tr_main_arg4_4 m ρ c).trans (arg_main_arg4_4 m ρ c)
theorem arg_main_arg4_6 : W6 m ρ c (Proc.devRef .tc main_arg4) = m ((c : Thread nD τ).loc main_arg4) :=
  (tr_main_arg4_5 m ρ c).trans (arg_main_arg4_5 m ρ c)
theorem arg_main_arg4_7 : W7 m ρ c (Proc.devRef .tc main_arg4) = m ((c : Thread nD τ).loc main_arg4) :=
  (tr_main_arg4_6 m ρ c).trans (arg_main_arg4_6 m ρ c)
theorem arg_main_arg4_8 : W8 m ρ c (Proc.devRef .tc main_arg4) = m ((c : Thread nD τ).loc main_arg4) :=
  (tr_main_arg4_7 m ρ c).trans (arg_main_arg4_7 m ρ c)
theorem arg_main_arg4_9 : W9 m ρ c (Proc.devRef .tc main_arg4) = m ((c : Thread nD τ).loc main_arg4) :=
  (tr_main_arg4_8 m ρ c).trans (arg_main_arg4_8 m ρ c)
theorem arg_main_arg4_10 : W10 m ρ c (Proc.devRef .tc main_arg4) = m ((c : Thread nD τ).loc main_arg4) :=
  (tr_main_arg4_9 m ρ c).trans (arg_main_arg4_9 m ρ c)
theorem arg_main_arg4_11 : W11 m ρ c (Proc.devRef .tc main_arg4) = m ((c : Thread nD τ).loc main_arg4) :=
  (tr_main_arg4_10 m ρ c).trans (arg_main_arg4_10 m ρ c)
theorem arg_main_arg4_12 : W12 m ρ c (Proc.devRef .tc main_arg4) = m ((c : Thread nD τ).loc main_arg4) :=
  (tr_main_arg4_11 m ρ c).trans (arg_main_arg4_11 m ρ c)
theorem arg_main_arg4_13 : W13 m ρ c (Proc.devRef .tc main_arg4) = m ((c : Thread nD τ).loc main_arg4) :=
  (tr_main_arg4_12 m ρ c).trans (arg_main_arg4_12 m ρ c)
theorem arg_main_arg4_14 : W14 m ρ c (Proc.devRef .tc main_arg4) = m ((c : Thread nD τ).loc main_arg4) :=
  (tr_main_arg4_13 m ρ c).trans (arg_main_arg4_13 m ρ c)
theorem arg_main_arg4_15 : W15 m ρ c (Proc.devRef .tc main_arg4) = m ((c : Thread nD τ).loc main_arg4) :=
  (tr_main_arg4_14 m ρ c).trans (arg_main_arg4_14 m ρ c)
theorem arg_main_arg4_16 : W16 m ρ c (Proc.devRef .tc main_arg4) = m ((c : Thread nD τ).loc main_arg4) :=
  (tr_main_arg4_15 m ρ c).trans (arg_main_arg4_15 m ρ c)
theorem arg_main_arg4_17 : W17 m ρ c (Proc.devRef .tc main_arg4) = m ((c : Thread nD τ).loc main_arg4) :=
  (tr_main_arg4_16 m ρ c).trans (arg_main_arg4_16 m ρ c)
theorem arg_main_arg4_18 : W18 m ρ c (Proc.devRef .tc main_arg4) = m ((c : Thread nD τ).loc main_arg4) :=
  (tr_main_arg4_17 m ρ c).trans (arg_main_arg4_17 m ρ c)
theorem arg_main_arg5_1 : W1 m ρ c (Proc.devRef .tc main_arg5) = m ((c : Thread nD τ).loc main_arg5) :=
  (tr_main_arg5_0 m ρ c).trans rfl
theorem arg_main_arg5_2 : W2 m ρ c (Proc.devRef .tc main_arg5) = m ((c : Thread nD τ).loc main_arg5) :=
  (tr_main_arg5_1 m ρ c).trans (arg_main_arg5_1 m ρ c)
theorem arg_main_arg5_3 : W3 m ρ c (Proc.devRef .tc main_arg5) = m ((c : Thread nD τ).loc main_arg5) :=
  (tr_main_arg5_2 m ρ c).trans (arg_main_arg5_2 m ρ c)
theorem arg_main_arg5_4 : W4 m ρ c (Proc.devRef .tc main_arg5) = m ((c : Thread nD τ).loc main_arg5) :=
  (tr_main_arg5_3 m ρ c).trans (arg_main_arg5_3 m ρ c)
theorem arg_main_arg5_5 : W5 m ρ c (Proc.devRef .tc main_arg5) = m ((c : Thread nD τ).loc main_arg5) :=
  (tr_main_arg5_4 m ρ c).trans (arg_main_arg5_4 m ρ c)
theorem arg_main_arg5_6 : W6 m ρ c (Proc.devRef .tc main_arg5) = m ((c : Thread nD τ).loc main_arg5) :=
  (tr_main_arg5_5 m ρ c).trans (arg_main_arg5_5 m ρ c)
theorem arg_main_arg5_7 : W7 m ρ c (Proc.devRef .tc main_arg5) = m ((c : Thread nD τ).loc main_arg5) :=
  (tr_main_arg5_6 m ρ c).trans (arg_main_arg5_6 m ρ c)
theorem arg_main_arg5_8 : W8 m ρ c (Proc.devRef .tc main_arg5) = m ((c : Thread nD τ).loc main_arg5) :=
  (tr_main_arg5_7 m ρ c).trans (arg_main_arg5_7 m ρ c)
theorem arg_main_arg5_9 : W9 m ρ c (Proc.devRef .tc main_arg5) = m ((c : Thread nD τ).loc main_arg5) :=
  (tr_main_arg5_8 m ρ c).trans (arg_main_arg5_8 m ρ c)
theorem arg_main_arg5_10 : W10 m ρ c (Proc.devRef .tc main_arg5) = m ((c : Thread nD τ).loc main_arg5) :=
  (tr_main_arg5_9 m ρ c).trans (arg_main_arg5_9 m ρ c)
theorem arg_main_arg5_11 : W11 m ρ c (Proc.devRef .tc main_arg5) = m ((c : Thread nD τ).loc main_arg5) :=
  (tr_main_arg5_10 m ρ c).trans (arg_main_arg5_10 m ρ c)
theorem arg_main_arg5_12 : W12 m ρ c (Proc.devRef .tc main_arg5) = m ((c : Thread nD τ).loc main_arg5) :=
  (tr_main_arg5_11 m ρ c).trans (arg_main_arg5_11 m ρ c)
theorem arg_main_arg5_13 : W13 m ρ c (Proc.devRef .tc main_arg5) = m ((c : Thread nD τ).loc main_arg5) :=
  (tr_main_arg5_12 m ρ c).trans (arg_main_arg5_12 m ρ c)
theorem arg_main_arg5_14 : W14 m ρ c (Proc.devRef .tc main_arg5) = m ((c : Thread nD τ).loc main_arg5) :=
  (tr_main_arg5_13 m ρ c).trans (arg_main_arg5_13 m ρ c)
theorem arg_main_arg5_15 : W15 m ρ c (Proc.devRef .tc main_arg5) = m ((c : Thread nD τ).loc main_arg5) :=
  (tr_main_arg5_14 m ρ c).trans (arg_main_arg5_14 m ρ c)
theorem arg_main_arg5_16 : W16 m ρ c (Proc.devRef .tc main_arg5) = m ((c : Thread nD τ).loc main_arg5) :=
  (tr_main_arg5_15 m ρ c).trans (arg_main_arg5_15 m ρ c)
theorem arg_main_arg5_17 : W17 m ρ c (Proc.devRef .tc main_arg5) = m ((c : Thread nD τ).loc main_arg5) :=
  (tr_main_arg5_16 m ρ c).trans (arg_main_arg5_16 m ρ c)
theorem arg_main_arg5_18 : W18 m ρ c (Proc.devRef .tc main_arg5) = m ((c : Thread nD τ).loc main_arg5) :=
  (tr_main_arg5_17 m ρ c).trans (arg_main_arg5_17 m ρ c)
theorem arg_main_arg6_1 : W1 m ρ c (Proc.devRef .tc main_arg6) = m ((c : Thread nD τ).loc main_arg6) :=
  (tr_main_arg6_0 m ρ c).trans rfl
theorem arg_main_arg6_2 : W2 m ρ c (Proc.devRef .tc main_arg6) = m ((c : Thread nD τ).loc main_arg6) :=
  (tr_main_arg6_1 m ρ c).trans (arg_main_arg6_1 m ρ c)
theorem arg_main_arg6_3 : W3 m ρ c (Proc.devRef .tc main_arg6) = m ((c : Thread nD τ).loc main_arg6) :=
  (tr_main_arg6_2 m ρ c).trans (arg_main_arg6_2 m ρ c)
theorem arg_main_arg6_4 : W4 m ρ c (Proc.devRef .tc main_arg6) = m ((c : Thread nD τ).loc main_arg6) :=
  (tr_main_arg6_3 m ρ c).trans (arg_main_arg6_3 m ρ c)
theorem arg_main_arg6_5 : W5 m ρ c (Proc.devRef .tc main_arg6) = m ((c : Thread nD τ).loc main_arg6) :=
  (tr_main_arg6_4 m ρ c).trans (arg_main_arg6_4 m ρ c)
theorem arg_main_arg6_6 : W6 m ρ c (Proc.devRef .tc main_arg6) = m ((c : Thread nD τ).loc main_arg6) :=
  (tr_main_arg6_5 m ρ c).trans (arg_main_arg6_5 m ρ c)
theorem arg_main_arg6_7 : W7 m ρ c (Proc.devRef .tc main_arg6) = m ((c : Thread nD τ).loc main_arg6) :=
  (tr_main_arg6_6 m ρ c).trans (arg_main_arg6_6 m ρ c)
theorem arg_main_arg6_8 : W8 m ρ c (Proc.devRef .tc main_arg6) = m ((c : Thread nD τ).loc main_arg6) :=
  (tr_main_arg6_7 m ρ c).trans (arg_main_arg6_7 m ρ c)
theorem arg_main_arg6_9 : W9 m ρ c (Proc.devRef .tc main_arg6) = m ((c : Thread nD τ).loc main_arg6) :=
  (tr_main_arg6_8 m ρ c).trans (arg_main_arg6_8 m ρ c)
theorem arg_main_arg6_10 : W10 m ρ c (Proc.devRef .tc main_arg6) = m ((c : Thread nD τ).loc main_arg6) :=
  (tr_main_arg6_9 m ρ c).trans (arg_main_arg6_9 m ρ c)
theorem arg_main_arg7_1 : W1 m ρ c (Proc.devRef .tc main_arg7) = m ((c : Thread nD τ).loc main_arg7) :=
  (tr_main_arg7_0 m ρ c).trans rfl
theorem arg_main_arg7_2 : W2 m ρ c (Proc.devRef .tc main_arg7) = m ((c : Thread nD τ).loc main_arg7) :=
  (tr_main_arg7_1 m ρ c).trans (arg_main_arg7_1 m ρ c)
theorem arg_main_arg7_3 : W3 m ρ c (Proc.devRef .tc main_arg7) = m ((c : Thread nD τ).loc main_arg7) :=
  (tr_main_arg7_2 m ρ c).trans (arg_main_arg7_2 m ρ c)
theorem arg_main_arg7_4 : W4 m ρ c (Proc.devRef .tc main_arg7) = m ((c : Thread nD τ).loc main_arg7) :=
  (tr_main_arg7_3 m ρ c).trans (arg_main_arg7_3 m ρ c)
theorem arg_main_arg7_5 : W5 m ρ c (Proc.devRef .tc main_arg7) = m ((c : Thread nD τ).loc main_arg7) :=
  (tr_main_arg7_4 m ρ c).trans (arg_main_arg7_4 m ρ c)
theorem arg_main_arg7_6 : W6 m ρ c (Proc.devRef .tc main_arg7) = m ((c : Thread nD τ).loc main_arg7) :=
  (tr_main_arg7_5 m ρ c).trans (arg_main_arg7_5 m ρ c)
theorem arg_main_arg7_7 : W7 m ρ c (Proc.devRef .tc main_arg7) = m ((c : Thread nD τ).loc main_arg7) :=
  (tr_main_arg7_6 m ρ c).trans (arg_main_arg7_6 m ρ c)
theorem arg_main_arg7_8 : W8 m ρ c (Proc.devRef .tc main_arg7) = m ((c : Thread nD τ).loc main_arg7) :=
  (tr_main_arg7_7 m ρ c).trans (arg_main_arg7_7 m ρ c)
theorem arg_main_arg7_9 : W9 m ρ c (Proc.devRef .tc main_arg7) = m ((c : Thread nD τ).loc main_arg7) :=
  (tr_main_arg7_8 m ρ c).trans (arg_main_arg7_8 m ρ c)
theorem arg_main_arg7_10 : W10 m ρ c (Proc.devRef .tc main_arg7) = m ((c : Thread nD τ).loc main_arg7) :=
  (tr_main_arg7_9 m ρ c).trans (arg_main_arg7_9 m ρ c)
theorem arg_main_arg7_11 : W11 m ρ c (Proc.devRef .tc main_arg7) = m ((c : Thread nD τ).loc main_arg7) :=
  (tr_main_arg7_10 m ρ c).trans (arg_main_arg7_10 m ρ c)
theorem arg_main_arg8_1 : W1 m ρ c (Proc.devRef .tc main_arg8) = m ((c : Thread nD τ).loc main_arg8) :=
  (tr_main_arg8_0 m ρ c).trans rfl
theorem arg_main_arg8_2 : W2 m ρ c (Proc.devRef .tc main_arg8) = m ((c : Thread nD τ).loc main_arg8) :=
  (tr_main_arg8_1 m ρ c).trans (arg_main_arg8_1 m ρ c)
theorem arg_main_arg8_3 : W3 m ρ c (Proc.devRef .tc main_arg8) = m ((c : Thread nD τ).loc main_arg8) :=
  (tr_main_arg8_2 m ρ c).trans (arg_main_arg8_2 m ρ c)
theorem arg_main_arg8_4 : W4 m ρ c (Proc.devRef .tc main_arg8) = m ((c : Thread nD τ).loc main_arg8) :=
  (tr_main_arg8_3 m ρ c).trans (arg_main_arg8_3 m ρ c)
theorem arg_main_arg8_5 : W5 m ρ c (Proc.devRef .tc main_arg8) = m ((c : Thread nD τ).loc main_arg8) :=
  (tr_main_arg8_4 m ρ c).trans (arg_main_arg8_4 m ρ c)
theorem arg_main_arg8_6 : W6 m ρ c (Proc.devRef .tc main_arg8) = m ((c : Thread nD τ).loc main_arg8) :=
  (tr_main_arg8_5 m ρ c).trans (arg_main_arg8_5 m ρ c)
theorem arg_main_arg8_7 : W7 m ρ c (Proc.devRef .tc main_arg8) = m ((c : Thread nD τ).loc main_arg8) :=
  (tr_main_arg8_6 m ρ c).trans (arg_main_arg8_6 m ρ c)
theorem arg_main_arg8_8 : W8 m ρ c (Proc.devRef .tc main_arg8) = m ((c : Thread nD τ).loc main_arg8) :=
  (tr_main_arg8_7 m ρ c).trans (arg_main_arg8_7 m ρ c)
theorem arg_main_arg8_9 : W9 m ρ c (Proc.devRef .tc main_arg8) = m ((c : Thread nD τ).loc main_arg8) :=
  (tr_main_arg8_8 m ρ c).trans (arg_main_arg8_8 m ρ c)
theorem arg_main_arg8_10 : W10 m ρ c (Proc.devRef .tc main_arg8) = m ((c : Thread nD τ).loc main_arg8) :=
  (tr_main_arg8_9 m ρ c).trans (arg_main_arg8_9 m ρ c)
theorem arg_main_arg8_11 : W11 m ρ c (Proc.devRef .tc main_arg8) = m ((c : Thread nD τ).loc main_arg8) :=
  (tr_main_arg8_10 m ρ c).trans (arg_main_arg8_10 m ρ c)
theorem arg_main_arg8_12 : W12 m ρ c (Proc.devRef .tc main_arg8) = m ((c : Thread nD τ).loc main_arg8) :=
  (tr_main_arg8_11 m ρ c).trans (arg_main_arg8_11 m ρ c)
theorem arg_main_arg8_13 : W13 m ρ c (Proc.devRef .tc main_arg8) = m ((c : Thread nD τ).loc main_arg8) :=
  (tr_main_arg8_12 m ρ c).trans (arg_main_arg8_12 m ρ c)
theorem arg_main_arg9_1 : W1 m ρ c (Proc.devRef .tc main_arg9) = m ((c : Thread nD τ).loc main_arg9) :=
  (tr_main_arg9_0 m ρ c).trans rfl
theorem arg_main_arg9_2 : W2 m ρ c (Proc.devRef .tc main_arg9) = m ((c : Thread nD τ).loc main_arg9) :=
  (tr_main_arg9_1 m ρ c).trans (arg_main_arg9_1 m ρ c)
theorem arg_main_arg9_3 : W3 m ρ c (Proc.devRef .tc main_arg9) = m ((c : Thread nD τ).loc main_arg9) :=
  (tr_main_arg9_2 m ρ c).trans (arg_main_arg9_2 m ρ c)
theorem arg_main_arg9_4 : W4 m ρ c (Proc.devRef .tc main_arg9) = m ((c : Thread nD τ).loc main_arg9) :=
  (tr_main_arg9_3 m ρ c).trans (arg_main_arg9_3 m ρ c)
theorem arg_main_arg9_5 : W5 m ρ c (Proc.devRef .tc main_arg9) = m ((c : Thread nD τ).loc main_arg9) :=
  (tr_main_arg9_4 m ρ c).trans (arg_main_arg9_4 m ρ c)
theorem arg_main_arg9_6 : W6 m ρ c (Proc.devRef .tc main_arg9) = m ((c : Thread nD τ).loc main_arg9) :=
  (tr_main_arg9_5 m ρ c).trans (arg_main_arg9_5 m ρ c)
theorem arg_main_arg9_7 : W7 m ρ c (Proc.devRef .tc main_arg9) = m ((c : Thread nD τ).loc main_arg9) :=
  (tr_main_arg9_6 m ρ c).trans (arg_main_arg9_6 m ρ c)
theorem arg_main_arg9_8 : W8 m ρ c (Proc.devRef .tc main_arg9) = m ((c : Thread nD τ).loc main_arg9) :=
  (tr_main_arg9_7 m ρ c).trans (arg_main_arg9_7 m ρ c)
theorem arg_main_arg9_9 : W9 m ρ c (Proc.devRef .tc main_arg9) = m ((c : Thread nD τ).loc main_arg9) :=
  (tr_main_arg9_8 m ρ c).trans (arg_main_arg9_8 m ρ c)
theorem arg_main_arg9_10 : W10 m ρ c (Proc.devRef .tc main_arg9) = m ((c : Thread nD τ).loc main_arg9) :=
  (tr_main_arg9_9 m ρ c).trans (arg_main_arg9_9 m ρ c)
theorem arg_main_arg9_11 : W11 m ρ c (Proc.devRef .tc main_arg9) = m ((c : Thread nD τ).loc main_arg9) :=
  (tr_main_arg9_10 m ρ c).trans (arg_main_arg9_10 m ρ c)
theorem arg_main_arg9_12 : W12 m ρ c (Proc.devRef .tc main_arg9) = m ((c : Thread nD τ).loc main_arg9) :=
  (tr_main_arg9_11 m ρ c).trans (arg_main_arg9_11 m ρ c)
theorem arg_main_arg9_13 : W13 m ρ c (Proc.devRef .tc main_arg9) = m ((c : Thread nD τ).loc main_arg9) :=
  (tr_main_arg9_12 m ρ c).trans (arg_main_arg9_12 m ρ c)
theorem arg_main_arg9_14 : W14 m ρ c (Proc.devRef .tc main_arg9) = m ((c : Thread nD τ).loc main_arg9) :=
  (tr_main_arg9_13 m ρ c).trans (arg_main_arg9_13 m ρ c)
theorem arg_main_arg9_15 : W15 m ρ c (Proc.devRef .tc main_arg9) = m ((c : Thread nD τ).loc main_arg9) :=
  (tr_main_arg9_14 m ρ c).trans (arg_main_arg9_14 m ρ c)
theorem arg_main_arg10_1 : W1 m ρ c (Proc.devRef .tc main_arg10) = m ((c : Thread nD τ).loc main_arg10) :=
  (tr_main_arg10_0 m ρ c).trans rfl
theorem arg_main_arg10_2 : W2 m ρ c (Proc.devRef .tc main_arg10) = m ((c : Thread nD τ).loc main_arg10) :=
  (tr_main_arg10_1 m ρ c).trans (arg_main_arg10_1 m ρ c)
theorem arg_main_arg10_3 : W3 m ρ c (Proc.devRef .tc main_arg10) = m ((c : Thread nD τ).loc main_arg10) :=
  (tr_main_arg10_2 m ρ c).trans (arg_main_arg10_2 m ρ c)
theorem arg_main_arg10_4 : W4 m ρ c (Proc.devRef .tc main_arg10) = m ((c : Thread nD τ).loc main_arg10) :=
  (tr_main_arg10_3 m ρ c).trans (arg_main_arg10_3 m ρ c)
theorem arg_main_arg10_5 : W5 m ρ c (Proc.devRef .tc main_arg10) = m ((c : Thread nD τ).loc main_arg10) :=
  (tr_main_arg10_4 m ρ c).trans (arg_main_arg10_4 m ρ c)
theorem arg_main_arg10_6 : W6 m ρ c (Proc.devRef .tc main_arg10) = m ((c : Thread nD τ).loc main_arg10) :=
  (tr_main_arg10_5 m ρ c).trans (arg_main_arg10_5 m ρ c)
theorem arg_main_arg10_7 : W7 m ρ c (Proc.devRef .tc main_arg10) = m ((c : Thread nD τ).loc main_arg10) :=
  (tr_main_arg10_6 m ρ c).trans (arg_main_arg10_6 m ρ c)
theorem arg_main_arg10_8 : W8 m ρ c (Proc.devRef .tc main_arg10) = m ((c : Thread nD τ).loc main_arg10) :=
  (tr_main_arg10_7 m ρ c).trans (arg_main_arg10_7 m ρ c)
theorem arg_main_arg10_9 : W9 m ρ c (Proc.devRef .tc main_arg10) = m ((c : Thread nD τ).loc main_arg10) :=
  (tr_main_arg10_8 m ρ c).trans (arg_main_arg10_8 m ρ c)
theorem arg_main_arg10_10 : W10 m ρ c (Proc.devRef .tc main_arg10) = m ((c : Thread nD τ).loc main_arg10) :=
  (tr_main_arg10_9 m ρ c).trans (arg_main_arg10_9 m ρ c)
theorem arg_main_arg10_11 : W11 m ρ c (Proc.devRef .tc main_arg10) = m ((c : Thread nD τ).loc main_arg10) :=
  (tr_main_arg10_10 m ρ c).trans (arg_main_arg10_10 m ρ c)
theorem arg_main_arg10_12 : W12 m ρ c (Proc.devRef .tc main_arg10) = m ((c : Thread nD τ).loc main_arg10) :=
  (tr_main_arg10_11 m ρ c).trans (arg_main_arg10_11 m ρ c)
theorem arg_main_arg10_13 : W13 m ρ c (Proc.devRef .tc main_arg10) = m ((c : Thread nD τ).loc main_arg10) :=
  (tr_main_arg10_12 m ρ c).trans (arg_main_arg10_12 m ρ c)
theorem arg_main_arg10_14 : W14 m ρ c (Proc.devRef .tc main_arg10) = m ((c : Thread nD τ).loc main_arg10) :=
  (tr_main_arg10_13 m ρ c).trans (arg_main_arg10_13 m ρ c)
theorem arg_main_arg10_15 : W15 m ρ c (Proc.devRef .tc main_arg10) = m ((c : Thread nD τ).loc main_arg10) :=
  (tr_main_arg10_14 m ρ c).trans (arg_main_arg10_14 m ρ c)
theorem arg_main_arg10_16 : W16 m ρ c (Proc.devRef .tc main_arg10) = m ((c : Thread nD τ).loc main_arg10) :=
  (tr_main_arg10_15 m ρ c).trans (arg_main_arg10_15 m ρ c)
theorem arg_main_arg10_17 : W17 m ρ c (Proc.devRef .tc main_arg10) = m ((c : Thread nD τ).loc main_arg10) :=
  (tr_main_arg10_16 m ρ c).trans (arg_main_arg10_16 m ρ c)
theorem arg_main_arg11_1 : W1 m ρ c (Proc.devRef .tc main_arg11) = m ((c : Thread nD τ).loc main_arg11) :=
  (tr_main_arg11_0 m ρ c).trans rfl
theorem arg_main_arg11_2 : W2 m ρ c (Proc.devRef .tc main_arg11) = m ((c : Thread nD τ).loc main_arg11) :=
  (tr_main_arg11_1 m ρ c).trans (arg_main_arg11_1 m ρ c)
theorem arg_main_arg11_3 : W3 m ρ c (Proc.devRef .tc main_arg11) = m ((c : Thread nD τ).loc main_arg11) :=
  (tr_main_arg11_2 m ρ c).trans (arg_main_arg11_2 m ρ c)
theorem arg_main_arg11_4 : W4 m ρ c (Proc.devRef .tc main_arg11) = m ((c : Thread nD τ).loc main_arg11) :=
  (tr_main_arg11_3 m ρ c).trans (arg_main_arg11_3 m ρ c)
theorem arg_main_arg11_5 : W5 m ρ c (Proc.devRef .tc main_arg11) = m ((c : Thread nD τ).loc main_arg11) :=
  (tr_main_arg11_4 m ρ c).trans (arg_main_arg11_4 m ρ c)
theorem arg_main_arg11_6 : W6 m ρ c (Proc.devRef .tc main_arg11) = m ((c : Thread nD τ).loc main_arg11) :=
  (tr_main_arg11_5 m ρ c).trans (arg_main_arg11_5 m ρ c)
theorem arg_main_arg11_7 : W7 m ρ c (Proc.devRef .tc main_arg11) = m ((c : Thread nD τ).loc main_arg11) :=
  (tr_main_arg11_6 m ρ c).trans (arg_main_arg11_6 m ρ c)
theorem arg_main_arg11_8 : W8 m ρ c (Proc.devRef .tc main_arg11) = m ((c : Thread nD τ).loc main_arg11) :=
  (tr_main_arg11_7 m ρ c).trans (arg_main_arg11_7 m ρ c)
theorem arg_main_arg11_9 : W9 m ρ c (Proc.devRef .tc main_arg11) = m ((c : Thread nD τ).loc main_arg11) :=
  (tr_main_arg11_8 m ρ c).trans (arg_main_arg11_8 m ρ c)
theorem arg_main_arg11_10 : W10 m ρ c (Proc.devRef .tc main_arg11) = m ((c : Thread nD τ).loc main_arg11) :=
  (tr_main_arg11_9 m ρ c).trans (arg_main_arg11_9 m ρ c)
theorem arg_main_arg11_11 : W11 m ρ c (Proc.devRef .tc main_arg11) = m ((c : Thread nD τ).loc main_arg11) :=
  (tr_main_arg11_10 m ρ c).trans (arg_main_arg11_10 m ρ c)
theorem arg_main_arg11_12 : W12 m ρ c (Proc.devRef .tc main_arg11) = m ((c : Thread nD τ).loc main_arg11) :=
  (tr_main_arg11_11 m ρ c).trans (arg_main_arg11_11 m ρ c)
theorem arg_main_arg11_13 : W13 m ρ c (Proc.devRef .tc main_arg11) = m ((c : Thread nD τ).loc main_arg11) :=
  (tr_main_arg11_12 m ρ c).trans (arg_main_arg11_12 m ρ c)
theorem arg_main_arg11_14 : W14 m ρ c (Proc.devRef .tc main_arg11) = m ((c : Thread nD τ).loc main_arg11) :=
  (tr_main_arg11_13 m ρ c).trans (arg_main_arg11_13 m ρ c)
theorem arg_main_arg11_15 : W15 m ρ c (Proc.devRef .tc main_arg11) = m ((c : Thread nD τ).loc main_arg11) :=
  (tr_main_arg11_14 m ρ c).trans (arg_main_arg11_14 m ρ c)
theorem arg_main_arg11_16 : W16 m ρ c (Proc.devRef .tc main_arg11) = m ((c : Thread nD τ).loc main_arg11) :=
  (tr_main_arg11_15 m ρ c).trans (arg_main_arg11_15 m ρ c)
theorem arg_main_arg11_17 : W17 m ρ c (Proc.devRef .tc main_arg11) = m ((c : Thread nD τ).loc main_arg11) :=
  (tr_main_arg11_16 m ρ c).trans (arg_main_arg11_16 m ρ c)
theorem arg_main_arg11_18 : W18 m ρ c (Proc.devRef .tc main_arg11) = m ((c : Thread nD τ).loc main_arg11) :=
  (tr_main_arg11_17 m ρ c).trans (arg_main_arg11_17 m ρ c)
theorem arg_main_arg11_19 : W19 m ρ c (Proc.devRef .tc main_arg11) = m ((c : Thread nD τ).loc main_arg11) :=
  (tr_main_arg11_18 m ρ c).trans (arg_main_arg11_18 m ρ c)
theorem arg_main_arg12_1 : W1 m ρ c (Proc.devRef .tc main_arg12) = m ((c : Thread nD τ).loc main_arg12) :=
  (tr_main_arg12_0 m ρ c).trans rfl
theorem arg_main_arg12_2 : W2 m ρ c (Proc.devRef .tc main_arg12) = m ((c : Thread nD τ).loc main_arg12) :=
  (tr_main_arg12_1 m ρ c).trans (arg_main_arg12_1 m ρ c)
theorem arg_main_arg12_3 : W3 m ρ c (Proc.devRef .tc main_arg12) = m ((c : Thread nD τ).loc main_arg12) :=
  (tr_main_arg12_2 m ρ c).trans (arg_main_arg12_2 m ρ c)
theorem arg_main_arg12_4 : W4 m ρ c (Proc.devRef .tc main_arg12) = m ((c : Thread nD τ).loc main_arg12) :=
  (tr_main_arg12_3 m ρ c).trans (arg_main_arg12_3 m ρ c)
theorem arg_main_arg12_5 : W5 m ρ c (Proc.devRef .tc main_arg12) = m ((c : Thread nD τ).loc main_arg12) :=
  (tr_main_arg12_4 m ρ c).trans (arg_main_arg12_4 m ρ c)
theorem arg_main_arg12_6 : W6 m ρ c (Proc.devRef .tc main_arg12) = m ((c : Thread nD τ).loc main_arg12) :=
  (tr_main_arg12_5 m ρ c).trans (arg_main_arg12_5 m ρ c)
theorem arg_main_arg12_7 : W7 m ρ c (Proc.devRef .tc main_arg12) = m ((c : Thread nD τ).loc main_arg12) :=
  (tr_main_arg12_6 m ρ c).trans (arg_main_arg12_6 m ρ c)
theorem arg_main_arg12_8 : W8 m ρ c (Proc.devRef .tc main_arg12) = m ((c : Thread nD τ).loc main_arg12) :=
  (tr_main_arg12_7 m ρ c).trans (arg_main_arg12_7 m ρ c)
theorem arg_main_arg12_9 : W9 m ρ c (Proc.devRef .tc main_arg12) = m ((c : Thread nD τ).loc main_arg12) :=
  (tr_main_arg12_8 m ρ c).trans (arg_main_arg12_8 m ρ c)
theorem arg_main_arg12_10 : W10 m ρ c (Proc.devRef .tc main_arg12) = m ((c : Thread nD τ).loc main_arg12) :=
  (tr_main_arg12_9 m ρ c).trans (arg_main_arg12_9 m ρ c)
theorem arg_main_arg12_11 : W11 m ρ c (Proc.devRef .tc main_arg12) = m ((c : Thread nD τ).loc main_arg12) :=
  (tr_main_arg12_10 m ρ c).trans (arg_main_arg12_10 m ρ c)
theorem arg_main_arg12_12 : W12 m ρ c (Proc.devRef .tc main_arg12) = m ((c : Thread nD τ).loc main_arg12) :=
  (tr_main_arg12_11 m ρ c).trans (arg_main_arg12_11 m ρ c)
theorem arg_main_arg12_13 : W13 m ρ c (Proc.devRef .tc main_arg12) = m ((c : Thread nD τ).loc main_arg12) :=
  (tr_main_arg12_12 m ρ c).trans (arg_main_arg12_12 m ρ c)
theorem arg_main_arg12_14 : W14 m ρ c (Proc.devRef .tc main_arg12) = m ((c : Thread nD τ).loc main_arg12) :=
  (tr_main_arg12_13 m ρ c).trans (arg_main_arg12_13 m ρ c)
theorem arg_main_arg12_15 : W15 m ρ c (Proc.devRef .tc main_arg12) = m ((c : Thread nD τ).loc main_arg12) :=
  (tr_main_arg12_14 m ρ c).trans (arg_main_arg12_14 m ρ c)
theorem arg_main_arg12_16 : W16 m ρ c (Proc.devRef .tc main_arg12) = m ((c : Thread nD τ).loc main_arg12) :=
  (tr_main_arg12_15 m ρ c).trans (arg_main_arg12_15 m ρ c)
theorem arg_main_arg12_17 : W17 m ρ c (Proc.devRef .tc main_arg12) = m ((c : Thread nD τ).loc main_arg12) :=
  (tr_main_arg12_16 m ρ c).trans (arg_main_arg12_16 m ρ c)
theorem arg_main_arg12_18 : W18 m ρ c (Proc.devRef .tc main_arg12) = m ((c : Thread nD τ).loc main_arg12) :=
  (tr_main_arg12_17 m ρ c).trans (arg_main_arg12_17 m ρ c)
theorem arg_main_arg12_19 : W19 m ρ c (Proc.devRef .tc main_arg12) = m ((c : Thread nD τ).loc main_arg12) :=
  (tr_main_arg12_18 m ρ c).trans (arg_main_arg12_18 m ρ c)
theorem arg_main_arg13_1 : W1 m ρ c (Proc.devRef .tc main_arg13) = m ((c : Thread nD τ).loc main_arg13) :=
  (tr_main_arg13_0 m ρ c).trans rfl
theorem arg_main_arg13_2 : W2 m ρ c (Proc.devRef .tc main_arg13) = m ((c : Thread nD τ).loc main_arg13) :=
  (tr_main_arg13_1 m ρ c).trans (arg_main_arg13_1 m ρ c)
theorem arg_main_arg13_3 : W3 m ρ c (Proc.devRef .tc main_arg13) = m ((c : Thread nD τ).loc main_arg13) :=
  (tr_main_arg13_2 m ρ c).trans (arg_main_arg13_2 m ρ c)
theorem arg_main_arg13_4 : W4 m ρ c (Proc.devRef .tc main_arg13) = m ((c : Thread nD τ).loc main_arg13) :=
  (tr_main_arg13_3 m ρ c).trans (arg_main_arg13_3 m ρ c)
theorem arg_main_arg13_5 : W5 m ρ c (Proc.devRef .tc main_arg13) = m ((c : Thread nD τ).loc main_arg13) :=
  (tr_main_arg13_4 m ρ c).trans (arg_main_arg13_4 m ρ c)
theorem arg_main_arg13_6 : W6 m ρ c (Proc.devRef .tc main_arg13) = m ((c : Thread nD τ).loc main_arg13) :=
  (tr_main_arg13_5 m ρ c).trans (arg_main_arg13_5 m ρ c)
theorem arg_main_arg13_7 : W7 m ρ c (Proc.devRef .tc main_arg13) = m ((c : Thread nD τ).loc main_arg13) :=
  (tr_main_arg13_6 m ρ c).trans (arg_main_arg13_6 m ρ c)
theorem arg_main_arg13_8 : W8 m ρ c (Proc.devRef .tc main_arg13) = m ((c : Thread nD τ).loc main_arg13) :=
  (tr_main_arg13_7 m ρ c).trans (arg_main_arg13_7 m ρ c)
theorem arg_main_arg13_9 : W9 m ρ c (Proc.devRef .tc main_arg13) = m ((c : Thread nD τ).loc main_arg13) :=
  (tr_main_arg13_8 m ρ c).trans (arg_main_arg13_8 m ρ c)
theorem arg_main_arg13_10 : W10 m ρ c (Proc.devRef .tc main_arg13) = m ((c : Thread nD τ).loc main_arg13) :=
  (tr_main_arg13_9 m ρ c).trans (arg_main_arg13_9 m ρ c)
theorem arg_main_arg13_11 : W11 m ρ c (Proc.devRef .tc main_arg13) = m ((c : Thread nD τ).loc main_arg13) :=
  (tr_main_arg13_10 m ρ c).trans (arg_main_arg13_10 m ρ c)
theorem arg_main_arg13_12 : W12 m ρ c (Proc.devRef .tc main_arg13) = m ((c : Thread nD τ).loc main_arg13) :=
  (tr_main_arg13_11 m ρ c).trans (arg_main_arg13_11 m ρ c)
theorem arg_main_arg13_13 : W13 m ρ c (Proc.devRef .tc main_arg13) = m ((c : Thread nD τ).loc main_arg13) :=
  (tr_main_arg13_12 m ρ c).trans (arg_main_arg13_12 m ρ c)
theorem arg_main_arg13_14 : W14 m ρ c (Proc.devRef .tc main_arg13) = m ((c : Thread nD τ).loc main_arg13) :=
  (tr_main_arg13_13 m ρ c).trans (arg_main_arg13_13 m ρ c)
theorem arg_main_arg13_15 : W15 m ρ c (Proc.devRef .tc main_arg13) = m ((c : Thread nD τ).loc main_arg13) :=
  (tr_main_arg13_14 m ρ c).trans (arg_main_arg13_14 m ρ c)
theorem arg_main_arg13_16 : W16 m ρ c (Proc.devRef .tc main_arg13) = m ((c : Thread nD τ).loc main_arg13) :=
  (tr_main_arg13_15 m ρ c).trans (arg_main_arg13_15 m ρ c)
theorem arg_main_arg13_17 : W17 m ρ c (Proc.devRef .tc main_arg13) = m ((c : Thread nD τ).loc main_arg13) :=
  (tr_main_arg13_16 m ρ c).trans (arg_main_arg13_16 m ρ c)
theorem arg_main_arg13_18 : W18 m ρ c (Proc.devRef .tc main_arg13) = m ((c : Thread nD τ).loc main_arg13) :=
  (tr_main_arg13_17 m ρ c).trans (arg_main_arg13_17 m ρ c)
theorem arg_main_arg13_19 : W19 m ρ c (Proc.devRef .tc main_arg13) = m ((c : Thread nD τ).loc main_arg13) :=
  (tr_main_arg13_18 m ρ c).trans (arg_main_arg13_18 m ρ c)
theorem arg_main_arg14_1 : W1 m ρ c (Proc.devRef .tc main_arg14) = m ((c : Thread nD τ).loc main_arg14) :=
  (tr_main_arg14_0 m ρ c).trans rfl
theorem arg_main_arg14_2 : W2 m ρ c (Proc.devRef .tc main_arg14) = m ((c : Thread nD τ).loc main_arg14) :=
  (tr_main_arg14_1 m ρ c).trans (arg_main_arg14_1 m ρ c)
theorem arg_main_arg14_3 : W3 m ρ c (Proc.devRef .tc main_arg14) = m ((c : Thread nD τ).loc main_arg14) :=
  (tr_main_arg14_2 m ρ c).trans (arg_main_arg14_2 m ρ c)
theorem arg_main_arg14_4 : W4 m ρ c (Proc.devRef .tc main_arg14) = m ((c : Thread nD τ).loc main_arg14) :=
  (tr_main_arg14_3 m ρ c).trans (arg_main_arg14_3 m ρ c)
theorem arg_main_arg14_5 : W5 m ρ c (Proc.devRef .tc main_arg14) = m ((c : Thread nD τ).loc main_arg14) :=
  (tr_main_arg14_4 m ρ c).trans (arg_main_arg14_4 m ρ c)
theorem arg_main_arg14_6 : W6 m ρ c (Proc.devRef .tc main_arg14) = m ((c : Thread nD τ).loc main_arg14) :=
  (tr_main_arg14_5 m ρ c).trans (arg_main_arg14_5 m ρ c)
theorem arg_main_arg14_7 : W7 m ρ c (Proc.devRef .tc main_arg14) = m ((c : Thread nD τ).loc main_arg14) :=
  (tr_main_arg14_6 m ρ c).trans (arg_main_arg14_6 m ρ c)
theorem arg_main_arg14_8 : W8 m ρ c (Proc.devRef .tc main_arg14) = m ((c : Thread nD τ).loc main_arg14) :=
  (tr_main_arg14_7 m ρ c).trans (arg_main_arg14_7 m ρ c)
theorem arg_main_arg14_9 : W9 m ρ c (Proc.devRef .tc main_arg14) = m ((c : Thread nD τ).loc main_arg14) :=
  (tr_main_arg14_8 m ρ c).trans (arg_main_arg14_8 m ρ c)
theorem arg_main_arg14_10 : W10 m ρ c (Proc.devRef .tc main_arg14) = m ((c : Thread nD τ).loc main_arg14) :=
  (tr_main_arg14_9 m ρ c).trans (arg_main_arg14_9 m ρ c)
theorem arg_main_arg14_11 : W11 m ρ c (Proc.devRef .tc main_arg14) = m ((c : Thread nD τ).loc main_arg14) :=
  (tr_main_arg14_10 m ρ c).trans (arg_main_arg14_10 m ρ c)
theorem arg_main_arg14_12 : W12 m ρ c (Proc.devRef .tc main_arg14) = m ((c : Thread nD τ).loc main_arg14) :=
  (tr_main_arg14_11 m ρ c).trans (arg_main_arg14_11 m ρ c)
theorem arg_main_arg14_13 : W13 m ρ c (Proc.devRef .tc main_arg14) = m ((c : Thread nD τ).loc main_arg14) :=
  (tr_main_arg14_12 m ρ c).trans (arg_main_arg14_12 m ρ c)
theorem arg_main_arg14_14 : W14 m ρ c (Proc.devRef .tc main_arg14) = m ((c : Thread nD τ).loc main_arg14) :=
  (tr_main_arg14_13 m ρ c).trans (arg_main_arg14_13 m ρ c)
theorem arg_main_arg14_15 : W15 m ρ c (Proc.devRef .tc main_arg14) = m ((c : Thread nD τ).loc main_arg14) :=
  (tr_main_arg14_14 m ρ c).trans (arg_main_arg14_14 m ρ c)
theorem arg_main_arg14_16 : W16 m ρ c (Proc.devRef .tc main_arg14) = m ((c : Thread nD τ).loc main_arg14) :=
  (tr_main_arg14_15 m ρ c).trans (arg_main_arg14_15 m ρ c)
theorem arg_main_arg14_17 : W17 m ρ c (Proc.devRef .tc main_arg14) = m ((c : Thread nD τ).loc main_arg14) :=
  (tr_main_arg14_16 m ρ c).trans (arg_main_arg14_16 m ρ c)
theorem arg_main_arg14_18 : W18 m ρ c (Proc.devRef .tc main_arg14) = m ((c : Thread nD τ).loc main_arg14) :=
  (tr_main_arg14_17 m ρ c).trans (arg_main_arg14_17 m ρ c)
theorem arg_main_arg14_19 : W19 m ρ c (Proc.devRef .tc main_arg14) = m ((c : Thread nD τ).loc main_arg14) :=
  (tr_main_arg14_18 m ρ c).trans (arg_main_arg14_18 m ρ c)
theorem arg_main_arg15_1 : W1 m ρ c (Proc.devRef .tc main_arg15) = m ((c : Thread nD τ).loc main_arg15) :=
  (tr_main_arg15_0 m ρ c).trans rfl
theorem arg_main_arg15_2 : W2 m ρ c (Proc.devRef .tc main_arg15) = m ((c : Thread nD τ).loc main_arg15) :=
  (tr_main_arg15_1 m ρ c).trans (arg_main_arg15_1 m ρ c)
theorem arg_main_arg15_3 : W3 m ρ c (Proc.devRef .tc main_arg15) = m ((c : Thread nD τ).loc main_arg15) :=
  (tr_main_arg15_2 m ρ c).trans (arg_main_arg15_2 m ρ c)
theorem arg_main_arg15_4 : W4 m ρ c (Proc.devRef .tc main_arg15) = m ((c : Thread nD τ).loc main_arg15) :=
  (tr_main_arg15_3 m ρ c).trans (arg_main_arg15_3 m ρ c)
theorem arg_main_arg15_5 : W5 m ρ c (Proc.devRef .tc main_arg15) = m ((c : Thread nD τ).loc main_arg15) :=
  (tr_main_arg15_4 m ρ c).trans (arg_main_arg15_4 m ρ c)
theorem arg_main_arg15_6 : W6 m ρ c (Proc.devRef .tc main_arg15) = m ((c : Thread nD τ).loc main_arg15) :=
  (tr_main_arg15_5 m ρ c).trans (arg_main_arg15_5 m ρ c)
theorem arg_main_arg15_7 : W7 m ρ c (Proc.devRef .tc main_arg15) = m ((c : Thread nD τ).loc main_arg15) :=
  (tr_main_arg15_6 m ρ c).trans (arg_main_arg15_6 m ρ c)
theorem arg_main_arg15_8 : W8 m ρ c (Proc.devRef .tc main_arg15) = m ((c : Thread nD τ).loc main_arg15) :=
  (tr_main_arg15_7 m ρ c).trans (arg_main_arg15_7 m ρ c)
theorem arg_main_arg15_9 : W9 m ρ c (Proc.devRef .tc main_arg15) = m ((c : Thread nD τ).loc main_arg15) :=
  (tr_main_arg15_8 m ρ c).trans (arg_main_arg15_8 m ρ c)
theorem arg_main_arg15_10 : W10 m ρ c (Proc.devRef .tc main_arg15) = m ((c : Thread nD τ).loc main_arg15) :=
  (tr_main_arg15_9 m ρ c).trans (arg_main_arg15_9 m ρ c)
theorem arg_main_arg15_11 : W11 m ρ c (Proc.devRef .tc main_arg15) = m ((c : Thread nD τ).loc main_arg15) :=
  (tr_main_arg15_10 m ρ c).trans (arg_main_arg15_10 m ρ c)
theorem arg_main_arg15_12 : W12 m ρ c (Proc.devRef .tc main_arg15) = m ((c : Thread nD τ).loc main_arg15) :=
  (tr_main_arg15_11 m ρ c).trans (arg_main_arg15_11 m ρ c)
theorem arg_main_arg15_13 : W13 m ρ c (Proc.devRef .tc main_arg15) = m ((c : Thread nD τ).loc main_arg15) :=
  (tr_main_arg15_12 m ρ c).trans (arg_main_arg15_12 m ρ c)
theorem arg_main_arg15_14 : W14 m ρ c (Proc.devRef .tc main_arg15) = m ((c : Thread nD τ).loc main_arg15) :=
  (tr_main_arg15_13 m ρ c).trans (arg_main_arg15_13 m ρ c)
theorem arg_main_arg15_15 : W15 m ρ c (Proc.devRef .tc main_arg15) = m ((c : Thread nD τ).loc main_arg15) :=
  (tr_main_arg15_14 m ρ c).trans (arg_main_arg15_14 m ρ c)
theorem arg_main_arg15_16 : W16 m ρ c (Proc.devRef .tc main_arg15) = m ((c : Thread nD τ).loc main_arg15) :=
  (tr_main_arg15_15 m ρ c).trans (arg_main_arg15_15 m ρ c)
theorem arg_main_arg15_17 : W17 m ρ c (Proc.devRef .tc main_arg15) = m ((c : Thread nD τ).loc main_arg15) :=
  (tr_main_arg15_16 m ρ c).trans (arg_main_arg15_16 m ρ c)
theorem arg_main_arg15_18 : W18 m ρ c (Proc.devRef .tc main_arg15) = m ((c : Thread nD τ).loc main_arg15) :=
  (tr_main_arg15_17 m ρ c).trans (arg_main_arg15_17 m ρ c)
theorem arg_main_arg15_19 : W19 m ρ c (Proc.devRef .tc main_arg15) = m ((c : Thread nD τ).loc main_arg15) :=
  (tr_main_arg15_18 m ρ c).trans (arg_main_arg15_18 m ρ c)
theorem arg_main_arg16_1 : W1 m ρ c (Proc.devRef .tc main_arg16) = m ((c : Thread nD τ).loc main_arg16) :=
  (tr_main_arg16_0 m ρ c).trans rfl
theorem arg_main_arg16_2 : W2 m ρ c (Proc.devRef .tc main_arg16) = m ((c : Thread nD τ).loc main_arg16) :=
  (tr_main_arg16_1 m ρ c).trans (arg_main_arg16_1 m ρ c)
theorem arg_main_arg16_3 : W3 m ρ c (Proc.devRef .tc main_arg16) = m ((c : Thread nD τ).loc main_arg16) :=
  (tr_main_arg16_2 m ρ c).trans (arg_main_arg16_2 m ρ c)
theorem arg_main_arg16_4 : W4 m ρ c (Proc.devRef .tc main_arg16) = m ((c : Thread nD τ).loc main_arg16) :=
  (tr_main_arg16_3 m ρ c).trans (arg_main_arg16_3 m ρ c)
theorem arg_main_arg16_5 : W5 m ρ c (Proc.devRef .tc main_arg16) = m ((c : Thread nD τ).loc main_arg16) :=
  (tr_main_arg16_4 m ρ c).trans (arg_main_arg16_4 m ρ c)
theorem arg_main_arg16_6 : W6 m ρ c (Proc.devRef .tc main_arg16) = m ((c : Thread nD τ).loc main_arg16) :=
  (tr_main_arg16_5 m ρ c).trans (arg_main_arg16_5 m ρ c)
theorem arg_main_arg16_7 : W7 m ρ c (Proc.devRef .tc main_arg16) = m ((c : Thread nD τ).loc main_arg16) :=
  (tr_main_arg16_6 m ρ c).trans (arg_main_arg16_6 m ρ c)
theorem arg_main_arg16_8 : W8 m ρ c (Proc.devRef .tc main_arg16) = m ((c : Thread nD τ).loc main_arg16) :=
  (tr_main_arg16_7 m ρ c).trans (arg_main_arg16_7 m ρ c)
theorem arg_main_arg16_9 : W9 m ρ c (Proc.devRef .tc main_arg16) = m ((c : Thread nD τ).loc main_arg16) :=
  (tr_main_arg16_8 m ρ c).trans (arg_main_arg16_8 m ρ c)
theorem arg_main_arg16_10 : W10 m ρ c (Proc.devRef .tc main_arg16) = m ((c : Thread nD τ).loc main_arg16) :=
  (tr_main_arg16_9 m ρ c).trans (arg_main_arg16_9 m ρ c)
theorem arg_main_arg16_11 : W11 m ρ c (Proc.devRef .tc main_arg16) = m ((c : Thread nD τ).loc main_arg16) :=
  (tr_main_arg16_10 m ρ c).trans (arg_main_arg16_10 m ρ c)
theorem arg_main_arg16_12 : W12 m ρ c (Proc.devRef .tc main_arg16) = m ((c : Thread nD τ).loc main_arg16) :=
  (tr_main_arg16_11 m ρ c).trans (arg_main_arg16_11 m ρ c)
theorem arg_main_arg16_13 : W13 m ρ c (Proc.devRef .tc main_arg16) = m ((c : Thread nD τ).loc main_arg16) :=
  (tr_main_arg16_12 m ρ c).trans (arg_main_arg16_12 m ρ c)
theorem arg_main_arg16_14 : W14 m ρ c (Proc.devRef .tc main_arg16) = m ((c : Thread nD τ).loc main_arg16) :=
  (tr_main_arg16_13 m ρ c).trans (arg_main_arg16_13 m ρ c)
theorem arg_main_arg16_15 : W15 m ρ c (Proc.devRef .tc main_arg16) = m ((c : Thread nD τ).loc main_arg16) :=
  (tr_main_arg16_14 m ρ c).trans (arg_main_arg16_14 m ρ c)
theorem arg_main_arg16_16 : W16 m ρ c (Proc.devRef .tc main_arg16) = m ((c : Thread nD τ).loc main_arg16) :=
  (tr_main_arg16_15 m ρ c).trans (arg_main_arg16_15 m ρ c)
theorem arg_main_arg16_17 : W17 m ρ c (Proc.devRef .tc main_arg16) = m ((c : Thread nD τ).loc main_arg16) :=
  (tr_main_arg16_16 m ρ c).trans (arg_main_arg16_16 m ρ c)
theorem arg_main_arg16_18 : W18 m ρ c (Proc.devRef .tc main_arg16) = m ((c : Thread nD τ).loc main_arg16) :=
  (tr_main_arg16_17 m ρ c).trans (arg_main_arg16_17 m ρ c)
theorem arg_main_arg16_19 : W19 m ρ c (Proc.devRef .tc main_arg16) = m ((c : Thread nD τ).loc main_arg16) :=
  (tr_main_arg16_18 m ρ c).trans (arg_main_arg16_18 m ρ c)

/-! ### The chain of values -/

/-- The propagated features entering region 0. -/
theorem vy_0 : W1 m ρ c (Proc.devRef .tc main_v12) = spmmH (m ((c : Thread nD τ).loc main_arg0)) (m ((c : Thread nD τ).loc main_arg1)) (m ((c : Thread nD τ).loc main_arg2)) (m ((c : Thread nD τ).loc main_arg6)) :=
  (stretch0 (W0 m ρ c)).trans (by rw [(rfl : W0 m ρ c (Proc.devRef .tc main_arg0) = m ((c : Thread nD τ).loc main_arg0)), (rfl : W0 m ρ c (Proc.devRef .tc main_arg1) = m ((c : Thread nD τ).loc main_arg1)), (rfl : W0 m ρ c (Proc.devRef .tc main_arg2) = m ((c : Thread nD τ).loc main_arg2)), (rfl : W0 m ρ c (Proc.devRef .tc main_arg6) = m ((c : Thread nD τ).loc main_arg6))])

/-- Region 0's first output: the layer's activations. -/
theorem vx_0 : W2 m ρ c (Proc.devRef .tc main_v13_0) = x1H (m ((c : Thread nD τ).loc main_arg0)) (m ((c : Thread nD τ).loc main_arg1)) (m ((c : Thread nD τ).loc main_arg2)) (m ((c : Thread nD τ).loc main_arg6)) :=
  (W2_arr m ρ c 2).trans ((KRegion0.final2 (V1 m ρ) c).trans
    (congrArg (fun y : Feat Ideal => normH (reluH y)) (vy_0 m ρ c)))
/-- Region 0's second output: the activations times the next layer's weight. -/
theorem vz_0 : W2 m ρ c (Proc.devRef .tc main_v13_1) = dotH (x1H (m ((c : Thread nD τ).loc main_arg0)) (m ((c : Thread nD τ).loc main_arg1)) (m ((c : Thread nD τ).loc main_arg2)) (m ((c : Thread nD τ).loc main_arg6))) (m ((c : Thread nD τ).loc main_arg7)) :=
  (W2_arr m ρ c 3).trans ((KRegion0.final3 (V1 m ρ) c).trans
    (congrArg₂ (fun (y : Feat Ideal) (w : (⟨Cert.ReferenceIdeal.S128x128, .f32⟩ : BufTy).Contents (Elt Ideal)) => dotH (normH (reluH y)) w)
      (vy_0 m ρ c) (arg_main_arg7_1 m ρ c)))

/-- The propagated features entering region 1. -/
theorem vy_1 : W3 m ρ c (Proc.devRef .tc main_v26) = spmmH (m ((c : Thread nD τ).loc main_arg0)) (m ((c : Thread nD τ).loc main_arg1)) (m ((c : Thread nD τ).loc main_arg2)) (dotH (x1H (m ((c : Thread nD τ).loc main_arg0)) (m ((c : Thread nD τ).loc main_arg1)) (m ((c : Thread nD τ).loc main_arg2)) (m ((c : Thread nD τ).loc main_arg6))) (m ((c : Thread nD τ).loc main_arg7))) :=
  (stretch1 (W2 m ρ c)).trans (by rw [arg_main_arg0_2 m ρ c, arg_main_arg1_2 m ρ c, arg_main_arg2_2 m ρ c, vz_0 m ρ c])

/-- Region 1's first output: the layer's activations. -/
theorem vx_1 : W4 m ρ c (Proc.devRef .tc main_v27_0) = x2H (m ((c : Thread nD τ).loc main_arg0)) (m ((c : Thread nD τ).loc main_arg1)) (m ((c : Thread nD τ).loc main_arg2)) (m ((c : Thread nD τ).loc main_arg6)) (m ((c : Thread nD τ).loc main_arg7)) :=
  (W4_arr m ρ c 2).trans ((KRegion1.final2 (V3 m ρ) c).trans
    (congrArg (fun y : Feat Ideal => normH (reluH y)) (vy_1 m ρ c)))
/-- Region 1's second output: the activations times the next layer's weight. -/
theorem vz_1 : W4 m ρ c (Proc.devRef .tc main_v27_1) = dotH (x2H (m ((c : Thread nD τ).loc main_arg0)) (m ((c : Thread nD τ).loc main_arg1)) (m ((c : Thread nD τ).loc main_arg2)) (m ((c : Thread nD τ).loc main_arg6)) (m ((c : Thread nD τ).loc main_arg7))) (m ((c : Thread nD τ).loc main_arg8)) :=
  (W4_arr m ρ c 3).trans ((KRegion1.final3 (V3 m ρ) c).trans
    (congrArg₂ (fun (y : Feat Ideal) (w : (⟨Cert.ReferenceIdeal.S128x128, .f32⟩ : BufTy).Contents (Elt Ideal)) => dotH (normH (reluH y)) w)
      (vy_1 m ρ c) (arg_main_arg8_3 m ρ c)))

/-- The propagated features entering region 2. -/
theorem vy_2 : W5 m ρ c (Proc.devRef .tc main_v40) = spmmH (m ((c : Thread nD τ).loc main_arg0)) (m ((c : Thread nD τ).loc main_arg1)) (m ((c : Thread nD τ).loc main_arg2)) (dotH (x2H (m ((c : Thread nD τ).loc main_arg0)) (m ((c : Thread nD τ).loc main_arg1)) (m ((c : Thread nD τ).loc main_arg2)) (m ((c : Thread nD τ).loc main_arg6)) (m ((c : Thread nD τ).loc main_arg7))) (m ((c : Thread nD τ).loc main_arg8))) :=
  (stretch2 (W4 m ρ c)).trans (by rw [arg_main_arg0_4 m ρ c, arg_main_arg1_4 m ρ c, arg_main_arg2_4 m ρ c, vz_1 m ρ c])

/-- Region 2's first output: the layer's activations. -/
theorem vx_2 : W6 m ρ c (Proc.devRef .tc main_v41_0) = x3H (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) :=
  (W6_arr m ρ c 2).trans ((KRegion2.final2 (V5 m ρ) c).trans
    (congrArg (fun y : Feat Ideal => normH (reluH y)) (vy_2 m ρ c)))
/-- Region 2's second output: the activations times the next layer's weight. -/
theorem vz_2 : W6 m ρ c (Proc.devRef .tc main_v41_1) = dotH (x3H (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) (m ((c : Thread nD τ).loc main_arg9)) :=
  (W6_arr m ρ c 3).trans ((KRegion2.final3 (V5 m ρ) c).trans
    (congrArg₂ (fun (y : Feat Ideal) (w : (⟨Cert.ReferenceIdeal.S128x128, .f32⟩ : BufTy).Contents (Elt Ideal)) => dotH (normH (reluH y)) w)
      (vy_2 m ρ c) (arg_main_arg9_5 m ρ c)))

/-- The propagated features entering region 3. -/
theorem vy_3 : W7 m ρ c (Proc.devRef .tc main_v54) = spmmH (m ((c : Thread nD τ).loc main_arg0)) (m ((c : Thread nD τ).loc main_arg1)) (m ((c : Thread nD τ).loc main_arg2)) (dotH (x3H (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) (m ((c : Thread nD τ).loc main_arg9))) :=
  (stretch3 (W6 m ρ c)).trans (by rw [arg_main_arg0_6 m ρ c, arg_main_arg1_6 m ρ c, arg_main_arg2_6 m ρ c, vz_2 m ρ c])

/-- Region 3's first output: the layer's activations. -/
theorem vx_3 : W8 m ρ c (Proc.devRef .tc main_v55_0) = x4H (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) :=
  (W8_arr m ρ c 2).trans ((KRegion3.final2 (V7 m ρ) c).trans
    (congrArg (fun y : Feat Ideal => normH (reluH y)) (vy_3 m ρ c)))
/-- Region 3's second output: the activations times the next layer's weight. -/
theorem vz_3 : W8 m ρ c (Proc.devRef .tc main_v55_1) = dotH (x4H (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) (m ((c : Thread nD τ).loc main_arg10)) :=
  (W8_arr m ρ c 3).trans ((KRegion3.final3 (V7 m ρ) c).trans
    (congrArg₂ (fun (y : Feat Ideal) (w : (⟨Cert.ReferenceIdeal.S128x128, .f32⟩ : BufTy).Contents (Elt Ideal)) => dotH (normH (reluH y)) w)
      (vy_3 m ρ c) (arg_main_arg10_7 m ρ c)))

/-- The propagated features entering region 4. -/
theorem vy_4 : W9 m ρ c (Proc.devRef .tc main_v68) = spmmH (m ((c : Thread nD τ).loc main_arg0)) (m ((c : Thread nD τ).loc main_arg1)) (m ((c : Thread nD τ).loc main_arg2)) (dotH (x4H (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))) (m ((c : Thread nD τ).loc main_arg10))) :=
  (stretch4 (W8 m ρ c)).trans (by rw [arg_main_arg0_8 m ρ c, arg_main_arg1_8 m ρ c, arg_main_arg2_8 m ρ c, vz_3 m ρ c])

/-- Region 4's output: this graph's branch. -/
theorem vs_4 : W10 m ρ c (Proc.devRef .tc main_v69) = branchH (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W10_arr m ρ c 11).trans ((KRegion4.final11 (V9 m ρ) c).trans
    (headH_congr ((tr_main_v13_0_8 m ρ c).trans ((tr_main_v13_0_7 m ρ c).trans ((tr_main_v13_0_6 m ρ c).trans ((tr_main_v13_0_5 m ρ c).trans ((tr_main_v13_0_4 m ρ c).trans ((tr_main_v13_0_3 m ρ c).trans ((tr_main_v13_0_2 m ρ c).trans (vx_0 m ρ c)))))))) ((tr_main_v27_0_8 m ρ c).trans ((tr_main_v27_0_7 m ρ c).trans ((tr_main_v27_0_6 m ρ c).trans ((tr_main_v27_0_5 m ρ c).trans ((tr_main_v27_0_4 m ρ c).trans (vx_1 m ρ c)))))) ((tr_main_v41_0_8 m ρ c).trans ((tr_main_v41_0_7 m ρ c).trans ((tr_main_v41_0_6 m ρ c).trans (vx_2 m ρ c)))) ((tr_main_v55_0_8 m ρ c).trans (vx_3 m ρ c)) (vy_4 m ρ c)
      (arg_main_arg11_9 m ρ c) (arg_main_arg12_9 m ρ c) (arg_main_arg13_9 m ρ c) (arg_main_arg14_9 m ρ c) (arg_main_arg15_9 m ρ c) (arg_main_arg16_9 m ρ c)))

/-- The propagated features entering region 5. -/
theorem vy_5 : W11 m ρ c (Proc.devRef .tc main_v82) = spmmH (m ((c : Thread nD τ).loc main_arg3)) (m ((c : Thread nD τ).loc main_arg4)) (m ((c : Thread nD τ).loc main_arg5)) (m ((c : Thread nD τ).loc main_arg6)) :=
  (stretch5 (W10 m ρ c)).trans (by rw [arg_main_arg3_10 m ρ c, arg_main_arg4_10 m ρ c, arg_main_arg5_10 m ρ c, arg_main_arg6_10 m ρ c])

/-- Region 5's first output: the layer's activations. -/
theorem vx_5 : W12 m ρ c (Proc.devRef .tc main_v83_0) = x1H (m ((c : Thread nD τ).loc main_arg3)) (m ((c : Thread nD τ).loc main_arg4)) (m ((c : Thread nD τ).loc main_arg5)) (m ((c : Thread nD τ).loc main_arg6)) :=
  (W12_arr m ρ c 2).trans ((KRegion5.final2 (V11 m ρ) c).trans
    (congrArg (fun y : Feat Ideal => normH (reluH y)) (vy_5 m ρ c)))
/-- Region 5's second output: the activations times the next layer's weight. -/
theorem vz_5 : W12 m ρ c (Proc.devRef .tc main_v83_1) = dotH (x1H (m ((c : Thread nD τ).loc main_arg3)) (m ((c : Thread nD τ).loc main_arg4)) (m ((c : Thread nD τ).loc main_arg5)) (m ((c : Thread nD τ).loc main_arg6))) (m ((c : Thread nD τ).loc main_arg7)) :=
  (W12_arr m ρ c 3).trans ((KRegion5.final3 (V11 m ρ) c).trans
    (congrArg₂ (fun (y : Feat Ideal) (w : (⟨Cert.ReferenceIdeal.S128x128, .f32⟩ : BufTy).Contents (Elt Ideal)) => dotH (normH (reluH y)) w)
      (vy_5 m ρ c) (arg_main_arg7_11 m ρ c)))

/-- The propagated features entering region 6. -/
theorem vy_6 : W13 m ρ c (Proc.devRef .tc main_v96) = spmmH (m ((c : Thread nD τ).loc main_arg3)) (m ((c : Thread nD τ).loc main_arg4)) (m ((c : Thread nD τ).loc main_arg5)) (dotH (x1H (m ((c : Thread nD τ).loc main_arg3)) (m ((c : Thread nD τ).loc main_arg4)) (m ((c : Thread nD τ).loc main_arg5)) (m ((c : Thread nD τ).loc main_arg6))) (m ((c : Thread nD τ).loc main_arg7))) :=
  (stretch6 (W12 m ρ c)).trans (by rw [arg_main_arg3_12 m ρ c, arg_main_arg4_12 m ρ c, arg_main_arg5_12 m ρ c, vz_5 m ρ c])

/-- Region 6's first output: the layer's activations. -/
theorem vx_6 : W14 m ρ c (Proc.devRef .tc main_v97_0) = x2H (m ((c : Thread nD τ).loc main_arg3)) (m ((c : Thread nD τ).loc main_arg4)) (m ((c : Thread nD τ).loc main_arg5)) (m ((c : Thread nD τ).loc main_arg6)) (m ((c : Thread nD τ).loc main_arg7)) :=
  (W14_arr m ρ c 2).trans ((KRegion6.final2 (V13 m ρ) c).trans
    (congrArg (fun y : Feat Ideal => normH (reluH y)) (vy_6 m ρ c)))
/-- Region 6's second output: the activations times the next layer's weight. -/
theorem vz_6 : W14 m ρ c (Proc.devRef .tc main_v97_1) = dotH (x2H (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (W14_arr m ρ c 3).trans ((KRegion6.final3 (V13 m ρ) c).trans
    (congrArg₂ (fun (y : Feat Ideal) (w : (⟨Cert.ReferenceIdeal.S128x128, .f32⟩ : BufTy).Contents (Elt Ideal)) => dotH (normH (reluH y)) w)
      (vy_6 m ρ c) (arg_main_arg8_13 m ρ c)))

/-- The propagated features entering region 7. -/
theorem vy_7 : W15 m ρ c (Proc.devRef .tc main_v110) = spmmH (m ((c : Thread nD τ).loc main_arg3)) (m ((c : Thread nD τ).loc main_arg4)) (m ((c : Thread nD τ).loc main_arg5)) (dotH (x2H (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) :=
  (stretch7 (W14 m ρ c)).trans (by rw [arg_main_arg3_14 m ρ c, arg_main_arg4_14 m ρ c, arg_main_arg5_14 m ρ c, vz_6 m ρ c])

/-- Region 7's first output: the layer's activations. -/
theorem vx_7 : W16 m ρ c (Proc.devRef .tc main_v111_0) = x3H (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W16_arr m ρ c 2).trans ((KRegion7.final2 (V15 m ρ) c).trans
    (congrArg (fun y : Feat Ideal => normH (reluH y)) (vy_7 m ρ c)))
/-- Region 7's second output: the activations times the next layer's weight. -/
theorem vz_7 : W16 m ρ c (Proc.devRef .tc main_v111_1) = dotH (x3H (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) :=
  (W16_arr m ρ c 3).trans ((KRegion7.final3 (V15 m ρ) c).trans
    (congrArg₂ (fun (y : Feat Ideal) (w : (⟨Cert.ReferenceIdeal.S128x128, .f32⟩ : BufTy).Contents (Elt Ideal)) => dotH (normH (reluH y)) w)
      (vy_7 m ρ c) (arg_main_arg9_15 m ρ c)))

/-- The propagated features entering region 8. -/
theorem vy_8 : W17 m ρ c (Proc.devRef .tc main_v124) = spmmH (m ((c : Thread nD τ).loc main_arg3)) (m ((c : Thread nD τ).loc main_arg4)) (m ((c : Thread nD τ).loc main_arg5)) (dotH (x3H (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))) :=
  (stretch8 (W16 m ρ c)).trans (by rw [arg_main_arg3_16 m ρ c, arg_main_arg4_16 m ρ c, arg_main_arg5_16 m ρ c, vz_7 m ρ c])

/-- Region 8's first output: the layer's activations. -/
theorem vx_8 : W18 m ρ c (Proc.devRef .tc main_v125_0) = x4H (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W18_arr m ρ c 2).trans ((KRegion8.final2 (V17 m ρ) c).trans
    (congrArg (fun y : Feat Ideal => normH (reluH y)) (vy_8 m ρ c)))
/-- Region 8's second output: the activations times the next layer's weight. -/
theorem vz_8 : W18 m ρ c (Proc.devRef .tc main_v125_1) = dotH (x4H (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) :=
  (W18_arr m ρ c 3).trans ((KRegion8.final3 (V17 m ρ) c).trans
    (congrArg₂ (fun (y : Feat Ideal) (w : (⟨Cert.ReferenceIdeal.S128x128, .f32⟩ : BufTy).Contents (Elt Ideal)) => dotH (normH (reluH y)) w)
      (vy_8 m ρ c) (arg_main_arg10_17 m ρ c)))

/-- The propagated features entering region 9. -/
theorem vy_9 : W19 m ρ c (Proc.devRef .tc main_v138) = spmmH (m ((c : Thread nD τ).loc main_arg3)) (m ((c : Thread nD τ).loc main_arg4)) (m ((c : Thread nD τ).loc main_arg5)) (dotH (x4H (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10))) :=
  (stretch9 (W18 m ρ c)).trans (by rw [arg_main_arg3_18 m ρ c, arg_main_arg4_18 m ρ c, arg_main_arg5_18 m ρ c, vz_8 m ρ c])

/-- Region 9's output: this graph's branch. -/
theorem vs_9 : W20 m ρ c (Proc.devRef .tc main_v139) = branchH (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W20_arr m ρ c 11).trans ((KRegion9.final11 (V19 m ρ) c).trans
    (headH_congr ((tr_main_v83_0_18 m ρ c).trans ((tr_main_v83_0_17 m ρ c).trans ((tr_main_v83_0_16 m ρ c).trans ((tr_main_v83_0_15 m ρ c).trans ((tr_main_v83_0_14 m ρ c).trans ((tr_main_v83_0_13 m ρ c).trans ((tr_main_v83_0_12 m ρ c).trans (vx_5 m ρ c)))))))) ((tr_main_v97_0_18 m ρ c).trans ((tr_main_v97_0_17 m ρ c).trans ((tr_main_v97_0_16 m ρ c).trans ((tr_main_v97_0_15 m ρ c).trans ((tr_main_v97_0_14 m ρ c).trans (vx_6 m ρ c)))))) ((tr_main_v111_0_18 m ρ c).trans ((tr_main_v111_0_17 m ρ c).trans ((tr_main_v111_0_16 m ρ c).trans (vx_7 m ρ c)))) ((tr_main_v125_0_18 m ρ c).trans (vx_8 m ρ c)) (vy_9 m ρ c)
      (arg_main_arg11_19 m ρ c) (arg_main_arg12_19 m ρ c) (arg_main_arg13_19 m ρ c) (arg_main_arg14_19 m ρ c) (arg_main_arg15_19 m ρ c) (arg_main_arg16_19 m ρ c)))

/-- THE RESULT: the last boundary's contents at the product buffer is the reference's result of the launch arguments. -/
theorem result : W21 m ρ c (Proc.devRef .tc main_v140) = resultH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (stretch10 (W20 m ρ c)).trans (congrArg₂ prodH ((tr_main_v69_19 m ρ c).trans ((tr_main_v69_18 m ρ c).trans ((tr_main_v69_17 m ρ c).trans ((tr_main_v69_16 m ρ c).trans ((tr_main_v69_15 m ρ c).trans ((tr_main_v69_14 m ρ c).trans ((tr_main_v69_13 m ρ c).trans ((tr_main_v69_12 m ρ c).trans ((tr_main_v69_11 m ρ c).trans ((tr_main_v69_10 m ρ c).trans (vs_4 m ρ c))))))))))) (vs_9 m ρ c))

end Boundaries

end Cert.KFold

end
-- ==== Proof.RefRun.lean ====
/-
  The reference's run. Its @main is a straight line of 467 host operations; every weakly fair execution terminates
  with each buffer at the fold of the operations' results over the launch contents. Read at the result buffer that fold
  is the product of the two graphs' branches: each branch five propagation steps, each but the last followed by relu, row
  normalisation and the product with the next weight, then the perceptron head of the five activations. The arguments
  are written by no operation.
-/
import proofs.«148168_j18485539242351_2_alg».proof.Proof.Gen.ReferenceIdeal
import proofs.«148168_j18485539242351_2_alg».proof.Proof.HostSpec
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.Spec

variable {F : FTy → Type} [FloatOps F]

set_option maxHeartbeats 0 in
/-- @main's 467 operations, in order (a called function's operations stand in its call's place). -/
abbrev ops : List (HloOp τ sig (Elt F)) :=
  [ unary main_arg2 main_v0 (broadcastInDim S250000x1 ![0] bcast_S250000_S250000x1_0 : (⟨S250000, .f32⟩ : BufTy).Contents (Elt F) → (⟨S250000x1, .f32⟩ : BufTy).Contents (Elt F)),
    nullary main_c (constantI S_ 32 0#32),
    unary main_c main_v1 (broadcastInDim S250000 ![] bcast_S_S250000 : (⟨S_, .i32⟩ : BufTy).Contents (Elt F) → (⟨S250000, .i32⟩ : BufTy).Contents (Elt F)),
    binary main_arg1 main_v1 main_v2 (cmpi .slt : (⟨S250000, .i32⟩ : BufTy).Contents (Elt F) → (⟨S250000, .i32⟩ : BufTy).Contents (Elt F) → (⟨S250000, .i1⟩ : BufTy).Contents (Elt F)),
    nullary main_c_0 (constantI S_ 32 50000#32),
    unary main_c_0 main_v3 (broadcastInDim S250000 ![] bcast_S_S250000 : (⟨S_, .i32⟩ : BufTy).Contents (Elt F) → (⟨S250000, .i32⟩ : BufTy).Contents (Elt F)),
    binary main_arg1 main_v3 main_v4 (addi : (⟨S250000, .i32⟩ : BufTy).Contents (Elt F) → (⟨S250000, .i32⟩ : BufTy).Contents (Elt F) → (⟨S250000, .i32⟩ : BufTy).Contents (Elt F)),
    ternary main_v2 main_v4 main_arg1 main_v5 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v5 main_v6 (broadcastInDim S250000x1 ![0] bcast_S250000_S250000x1_0 : (⟨S250000, .i32⟩ : BufTy).Contents (Elt F) → (⟨S250000x1, .i32⟩ : BufTy).Contents (Elt F)),
    binary main_arg6 main_v6 main_v7 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v0 main_v8 (broadcastInDim S250000x128 ![0, 1] bcast_S250000x1_S250000x128_0_1 : (⟨S250000x1, .f32⟩ : BufTy).Contents (Elt F) → (⟨S250000x128, .f32⟩ : BufTy).Contents (Elt F)),
    binary main_v8 main_v7 main_v9 (mulf : (⟨S250000x128, .f32⟩ : BufTy).Contents (Elt F) → (⟨S250000x128, .f32⟩ : BufTy).Contents (Elt F) → (⟨S250000x128, .f32⟩ : BufTy).Contents (Elt F)),
    nullary main_cst (constant S_ .f32 0x00000000#32),
    unary main_cst main_v10 (broadcastInDim S50000x128 ![] bcast_S_S50000x128 : (⟨S_, .f32⟩ : BufTy).Contents (Elt F) → (⟨S50000x128, .f32⟩ : BufTy).Contents (Elt F)),
    unary main_arg0 main_v11 (broadcastInDim S250000x1 ![0] bcast_S250000_S250000x1_0 : (⟨S250000, .i32⟩ : BufTy).Contents (Elt F) → (⟨S250000x1, .i32⟩ : BufTy).Contents (Elt F)),
    ternary main_v10 main_v11 main_v9 main_v12 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v12) (TRef.of (T := ⟨S50000x128, .f32⟩) main_call0_v0) (TRef.of (T := ⟨S50000x128, .f32⟩) main_v13) maximumf,
    TRef.binary (TRef.of (T := ⟨S50000x128, .f32⟩) main_v13) (TRef.of (T := ⟨S50000x128, .f32⟩) main_v13) (TRef.of (T := ⟨S50000x128, .f32⟩) main_call1_v0) mulf,
    TRef.nullary (TRef.of (T := ⟨S_, .f32⟩) main_call1_cst) (constant S_ .f32 0x00000000#32),
    TRef.binary (TRef.of (T := ⟨S50000x128, .f32⟩) main_call1_v0) (TRef.of (T := ⟨S_, .f32⟩) main_call1_cst) (TRef.of (T := ⟨S50000, .f32⟩) main_call1_v1) (fun x v => Host.reduceAdd x v reducesTo_S50000x128_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v14) Host.sqrt,
    nullary main_cst_1 (constant S_ .f32 0x2B8CBCCC#32),
    unary main_cst_1 main_v15 (broadcastInDim S50000x1 ![] bcast_S_S50000x1 : (⟨S_, .f32⟩ : BufTy).Contents (Elt F) → (⟨S50000x1, .f32⟩ : BufTy).Contents (Elt F)),
    binary main_v14 main_v15 main_v16 (maximumf : (⟨S50000x1, .f32⟩ : BufTy).Contents (Elt F) → (⟨S50000x1, .f32⟩ : BufTy).Contents (Elt F) → (⟨S50000x1, .f32⟩ : BufTy).Contents (Elt F)),
    unary main_v16 main_v17 (broadcastInDim S50000x128 ![0, 1] bcast_S50000x1_S50000x128_0_1 : (⟨S50000x1, .f32⟩ : BufTy).Contents (Elt F) → (⟨S50000x128, .f32⟩ : BufTy).Contents (Elt F)),
    binary main_v13 main_v17 main_v18 (Host.divf : (⟨S50000x128, .f32⟩ : BufTy).Contents (Elt F) → (⟨S50000x128, .f32⟩ : BufTy).Contents (Elt F) → (⟨S50000x128, .f32⟩ : BufTy).Contents (Elt F)),
    binary main_v18 main_arg7 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v20 (broadcastInDim S250000x1 ![0] bcast_S250000_S250000x1_0 : (⟨S250000, .f32⟩ : BufTy).Contents (Elt F) → (⟨S250000x1, .f32⟩ : BufTy).Contents (Elt F)),
    nullary main_c_2 (constantI S_ 32 0#32),
    unary main_c_2 main_v21 (broadcastInDim S250000 ![] bcast_S_S250000 : (⟨S_, .i32⟩ : BufTy).Contents (Elt F) → (⟨S250000, .i32⟩ : BufTy).Contents (Elt F)),
    binary main_arg1 main_v21 main_v22 (cmpi .slt : (⟨S250000, .i32⟩ : BufTy).Contents (Elt F) → (⟨S250000, .i32⟩ : BufTy).Contents (Elt F) → (⟨S250000, .i1⟩ : BufTy).Contents (Elt F)),
    nullary main_c_3 (constantI S_ 32 50000#32),
    unary main_c_3 main_v23 (broadcastInDim S250000 ![] bcast_S_S250000 : (⟨S_, .i32⟩ : BufTy).Contents (Elt F) → (⟨S250000, .i32⟩ : BufTy).Contents (Elt F)),
    binary main_arg1 main_v23 main_v24 (addi : (⟨S250000, .i32⟩ : BufTy).Contents (Elt F) → (⟨S250000, .i32⟩ : BufTy).Contents (Elt F) → (⟨S250000, .i32⟩ : BufTy).Contents (Elt F)),
    ternary main_v22 main_v24 main_arg1 main_v25 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v25 main_v26 (broadcastInDim S250000x1 ![0] bcast_S250000_S250000x1_0 : (⟨S250000, .i32⟩ : BufTy).Contents (Elt F) → (⟨S250000x1, .i32⟩ : BufTy).Contents (Elt F)),
    binary main_v19 main_v26 main_v27 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v20 main_v28 (broadcastInDim S250000x128 ![0, 1] bcast_S250000x1_S250000x128_0_1 : (⟨S250000x1, .f32⟩ : BufTy).Contents (Elt F) → (⟨S250000x128, .f32⟩ : BufTy).Contents (Elt F)),
    binary main_v28 main_v27 main_v29 (mulf : (⟨S250000x128, .f32⟩ : BufTy).Contents (Elt F) → (⟨S250000x128, .f32⟩ : BufTy).Contents (Elt F) → (⟨S250000x128, .f32⟩ : BufTy).Contents (Elt F)),
    nullary main_cst_4 (constant S_ .f32 0x00000000#32),
    unary main_cst_4 main_v30 (broadcastInDim S50000x128 ![] bcast_S_S50000x128 : (⟨S_, .f32⟩ : BufTy).Contents (Elt F) → (⟨S50000x128, .f32⟩ : BufTy).Contents (Elt F)),
    unary main_arg0 main_v31 (broadcastInDim S250000x1 ![0] bcast_S250000_S250000x1_0 : (⟨S250000, .i32⟩ : BufTy).Contents (Elt F) → (⟨S250000x1, .i32⟩ : BufTy).Contents (Elt F)),
    ternary main_v30 main_v31 main_v29 main_v32 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v32) (TRef.of (T := ⟨S50000x128, .f32⟩) main_call2_v0) (TRef.of (T := ⟨S50000x128, .f32⟩) main_v33) maximumf,
    TRef.binary (TRef.of (T := ⟨S50000x128, .f32⟩) main_v33) (TRef.of (T := ⟨S50000x128, .f32⟩) main_v33) (TRef.of (T := ⟨S50000x128, .f32⟩) main_call3_v0) mulf,
    TRef.nullary (TRef.of (T := ⟨S_, .f32⟩) main_call3_cst) (constant S_ .f32 0x00000000#32),
    TRef.binary (TRef.of (T := ⟨S50000x128, .f32⟩) main_call3_v0) (TRef.of (T := ⟨S_, .f32⟩) main_call3_cst) (TRef.of (T := ⟨S50000, .f32⟩) main_call3_v1) (fun x v => Host.reduceAdd x v reducesTo_S50000x128_S50000_d1 h_S_),
    TRef.unary (TRef.of (T := ⟨S50000, .f32⟩) main_call3_v1) (TRef.of (T := ⟨S50000x1, .f32⟩) main_call3_v2) (broadcastInDim S50000x1 ![0] bcast_S50000_S50000x1_0),
    TRef.unary (TRef.of (T := ⟨S50000x1, .f32⟩) main_call3_v2) (TRef.of (T := ⟨S50000x1, .f32⟩) main_v34) Host.sqrt,
    nullary main_cst_5 (constant S_ .f32 0x2B8CBCCC#32),
    unary main_cst_5 main_v35 (broadcastInDim S50000x1 ![] bcast_S_S50000x1 : (⟨S_, .f32⟩ : BufTy).Contents (Elt F) → (⟨S50000x1, .f32⟩ : BufTy).Contents (Elt F)),
    binary main_v34 main_v35 main_v36 (maximumf : (⟨S50000x1, .f32⟩ : BufTy).Contents (Elt F) → (⟨S50000x1, .f32⟩ : BufTy).Contents (Elt F) → (⟨S50000x1, .f32⟩ : BufTy).Contents (Elt F)),
    unary main_v36 main_v37 (broadcastInDim S50000x128 ![0, 1] bcast_S50000x1_S50000x128_0_1 : (⟨S50000x1, .f32⟩ : BufTy).Contents (Elt F) → (⟨S50000x128, .f32⟩ : BufTy).Contents (Elt F)),
    binary main_v33 main_v37 main_v38 (Host.divf : (⟨S50000x128, .f32⟩ : BufTy).Contents (Elt F) → (⟨S50000x128, .f32⟩ : BufTy).Contents (Elt F) → (⟨S50000x128, .f32⟩ : BufTy).Contents (Elt F)),
    binary main_v38 main_arg8 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v40 (broadcastInDim S250000x1 ![0] bcast_S250000_S250000x1_0 : (⟨S250000, .f32⟩ : BufTy).Contents (Elt F) → (⟨S250000x1, .f32⟩ : BufTy).Contents (Elt F)),
    nullary main_c_6 (constantI S_ 32 0#32),
    unary main_c_6 main_v41 (broadcastInDim S250000 ![] bcast_S_S250000 : (⟨S_, .i32⟩ : BufTy).Contents (Elt F) → (⟨S250000, .i32⟩ : BufTy).Contents (Elt F)),
    binary main_arg1 main_v41 main_v42 (cmpi .slt : (⟨S250000, .i32⟩ : BufTy).Contents (Elt F) → (⟨S250000, .i32⟩ : BufTy).Contents (Elt F) → (⟨S250000, .i1⟩ : BufTy).Contents (Elt F)),
    nullary main_c_7 (constantI S_ 32 50000#32),
    unary main_c_7 main_v43 (broadcastInDim S250000 ![] bcast_S_S250000 : (⟨S_, .i32⟩ : BufTy).Contents (Elt F) → (⟨S250000, .i32⟩ : BufTy).Contents (Elt F)),
    binary main_arg1 main_v43 main_v44 (addi : (⟨S250000, .i32⟩ : BufTy).Contents (Elt F) → (⟨S250000, .i32⟩ : BufTy).Contents (Elt F) → (⟨S250000, .i32⟩ : BufTy).Contents (Elt F)),
    ternary main_v42 main_v44 main_arg1 main_v45 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v45 main_v46 (broadcastInDim S250000x1 ![0] bcast_S250000_S250000x1_0 : (⟨S250000, .i32⟩ : BufTy).Contents (Elt F) → (⟨S250000x1, .i32⟩ : BufTy).Contents (Elt F)),
    binary main_v39 main_v46 main_v47 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v40 main_v48 (broadcastInDim S250000x128 ![0, 1] bcast_S250000x1_S250000x128_0_1 : (⟨S250000x1, .f32⟩ : BufTy).Contents (Elt F) → (⟨S250000x128, .f32⟩ : BufTy).Contents (Elt F)),
    binary main_v48 main_v47 main_v49 (mulf : (⟨S250000x128, .f32⟩ : BufTy).Contents (Elt F) → (⟨S250000x128, .f32⟩ : BufTy).Contents (Elt F) → (⟨S250000x128, .f32⟩ : BufTy).Contents (Elt F)),
    nullary main_cst_8 (constant S_ .f32 0x00000000#32),
    unary main_cst_8 main_v50 (broadcastInDim S50000x128 ![] bcast_S_S50000x128 : (⟨S_, .f32⟩ : BufTy).Contents (Elt F) → (⟨S50000x128, .f32⟩ : BufTy).Contents (Elt F)),
    unary main_arg0 main_v51 (broadcastInDim S250000x1 ![0] bcast_S250000_S250000x1_0 : (⟨S250000, .i32⟩ : BufTy).Contents (Elt F) → (⟨S250000x1, .i32⟩ : BufTy).Contents (Elt F)),
    ternary main_v50 main_v51 main_v49 main_v52 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v52) (TRef.of (T := ⟨S50000x128, .f32⟩) main_call4_v0) (TRef.of (T := ⟨S50000x128, .f32⟩) main_v53) maximumf,
    TRef.binary (TRef.of (T := ⟨S50000x128, .f32⟩) main_v53) (TRef.of (T := ⟨S50000x128, .f32⟩) main_v53) (TRef.of (T := ⟨S50000x128, .f32⟩) main_call5_v0) mulf,
    TRef.nullary (TRef.of (T := ⟨S_, .f32⟩) main_call5_cst) (constant S_ .f32 0x00000000#32),
    TRef.binary (TRef.of (T := ⟨S50000x128, .f32⟩) main_call5_v0) (TRef.of (T := ⟨S_, .f32⟩) main_call5_cst) (TRef.of (T := ⟨S50000, .f32⟩) main_call5_v1) (fun x v => Host.reduceAdd x v reducesTo_S50000x128_S50000_d1 h_S_),
    TRef.unary (TRef.of (T := ⟨S50000, .f32⟩) main_call5_v1) (TRef.of (T := ⟨S50000x1, .f32⟩) main_call5_v2) (broadcastInDim S50000x1 ![0] bcast_S50000_S50000x1_0),
    TRef.unary (TRef.of (T := ⟨S50000x1, .f32⟩) main_call5_v2) (TRef.of (T := ⟨S50000x1, .f32⟩) main_v54) Host.sqrt,
    nullary main_cst_9 (constant S_ .f32 0x2B8CBCCC#32),
    unary main_cst_9 main_v55 (broadcastInDim S50000x1 ![] bcast_S_S50000x1 : (⟨S_, .f32⟩ : BufTy).Contents (Elt F) → (⟨S50000x1, .f32⟩ : BufTy).Contents (Elt F)),
    binary main_v54 main_v55 main_v56 (maximumf : (⟨S50000x1, .f32⟩ : BufTy).Contents (Elt F) → (⟨S50000x1, .f32⟩ : BufTy).Contents (Elt F) → (⟨S50000x1, .f32⟩ : BufTy).Contents (Elt F)),
    unary main_v56 main_v57 (broadcastInDim S50000x128 ![0, 1] bcast_S50000x1_S50000x128_0_1 : (⟨S50000x1, .f32⟩ : BufTy).Contents (Elt F) → (⟨S50000x128, .f32⟩ : BufTy).Contents (Elt F)),
    binary main_v53 main_v57 main_v58 (Host.divf : (⟨S50000x128, .f32⟩ : BufTy).Contents (Elt F) → (⟨S50000x128, .f32⟩ : BufTy).Contents (Elt F) → (⟨S50000x128, .f32⟩ : BufTy).Contents (Elt F)),
    binary main_v58 main_arg9 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v60 (broadcastInDim S250000x1 ![0] bcast_S250000_S250000x1_0 : (⟨S250000, .f32⟩ : BufTy).Contents (Elt F) → (⟨S250000x1, .f32⟩ : BufTy).Contents (Elt F)),
    nullary main_c_10 (constantI S_ 32 0#32),
    unary main_c_10 main_v61 (broadcastInDim S250000 ![] bcast_S_S250000 : (⟨S_, .i32⟩ : BufTy).Contents (Elt F) → (⟨S250000, .i32⟩ : BufTy).Contents (Elt F)),
    binary main_arg1 main_v61 main_v62 (cmpi .slt : (⟨S250000, .i32⟩ : BufTy).Contents (Elt F) → (⟨S250000, .i32⟩ : BufTy).Contents (Elt F) → (⟨S250000, .i1⟩ : BufTy).Contents (Elt F)),
    nullary main_c_11 (constantI S_ 32 50000#32),
    unary main_c_11 main_v63 (broadcastInDim S250000 ![] bcast_S_S250000 : (⟨S_, .i32⟩ : BufTy).Contents (Elt F) → (⟨S250000, .i32⟩ : BufTy).Contents (Elt F)),
    binary main_arg1 main_v63 main_v64 (addi : (⟨S250000, .i32⟩ : BufTy).Contents (Elt F) → (⟨S250000, .i32⟩ : BufTy).Contents (Elt F) → (⟨S250000, .i32⟩ : BufTy).Contents (Elt F)),
    ternary main_v62 main_v64 main_arg1 main_v65 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v65 main_v66 (broadcastInDim S250000x1 ![0] bcast_S250000_S250000x1_0 : (⟨S250000, .i32⟩ : BufTy).Contents (Elt F) → (⟨S250000x1, .i32⟩ : BufTy).Contents (Elt F)),
    binary main_v59 main_v66 main_v67 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v60 main_v68 (broadcastInDim S250000x128 ![0, 1] bcast_S250000x1_S250000x128_0_1 : (⟨S250000x1, .f32⟩ : BufTy).Contents (Elt F) → (⟨S250000x128, .f32⟩ : BufTy).Contents (Elt F)),
    binary main_v68 main_v67 main_v69 (mulf : (⟨S250000x128, .f32⟩ : BufTy).Contents (Elt F) → (⟨S250000x128, .f32⟩ : BufTy).Contents (Elt F) → (⟨S250000x128, .f32⟩ : BufTy).Contents (Elt F)),
    nullary main_cst_12 (constant S_ .f32 0x00000000#32),
    unary main_cst_12 main_v70 (broadcastInDim S50000x128 ![] bcast_S_S50000x128 : (⟨S_, .f32⟩ : BufTy).Contents (Elt F) → (⟨S50000x128, .f32⟩ : BufTy).Contents (Elt F)),
    unary main_arg0 main_v71 (broadcastInDim S250000x1 ![0] bcast_S250000_S250000x1_0 : (⟨S250000, .i32⟩ : BufTy).Contents (Elt F) → (⟨S250000x1, .i32⟩ : BufTy).Contents (Elt F)),
    ternary main_v70 main_v71 main_v69 main_v72 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v72) (TRef.of (T := ⟨S50000x128, .f32⟩) main_call6_v0) (TRef.of (T := ⟨S50000x128, .f32⟩) main_v73) maximumf,
    TRef.binary (TRef.of (T := ⟨S50000x128, .f32⟩) main_v73) (TRef.of (T := ⟨S50000x128, .f32⟩) main_v73) (TRef.of (T := ⟨S50000x128, .f32⟩) main_call7_v0) mulf,
    TRef.nullary (TRef.of (T := ⟨S_, .f32⟩) main_call7_cst) (constant S_ .f32 0x00000000#32),
    TRef.binary (TRef.of (T := ⟨S50000x128, .f32⟩) main_call7_v0) (TRef.of (T := ⟨S_, .f32⟩) main_call7_cst) (TRef.of (T := ⟨S50000, .f32⟩) main_call7_v1) (fun x v => Host.reduceAdd x v reducesTo_S50000x128_S50000_d1 h_S_),
    TRef.unary (TRef.of (T := ⟨S50000, .f32⟩) main_call7_v1) (TRef.of (T := ⟨S50000x1, .f32⟩) main_call7_v2) (broadcastInDim S50000x1 ![0] bcast_S50000_S50000x1_0),
    TRef.unary (TRef.of (T := ⟨S50000x1, .f32⟩) main_call7_v2) (TRef.of (T := ⟨S50000x1, .f32⟩) main_v74) Host.sqrt,
    nullary main_cst_13 (constant S_ .f32 0x2B8CBCCC#32),
    unary main_cst_13 main_v75 (broadcastInDim S50000x1 ![] bcast_S_S50000x1 : (⟨S_, .f32⟩ : BufTy).Contents (Elt F) → (⟨S50000x1, .f32⟩ : BufTy).Contents (Elt F)),
    binary main_v74 main_v75 main_v76 (maximumf : (⟨S50000x1, .f32⟩ : BufTy).Contents (Elt F) → (⟨S50000x1, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v73 main_v77 main_v78 (Host.divf : (⟨S50000x128, .f32⟩ : BufTy).Contents (Elt F) → (⟨S50000x128, .f32⟩ : BufTy).Contents (Elt F) → (⟨S50000x128, .f32⟩ : BufTy).Contents (Elt F)),
    binary main_v78 main_arg10 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v80 (broadcastInDim S250000x1 ![0] bcast_S250000_S250000x1_0 : (⟨S250000, .f32⟩ : BufTy).Contents (Elt F) → (⟨S250000x1, .f32⟩ : BufTy).Contents (Elt F)),
    nullary main_c_14 (constantI S_ 32 0#32),
    unary main_c_14 main_v81 (broadcastInDim S250000 ![] bcast_S_S250000 : (⟨S_, .i32⟩ : BufTy).Contents (Elt F) → (⟨S250000, .i32⟩ : BufTy).Contents (Elt F)),
    binary main_arg1 main_v81 main_v82 (cmpi .slt : (⟨S250000, .i32⟩ : BufTy).Contents (Elt F) → (⟨S250000, .i32⟩ : BufTy).Contents (Elt F) → (⟨S250000, .i1⟩ : BufTy).Contents (Elt F)),
    nullary main_c_15 (constantI S_ 32 50000#32),
    unary main_c_15 main_v83 (broadcastInDim S250000 ![] bcast_S_S250000 : (⟨S_, .i32⟩ : BufTy).Contents (Elt F) → (⟨S250000, .i32⟩ : BufTy).Contents (Elt F)),
    binary main_arg1 main_v83 main_v84 (addi : (⟨S250000, .i32⟩ : BufTy).Contents (Elt F) → (⟨S250000, .i32⟩ : BufTy).Contents (Elt F) → (⟨S250000, .i32⟩ : BufTy).Contents (Elt F)),
    ternary main_v82 main_v84 main_arg1 main_v85 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v85 main_v86 (broadcastInDim S250000x1 ![0] bcast_S250000_S250000x1_0 : (⟨S250000, .i32⟩ : BufTy).Contents (Elt F) → (⟨S250000x1, .i32⟩ : BufTy).Contents (Elt F)),
    binary main_v79 main_v86 main_v87 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v80 main_v88 (broadcastInDim S250000x128 ![0, 1] bcast_S250000x1_S250000x128_0_1 : (⟨S250000x1, .f32⟩ : BufTy).Contents (Elt F) → (⟨S250000x128, .f32⟩ : BufTy).Contents (Elt F)),
    binary main_v88 main_v87 main_v89 (mulf : (⟨S250000x128, .f32⟩ : BufTy).Contents (Elt F) → (⟨S250000x128, .f32⟩ : BufTy).Contents (Elt F) → (⟨S250000x128, .f32⟩ : BufTy).Contents (Elt F)),
    nullary main_cst_16 (constant S_ .f32 0x00000000#32),
    unary main_cst_16 main_v90 (broadcastInDim S50000x128 ![] bcast_S_S50000x128 : (⟨S_, .f32⟩ : BufTy).Contents (Elt F) → (⟨S50000x128, .f32⟩ : BufTy).Contents (Elt F)),
    unary main_arg0 main_v91 (broadcastInDim S250000x1 ![0] bcast_S250000_S250000x1_0 : (⟨S250000, .i32⟩ : BufTy).Contents (Elt F) → (⟨S250000x1, .i32⟩ : BufTy).Contents (Elt F)),
    ternary main_v90 main_v91 main_v89 main_v92 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v92) (TRef.of (T := ⟨S50000x128, .f32⟩) main_call8_v0) (TRef.of (T := ⟨S50000x128, .f32⟩) main_v93) maximumf,
    binary main_v18 main_arg11 main_v94 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v95 (broadcastInDim S1x256 ![1] bcast_S256_S1x256_1 : (⟨S256, .f32⟩ : BufTy).Contents (Elt F) → (⟨S1x256, .f32⟩ : BufTy).Contents (Elt F)),
    unary main_v95 main_v96 (broadcastInDim S50000x256 ![0, 1] bcast_S1x256_S50000x256_0_1 : (⟨S1x256, .f32⟩ : BufTy).Contents (Elt F) → (⟨S50000x256, .f32⟩ : BufTy).Contents (Elt F)),
    binary main_v94 main_v96 main_v97 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x256, .f32⟩) main_call9_v0) (broadcastInDim S50000x256 ![] bcast_S_S50000x256),
    TRef.binary (TRef.of (T := ⟨S50000x256, .f32⟩) main_v97) (TRef.of (T := ⟨S50000x256, .f32⟩) main_call9_v0) (TRef.of (T := ⟨S50000x256, .f32⟩) main_v98) maximumf,
    binary main_v98 main_arg13 main_v99 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v100 (broadcastInDim S1x256 ![1] bcast_S256_S1x256_1 : (⟨S256, .f32⟩ : BufTy).Contents (Elt F) → (⟨S1x256, .f32⟩ : BufTy).Contents (Elt F)),
    unary main_v100 main_v101 (broadcastInDim S50000x256 ![0, 1] bcast_S1x256_S50000x256_0_1 : (⟨S1x256, .f32⟩ : BufTy).Contents (Elt F) → (⟨S50000x256, .f32⟩ : BufTy).Contents (Elt F)),
    binary main_v99 main_v101 main_v102 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x256, .f32⟩) main_call10_v0) (broadcastInDim S50000x256 ![] bcast_S_S50000x256),
    TRef.binary (TRef.of (T := ⟨S50000x256, .f32⟩) main_v102) (TRef.of (T := ⟨S50000x256, .f32⟩) main_call10_v0) (TRef.of (T := ⟨S50000x256, .f32⟩) main_v103) maximumf,
    binary main_v103 main_arg15 main_v104 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v105 (broadcastInDim S1x1 ![1] bcast_S1_S1x1_1 : (⟨S1, .f32⟩ : BufTy).Contents (Elt F) → (⟨S1x1, .f32⟩ : BufTy).Contents (Elt F)),
    unary main_v105 main_v106 (broadcastInDim S50000x1 ![0, 1] bcast_S1x1_S50000x1_0_1 : (⟨S1x1, .f32⟩ : BufTy).Contents (Elt F) → (⟨S50000x1, .f32⟩ : BufTy).Contents (Elt F)),
    binary main_v104 main_v106 main_v107 (addf : (⟨S50000x1, .f32⟩ : BufTy).Contents (Elt F) → (⟨S50000x1, .f32⟩ : BufTy).Contents (Elt F) → (⟨S50000x1, .f32⟩ : BufTy).Contents (Elt F)),
    binary main_v38 main_arg11 main_v108 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v109 (broadcastInDim S1x256 ![1] bcast_S256_S1x256_1 : (⟨S256, .f32⟩ : BufTy).Contents (Elt F) → (⟨S1x256, .f32⟩ : BufTy).Contents (Elt F)),
    unary main_v109 main_v110 (broadcastInDim S50000x256 ![0, 1] bcast_S1x256_S50000x256_0_1 : (⟨S1x256, .f32⟩ : BufTy).Contents (Elt F) → (⟨S50000x256, .f32⟩ : BufTy).Contents (Elt F)),
    binary main_v108 main_v110 main_v111 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x256, .f32⟩) main_call11_v0) (broadcastInDim S50000x256 ![] bcast_S_S50000x256),
    TRef.binary (TRef.of (T := ⟨S50000x256, .f32⟩) main_v111) (TRef.of (T := ⟨S50000x256, .f32⟩) main_call11_v0) (TRef.of (T := ⟨S50000x256, .f32⟩) main_v112) maximumf,
    binary main_v112 main_arg13 main_v113 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v114 (broadcastInDim S1x256 ![1] bcast_S256_S1x256_1 : (⟨S256, .f32⟩ : BufTy).Contents (Elt F) → (⟨S1x256, .f32⟩ : BufTy).Contents (Elt F)),
    unary main_v114 main_v115 (broadcastInDim S50000x256 ![0, 1] bcast_S1x256_S50000x256_0_1 : (⟨S1x256, .f32⟩ : BufTy).Contents (Elt F) → (⟨S50000x256, .f32⟩ : BufTy).Contents (Elt F)),
    binary main_v113 main_v115 main_v116 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S50000x256, .f32⟩) main_call12_v0) (broadcastInDim S50000x256 ![] bcast_S_S50000x256),
    TRef.binary (TRef.of (T := ⟨S50000x256, .f32⟩) main_v116) (TRef.of (T := ⟨S50000x256, .f32⟩) main_call12_v0) (TRef.of (T := ⟨S50000x256, .f32⟩) main_v117) maximumf,
    binary main_v117 main_arg15 main_v118 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v119 (broadcastInDim S1x1 ![1] bcast_S1_S1x1_1 : (⟨S1, .f32⟩ : BufTy).Contents (Elt F) → (⟨S1x1, .f32⟩ : BufTy).Contents (Elt F)),
    unary main_v119 main_v120 (broadcastInDim S50000x1 ![0, 1] bcast_S1x1_S50000x1_0_1 : (⟨S1x1, .f32⟩ : BufTy).Contents (Elt F) → (⟨S50000x1, .f32⟩ : BufTy).Contents (Elt F)),
    binary main_v118 main_v120 main_v121 (addf : (⟨S50000x1, .f32⟩ : BufTy).Contents (Elt F) → (⟨S50000x1, .f32⟩ : BufTy).Contents (Elt F) → (⟨S50000x1, .f32⟩ : BufTy).Contents (Elt F)),
    binary main_v107 main_v121 main_v122 (addf : (⟨S50000x1, .f32⟩ : BufTy).Contents (Elt F) → (⟨S50000x1, .f32⟩ : BufTy).Contents (Elt F) → (⟨S50000x1, .f32⟩ : BufTy).Contents (Elt F)),
    binary main_v58 main_arg11 main_v123 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v124 (broadcastInDim S1x256 ![1] bcast_S256_S1x256_1 : (⟨S256, .f32⟩ : BufTy).Contents (Elt F) → (⟨S1x256, .f32⟩ : BufTy).Contents (Elt F)),
    unary main_v124 main_v125 (broadcastInDim S50000x256 ![0, 1] bcast_S1x256_S50000x256_0_1 : (⟨S1x256, .f32⟩ : BufTy).Contents (Elt F) → (⟨S50000x256, .f32⟩ : BufTy).Contents (Elt F)),
    binary main_v123 main_v125 main_v126 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S50000x256, .f32⟩) main_call13_v0) (broadcastInDim S50000x256 ![] bcast_S_S50000x256),
    TRef.binary (TRef.of (T := ⟨S50000x256, .f32⟩) main_v126) (TRef.of (T := ⟨S50000x256, .f32⟩) main_call13_v0) (TRef.of (T := ⟨S50000x256, .f32⟩) main_v127) maximumf,
    binary main_v127 main_arg13 main_v128 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v129 (broadcastInDim S1x256 ![1] bcast_S256_S1x256_1 : (⟨S256, .f32⟩ : BufTy).Contents (Elt F) → (⟨S1x256, .f32⟩ : BufTy).Contents (Elt F)),
    unary main_v129 main_v130 (broadcastInDim S50000x256 ![0, 1] bcast_S1x256_S50000x256_0_1 : (⟨S1x256, .f32⟩ : BufTy).Contents (Elt F) → (⟨S50000x256, .f32⟩ : BufTy).Contents (Elt F)),
    binary main_v128 main_v130 main_v131 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S50000x256, .f32⟩) main_call14_v0) (broadcastInDim S50000x256 ![] bcast_S_S50000x256),
    TRef.binary (TRef.of (T := ⟨S50000x256, .f32⟩) main_v131) (TRef.of (T := ⟨S50000x256, .f32⟩) main_call14_v0) (TRef.of (T := ⟨S50000x256, .f32⟩) main_v132) maximumf,
    binary main_v132 main_arg15 main_v133 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v134 (broadcastInDim S1x1 ![1] bcast_S1_S1x1_1 : (⟨S1, .f32⟩ : BufTy).Contents (Elt F) → (⟨S1x1, .f32⟩ : BufTy).Contents (Elt F)),
    unary main_v134 main_v135 (broadcastInDim S50000x1 ![0, 1] bcast_S1x1_S50000x1_0_1 : (⟨S1x1, .f32⟩ : BufTy).Contents (Elt F) → (⟨S50000x1, .f32⟩ : BufTy).Contents (Elt F)),
    binary main_v133 main_v135 main_v136 (addf : (⟨S50000x1, .f32⟩ : BufTy).Contents (Elt F) → (⟨S50000x1, .f32⟩ : BufTy).Contents (Elt F) → (⟨S50000x1, .f32⟩ : BufTy).Contents (Elt F)),
    binary main_v122 main_v136 main_v137 (addf : (⟨S50000x1, .f32⟩ : BufTy).Contents (Elt F) → (⟨S50000x1, .f32⟩ : BufTy).Contents (Elt F) → (⟨S50000x1, .f32⟩ : BufTy).Contents (Elt F)),
    binary main_v78 main_arg11 main_v138 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v139 (broadcastInDim S1x256 ![1] bcast_S256_S1x256_1 : (⟨S256, .f32⟩ : BufTy).Contents (Elt F) → (⟨S1x256, .f32⟩ : BufTy).Contents (Elt F)),
    unary main_v139 main_v140 (broadcastInDim S50000x256 ![0, 1] bcast_S1x256_S50000x256_0_1 : (⟨S1x256, .f32⟩ : BufTy).Contents (Elt F) → (⟨S50000x256, .f32⟩ : BufTy).Contents (Elt F)),
    binary main_v138 main_v140 main_v141 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S50000x256, .f32⟩) main_call15_v0) (broadcastInDim S50000x256 ![] bcast_S_S50000x256),
    TRef.binary (TRef.of (T := ⟨S50000x256, .f32⟩) main_v141) (TRef.of (T := ⟨S50000x256, .f32⟩) main_call15_v0) (TRef.of (T := ⟨S50000x256, .f32⟩) main_v142) maximumf,
    binary main_v142 main_arg13 main_v143 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v144 (broadcastInDim S1x256 ![1] bcast_S256_S1x256_1 : (⟨S256, .f32⟩ : BufTy).Contents (Elt F) → (⟨S1x256, .f32⟩ : BufTy).Contents (Elt F)),
    unary main_v144 main_v145 (broadcastInDim S50000x256 ![0, 1] bcast_S1x256_S50000x256_0_1 : (⟨S1x256, .f32⟩ : BufTy).Contents (Elt F) → (⟨S50000x256, .f32⟩ : BufTy).Contents (Elt F)),
    binary main_v143 main_v145 main_v146 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S50000x256, .f32⟩) main_call16_v0) (broadcastInDim S50000x256 ![] bcast_S_S50000x256),
    TRef.binary (TRef.of (T := ⟨S50000x256, .f32⟩) main_v146) (TRef.of (T := ⟨S50000x256, .f32⟩) main_call16_v0) (TRef.of (T := ⟨S50000x256, .f32⟩) main_v147) maximumf,
    binary main_v147 main_arg15 main_v148 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v149 (broadcastInDim S1x1 ![1] bcast_S1_S1x1_1 : (⟨S1, .f32⟩ : BufTy).Contents (Elt F) → (⟨S1x1, .f32⟩ : BufTy).Contents (Elt F)),
    unary main_v149 main_v150 (broadcastInDim S50000x1 ![0, 1] bcast_S1x1_S50000x1_0_1 : (⟨S1x1, .f32⟩ : BufTy).Contents (Elt F) → (⟨S50000x1, .f32⟩ : BufTy).Contents (Elt F)),
    binary main_v148 main_v150 main_v151 (addf : (⟨S50000x1, .f32⟩ : BufTy).Contents (Elt F) → (⟨S50000x1, .f32⟩ : BufTy).Contents (Elt F) → (⟨S50000x1, .f32⟩ : BufTy).Contents (Elt F)),
    binary main_v137 main_v151 main_v152 (addf : (⟨S50000x1, .f32⟩ : BufTy).Contents (Elt F) → (⟨S50000x1, .f32⟩ : BufTy).Contents (Elt F) → (⟨S50000x1, .f32⟩ : BufTy).Contents (Elt F)),
    binary main_v93 main_arg11 main_v153 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v154 (broadcastInDim S1x256 ![1] bcast_S256_S1x256_1 : (⟨S256, .f32⟩ : BufTy).Contents (Elt F) → (⟨S1x256, .f32⟩ : BufTy).Contents (Elt F)),
    unary main_v154 main_v155 (broadcastInDim S50000x256 ![0, 1] bcast_S1x256_S50000x256_0_1 : (⟨S1x256, .f32⟩ : BufTy).Contents (Elt F) → (⟨S50000x256, .f32⟩ : BufTy).Contents (Elt F)),
    binary main_v153 main_v155 main_v156 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S50000x256, .f32⟩) main_call17_v0) (broadcastInDim S50000x256 ![] bcast_S_S50000x256),
    TRef.binary (TRef.of (T := ⟨S50000x256, .f32⟩) main_v156) (TRef.of (T := ⟨S50000x256, .f32⟩) main_call17_v0) (TRef.of (T := ⟨S50000x256, .f32⟩) main_v157) maximumf,
    binary main_v157 main_arg13 main_v158 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v159 (broadcastInDim S1x256 ![1] bcast_S256_S1x256_1 : (⟨S256, .f32⟩ : BufTy).Contents (Elt F) → (⟨S1x256, .f32⟩ : BufTy).Contents (Elt F)),
    unary main_v159 main_v160 (broadcastInDim S50000x256 ![0, 1] bcast_S1x256_S50000x256_0_1 : (⟨S1x256, .f32⟩ : BufTy).Contents (Elt F) → (⟨S50000x256, .f32⟩ : BufTy).Contents (Elt F)),
    binary main_v158 main_v160 main_v161 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S50000x256, .f32⟩) main_call18_v0) (broadcastInDim S50000x256 ![] bcast_S_S50000x256),
    TRef.binary (TRef.of (T := ⟨S50000x256, .f32⟩) main_v161) (TRef.of (T := ⟨S50000x256, .f32⟩) main_call18_v0) (TRef.of (T := ⟨S50000x256, .f32⟩) main_v162) maximumf,
    binary main_v162 main_arg15 main_v163 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v164 (broadcastInDim S1x1 ![1] bcast_S1_S1x1_1 : (⟨S1, .f32⟩ : BufTy).Contents (Elt F) → (⟨S1x1, .f32⟩ : BufTy).Contents (Elt F)),
    unary main_v164 main_v165 (broadcastInDim S50000x1 ![0, 1] bcast_S1x1_S50000x1_0_1 : (⟨S1x1, .f32⟩ : BufTy).Contents (Elt F) → (⟨S50000x1, .f32⟩ : BufTy).Contents (Elt F)),
    binary main_v163 main_v165 main_v166 (addf : (⟨S50000x1, .f32⟩ : BufTy).Contents (Elt F) → (⟨S50000x1, .f32⟩ : BufTy).Contents (Elt F) → (⟨S50000x1, .f32⟩ : BufTy).Contents (Elt F)),
    binary main_v152 main_v166 main_v167 (addf : (⟨S50000x1, .f32⟩ : BufTy).Contents (Elt F) → (⟨S50000x1, .f32⟩ : BufTy).Contents (Elt F) → (⟨S50000x1, .f32⟩ : BufTy).Contents (Elt F)),
    unary main_arg5 main_v168 (broadcastInDim S250000x1 ![0] bcast_S250000_S250000x1_0 : (⟨S250000, .f32⟩ : BufTy).Contents (Elt F) → (⟨S250000x1, .f32⟩ : BufTy).Contents (Elt F)),
    nullary main_c_17 (constantI S_ 32 0#32),
    unary main_c_17 main_v169 (broadcastInDim S250000 ![] bcast_S_S250000 : (⟨S_, .i32⟩ : BufTy).Contents (Elt F) → (⟨S250000, .i32⟩ : BufTy).Contents (Elt F)),
    binary main_arg4 main_v169 main_v170 (cmpi .slt : (⟨S250000, .i32⟩ : BufTy).Contents (Elt F) → (⟨S250000, .i32⟩ : BufTy).Contents (Elt F) → (⟨S250000, .i1⟩ : BufTy).Contents (Elt F)),
    nullary main_c_18 (constantI S_ 32 50000#32),
    unary main_c_18 main_v171 (broadcastInDim S250000 ![] bcast_S_S250000 : (⟨S_, .i32⟩ : BufTy).Contents (Elt F) → (⟨S250000, .i32⟩ : BufTy).Contents (Elt F)),
    binary main_arg4 main_v171 main_v172 (addi : (⟨S250000, .i32⟩ : BufTy).Contents (Elt F) → (⟨S250000, .i32⟩ : BufTy).Contents (Elt F) → (⟨S250000, .i32⟩ : BufTy).Contents (Elt F)),
    ternary main_v170 main_v172 main_arg4 main_v173 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v173 main_v174 (broadcastInDim S250000x1 ![0] bcast_S250000_S250000x1_0 : (⟨S250000, .i32⟩ : BufTy).Contents (Elt F) → (⟨S250000x1, .i32⟩ : BufTy).Contents (Elt F)),
    binary main_arg6 main_v174 main_v175 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v168 main_v176 (broadcastInDim S250000x128 ![0, 1] bcast_S250000x1_S250000x128_0_1 : (⟨S250000x1, .f32⟩ : BufTy).Contents (Elt F) → (⟨S250000x128, .f32⟩ : BufTy).Contents (Elt F)),
    binary main_v176 main_v175 main_v177 (mulf : (⟨S250000x128, .f32⟩ : BufTy).Contents (Elt F) → (⟨S250000x128, .f32⟩ : BufTy).Contents (Elt F) → (⟨S250000x128, .f32⟩ : BufTy).Contents (Elt F)),
    nullary main_cst_19 (constant S_ .f32 0x00000000#32),
    unary main_cst_19 main_v178 (broadcastInDim S50000x128 ![] bcast_S_S50000x128 : (⟨S_, .f32⟩ : BufTy).Contents (Elt F) → (⟨S50000x128, .f32⟩ : BufTy).Contents (Elt F)),
    unary main_arg3 main_v179 (broadcastInDim S250000x1 ![0] bcast_S250000_S250000x1_0 : (⟨S250000, .i32⟩ : BufTy).Contents (Elt F) → (⟨S250000x1, .i32⟩ : BufTy).Contents (Elt F)),
    ternary main_v178 main_v179 main_v177 main_v180 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S50000x128, .f32⟩) main_call19_v0) (broadcastInDim S50000x128 ![] bcast_S_S50000x128),
    TRef.binary (TRef.of (T := ⟨S50000x128, .f32⟩) main_v180) (TRef.of (T := ⟨S50000x128, .f32⟩) main_call19_v0) (TRef.of (T := ⟨S50000x128, .f32⟩) main_v181) maximumf,
    TRef.binary (TRef.of (T := ⟨S50000x128, .f32⟩) main_v181) (TRef.of (T := ⟨S50000x128, .f32⟩) main_v181) (TRef.of (T := ⟨S50000x128, .f32⟩) main_call20_v0) mulf,
    TRef.nullary (TRef.of (T := ⟨S_, .f32⟩) main_call20_cst) (constant S_ .f32 0x00000000#32),
    TRef.binary (TRef.of (T := ⟨S50000x128, .f32⟩) main_call20_v0) (TRef.of (T := ⟨S_, .f32⟩) main_call20_cst) (TRef.of (T := ⟨S50000, .f32⟩) main_call20_v1) (fun x v => Host.reduceAdd x v reducesTo_S50000x128_S50000_d1 h_S_),
    TRef.unary (TRef.of (T := ⟨S50000, .f32⟩) main_call20_v1) (TRef.of (T := ⟨S50000x1, .f32⟩) main_call20_v2) (broadcastInDim S50000x1 ![0] bcast_S50000_S50000x1_0),
    TRef.unary (TRef.of (T := ⟨S50000x1, .f32⟩) main_call20_v2) (TRef.of (T := ⟨S50000x1, .f32⟩) main_v182) Host.sqrt,
    nullary main_cst_20 (constant S_ .f32 0x2B8CBCCC#32),
    unary main_cst_20 main_v183 (broadcastInDim S50000x1 ![] bcast_S_S50000x1 : (⟨S_, .f32⟩ : BufTy).Contents (Elt F) → (⟨S50000x1, .f32⟩ : BufTy).Contents (Elt F)),
    binary main_v182 main_v183 main_v184 (maximumf : (⟨S50000x1, .f32⟩ : BufTy).Contents (Elt F) → (⟨S50000x1, .f32⟩ : BufTy).Contents (Elt F) → (⟨S50000x1, .f32⟩ : BufTy).Contents (Elt F)),
    unary main_v184 main_v185 (broadcastInDim S50000x128 ![0, 1] bcast_S50000x1_S50000x128_0_1 : (⟨S50000x1, .f32⟩ : BufTy).Contents (Elt F) → (⟨S50000x128, .f32⟩ : BufTy).Contents (Elt F)),
    binary main_v181 main_v185 main_v186 (Host.divf : (⟨S50000x128, .f32⟩ : BufTy).Contents (Elt F) → (⟨S50000x128, .f32⟩ : BufTy).Contents (Elt F) → (⟨S50000x128, .f32⟩ : BufTy).Contents (Elt F)),
    binary main_v186 main_arg7 main_v187 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v188 (broadcastInDim S250000x1 ![0] bcast_S250000_S250000x1_0 : (⟨S250000, .f32⟩ : BufTy).Contents (Elt F) → (⟨S250000x1, .f32⟩ : BufTy).Contents (Elt F)),
    nullary main_c_21 (constantI S_ 32 0#32),
    unary main_c_21 main_v189 (broadcastInDim S250000 ![] bcast_S_S250000 : (⟨S_, .i32⟩ : BufTy).Contents (Elt F) → (⟨S250000, .i32⟩ : BufTy).Contents (Elt F)),
    binary main_arg4 main_v189 main_v190 (cmpi .slt : (⟨S250000, .i32⟩ : BufTy).Contents (Elt F) → (⟨S250000, .i32⟩ : BufTy).Contents (Elt F) → (⟨S250000, .i1⟩ : BufTy).Contents (Elt F)),
    nullary main_c_22 (constantI S_ 32 50000#32),
    unary main_c_22 main_v191 (broadcastInDim S250000 ![] bcast_S_S250000 : (⟨S_, .i32⟩ : BufTy).Contents (Elt F) → (⟨S250000, .i32⟩ : BufTy).Contents (Elt F)),
    binary main_arg4 main_v191 main_v192 (addi : (⟨S250000, .i32⟩ : BufTy).Contents (Elt F) → (⟨S250000, .i32⟩ : BufTy).Contents (Elt F) → (⟨S250000, .i32⟩ : BufTy).Contents (Elt F)),
    ternary main_v190 main_v192 main_arg4 main_v193 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v193 main_v194 (broadcastInDim S250000x1 ![0] bcast_S250000_S250000x1_0 : (⟨S250000, .i32⟩ : BufTy).Contents (Elt F) → (⟨S250000x1, .i32⟩ : BufTy).Contents (Elt F)),
    binary main_v187 main_v194 main_v195 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v188 main_v196 (broadcastInDim S250000x128 ![0, 1] bcast_S250000x1_S250000x128_0_1 : (⟨S250000x1, .f32⟩ : BufTy).Contents (Elt F) → (⟨S250000x128, .f32⟩ : BufTy).Contents (Elt F)),
    binary main_v196 main_v195 main_v197 (mulf : (⟨S250000x128, .f32⟩ : BufTy).Contents (Elt F) → (⟨S250000x128, .f32⟩ : BufTy).Contents (Elt F) → (⟨S250000x128, .f32⟩ : BufTy).Contents (Elt F)),
    nullary main_cst_23 (constant S_ .f32 0x00000000#32),
    unary main_cst_23 main_v198 (broadcastInDim S50000x128 ![] bcast_S_S50000x128 : (⟨S_, .f32⟩ : BufTy).Contents (Elt F) → (⟨S50000x128, .f32⟩ : BufTy).Contents (Elt F)),
    unary main_arg3 main_v199 (broadcastInDim S250000x1 ![0] bcast_S250000_S250000x1_0 : (⟨S250000, .i32⟩ : BufTy).Contents (Elt F) → (⟨S250000x1, .i32⟩ : BufTy).Contents (Elt F)),
    ternary main_v198 main_v199 main_v197 main_v200 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S50000x128, .f32⟩) main_call21_v0) (broadcastInDim S50000x128 ![] bcast_S_S50000x128),
    TRef.binary (TRef.of (T := ⟨S50000x128, .f32⟩) main_v200) (TRef.of (T := ⟨S50000x128, .f32⟩) main_call21_v0) (TRef.of (T := ⟨S50000x128, .f32⟩) main_v201) maximumf,
    TRef.binary (TRef.of (T := ⟨S50000x128, .f32⟩) main_v201) (TRef.of (T := ⟨S50000x128, .f32⟩) main_v201) (TRef.of (T := ⟨S50000x128, .f32⟩) main_call22_v0) mulf,
    TRef.nullary (TRef.of (T := ⟨S_, .f32⟩) main_call22_cst) (constant S_ .f32 0x00000000#32),
    TRef.binary (TRef.of (T := ⟨S50000x128, .f32⟩) main_call22_v0) (TRef.of (T := ⟨S_, .f32⟩) main_call22_cst) (TRef.of (T := ⟨S50000, .f32⟩) main_call22_v1) (fun x v => Host.reduceAdd x v reducesTo_S50000x128_S50000_d1 h_S_),
    TRef.unary (TRef.of (T := ⟨S50000, .f32⟩) main_call22_v1) (TRef.of (T := ⟨S50000x1, .f32⟩) main_call22_v2) (broadcastInDim S50000x1 ![0] bcast_S50000_S50000x1_0),
    TRef.unary (TRef.of (T := ⟨S50000x1, .f32⟩) main_call22_v2) (TRef.of (T := ⟨S50000x1, .f32⟩) main_v202) Host.sqrt,
    nullary main_cst_24 (constant S_ .f32 0x2B8CBCCC#32),
    unary main_cst_24 main_v203 (broadcastInDim S50000x1 ![] bcast_S_S50000x1 : (⟨S_, .f32⟩ : BufTy).Contents (Elt F) → (⟨S50000x1, .f32⟩ : BufTy).Contents (Elt F)),
    binary main_v202 main_v203 main_v204 (maximumf : (⟨S50000x1, .f32⟩ : BufTy).Contents (Elt F) → (⟨S50000x1, .f32⟩ : BufTy).Contents (Elt F) → (⟨S50000x1, .f32⟩ : BufTy).Contents (Elt F)),
    unary main_v204 main_v205 (broadcastInDim S50000x128 ![0, 1] bcast_S50000x1_S50000x128_0_1 : (⟨S50000x1, .f32⟩ : BufTy).Contents (Elt F) → (⟨S50000x128, .f32⟩ : BufTy).Contents (Elt F)),
    binary main_v201 main_v205 main_v206 (Host.divf : (⟨S50000x128, .f32⟩ : BufTy).Contents (Elt F) → (⟨S50000x128, .f32⟩ : BufTy).Contents (Elt F) → (⟨S50000x128, .f32⟩ : BufTy).Contents (Elt F)),
    binary main_v206 main_arg8 main_v207 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v208 (broadcastInDim S250000x1 ![0] bcast_S250000_S250000x1_0 : (⟨S250000, .f32⟩ : BufTy).Contents (Elt F) → (⟨S250000x1, .f32⟩ : BufTy).Contents (Elt F)),
    nullary main_c_25 (constantI S_ 32 0#32),
    unary main_c_25 main_v209 (broadcastInDim S250000 ![] bcast_S_S250000 : (⟨S_, .i32⟩ : BufTy).Contents (Elt F) → (⟨S250000, .i32⟩ : BufTy).Contents (Elt F)),
    binary main_arg4 main_v209 main_v210 (cmpi .slt : (⟨S250000, .i32⟩ : BufTy).Contents (Elt F) → (⟨S250000, .i32⟩ : BufTy).Contents (Elt F) → (⟨S250000, .i1⟩ : BufTy).Contents (Elt F)),
    nullary main_c_26 (constantI S_ 32 50000#32),
    unary main_c_26 main_v211 (broadcastInDim S250000 ![] bcast_S_S250000 : (⟨S_, .i32⟩ : BufTy).Contents (Elt F) → (⟨S250000, .i32⟩ : BufTy).Contents (Elt F)),
    binary main_arg4 main_v211 main_v212 (addi : (⟨S250000, .i32⟩ : BufTy).Contents (Elt F) → (⟨S250000, .i32⟩ : BufTy).Contents (Elt F) → (⟨S250000, .i32⟩ : BufTy).Contents (Elt F)),
    ternary main_v210 main_v212 main_arg4 main_v213 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v213 main_v214 (broadcastInDim S250000x1 ![0] bcast_S250000_S250000x1_0 : (⟨S250000, .i32⟩ : BufTy).Contents (Elt F) → (⟨S250000x1, .i32⟩ : BufTy).Contents (Elt F)),
    binary main_v207 main_v214 main_v215 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v208 main_v216 (broadcastInDim S250000x128 ![0, 1] bcast_S250000x1_S250000x128_0_1 : (⟨S250000x1, .f32⟩ : BufTy).Contents (Elt F) → (⟨S250000x128, .f32⟩ : BufTy).Contents (Elt F)),
    binary main_v216 main_v215 main_v217 (mulf : (⟨S250000x128, .f32⟩ : BufTy).Contents (Elt F) → (⟨S250000x128, .f32⟩ : BufTy).Contents (Elt F) → (⟨S250000x128, .f32⟩ : BufTy).Contents (Elt F)),
    nullary main_cst_27 (constant S_ .f32 0x00000000#32),
    unary main_cst_27 main_v218 (broadcastInDim S50000x128 ![] bcast_S_S50000x128 : (⟨S_, .f32⟩ : BufTy).Contents (Elt F) → (⟨S50000x128, .f32⟩ : BufTy).Contents (Elt F)),
    unary main_arg3 main_v219 (broadcastInDim S250000x1 ![0] bcast_S250000_S250000x1_0 : (⟨S250000, .i32⟩ : BufTy).Contents (Elt F) → (⟨S250000x1, .i32⟩ : BufTy).Contents (Elt F)),
    ternary main_v218 main_v219 main_v217 main_v220 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S50000x128, .f32⟩) main_call23_v0) (broadcastInDim S50000x128 ![] bcast_S_S50000x128),
    TRef.binary (TRef.of (T := ⟨S50000x128, .f32⟩) main_v220) (TRef.of (T := ⟨S50000x128, .f32⟩) main_call23_v0) (TRef.of (T := ⟨S50000x128, .f32⟩) main_v221) maximumf,
    TRef.binary (TRef.of (T := ⟨S50000x128, .f32⟩) main_v221) (TRef.of (T := ⟨S50000x128, .f32⟩) main_v221) (TRef.of (T := ⟨S50000x128, .f32⟩) main_call24_v0) mulf,
    TRef.nullary (TRef.of (T := ⟨S_, .f32⟩) main_call24_cst) (constant S_ .f32 0x00000000#32),
    TRef.binary (TRef.of (T := ⟨S50000x128, .f32⟩) main_call24_v0) (TRef.of (T := ⟨S_, .f32⟩) main_call24_cst) (TRef.of (T := ⟨S50000, .f32⟩) main_call24_v1) (fun x v => Host.reduceAdd x v reducesTo_S50000x128_S50000_d1 h_S_),
    TRef.unary (TRef.of (T := ⟨S50000, .f32⟩) main_call24_v1) (TRef.of (T := ⟨S50000x1, .f32⟩) main_call24_v2) (broadcastInDim S50000x1 ![0] bcast_S50000_S50000x1_0),
    TRef.unary (TRef.of (T := ⟨S50000x1, .f32⟩) main_call24_v2) (TRef.of (T := ⟨S50000x1, .f32⟩) main_v222) Host.sqrt,
    nullary main_cst_28 (constant S_ .f32 0x2B8CBCCC#32),
    unary main_cst_28 main_v223 (broadcastInDim S50000x1 ![] bcast_S_S50000x1 : (⟨S_, .f32⟩ : BufTy).Contents (Elt F) → (⟨S50000x1, .f32⟩ : BufTy).Contents (Elt F)),
    binary main_v222 main_v223 main_v224 (maximumf : (⟨S50000x1, .f32⟩ : BufTy).Contents (Elt F) → (⟨S50000x1, .f32⟩ : BufTy).Contents (Elt F) → (⟨S50000x1, .f32⟩ : BufTy).Contents (Elt F)),
    unary main_v224 main_v225 (broadcastInDim S50000x128 ![0, 1] bcast_S50000x1_S50000x128_0_1 : (⟨S50000x1, .f32⟩ : BufTy).Contents (Elt F) → (⟨S50000x128, .f32⟩ : BufTy).Contents (Elt F)),
    binary main_v221 main_v225 main_v226 (Host.divf : (⟨S50000x128, .f32⟩ : BufTy).Contents (Elt F) → (⟨S50000x128, .f32⟩ : BufTy).Contents (Elt F) → (⟨S50000x128, .f32⟩ : BufTy).Contents (Elt F)),
    binary main_v226 main_arg9 main_v227 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v228 (broadcastInDim S250000x1 ![0] bcast_S250000_S250000x1_0 : (⟨S250000, .f32⟩ : BufTy).Contents (Elt F) → (⟨S250000x1, .f32⟩ : BufTy).Contents (Elt F)),
    nullary main_c_29 (constantI S_ 32 0#32),
    unary main_c_29 main_v229 (broadcastInDim S250000 ![] bcast_S_S250000 : (⟨S_, .i32⟩ : BufTy).Contents (Elt F) → (⟨S250000, .i32⟩ : BufTy).Contents (Elt F)),
    binary main_arg4 main_v229 main_v230 (cmpi .slt : (⟨S250000, .i32⟩ : BufTy).Contents (Elt F) → (⟨S250000, .i32⟩ : BufTy).Contents (Elt F) → (⟨S250000, .i1⟩ : BufTy).Contents (Elt F)),
    nullary main_c_30 (constantI S_ 32 50000#32),
    unary main_c_30 main_v231 (broadcastInDim S250000 ![] bcast_S_S250000 : (⟨S_, .i32⟩ : BufTy).Contents (Elt F) → (⟨S250000, .i32⟩ : BufTy).Contents (Elt F)),
    binary main_arg4 main_v231 main_v232 (addi : (⟨S250000, .i32⟩ : BufTy).Contents (Elt F) → (⟨S250000, .i32⟩ : BufTy).Contents (Elt F) → (⟨S250000, .i32⟩ : BufTy).Contents (Elt F)),
    ternary main_v230 main_v232 main_arg4 main_v233 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v233 main_v234 (broadcastInDim S250000x1 ![0] bcast_S250000_S250000x1_0 : (⟨S250000, .i32⟩ : BufTy).Contents (Elt F) → (⟨S250000x1, .i32⟩ : BufTy).Contents (Elt F)),
    binary main_v227 main_v234 main_v235 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v228 main_v236 (broadcastInDim S250000x128 ![0, 1] bcast_S250000x1_S250000x128_0_1 : (⟨S250000x1, .f32⟩ : BufTy).Contents (Elt F) → (⟨S250000x128, .f32⟩ : BufTy).Contents (Elt F)),
    binary main_v236 main_v235 main_v237 (mulf : (⟨S250000x128, .f32⟩ : BufTy).Contents (Elt F) → (⟨S250000x128, .f32⟩ : BufTy).Contents (Elt F) → (⟨S250000x128, .f32⟩ : BufTy).Contents (Elt F)),
    nullary main_cst_31 (constant S_ .f32 0x00000000#32),
    unary main_cst_31 main_v238 (broadcastInDim S50000x128 ![] bcast_S_S50000x128 : (⟨S_, .f32⟩ : BufTy).Contents (Elt F) → (⟨S50000x128, .f32⟩ : BufTy).Contents (Elt F)),
    unary main_arg3 main_v239 (broadcastInDim S250000x1 ![0] bcast_S250000_S250000x1_0 : (⟨S250000, .i32⟩ : BufTy).Contents (Elt F) → (⟨S250000x1, .i32⟩ : BufTy).Contents (Elt F)),
    ternary main_v238 main_v239 main_v237 main_v240 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S50000x128, .f32⟩) main_call25_v0) (broadcastInDim S50000x128 ![] bcast_S_S50000x128),
    TRef.binary (TRef.of (T := ⟨S50000x128, .f32⟩) main_v240) (TRef.of (T := ⟨S50000x128, .f32⟩) main_call25_v0) (TRef.of (T := ⟨S50000x128, .f32⟩) main_v241) maximumf,
    TRef.binary (TRef.of (T := ⟨S50000x128, .f32⟩) main_v241) (TRef.of (T := ⟨S50000x128, .f32⟩) main_v241) (TRef.of (T := ⟨S50000x128, .f32⟩) main_call26_v0) mulf,
    TRef.nullary (TRef.of (T := ⟨S_, .f32⟩) main_call26_cst) (constant S_ .f32 0x00000000#32),
    TRef.binary (TRef.of (T := ⟨S50000x128, .f32⟩) main_call26_v0) (TRef.of (T := ⟨S_, .f32⟩) main_call26_cst) (TRef.of (T := ⟨S50000, .f32⟩) main_call26_v1) (fun x v => Host.reduceAdd x v reducesTo_S50000x128_S50000_d1 h_S_),
    TRef.unary (TRef.of (T := ⟨S50000, .f32⟩) main_call26_v1) (TRef.of (T := ⟨S50000x1, .f32⟩) main_call26_v2) (broadcastInDim S50000x1 ![0] bcast_S50000_S50000x1_0),
    TRef.unary (TRef.of (T := ⟨S50000x1, .f32⟩) main_call26_v2) (TRef.of (T := ⟨S50000x1, .f32⟩) main_v242) Host.sqrt,
    nullary main_cst_32 (constant S_ .f32 0x2B8CBCCC#32),
    unary main_cst_32 main_v243 (broadcastInDim S50000x1 ![] bcast_S_S50000x1 : (⟨S_, .f32⟩ : BufTy).Contents (Elt F) → (⟨S50000x1, .f32⟩ : BufTy).Contents (Elt F)),
    binary main_v242 main_v243 main_v244 (maximumf : (⟨S50000x1, .f32⟩ : BufTy).Contents (Elt F) → (⟨S50000x1, .f32⟩ : BufTy).Contents (Elt F) → (⟨S50000x1, .f32⟩ : BufTy).Contents (Elt F)),
    unary main_v244 main_v245 (broadcastInDim S50000x128 ![0, 1] bcast_S50000x1_S50000x128_0_1 : (⟨S50000x1, .f32⟩ : BufTy).Contents (Elt F) → (⟨S50000x128, .f32⟩ : BufTy).Contents (Elt F)),
    binary main_v241 main_v245 main_v246 (Host.divf : (⟨S50000x128, .f32⟩ : BufTy).Contents (Elt F) → (⟨S50000x128, .f32⟩ : BufTy).Contents (Elt F) → (⟨S50000x128, .f32⟩ : BufTy).Contents (Elt F)),
    binary main_v246 main_arg10 main_v247 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v248 (broadcastInDim S250000x1 ![0] bcast_S250000_S250000x1_0 : (⟨S250000, .f32⟩ : BufTy).Contents (Elt F) → (⟨S250000x1, .f32⟩ : BufTy).Contents (Elt F)),
    nullary main_c_33 (constantI S_ 32 0#32),
    unary main_c_33 main_v249 (broadcastInDim S250000 ![] bcast_S_S250000 : (⟨S_, .i32⟩ : BufTy).Contents (Elt F) → (⟨S250000, .i32⟩ : BufTy).Contents (Elt F)),
    binary main_arg4 main_v249 main_v250 (cmpi .slt : (⟨S250000, .i32⟩ : BufTy).Contents (Elt F) → (⟨S250000, .i32⟩ : BufTy).Contents (Elt F) → (⟨S250000, .i1⟩ : BufTy).Contents (Elt F)),
    nullary main_c_34 (constantI S_ 32 50000#32),
    unary main_c_34 main_v251 (broadcastInDim S250000 ![] bcast_S_S250000 : (⟨S_, .i32⟩ : BufTy).Contents (Elt F) → (⟨S250000, .i32⟩ : BufTy).Contents (Elt F)),
    binary main_arg4 main_v251 main_v252 (addi : (⟨S250000, .i32⟩ : BufTy).Contents (Elt F) → (⟨S250000, .i32⟩ : BufTy).Contents (Elt F) → (⟨S250000, .i32⟩ : BufTy).Contents (Elt F)),
    ternary main_v250 main_v252 main_arg4 main_v253 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v253 main_v254 (broadcastInDim S250000x1 ![0] bcast_S250000_S250000x1_0 : (⟨S250000, .i32⟩ : BufTy).Contents (Elt F) → (⟨S250000x1, .i32⟩ : BufTy).Contents (Elt F)),
    binary main_v247 main_v254 main_v255 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v248 main_v256 (broadcastInDim S250000x128 ![0, 1] bcast_S250000x1_S250000x128_0_1 : (⟨S250000x1, .f32⟩ : BufTy).Contents (Elt F) → (⟨S250000x128, .f32⟩ : BufTy).Contents (Elt F)),
    binary main_v256 main_v255 main_v257 (mulf : (⟨S250000x128, .f32⟩ : BufTy).Contents (Elt F) → (⟨S250000x128, .f32⟩ : BufTy).Contents (Elt F) → (⟨S250000x128, .f32⟩ : BufTy).Contents (Elt F)),
    nullary main_cst_35 (constant S_ .f32 0x00000000#32),
    unary main_cst_35 main_v258 (broadcastInDim S50000x128 ![] bcast_S_S50000x128 : (⟨S_, .f32⟩ : BufTy).Contents (Elt F) → (⟨S50000x128, .f32⟩ : BufTy).Contents (Elt F)),
    unary main_arg3 main_v259 (broadcastInDim S250000x1 ![0] bcast_S250000_S250000x1_0 : (⟨S250000, .i32⟩ : BufTy).Contents (Elt F) → (⟨S250000x1, .i32⟩ : BufTy).Contents (Elt F)),
    ternary main_v258 main_v259 main_v257 main_v260 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S50000x128, .f32⟩) main_call27_v0) (broadcastInDim S50000x128 ![] bcast_S_S50000x128),
    TRef.binary (TRef.of (T := ⟨S50000x128, .f32⟩) main_v260) (TRef.of (T := ⟨S50000x128, .f32⟩) main_call27_v0) (TRef.of (T := ⟨S50000x128, .f32⟩) main_v261) maximumf,
    binary main_v186 main_arg11 main_v262 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v263 (broadcastInDim S1x256 ![1] bcast_S256_S1x256_1 : (⟨S256, .f32⟩ : BufTy).Contents (Elt F) → (⟨S1x256, .f32⟩ : BufTy).Contents (Elt F)),
    unary main_v263 main_v264 (broadcastInDim S50000x256 ![0, 1] bcast_S1x256_S50000x256_0_1 : (⟨S1x256, .f32⟩ : BufTy).Contents (Elt F) → (⟨S50000x256, .f32⟩ : BufTy).Contents (Elt F)),
    binary main_v262 main_v264 main_v265 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S50000x256, .f32⟩) main_call28_v0) (broadcastInDim S50000x256 ![] bcast_S_S50000x256),
    TRef.binary (TRef.of (T := ⟨S50000x256, .f32⟩) main_v265) (TRef.of (T := ⟨S50000x256, .f32⟩) main_call28_v0) (TRef.of (T := ⟨S50000x256, .f32⟩) main_v266) maximumf,
    binary main_v266 main_arg13 main_v267 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v268 (broadcastInDim S1x256 ![1] bcast_S256_S1x256_1 : (⟨S256, .f32⟩ : BufTy).Contents (Elt F) → (⟨S1x256, .f32⟩ : BufTy).Contents (Elt F)),
    unary main_v268 main_v269 (broadcastInDim S50000x256 ![0, 1] bcast_S1x256_S50000x256_0_1 : (⟨S1x256, .f32⟩ : BufTy).Contents (Elt F) → (⟨S50000x256, .f32⟩ : BufTy).Contents (Elt F)),
    binary main_v267 main_v269 main_v270 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S50000x256, .f32⟩) main_call29_v0) (broadcastInDim S50000x256 ![] bcast_S_S50000x256),
    TRef.binary (TRef.of (T := ⟨S50000x256, .f32⟩) main_v270) (TRef.of (T := ⟨S50000x256, .f32⟩) main_call29_v0) (TRef.of (T := ⟨S50000x256, .f32⟩) main_v271) maximumf,
    binary main_v271 main_arg15 main_v272 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v273 (broadcastInDim S1x1 ![1] bcast_S1_S1x1_1 : (⟨S1, .f32⟩ : BufTy).Contents (Elt F) → (⟨S1x1, .f32⟩ : BufTy).Contents (Elt F)),
    unary main_v273 main_v274 (broadcastInDim S50000x1 ![0, 1] bcast_S1x1_S50000x1_0_1 : (⟨S1x1, .f32⟩ : BufTy).Contents (Elt F) → (⟨S50000x1, .f32⟩ : BufTy).Contents (Elt F)),
    binary main_v272 main_v274 main_v275 (addf : (⟨S50000x1, .f32⟩ : BufTy).Contents (Elt F) → (⟨S50000x1, .f32⟩ : BufTy).Contents (Elt F) → (⟨S50000x1, .f32⟩ : BufTy).Contents (Elt F)),
    binary main_v206 main_arg11 main_v276 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v277 (broadcastInDim S1x256 ![1] bcast_S256_S1x256_1 : (⟨S256, .f32⟩ : BufTy).Contents (Elt F) → (⟨S1x256, .f32⟩ : BufTy).Contents (Elt F)),
    unary main_v277 main_v278 (broadcastInDim S50000x256 ![0, 1] bcast_S1x256_S50000x256_0_1 : (⟨S1x256, .f32⟩ : BufTy).Contents (Elt F) → (⟨S50000x256, .f32⟩ : BufTy).Contents (Elt F)),
    binary main_v276 main_v278 main_v279 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S50000x256, .f32⟩) main_call30_v0) (broadcastInDim S50000x256 ![] bcast_S_S50000x256),
    TRef.binary (TRef.of (T := ⟨S50000x256, .f32⟩) main_v279) (TRef.of (T := ⟨S50000x256, .f32⟩) main_call30_v0) (TRef.of (T := ⟨S50000x256, .f32⟩) main_v280) maximumf,
    binary main_v280 main_arg13 main_v281 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v282 (broadcastInDim S1x256 ![1] bcast_S256_S1x256_1 : (⟨S256, .f32⟩ : BufTy).Contents (Elt F) → (⟨S1x256, .f32⟩ : BufTy).Contents (Elt F)),
    unary main_v282 main_v283 (broadcastInDim S50000x256 ![0, 1] bcast_S1x256_S50000x256_0_1 : (⟨S1x256, .f32⟩ : BufTy).Contents (Elt F) → (⟨S50000x256, .f32⟩ : BufTy).Contents (Elt F)),
    binary main_v281 main_v283 main_v284 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call31_cst) (constant S_ .f32 0x00000000#32),
    TRef.unary (TRef.of (T := ⟨S_, .f32⟩) main_call31_cst) (TRef.of (T := ⟨S50000x256, .f32⟩) main_call31_v0) (broadcastInDim S50000x256 ![] bcast_S_S50000x256),
    TRef.binary (TRef.of (T := ⟨S50000x256, .f32⟩) main_v284) (TRef.of (T := ⟨S50000x256, .f32⟩) main_call31_v0) (TRef.of (T := ⟨S50000x256, .f32⟩) main_v285) maximumf,
    binary main_v285 main_arg15 main_v286 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v287 (broadcastInDim S1x1 ![1] bcast_S1_S1x1_1 : (⟨S1, .f32⟩ : BufTy).Contents (Elt F) → (⟨S1x1, .f32⟩ : BufTy).Contents (Elt F)),
    unary main_v287 main_v288 (broadcastInDim S50000x1 ![0, 1] bcast_S1x1_S50000x1_0_1 : (⟨S1x1, .f32⟩ : BufTy).Contents (Elt F) → (⟨S50000x1, .f32⟩ : BufTy).Contents (Elt F)),
    binary main_v286 main_v288 main_v289 (addf : (⟨S50000x1, .f32⟩ : BufTy).Contents (Elt F) → (⟨S50000x1, .f32⟩ : BufTy).Contents (Elt F) → (⟨S50000x1, .f32⟩ : BufTy).Contents (Elt F)),
    binary main_v275 main_v289 main_v290 (addf : (⟨S50000x1, .f32⟩ : BufTy).Contents (Elt F) → (⟨S50000x1, .f32⟩ : BufTy).Contents (Elt F) → (⟨S50000x1, .f32⟩ : BufTy).Contents (Elt F)),
    binary main_v226 main_arg11 main_v291 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v292 (broadcastInDim S1x256 ![1] bcast_S256_S1x256_1 : (⟨S256, .f32⟩ : BufTy).Contents (Elt F) → (⟨S1x256, .f32⟩ : BufTy).Contents (Elt F)),
    unary main_v292 main_v293 (broadcastInDim S50000x256 ![0, 1] bcast_S1x256_S50000x256_0_1 : (⟨S1x256, .f32⟩ : BufTy).Contents (Elt F) → (⟨S50000x256, .f32⟩ : BufTy).Contents (Elt F)),
    binary main_v291 main_v293 main_v294 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call32_cst) (constant S_ .f32 0x00000000#32),
    TRef.unary (TRef.of (T := ⟨S_, .f32⟩) main_call32_cst) (TRef.of (T := ⟨S50000x256, .f32⟩) main_call32_v0) (broadcastInDim S50000x256 ![] bcast_S_S50000x256),
    TRef.binary (TRef.of (T := ⟨S50000x256, .f32⟩) main_v294) (TRef.of (T := ⟨S50000x256, .f32⟩) main_call32_v0) (TRef.of (T := ⟨S50000x256, .f32⟩) main_v295) maximumf,
    binary main_v295 main_arg13 main_v296 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v297 (broadcastInDim S1x256 ![1] bcast_S256_S1x256_1 : (⟨S256, .f32⟩ : BufTy).Contents (Elt F) → (⟨S1x256, .f32⟩ : BufTy).Contents (Elt F)),
    unary main_v297 main_v298 (broadcastInDim S50000x256 ![0, 1] bcast_S1x256_S50000x256_0_1 : (⟨S1x256, .f32⟩ : BufTy).Contents (Elt F) → (⟨S50000x256, .f32⟩ : BufTy).Contents (Elt F)),
    binary main_v296 main_v298 main_v299 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call33_cst) (constant S_ .f32 0x00000000#32),
    TRef.unary (TRef.of (T := ⟨S_, .f32⟩) main_call33_cst) (TRef.of (T := ⟨S50000x256, .f32⟩) main_call33_v0) (broadcastInDim S50000x256 ![] bcast_S_S50000x256),
    TRef.binary (TRef.of (T := ⟨S50000x256, .f32⟩) main_v299) (TRef.of (T := ⟨S50000x256, .f32⟩) main_call33_v0) (TRef.of (T := ⟨S50000x256, .f32⟩) main_v300) maximumf,
    binary main_v300 main_arg15 main_v301 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v302 (broadcastInDim S1x1 ![1] bcast_S1_S1x1_1 : (⟨S1, .f32⟩ : BufTy).Contents (Elt F) → (⟨S1x1, .f32⟩ : BufTy).Contents (Elt F)),
    unary main_v302 main_v303 (broadcastInDim S50000x1 ![0, 1] bcast_S1x1_S50000x1_0_1 : (⟨S1x1, .f32⟩ : BufTy).Contents (Elt F) → (⟨S50000x1, .f32⟩ : BufTy).Contents (Elt F)),
    binary main_v301 main_v303 main_v304 (addf : (⟨S50000x1, .f32⟩ : BufTy).Contents (Elt F) → (⟨S50000x1, .f32⟩ : BufTy).Contents (Elt F) → (⟨S50000x1, .f32⟩ : BufTy).Contents (Elt F)),
    binary main_v290 main_v304 main_v305 (addf : (⟨S50000x1, .f32⟩ : BufTy).Contents (Elt F) → (⟨S50000x1, .f32⟩ : BufTy).Contents (Elt F) → (⟨S50000x1, .f32⟩ : BufTy).Contents (Elt F)),
    binary main_v246 main_arg11 main_v306 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v307 (broadcastInDim S1x256 ![1] bcast_S256_S1x256_1 : (⟨S256, .f32⟩ : BufTy).Contents (Elt F) → (⟨S1x256, .f32⟩ : BufTy).Contents (Elt F)),
    unary main_v307 main_v308 (broadcastInDim S50000x256 ![0, 1] bcast_S1x256_S50000x256_0_1 : (⟨S1x256, .f32⟩ : BufTy).Contents (Elt F) → (⟨S50000x256, .f32⟩ : BufTy).Contents (Elt F)),
    binary main_v306 main_v308 main_v309 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call34_cst) (constant S_ .f32 0x00000000#32),
    TRef.unary (TRef.of (T := ⟨S_, .f32⟩) main_call34_cst) (TRef.of (T := ⟨S50000x256, .f32⟩) main_call34_v0) (broadcastInDim S50000x256 ![] bcast_S_S50000x256),
    TRef.binary (TRef.of (T := ⟨S50000x256, .f32⟩) main_v309) (TRef.of (T := ⟨S50000x256, .f32⟩) main_call34_v0) (TRef.of (T := ⟨S50000x256, .f32⟩) main_v310) maximumf,
    binary main_v310 main_arg13 main_v311 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v312 (broadcastInDim S1x256 ![1] bcast_S256_S1x256_1 : (⟨S256, .f32⟩ : BufTy).Contents (Elt F) → (⟨S1x256, .f32⟩ : BufTy).Contents (Elt F)),
    unary main_v312 main_v313 (broadcastInDim S50000x256 ![0, 1] bcast_S1x256_S50000x256_0_1 : (⟨S1x256, .f32⟩ : BufTy).Contents (Elt F) → (⟨S50000x256, .f32⟩ : BufTy).Contents (Elt F)),
    binary main_v311 main_v313 main_v314 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call35_cst) (constant S_ .f32 0x00000000#32),
    TRef.unary (TRef.of (T := ⟨S_, .f32⟩) main_call35_cst) (TRef.of (T := ⟨S50000x256, .f32⟩) main_call35_v0) (broadcastInDim S50000x256 ![] bcast_S_S50000x256),
    TRef.binary (TRef.of (T := ⟨S50000x256, .f32⟩) main_v314) (TRef.of (T := ⟨S50000x256, .f32⟩) main_call35_v0) (TRef.of (T := ⟨S50000x256, .f32⟩) main_v315) maximumf,
    binary main_v315 main_arg15 main_v316 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v317 (broadcastInDim S1x1 ![1] bcast_S1_S1x1_1 : (⟨S1, .f32⟩ : BufTy).Contents (Elt F) → (⟨S1x1, .f32⟩ : BufTy).Contents (Elt F)),
    unary main_v317 main_v318 (broadcastInDim S50000x1 ![0, 1] bcast_S1x1_S50000x1_0_1 : (⟨S1x1, .f32⟩ : BufTy).Contents (Elt F) → (⟨S50000x1, .f32⟩ : BufTy).Contents (Elt F)),
    binary main_v316 main_v318 main_v319 (addf : (⟨S50000x1, .f32⟩ : BufTy).Contents (Elt F) → (⟨S50000x1, .f32⟩ : BufTy).Contents (Elt F) → (⟨S50000x1, .f32⟩ : BufTy).Contents (Elt F)),
    binary main_v305 main_v319 main_v320 (addf : (⟨S50000x1, .f32⟩ : BufTy).Contents (Elt F) → (⟨S50000x1, .f32⟩ : BufTy).Contents (Elt F) → (⟨S50000x1, .f32⟩ : BufTy).Contents (Elt F)),
    binary main_v261 main_arg11 main_v321 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v322 (broadcastInDim S1x256 ![1] bcast_S256_S1x256_1 : (⟨S256, .f32⟩ : BufTy).Contents (Elt F) → (⟨S1x256, .f32⟩ : BufTy).Contents (Elt F)),
    unary main_v322 main_v323 (broadcastInDim S50000x256 ![0, 1] bcast_S1x256_S50000x256_0_1 : (⟨S1x256, .f32⟩ : BufTy).Contents (Elt F) → (⟨S50000x256, .f32⟩ : BufTy).Contents (Elt F)),
    binary main_v321 main_v323 main_v324 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call36_cst) (constant S_ .f32 0x00000000#32),
    TRef.unary (TRef.of (T := ⟨S_, .f32⟩) main_call36_cst) (TRef.of (T := ⟨S50000x256, .f32⟩) main_call36_v0) (broadcastInDim S50000x256 ![] bcast_S_S50000x256),
    TRef.binary (TRef.of (T := ⟨S50000x256, .f32⟩) main_v324) (TRef.of (T := ⟨S50000x256, .f32⟩) main_call36_v0) (TRef.of (T := ⟨S50000x256, .f32⟩) main_v325) maximumf,
    binary main_v325 main_arg13 main_v326 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg14 main_v327 (broadcastInDim S1x256 ![1] bcast_S256_S1x256_1 : (⟨S256, .f32⟩ : BufTy).Contents (Elt F) → (⟨S1x256, .f32⟩ : BufTy).Contents (Elt F)),
    unary main_v327 main_v328 (broadcastInDim S50000x256 ![0, 1] bcast_S1x256_S50000x256_0_1 : (⟨S1x256, .f32⟩ : BufTy).Contents (Elt F) → (⟨S50000x256, .f32⟩ : BufTy).Contents (Elt F)),
    binary main_v326 main_v328 main_v329 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call37_cst) (constant S_ .f32 0x00000000#32),
    TRef.unary (TRef.of (T := ⟨S_, .f32⟩) main_call37_cst) (TRef.of (T := ⟨S50000x256, .f32⟩) main_call37_v0) (broadcastInDim S50000x256 ![] bcast_S_S50000x256),
    TRef.binary (TRef.of (T := ⟨S50000x256, .f32⟩) main_v329) (TRef.of (T := ⟨S50000x256, .f32⟩) main_call37_v0) (TRef.of (T := ⟨S50000x256, .f32⟩) main_v330) maximumf,
    binary main_v330 main_arg15 main_v331 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg16 main_v332 (broadcastInDim S1x1 ![1] bcast_S1_S1x1_1 : (⟨S1, .f32⟩ : BufTy).Contents (Elt F) → (⟨S1x1, .f32⟩ : BufTy).Contents (Elt F)),
    unary main_v332 main_v333 (broadcastInDim S50000x1 ![0, 1] bcast_S1x1_S50000x1_0_1 : (⟨S1x1, .f32⟩ : BufTy).Contents (Elt F) → (⟨S50000x1, .f32⟩ : BufTy).Contents (Elt F)),
    binary main_v331 main_v333 main_v334 (addf : (⟨S50000x1, .f32⟩ : BufTy).Contents (Elt F) → (⟨S50000x1, .f32⟩ : BufTy).Contents (Elt F) → (⟨S50000x1, .f32⟩ : BufTy).Contents (Elt F)),
    binary main_v320 main_v334 main_v335 (addf : (⟨S50000x1, .f32⟩ : BufTy).Contents (Elt F) → (⟨S50000x1, .f32⟩ : BufTy).Contents (Elt F) → (⟨S50000x1, .f32⟩ : BufTy).Contents (Elt F)),
    binary main_v167 main_v335 main_v336 (mulf : (⟨S50000x1, .f32⟩ : BufTy).Contents (Elt F) → (⟨S50000x1, .f32⟩ : BufTy).Contents (Elt F) → (⟨S50000x1, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub ..⟩

set_option maxRecDepth 16384 in
set_option maxHeartbeats 0 in
/-- The fold of the 467 operations, from any contents `W`, at the result buffer: the reference's result of `W`'s
    arguments. -/
theorem after_result (W : Valuation τ sig (Elt Ideal)) :
    StableHlo.after (ops (F := Ideal)) W (Proc.devRef .tc main_v336) = resultH (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  after_results_simp
  rfl

set_option maxRecDepth 16384 in
set_option maxHeartbeats 0 in
/-- On every device, from any memory with zero counters: every weakly fair execution of @main terminates with the result
    buffer at the reference's result of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v336) = resultH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v336).trans (after_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl)⟩)
    (run_seq scopedRefs_eq scopedSems_eq defs main (fun _ => ops) main_eq (fun _ => ops_sub) m ρ)

end Cert.RefRun

end
-- ==== Proof.lean ====
/-
  The certificate: a two-graph GCN scorer — per graph four layers (propagate, relu, normalise the rows, multiply by the
  next weight), a fifth propagation, and a perceptron head summed over the five activations; the result is the product
  of the two graphs' scores — as ten kernel regions among host operations, against the same computation on the host.

  The frames of the two printed kernels are the generated ones; the reference's frame is its run with the result
  dropped. The ideal pass named one constant, eight times: the layer kernels' clamp `f32(1e-24)`, read as the square of
  the reference's clamp `f32(1e-12)`; each ledger entry is that reading. At the extended reals both programs then end
  at ONE function of the arguments: the kernel's regions leave the reference's stages in their output arrays (the clamp
  law for the normalisation, the same sums for the products), the host operations between them are the reference's own.
-/
import proofs.«148168_j18485539242351_2_alg».proof.Defs
import proofs.«148168_j18485539242351_2_alg».proof.Proof.Gen.Kernel
import proofs.«148168_j18485539242351_2_alg».proof.Proof.Gen.Kernel.Skeleton
import proofs.«148168_j18485539242351_2_alg».proof.Proof.Gen.Kernel.Launch
import proofs.«148168_j18485539242351_2_alg».proof.Proof.Gen.Kernel.Points
import proofs.«148168_j18485539242351_2_alg».proof.Proof.Gen.Kernel.Frame
import proofs.«148168_j18485539242351_2_alg».proof.Proof.Gen.KernelIdeal
import proofs.«148168_j18485539242351_2_alg».proof.Proof.Gen.KernelIdeal.Skeleton
import proofs.«148168_j18485539242351_2_alg».proof.Proof.Gen.KernelIdeal.Launch
import proofs.«148168_j18485539242351_2_alg».proof.Proof.Gen.KernelIdeal.Points
import proofs.«148168_j18485539242351_2_alg».proof.Proof.Gen.KernelIdeal.Frame
import proofs.«148168_j18485539242351_2_alg».proof.Proof.Gen.ReferenceIdeal
import proofs.«148168_j18485539242351_2_alg».proof.Proof.Gen.Pre_finite_inputs
import proofs.«148168_j18485539242351_2_alg».proof.Proof.RunValue
import proofs.«148168_j18485539242351_2_alg».proof.Proof.KernelFold
import proofs.«148168_j18485539242351_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.RefRun.run m ρ)

/-- The ledger's eight entries, one per layer kernel: the table gives the clamp's name the square of the reference's
    clamp, and the printed constant is that value at the extended reals. -/
theorem preserves : Cert.preserves_Kernel_KernelIdeal :=
  ⟨IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl⟩

/-- Both idealized programs end with the result buffer at the reference's result of the arguments. -/
theorem algebraic : Cert.algebraic_KernelIdeal_ReferenceIdeal := by
  intro m ρ m' ρ' _ hagree
  refine ⟨fun c => Cert.Spec.resultH
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KFold.result m ρ c), (h c).2⟩) (Cert.KernelIdeal.RunValue.run_value m ρ)
  · refine (θ_run Cert.ReferenceIdeal.defs _ _).mono (fun _ h c => ⟨(h c).1.trans ?_, (h c).2⟩) (Cert.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
